-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v210) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x134x256x256 : Shape := ⟨4, ![4, 134, 256, 256]⟩
abbrev S4x101x256x256 : Shape := ⟨4, ![4, 101, 256, 256]⟩
abbrev S4x16x6 : Shape := ⟨3, ![4, 16, 6]⟩
abbrev S_ : Shape := ⟨0, ![]⟩
abbrev S4x1x256x256 : Shape := ⟨4, ![4, 1, 256, 256]⟩
abbrev S4x256x256 : Shape := ⟨3, ![4, 256, 256]⟩

class Facts : Prop where
  bcast_S_S4x134x256x256 : S_.BroadcastsInDim S4x134x256x256 (![] : Fin 0 → Fin S4x134x256x256.rank)
  reducesTo_S4x134x256x256_S_d0_1_2_3 : S4x134x256x256.ReducesTo [0, 1, 2, 3] S_
  h_S_ : 0 < S_.numel
  bcast_S_S4x101x256x256 : S_.BroadcastsInDim S4x101x256x256 (![] : Fin 0 → Fin S4x101x256x256.rank)
  reducesTo_S4x101x256x256_S_d0_1_2_3 : S4x101x256x256.ReducesTo [0, 1, 2, 3] S_
  bcast_S_S4x16x6 : S_.BroadcastsInDim S4x16x6 (![] : Fin 0 → Fin S4x16x6.rank)
  reducesTo_S4x16x6_S_d0_1_2 : S4x16x6.ReducesTo [0, 1, 2] S_
  slices_S4x101x256x256_S4x1x256x256_0_100_0_0 : S4x101x256x256.Slices ![0, 100, 0, 0] S4x1x256x256
  shapeCasts_S4x1x256x256_S4x256x256 : S4x1x256x256.ShapeCasts S4x256x256
  bcast_S_S4x256x256 : S_.BroadcastsInDim S4x256x256 (![] : Fin 0 → Fin S4x256x256.rank)
  reducesTo_S4x256x256_S_d0_1_2 : S4x256x256.ReducesTo [0, 1, 2] S_

variable [Facts]

def fn_part1 {F : FTy → Type} [FloatOps F] (main_arg1 : FVec F S4x101x256x256 .f32) (main_v13 : IVec S_ 1) (main_v16 : IVec S4x256x256 32) (main_c_4 : IVec S_ 32) : IVec S_ 1 :=
  let main_v17 : IVec S4x256x256 32 := broadcastInDim S4x256x256 ![] bcast_S_S4x256x256 main_c_4
  let main_v18 : IVec S4x256x256 1 := cmpi .sge main_v16 main_v17
  let main_v19 : FVec F S4x1x256x256 .f32 := (extractStridedSlice S4x1x256x256 ![0, 100, 0, 0] · slices_S4x101x256x256_S4x1x256x256_0_100_0_0) main_arg1
  let main_v20 : FVec F S4x256x256 .f32 := shapeCast S4x256x256 main_v19 shapeCasts_S4x1x256x256_S4x256x256
  let main_v21 : IVec S4x256x256 32 := fptosi 32 main_v20
  let main_c_5 : IVec S_ 32 := constantI S_ 32 18#32
  let main_v22 : IVec S4x256x256 32 := broadcastInDim S4x256x256 ![] bcast_S_S4x256x256 main_c_5
  let main_v23 : IVec S4x256x256 1 := cmpi .slt main_v21 main_v22
  let main_v24 : IVec S4x256x256 1 := andi main_v18 main_v23
  let main_c_6 : IVec S_ 1 := constantI S_ 1 1#1
  let main_v25 : IVec S_ 1 := (fun x v => Host.reduce IntOp.andi x v reducesTo_S4x256x256_S_d0_1_2 h_S_) main_v24 main_c_6
  let main_v26 : IVec S_ 1 := andi main_v13 main_v25
  main_v26

def fn {F : FTy → Type} [FloatOps F] (main_arg0 : FVec F S4x134x256x256 .f32) (main_arg1 : FVec F S4x101x256x256 .f32) (main_arg2 : FVec F S4x16x6 .f32) : IVec S_ 1 :=
  let main_v0 : FVec F S4x134x256x256 .f32 := Host.absf main_arg0
  let main_cst : FVec F S_ .f32 := constant S_ .f32 0x7F800000#32
  let main_v1 : FVec F S4x134x256x256 .f32 := broadcastInDim S4x134x256x256 ![] bcast_S_S4x134x256x256 main_cst
  let main_v2 : IVec S4x134x256x256 1 := cmpf .olt main_v0 main_v1
  let main_c : IVec S_ 1 := constantI S_ 1 1#1
  let main_v3 : IVec S_ 1 := (fun x v => Host.reduce IntOp.andi x v reducesTo_S4x134x256x256_S_d0_1_2_3 h_S_) main_v2 main_c
  let main_v4 : FVec F S4x101x256x256 .f32 := Host.absf main_arg1
  let main_cst_0 : FVec F S_ .f32 := constant S_ .f32 0x7F800000#32
  let main_v5 : FVec F S4x101x256x256 .f32 := broadcastInDim S4x101x256x256 ![] bcast_S_S4x101x256x256 main_cst_0
  let main_v6 : IVec S4x101x256x256 1 := cmpf .olt main_v4 main_v5
  let main_c_1 : IVec S_ 1 := constantI S_ 1 1#1
  let main_v7 : IVec S_ 1 := (fun x v => Host.reduce IntOp.andi x v reducesTo_S4x101x256x256_S_d0_1_2_3 h_S_) main_v6 main_c_1
  let main_v8 : IVec S_ 1 := andi main_v3 main_v7
  let main_v9 : FVec F S4x16x6 .f32 := Host.absf main_arg2
  let main_cst_2 : FVec F S_ .f32 := constant S_ .f32 0x7F800000#32
  let main_v10 : FVec F S4x16x6 .f32 := broadcastInDim S4x16x6 ![] bcast_S_S4x16x6 main_cst_2
  let main_v11 : IVec S4x16x6 1 := cmpf .olt main_v9 main_v10
  let main_c_3 : IVec S_ 1 := constantI S_ 1 1#1
  let main_v12 : IVec S_ 1 := (fun x v => Host.reduce IntOp.andi x v reducesTo_S4x16x6_S_d0_1_2 h_S_) main_v11 main_c_3
  let main_v13 : IVec S_ 1 := andi main_v8 main_v12
  let main_v14 : FVec F S4x1x256x256 .f32 := (extractStridedSlice S4x1x256x256 ![0, 100, 0, 0] · slices_S4x101x256x256_S4x1x256x256_0_100_0_0) main_arg1
  let main_v15 : FVec F S4x256x256 .f32 := shapeCast S4x256x256 main_v14 shapeCasts_S4x1x256x256_S4x256x256
  let main_v16 : IVec S4x256x256 32 := fptosi 32 main_v15
  let main_c_4 : IVec S_ 32 := constantI S_ 32 0#32
  fn_part1 (F := F) main_arg1 main_v13 main_v16 main_c_4
-- ==== Kernel.lean ====
abbrev S4x134x256x256 : Shape := ⟨4, ![4, 134, 256, 256]⟩
abbrev S4x101x256x256 : Shape := ⟨4, ![4, 101, 256, 256]⟩
abbrev S4x16x6 : Shape := ⟨3, ![4, 16, 6]⟩
abbrev S4x1x11 : Shape := ⟨3, ![4, 1, 11]⟩
abbrev S4x1x16 : Shape := ⟨3, ![4, 1, 16]⟩
abbrev S4x1x16x3 : Shape := ⟨4, ![4, 1, 16, 3]⟩
abbrev S1x134x32x256 : Shape := ⟨4, ![1, 134, 32, 256]⟩
abbrev S1x101x32x256 : Shape := ⟨4, ![1, 101, 32, 256]⟩
abbrev S1x1x11 : Shape := ⟨3, ![1, 1, 11]⟩
abbrev S1x1x16 : Shape := ⟨3, ![1, 1, 16]⟩
abbrev S1x1x16x3 : Shape := ⟨4, ![1, 1, 16, 3]⟩
abbrev S1x3x32x256 : Shape := ⟨4, ![1, 3, 32, 256]⟩
abbrev S1x1x32x256 : Shape := ⟨4, ![1, 1, 32, 256]⟩
abbrev S1x32x256 : Shape := ⟨3, ![1, 32, 256]⟩
abbrev S1x48x32x256 : Shape := ⟨4, ![1, 48, 32, 256]⟩
abbrev S1x18x32x256 : Shape := ⟨4, ![1, 18, 32, 256]⟩
abbrev S1x16x32x256 : Shape := ⟨4, ![1, 16, 32, 256]⟩
abbrev S1 : Shape := ⟨1, ![1]⟩
abbrev S1x16 : Shape := ⟨2, ![1, 16]⟩
abbrev S1x16x3x32x256 : Shape := ⟨5, ![1, 16, 3, 32, 256]⟩
abbrev S1x1x1x32x256 : Shape := ⟨5, ![1, 1, 1, 32, 256]⟩
abbrev S1x16x1x32x256 : Shape := ⟨5, ![1, 16, 1, 32, 256]⟩
abbrev S1x16x3 : Shape := ⟨3, ![1, 16, 3]⟩
abbrev S1x1 : Shape := ⟨2, ![1, 1]⟩
abbrev S1x11 : Shape := ⟨2, ![1, 11]⟩
abbrev S4x11 : Shape := ⟨2, ![4, 11]⟩
abbrev S4x16 : Shape := ⟨2, ![4, 16]⟩
abbrev S4x16x3 : Shape := ⟨3, ![4, 16, 3]⟩
abbrev S4x1 : Shape := ⟨2, ![4, 1]⟩
abbrev S4 : Shape := ⟨1, ![4]⟩
abbrev S_ : Shape := ⟨0, ![]⟩
abbrev S4x16x1 : Shape := ⟨3, ![4, 16, 1]⟩
abbrev S7 : Shape := ⟨1, ![7]⟩

abbrev nBuf : Space → Nat
  | .hbm => 140
  | .vmem => 12
  | .smem => 0
  | _ => 0

abbrev hbmTy0_0 (i : Nat) : BufTy := match i % 128 with
  | 0 => ⟨S4x134x256x256, .f32⟩
  | 1 => ⟨S4x101x256x256, .f32⟩
  | 2 => ⟨S4x16x6, .f32⟩
  | 3 => ⟨S4x1x11, .f32⟩
  | 4 => ⟨S4x1x16, .f32⟩
  | 5 => ⟨S4x1x16x3, .f32⟩
  | 6 => ⟨S4x1x16x3, .f32⟩
  | 7 => ⟨S4x11, .f32⟩
  | 8 => ⟨S4x16, .f32⟩
  | 9 => ⟨S4x16x3, .f32⟩
  | 10 => ⟨S4x16x3, .f32⟩
  | 11 => ⟨S4x1, .f32⟩
  | 12 => ⟨S4, .f32⟩
  | 13 => ⟨S4x1, .f32⟩
  | 14 => ⟨S4, .f32⟩
  | 15 => ⟨S4x1, .f32⟩
  | 16 => ⟨S4, .f32⟩
  | 17 => ⟨S4x1, .f32⟩
  | 18 => ⟨S4, .f32⟩
  | 19 => ⟨S4x1, .f32⟩
  | 20 => ⟨S4, .f32⟩
  | 21 => ⟨S4x1, .f32⟩
  | 22 => ⟨S4, .f32⟩
  | 23 => ⟨S4x1, .f32⟩
  | 24 => ⟨S4, .f32⟩
  | 25 => ⟨S4x1, .f32⟩
  | 26 => ⟨S4, .f32⟩
  | 27 => ⟨S4x1, .f32⟩
  | 28 => ⟨S4, .f32⟩
  | 29 => ⟨S4x1, .f32⟩
  | 30 => ⟨S4, .f32⟩
  | 31 => ⟨S4x1, .f32⟩
  | 32 => ⟨S4, .f32⟩
  | 33 => ⟨S_, .f32⟩
  | 34 => ⟨S_, .f32⟩
  | 35 => ⟨S_, .f32⟩
  | 36 => ⟨S_, .f32⟩
  | 37 => ⟨S_, .f32⟩
  | 38 => ⟨S4, .f32⟩
  | 39 => ⟨S4, .i1⟩
  | 40 => ⟨S_, .f32⟩
  | 41 => ⟨S4, .f32⟩
  | 42 => ⟨S4, .f32⟩
  | 43 => ⟨S4, .f32⟩
  | 44 => ⟨S_, .f32⟩
  | 45 => ⟨S4, .f32⟩
  | 46 => ⟨S4, .f32⟩
  | 47 => ⟨S4, .f32⟩
  | 48 => ⟨S_, .f32⟩
  | 49 => ⟨S_, .f32⟩
  | 50 => ⟨S_, .f32⟩
  | 51 => ⟨S_, .f32⟩
  | 52 => ⟨S_, .f32⟩
  | 53 => ⟨S4, .f32⟩
  | 54 => ⟨S4, .i1⟩
  | 55 => ⟨S_, .f32⟩
  | 56 => ⟨S4, .f32⟩
  | 57 => ⟨S4, .f32⟩
  | 58 => ⟨S4, .f32⟩
  | 59 => ⟨S_, .f32⟩
  | 60 => ⟨S4, .f32⟩
  | 61 => ⟨S4, .f32⟩
  | 62 => ⟨S4, .f32⟩
  | 63 => ⟨S_, .f32⟩
  | 64 => ⟨S_, .f32⟩
  | 65 => ⟨S_, .f32⟩
  | 66 => ⟨S_, .f32⟩
  | 67 => ⟨S_, .f32⟩
  | 68 => ⟨S4, .f32⟩
  | 69 => ⟨S4, .i1⟩
  | 70 => ⟨S_, .f32⟩
  | 71 => ⟨S4, .f32⟩
  | 72 => ⟨S4, .f32⟩
  | 73 => ⟨S4, .f32⟩
  | 74 => ⟨S_, .f32⟩
  | 75 => ⟨S4, .f32⟩
  | 76 => ⟨S4, .f32⟩
  | 77 => ⟨S4, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S4x16, .f32⟩
  | 89 => ⟨S4x16, .f32⟩
  | 90 => ⟨S4x16x1, .f32⟩
  | 91 => ⟨S4x16x3, .f32⟩
  | 92 => ⟨S4x16x3, .f32⟩
  | 93 => ⟨S4x16x1, .f32⟩
  | 94 => ⟨S4x16x3, .f32⟩
  | 95 => ⟨S4x16x3, .f32⟩
  | 96 => ⟨S4x16x3, .f32⟩
  | 97 => ⟨S4x16x3, .f32⟩
  | 98 => ⟨S4x16x3, .f32⟩
  | 99 => ⟨S_, .f32⟩
  | 100 => ⟨S4x16x3, .f32⟩
  | 101 => ⟨S4x16x3, .f32⟩
  | 102 => ⟨S_, .f32⟩
  | 103 => ⟨S4x16x3, .f32⟩
  | 104 => ⟨S4x16x3, .f32⟩
  | 105 => ⟨S4x16x3, .f32⟩
  | 106 => ⟨S4x16x3, .f32⟩
  | 107 => ⟨S4x16x3, .f32⟩
  | 108 => ⟨S_, .f32⟩
  | 109 => ⟨S4x16x3, .f32⟩
  | 110 => ⟨S4x16x3, .f32⟩
  | 111 => ⟨S_, .f32⟩
  | 112 => ⟨S4x16x3, .f32⟩
  | 113 => ⟨S4x16x3, .f32⟩
  | 114 => ⟨S4x16x3, .f32⟩
  | 115 => ⟨S4x16x3, .f32⟩
  | 116 => ⟨S_, .f32⟩
  | 117 => ⟨S4x16, .f32⟩
  | 118 => ⟨S4x16, .f32⟩
  | 119 => ⟨S_, .f32⟩
  | 120 => ⟨S_, .f32⟩
  | 121 => ⟨S_, .f32⟩
  | 122 => ⟨S_, .f32⟩
  | 123 => ⟨S4x16x3, .f32⟩
  | 124 => ⟨S4x16x3, .f32⟩
  | 125 => ⟨S_, .f32⟩
  | 126 => ⟨S4x16, .f32⟩
  | 127 => ⟨S4x16, .f32⟩
  | _ => ⟨S4x134x256x256, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S1, .f32⟩
  | 5 => ⟨S1, .f32⟩
  | 6 => ⟨S1, .f32⟩
  | 7 => ⟨S1, .f32⟩
  | 8 => ⟨S1, .f32⟩
  | 9 => ⟨S1, .f32⟩
  | 10 => ⟨S1, .f32⟩
  | 11 => ⟨S7, .f32⟩
  | _ => ⟨S4x134x256x256, .f32⟩

abbrev hbmTy (i : Nat) : BufTy := match i / 128 with
  | 0 => hbmTy0_0 i
  | 1 => hbmTy0_1 i
  | _ => ⟨S4x134x256x256, .f32⟩

abbrev bufTy : (tb : Table) → Fin (tcTables nBuf tb) → BufTy
  | .hbm, ⟨i, _⟩ => hbmTy i
  | .local _ .vmem, ⟨0, _⟩ => ⟨S1x134x32x256, .f32⟩
  | .local _ .vmem, ⟨1, _⟩ => ⟨S1x134x32x256, .f32⟩
  | .local _ .vmem, ⟨2, _⟩ => ⟨S1x101x32x256, .f32⟩
  | .local _ .vmem, ⟨3, _⟩ => ⟨S1x101x32x256, .f32⟩
  | .local _ .vmem, ⟨4, _⟩ => ⟨S1x1x11, .f32⟩
  | .local _ .vmem, ⟨5, _⟩ => ⟨S1x1x11, .f32⟩
  | .local _ .vmem, ⟨6, _⟩ => ⟨S1x1x16, .f32⟩
  | .local _ .vmem, ⟨7, _⟩ => ⟨S1x1x16, .f32⟩
  | .local _ .vmem, ⟨8, _⟩ => ⟨S1x1x16x3, .f32⟩
  | .local _ .vmem, ⟨9, _⟩ => ⟨S1x1x16x3, .f32⟩
  | .local _ .vmem, ⟨10, _⟩ => ⟨S1x1x16x3, .f32⟩
  | .local _ .vmem, ⟨11, _⟩ => ⟨S1x1x16x3, .f32⟩
  | _, _ => ⟨S4x134x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst : Ref sig .tc := ⟨.hbm, 33, rfl⟩
abbrev main_v27 : Ref sig .tc := ⟨.hbm, 34, rfl⟩
abbrev main_cst_0 : Ref sig .tc := ⟨.hbm, 35, rfl⟩
abbrev main_v28 : Ref sig .tc := ⟨.hbm, 36, rfl⟩
abbrev main_cst_1 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_cst_12 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_13 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_14 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_cst_16 : Ref sig .tc := ⟨.hbm, 82, rfl⟩
abbrev main_v59 : Ref sig .tc := ⟨.hbm, 83, rfl⟩
abbrev main_v60 : Ref sig .tc := ⟨.hbm, 84, rfl⟩
abbrev main_cst_17 : Ref sig .tc := ⟨.hbm, 85, rfl⟩
abbrev main_v61 : Ref sig .tc := ⟨.hbm, 86, rfl⟩
abbrev main_cst_18 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_19 : Ref sig .tc := ⟨.hbm, 99, rfl⟩
abbrev main_v73 : Ref sig .tc := ⟨.hbm, 100, rfl⟩
abbrev main_v74 : Ref sig .tc := ⟨.hbm, 101, rfl⟩
abbrev main_cst_20 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_21 : Ref sig .tc := ⟨.hbm, 108, rfl⟩
abbrev main_v80 : Ref sig .tc := ⟨.hbm, 109, rfl⟩
abbrev main_v81 : Ref sig .tc := ⟨.hbm, 110, rfl⟩
abbrev main_cst_22 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_call3_v0 : Ref sig .tc := ⟨.hbm, 115, rfl⟩
abbrev main_call3_cst : Ref sig .tc := ⟨.hbm, 116, rfl⟩
abbrev main_call3_v1 : Ref sig .tc := ⟨.hbm, 117, rfl⟩
abbrev main_v85 : Ref sig .tc := ⟨.hbm, 118, rfl⟩
abbrev main_cst_23 : Ref sig .tc := ⟨.hbm, 119, rfl⟩
abbrev main_v86 : Ref sig .tc := ⟨.hbm, 120, rfl⟩
abbrev main_cst_24 : Ref sig .tc := ⟨.hbm, 121, rfl⟩
abbrev main_v87 : Ref sig .tc := ⟨.hbm, 122, rfl⟩
abbrev main_v88 : Ref sig .tc := ⟨.hbm, 123, rfl⟩
abbrev main_call4_v0 : Ref sig .tc := ⟨.hbm, 124, rfl⟩
abbrev main_call4_cst : Ref sig .tc := ⟨.hbm, 125, rfl⟩
abbrev main_call4_v1 : Ref sig .tc := ⟨.hbm, 126, rfl⟩
abbrev main_v89 : Ref sig .tc := ⟨.hbm, 127, rfl⟩
abbrev main_cst_25 : Ref sig .tc := ⟨.hbm, 128, rfl⟩
abbrev main_v90 : Ref sig .tc := ⟨.hbm, 129, rfl⟩
abbrev main_cst_26 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x134x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x101x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x11 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x16x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x16x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S1x1x11_S1x1x11_0_0_0 : ∀ a, (![0, 0, 0] : Fin 3 → Nat) a + S1x1x11.size a ≤ S1x1x11.size a
  h_S1x1x11 : 0 < S1x1x11.numel
  inb_S1x1x16_S1x1x16_0_0_0 : ∀ a, (![0, 0, 0] : Fin 3 → Nat) a + S1x1x16.size a ≤ S1x1x16.size a
  h_S1x1x16 : 0 < S1x1x16.numel
  inb_S1x1x16x3_S1x1x16x3_0_0_0_0 : ∀ a, (![0, 0, 0, 0] : Fin 4 → Nat) a + S1x1x16x3.size a ≤ S1x1x16x3.size a
  h_S1x1x16x3 : 0 < S1x1x16x3.numel
  inb_S1x134x32x256_S1x134x32x256_0_0_0_0 : ∀ a, (![0, 0, 0, 0] : Fin 4 → Nat) a + S1x134x32x256.size a ≤ S1x134x32x256.size a
  h_S1x134x32x256 : 0 < S1x134x32x256.numel
  inb_S1x101x32x256_S1x101x32x256_0_0_0_0 : ∀ a, (![0, 0, 0, 0] : Fin 4 → Nat) a + S1x101x32x256.size a ≤ S1x101x32x256.size a
  h_S1x101x32x256 : 0 < S1x101x32x256.numel
  slices_S1x134x32x256_o0_0_0_0_S1x3x32x256 : S1x134x32x256.Slices ![0, 0, 0, 0] S1x3x32x256
  slices_S1x134x32x256_o0_3_0_0_S1x1x32x256 : S1x134x32x256.Slices ![0, 3, 0, 0] S1x1x32x256
  shapeCasts_S1x1x32x256_S1x32x256 : S1x1x32x256.ShapeCasts S1x32x256
  slices_S1x134x32x256_o0_4_0_0_S1x48x32x256 : S1x134x32x256.Slices ![0, 4, 0, 0] S1x48x32x256
  slices_S1x134x32x256_o0_52_0_0_S1x48x32x256 : S1x134x32x256.Slices ![0, 52, 0, 0] S1x48x32x256
  slices_S1x134x32x256_o0_100_0_0_S1x18x32x256 : S1x134x32x256.Slices ![0, 100, 0, 0] S1x18x32x256
  slices_S1x134x32x256_o0_118_0_0_S1x16x32x256 : S1x134x32x256.Slices ![0, 118, 0, 0] S1x16x32x256
  slices_S1x101x32x256_o0_0_0_0_S1x3x32x256 : S1x101x32x256.Slices ![0, 0, 0, 0] S1x3x32x256
  slices_S1x101x32x256_o0_3_0_0_S1x1x32x256 : S1x101x32x256.Slices ![0, 3, 0, 0] S1x1x32x256
  slices_S1x101x32x256_o0_4_0_0_S1x48x32x256 : S1x101x32x256.Slices ![0, 4, 0, 0] S1x48x32x256
  slices_S1x101x32x256_o0_52_0_0_S1x48x32x256 : S1x101x32x256.Slices ![0, 52, 0, 0] S1x48x32x256
  slices_S1x101x32x256_o0_100_0_0_S1x1x32x256 : S1x101x32x256.Slices ![0, 100, 0, 0] S1x1x32x256
  reduces_S1x32x256_S1 : S1x32x256.Reduces [1, 2] S1
  reduces_S1x3x32x256_S1x32x256 : S1x3x32x256.Reduces [1] S1x32x256
  natLt_1_32 : 1 < 32
  reduces_S1x48x32x256_S1x32x256 : S1x48x32x256.Reduces [1] S1x32x256
  reduces_S1x18x32x256_S1x32x256 : S1x18x32x256.Reduces [1] S1x32x256
  shapeCasts_S1x32x256_S1x1x32x256 : S1x32x256.ShapeCasts S1x1x32x256
  broadcasts_S1x1x32x256_S1x18x32x256 : S1x1x32x256.Broadcasts S1x18x32x256
  iota_S1x18x32x256_d1_w32 : S1x18x32x256.Iotas .tc 32 [1]
  broadcasts_S1x1x32x256_S1x16x32x256 : S1x1x32x256.Broadcasts S1x16x32x256
  reduces_S1x16x32x256_S1x16 : S1x16x32x256.Reduces [2, 3] S1x16
  shapeCasts_S1x48x32x256_S1x16x3x32x256 : S1x48x32x256.ShapeCasts S1x16x3x32x256
  shapeCasts_S1x32x256_S1x1x1x32x256 : S1x32x256.ShapeCasts S1x1x1x32x256
  broadcasts_S1x1x1x32x256_S1x16x3x32x256 : S1x1x1x32x256.Broadcasts S1x16x3x32x256
  shapeCasts_S1x16x32x256_S1x16x1x32x256 : S1x16x32x256.ShapeCasts S1x16x1x32x256
  broadcasts_S1x16x1x32x256_S1x16x3x32x256 : S1x16x1x32x256.Broadcasts S1x16x3x32x256
  reduces_S1x16x3x32x256_S1x16x3 : S1x16x3x32x256.Reduces [3, 4] S1x16x3
  shapeCasts_S1_S1x1 : S1.ShapeCasts S1x1
  concatenates_S1x1_S1x1_S1x1_S1x1_S1x1_S1x1_S1x1_S1x1_S1x1_S1x1_S1x1_S1x11_d1 : Shape.Concatenates [S1x1, S1x1, S1x1, S1x1, S1x1, S1x1, S1x1, S1x1, S1x1, S1x1, S1x1] S1x11 1
  shapeCasts_S1x1x11_S1x1x11 : S1x1x11.ShapeCasts S1x1x11
  shapeCasts_S1x11_S1x1x11 : S1x11.ShapeCasts S1x1x11
  shapeCasts_S1x1x16_S1x1x16 : S1x1x16.ShapeCasts S1x1x16
  shapeCasts_S1x16_S1x1x16 : S1x16.ShapeCasts S1x1x16
  shapeCasts_S1x1x16x3_S1x1x16x3 : S1x1x16x3.ShapeCasts S1x1x16x3
  shapeCasts_S1x16x3_S1x1x16x3 : S1x16x3.ShapeCasts S1x1x16x3
  shapeCasts_S4x1x11_S4x11 : S4x1x11.ShapeCasts S4x11
  shapeCasts_S4x1x16_S4x16 : S4x1x16.ShapeCasts S4x16
  shapeCasts_S4x1x16x3_S4x16x3 : S4x1x16x3.ShapeCasts S4x16x3
  slices_S4x11_S4x1_0_0 : S4x11.Slices ![0, 0] S4x1
  shapeCasts_S4x1_S4 : S4x1.ShapeCasts S4
  slices_S4x11_S4x1_0_1 : S4x11.Slices ![0, 1] S4x1
  slices_S4x11_S4x1_0_2 : S4x11.Slices ![0, 2] S4x1
  slices_S4x11_S4x1_0_3 : S4x11.Slices ![0, 3] S4x1
  slices_S4x11_S4x1_0_4 : S4x11.Slices ![0, 4] S4x1
  slices_S4x11_S4x1_0_5 : S4x11.Slices ![0, 5] S4x1
  slices_S4x11_S4x1_0_6 : S4x11.Slices ![0, 6] S4x1
  slices_S4x11_S4x1_0_7 : S4x11.Slices ![0, 7] S4x1
  slices_S4x11_S4x1_0_8 : S4x11.Slices ![0, 8] S4x1
  slices_S4x11_S4x1_0_9 : S4x11.Slices ![0, 9] S4x1
  slices_S4x11_S4x1_0_10 : S4x11.Slices ![0, 10] S4x1
  reducesTo_S4_S_d0 : S4.ReducesTo [0] S_
  h_S_ : 0 < S_.numel
  bcast_S_S4 : S_.BroadcastsInDim S4 (![] : Fin 0 → Fin S4.rank)
  bcast_S_S4x16 : S_.BroadcastsInDim S4x16 (![] : Fin 0 → Fin S4x16.rank)
  bcast_S4x16_S4x16x1_0_1 : S4x16.BroadcastsInDim S4x16x1 (![0, 1] : Fin 2 → Fin S4x16x1.rank)
  bcast_S4x16x1_S4x16x3_0_1_2 : S4x16x1.BroadcastsInDim S4x16x3 (![0, 1, 2] : Fin 3 → Fin S4x16x3.rank)
  slices_S4x16x6_S4x16x3_0_0_0 : S4x16x6.Slices ![0, 0, 0] S4x16x3
  bcast_S_S4x16x3 : S_.BroadcastsInDim S4x16x3 (![] : Fin 0 → Fin S4x16x3.rank)
  slices_S4x16x6_S4x16x3_0_0_3 : S4x16x6.Slices ![0, 0, 3] S4x16x3
  reducesTo_S4x16x3_S4x16_d2 : S4x16x3.ReducesTo [2] S4x16
  reducesTo_S4x16_S_d0_1 : S4x16.ReducesTo [0, 1] S_
  bcast_S_S1 : S_.BroadcastsInDim S1 (![] : Fin 0 → Fin S1.rank)
  concatenates_S1_S1_S1_S1_S1_S1_S1_S7_d0 : Shape.Concatenates [S1, S1, S1, S1, S1, S1, S1] S7 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x134x32x256.size a ≤ S4x134x256x256.size a
  hwx0_0 : ∀ i : grid0.Coords, EltTy.bits .f32 = 32 ∨ (Rect.block (s := S4x134x256x256) S1x134x32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x101x32x256.size a ≤ S4x101x256x256.size a
  hwx0_1 : ∀ i : grid0.Coords, EltTy.bits .f32 = 32 ∨ (Rect.block (s := S4x101x256x256) S1x101x32x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x11.size a ≤ S4x1x11.size a
  hwx0_2 : ∀ i : grid0.Coords, EltTy.bits .f32 = 32 ∨ (Rect.block (s := S4x1x11) S1x1x11.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x16.size a ≤ S4x1x16.size a
  hwx0_3 : ∀ i : grid0.Coords, EltTy.bits .f32 = 32 ∨ (Rect.block (s := S4x1x16) S1x1x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x16x3.size a ≤ S4x1x16x3.size a
  hwx0_4 : ∀ i : grid0.Coords, EltTy.bits .f32 = 32 ∨ (Rect.block (s := S4x1x16x3) S1x1x16x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x16x3.size a ≤ S4x1x16x3.size a
  hwx0_5 : ∀ i : grid0.Coords, EltTy.bits .f32 = 32 ∨ (Rect.block (s := S4x1x16x3) S1x1x16x3.size (cc0_transform_5 i) (hinb0_5 i)).WholeWords (EltTy.packing .f32)

variable [Facts₀]

abbrev win0_0 : Pipeline.Window sig grid0 :=
  Pipeline.Window.ofSpec (Memref.whole main_arg0) S1x134x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x101x32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x11.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x16.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1x16x3.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S1x1x16x3.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x134x256x256 : Shape := ⟨4, ![4, 134, 256, 256]⟩
abbrev S4x101x256x256 : Shape := ⟨4, ![4, 101, 256, 256]⟩
abbrev S4x16x6 : Shape := ⟨3, ![4, 16, 6]⟩
abbrev S4x3x256x256 : Shape := ⟨4, ![4, 3, 256, 256]⟩
abbrev S4x1x256x256 : Shape := ⟨4, ![4, 1, 256, 256]⟩
abbrev S4x256x256 : Shape := ⟨3, ![4, 256, 256]⟩
abbrev S4x48x256x256 : Shape := ⟨4, ![4, 48, 256, 256]⟩
abbrev S_ : Shape := ⟨0, ![]⟩
abbrev S4x18x256x256 : Shape := ⟨4, ![4, 18, 256, 256]⟩
abbrev S4x16x256x256 : Shape := ⟨4, ![4, 16, 256, 256]⟩
abbrev S4x16x3 : Shape := ⟨3, ![4, 16, 3]⟩
abbrev S4x65536 : Shape := ⟨2, ![4, 65536]⟩
abbrev S4 : Shape := ⟨1, ![4]⟩
abbrev S4x256x256x18 : Shape := ⟨4, ![4, 256, 256, 18]⟩
abbrev S262144x18 : Shape := ⟨2, ![262144, 18]⟩
abbrev S262144 : Shape := ⟨1, ![262144]⟩
abbrev S262144x1 : Shape := ⟨2, ![262144, 1]⟩
abbrev S262144x1x1 : Shape := ⟨3, ![262144, 1, 1]⟩
abbrev S1 : Shape := ⟨1, ![1]⟩
abbrev S1x1x1 : Shape := ⟨3, ![1, 1, 1]⟩
abbrev S4x16x3x256x256 : Shape := ⟨5, ![4, 16, 3, 256, 256]⟩
abbrev S4x1x1x256x256 : Shape := ⟨5, ![4, 1, 1, 256, 256]⟩
abbrev S4x16x65536 : Shape := ⟨3, ![4, 16, 65536]⟩
abbrev S4x16 : Shape := ⟨2, ![4, 16]⟩
abbrev S4x16x1x1 : Shape := ⟨4, ![4, 16, 1, 1]⟩
abbrev S4x16x1x256x256 : Shape := ⟨5, ![4, 16, 1, 256, 256]⟩
abbrev S4x16x3x65536 : Shape := ⟨4, ![4, 16, 3, 65536]⟩
abbrev S7 : Shape := ⟨1, ![7]⟩

abbrev nBuf : Space → Nat
  | .hbm => 364
  | .vmem => 0
  | .smem => 0
  | _ => 0

abbrev hbmTy0_0 (i : Nat) : BufTy := match i % 128 with
  | 0 => ⟨S4x134x256x256, .f32⟩
  | 1 => ⟨S4x101x256x256, .f32⟩
  | 2 => ⟨S4x16x6, .f32⟩
  | 3 => ⟨S4x3x256x256, .f32⟩
  | 4 => ⟨S4x1x256x256, .f32⟩
  | 5 => ⟨S4x256x256, .f32⟩
  | 6 => ⟨S4x48x256x256, .f32⟩
  | 7 => ⟨S4x48x256x256, .f32⟩
  | 8 => ⟨S4x48x256x256, .f32⟩
  | 9 => ⟨S_, .f32⟩
  | 10 => ⟨S4x48x256x256, .f32⟩
  | 11 => ⟨S4x48x256x256, .f32⟩
  | 12 => ⟨S_, .f32⟩
  | 13 => ⟨S4x48x256x256, .f32⟩
  | 14 => ⟨S4x48x256x256, .f32⟩
  | 15 => ⟨S4x48x256x256, .f32⟩
  | 16 => ⟨S4x48x256x256, .f32⟩
  | 17 => ⟨S4x48x256x256, .f32⟩
  | 18 => ⟨S_, .f32⟩
  | 19 => ⟨S4x48x256x256, .f32⟩
  | 20 => ⟨S4x48x256x256, .f32⟩
  | 21 => ⟨S_, .f32⟩
  | 22 => ⟨S4x48x256x256, .f32⟩
  | 23 => ⟨S4x48x256x256, .f32⟩
  | 24 => ⟨S4x18x256x256, .f32⟩
  | 25 => ⟨S4x16x256x256, .f32⟩
  | 26 => ⟨S4x3x256x256, .f32⟩
  | 27 => ⟨S4x1x256x256, .f32⟩
  | 28 => ⟨S4x256x256, .f32⟩
  | 29 => ⟨S4x48x256x256, .f32⟩
  | 30 => ⟨S4x48x256x256, .f32⟩
  | 31 => ⟨S4x48x256x256, .f32⟩
  | 32 => ⟨S_, .f32⟩
  | 33 => ⟨S4x48x256x256, .f32⟩
  | 34 => ⟨S4x48x256x256, .f32⟩
  | 35 => ⟨S_, .f32⟩
  | 36 => ⟨S4x48x256x256, .f32⟩
  | 37 => ⟨S4x48x256x256, .f32⟩
  | 38 => ⟨S4x48x256x256, .f32⟩
  | 39 => ⟨S4x48x256x256, .f32⟩
  | 40 => ⟨S4x48x256x256, .f32⟩
  | 41 => ⟨S_, .f32⟩
  | 42 => ⟨S4x48x256x256, .f32⟩
  | 43 => ⟨S4x48x256x256, .f32⟩
  | 44 => ⟨S_, .f32⟩
  | 45 => ⟨S4x48x256x256, .f32⟩
  | 46 => ⟨S4x48x256x256, .f32⟩
  | 47 => ⟨S4x1x256x256, .f32⟩
  | 48 => ⟨S4x256x256, .f32⟩
  | 49 => ⟨S4x256x256, .i32⟩
  | 50 => ⟨S4x16x3, .f32⟩
  | 51 => ⟨S4x16x3, .f32⟩
  | 52 => ⟨S4x16x3, .f32⟩
  | 53 => ⟨S_, .f32⟩
  | 54 => ⟨S4x16x3, .f32⟩
  | 55 => ⟨S4x16x3, .f32⟩
  | 56 => ⟨S_, .f32⟩
  | 57 => ⟨S4x16x3, .f32⟩
  | 58 => ⟨S4x16x3, .f32⟩
  | 59 => ⟨S4x16x3, .f32⟩
  | 60 => ⟨S4x16x3, .f32⟩
  | 61 => ⟨S4x16x3, .f32⟩
  | 62 => ⟨S_, .f32⟩
  | 63 => ⟨S4x16x3, .f32⟩
  | 64 => ⟨S4x16x3, .f32⟩
  | 65 => ⟨S_, .f32⟩
  | 66 => ⟨S4x16x3, .f32⟩
  | 67 => ⟨S4x16x3, .f32⟩
  | 68 => ⟨S4x256x256, .f32⟩
  | 69 => ⟨S_, .f32⟩
  | 70 => ⟨S4x256x256, .f32⟩
  | 71 => ⟨S4x256x256, .f32⟩
  | 72 => ⟨S4x256x256, .f32⟩
  | 73 => ⟨S4x256x256, .f32⟩
  | 74 => ⟨S4x256x256, .i1⟩
  | 75 => ⟨S4x256x256, .f32⟩
  | 76 => ⟨S4x256x256, .f32⟩
  | 77 => ⟨S4x256x256, .f32⟩
  | 78 => ⟨S4x256x256, .f32⟩
  | 79 => ⟨S4x256x256, .f32⟩
  | 80 => ⟨S4x256x256, .f32⟩
  | 81 => ⟨S4x256x256, .f32⟩
  | 82 => ⟨S4x256x256, .f32⟩
  | 83 => ⟨S4x256x256, .f32⟩
  | 84 => ⟨S4x256x256, .f32⟩
  | 85 => ⟨S_, .f32⟩
  | 86 => ⟨S4x256x256, .f32⟩
  | 87 => ⟨S4x256x256, .f32⟩
  | 88 => ⟨S4x256x256, .f32⟩
  | 89 => ⟨S4x256x256, .f32⟩
  | 90 => ⟨S_, .f32⟩
  | 91 => ⟨S4x256x256, .f32⟩
  | 92 => ⟨S4x256x256, .f32⟩
  | 93 => ⟨S4x256x256, .f32⟩
  | 94 => ⟨S4x256x256, .f32⟩
  | 95 => ⟨S4x256x256, .i1⟩
  | 96 => ⟨S4x256x256, .f32⟩
  | 97 => ⟨S4x256x256, .f32⟩
  | 98 => ⟨S4x256x256, .f32⟩
  | 99 => ⟨S4x256x256, .f32⟩
  | 100 => ⟨S4x256x256, .f32⟩
  | 101 => ⟨S4x256x256, .f32⟩
  | 102 => ⟨S4x256x256, .f32⟩
  | 103 => ⟨S4x256x256, .f32⟩
  | 104 => ⟨S4x256x256, .f32⟩
  | 105 => ⟨S4x256x256, .f32⟩
  | 106 => ⟨S4x256x256, .f32⟩
  | 107 => ⟨S_, .f32⟩
  | 108 => ⟨S_, .f32⟩
  | 109 => ⟨S_, .f32⟩
  | 110 => ⟨S_, .f32⟩
  | 111 => ⟨S_, .f32⟩
  | 112 => ⟨S4x3x256x256, .f32⟩
  | 113 => ⟨S4x3x256x256, .f32⟩
  | 114 => ⟨S_, .f32⟩
  | 115 => ⟨S4x256x256, .f32⟩
  | 116 => ⟨S4x256x256, .f32⟩
  | 117 => ⟨S_, .f32⟩
  | 118 => ⟨S4x256x256, .f32⟩
  | 119 => ⟨S4x256x256, .i1⟩
  | 120 => ⟨S_, .f32⟩
  | 121 => ⟨S_, .f32⟩
  | 122 => ⟨S4x256x256, .f32⟩
  | 123 => ⟨S4x256x256, .f32⟩
  | 124 => ⟨S4x65536, .f32⟩
  | 125 => ⟨S4x65536, .f32⟩
  | 126 => ⟨S_, .f32⟩
  | 127 => ⟨S4x65536, .f32⟩
  | _ => ⟨S4x134x256x256, .f32⟩

abbrev hbmTy0_1 (i : Nat) : BufTy := match i % 128 with
  | 0 => ⟨S4x65536, .i1⟩
  | 1 => ⟨S4x65536, .i32⟩
  | 2 => ⟨S_, .i32⟩
  | 3 => ⟨S4, .i32⟩
  | 4 => ⟨S_, .i32⟩
  | 5 => ⟨S4, .i32⟩
  | 6 => ⟨S4, .i1⟩
  | 7 => ⟨S_, .f32⟩
  | 8 => ⟨S4, .f32⟩
  | 9 => ⟨S_, .i32⟩
  | 10 => ⟨S4, .i32⟩
  | 11 => ⟨S4, .i32⟩
  | 12 => ⟨S4, .f32⟩
  | 13 => ⟨S4, .f32⟩
  | 14 => ⟨S_, .f32⟩
  | 15 => ⟨S4, .f32⟩
  | 16 => ⟨S_, .f32⟩
  | 17 => ⟨S4, .f32⟩
  | 18 => ⟨S4, .f32⟩
  | 19 => ⟨S4, .f32⟩
  | 20 => ⟨S_, .f32⟩
  | 21 => ⟨S_, .f32⟩
  | 22 => ⟨S_, .f32⟩
  | 23 => ⟨S_, .f32⟩
  | 24 => ⟨S4x48x256x256, .f32⟩
  | 25 => ⟨S4x48x256x256, .f32⟩
  | 26 => ⟨S_, .f32⟩
  | 27 => ⟨S4x256x256, .f32⟩
  | 28 => ⟨S4x256x256, .f32⟩
  | 29 => ⟨S_, .f32⟩
  | 30 => ⟨S4x256x256, .f32⟩
  | 31 => ⟨S4x256x256, .i1⟩
  | 32 => ⟨S_, .f32⟩
  | 33 => ⟨S_, .f32⟩
  | 34 => ⟨S4x256x256, .f32⟩
  | 35 => ⟨S4x256x256, .f32⟩
  | 36 => ⟨S4x65536, .f32⟩
  | 37 => ⟨S4x65536, .f32⟩
  | 38 => ⟨S_, .f32⟩
  | 39 => ⟨S4x65536, .f32⟩
  | 40 => ⟨S4x65536, .i1⟩
  | 41 => ⟨S4x65536, .i32⟩
  | 42 => ⟨S_, .i32⟩
  | 43 => ⟨S4, .i32⟩
  | 44 => ⟨S_, .i32⟩
  | 45 => ⟨S4, .i32⟩
  | 46 => ⟨S4, .i1⟩
  | 47 => ⟨S_, .f32⟩
  | 48 => ⟨S4, .f32⟩
  | 49 => ⟨S_, .i32⟩
  | 50 => ⟨S4, .i32⟩
  | 51 => ⟨S4, .i32⟩
  | 52 => ⟨S4, .f32⟩
  | 53 => ⟨S4, .f32⟩
  | 54 => ⟨S_, .f32⟩
  | 55 => ⟨S4, .f32⟩
  | 56 => ⟨S_, .f32⟩
  | 57 => ⟨S4, .f32⟩
  | 58 => ⟨S4, .f32⟩
  | 59 => ⟨S4, .f32⟩
  | 60 => ⟨S_, .f32⟩
  | 61 => ⟨S_, .f32⟩
  | 62 => ⟨S_, .f32⟩
  | 63 => ⟨S_, .f32⟩
  | 64 => ⟨S4x48x256x256, .f32⟩
  | 65 => ⟨S4x48x256x256, .f32⟩
  | 66 => ⟨S_, .f32⟩
  | 67 => ⟨S4x256x256, .f32⟩
  | 68 => ⟨S4x256x256, .f32⟩
  | 69 => ⟨S_, .f32⟩
  | 70 => ⟨S4x256x256, .f32⟩
  | 71 => ⟨S4x256x256, .i1⟩
  | 72 => ⟨S_, .f32⟩
  | 73 => ⟨S_, .f32⟩
  | 74 => ⟨S4x256x256, .f32⟩
  | 75 => ⟨S4x256x256, .f32⟩
  | 76 => ⟨S4x65536, .f32⟩
  | 77 => ⟨S4x65536, .f32⟩
  | 78 => ⟨S_, .f32⟩
  | 79 => ⟨S4x65536, .f32⟩
  | 80 => ⟨S4x65536, .i1⟩
  | 81 => ⟨S4x65536, .i32⟩
  | 82 => ⟨S_, .i32⟩
  | 83 => ⟨S4, .i32⟩
  | 84 => ⟨S_, .i32⟩
  | 85 => ⟨S4, .i32⟩
  | 86 => ⟨S4, .i1⟩
  | 87 => ⟨S_, .f32⟩
  | 88 => ⟨S4, .f32⟩
  | 89 => ⟨S_, .i32⟩
  | 90 => ⟨S4, .i32⟩
  | 91 => ⟨S4, .i32⟩
  | 92 => ⟨S4, .f32⟩
  | 93 => ⟨S4, .f32⟩
  | 94 => ⟨S_, .f32⟩
  | 95 => ⟨S4, .f32⟩
  | 96 => ⟨S_, .f32⟩
  | 97 => ⟨S4, .f32⟩
  | 98 => ⟨S4, .f32⟩
  | 99 => ⟨S4, .f32⟩
  | 100 => ⟨S_, .f32⟩
  | 101 => ⟨S_, .f32⟩
  | 102 => ⟨S_, .f32⟩
  | 103 => ⟨S_, .f32⟩
  | 104 => ⟨S4x256x256x18, .f32⟩
  | 105 => ⟨S262144x18, .f32⟩
  | 106 => ⟨S262144, .i32⟩
  | 107 => ⟨S_, .f32⟩
  | 108 => ⟨S262144, .f32⟩
  | 109 => ⟨S_, .f32⟩
  | 110 => ⟨S262144, .f32⟩
  | 111 => ⟨S262144, .f32⟩
  | 112 => ⟨S262144x1, .f32⟩
  | 113 => ⟨S262144x18, .f32⟩
  | 114 => ⟨S262144x18, .f32⟩
  | 115 => ⟨S262144x18, .f32⟩
  | 116 => ⟨S_, .f32⟩
  | 117 => ⟨S262144, .f32⟩
  | 118 => ⟨S262144x1, .f32⟩
  | 119 => ⟨S262144x1, .f32⟩
  | 120 => ⟨S262144x18, .f32⟩
  | 121 => ⟨S262144x18, .f32⟩
  | 122 => ⟨S262144x1, .i32⟩
  | 123 => ⟨S_, .i32⟩
  | 124 => ⟨S262144x1, .i32⟩
  | 125 => ⟨S262144x1, .i1⟩
  | 126 => ⟨S_, .i32⟩
  | 127 => ⟨S262144x1, .i32⟩
  | _ => ⟨S4x134x256x256, .f32⟩

abbrev hbmTy0_2 (i : Nat) : BufTy := match i % 128 with
  | 0 => ⟨S262144x1, .i32⟩
  | 1 => ⟨S262144x1, .i32⟩
  | 2 => ⟨S262144x1x1, .i32⟩
  | 3 => ⟨S1, .i32⟩
  | 4 => ⟨S_, .i32⟩
  | 5 => ⟨S262144x1x1, .i32⟩
  | 6 => ⟨S262144x1x1, .i1⟩
  | 7 => ⟨S1x1x1, .i32⟩
  | 8 => ⟨S262144x1x1, .i32⟩
  | 9 => ⟨S262144x1x1, .i1⟩
  | 10 => ⟨S262144x1x1, .i1⟩
  | 11 => ⟨S_, .i1⟩
  | 12 => ⟨S262144x1, .i1⟩
  | 13 => ⟨S262144x1, .f32⟩
  | 14 => ⟨S_, .f32⟩
  | 15 => ⟨S262144x1, .f32⟩
  | 16 => ⟨S262144x1, .f32⟩
  | 17 => ⟨S_, .f32⟩
  | 18 => ⟨S_, .f32⟩
  | 19 => ⟨S_, .f32⟩
  | 20 => ⟨S_, .f32⟩
  | 21 => ⟨S_, .f32⟩
  | 22 => ⟨S4x16x3x256x256, .f32⟩
  | 23 => ⟨S4x1x1x256x256, .f32⟩
  | 24 => ⟨S4x16x3x256x256, .f32⟩
  | 25 => ⟨S4x16x3x256x256, .f32⟩
  | 26 => ⟨S4x16x256x256, .f32⟩
  | 27 => ⟨S4x16x256x256, .f32⟩
  | 28 => ⟨S_, .f32⟩
  | 29 => ⟨S4x16x256x256, .f32⟩
  | 30 => ⟨S4x16x256x256, .f32⟩
  | 31 => ⟨S_, .f32⟩
  | 32 => ⟨S4x16x256x256, .f32⟩
  | 33 => ⟨S4x16x256x256, .f32⟩
  | 34 => ⟨S4x1x256x256, .f32⟩
  | 35 => ⟨S4x16x256x256, .f32⟩
  | 36 => ⟨S4x16x256x256, .f32⟩
  | 37 => ⟨S4x16x65536, .f32⟩
  | 38 => ⟨S_, .f32⟩
  | 39 => ⟨S4x16, .f32⟩
  | 40 => ⟨S4x16x1x1, .f32⟩
  | 41 => ⟨S_, .f32⟩
  | 42 => ⟨S4x16x1x1, .f32⟩
  | 43 => ⟨S4x16x1x1, .f32⟩
  | 44 => ⟨S4x16x256x256, .f32⟩
  | 45 => ⟨S4x16x256x256, .f32⟩
  | 46 => ⟨S4x16x1x256x256, .f32⟩
  | 47 => ⟨S4x16x3x256x256, .f32⟩
  | 48 => ⟨S4x16x3x256x256, .f32⟩
  | 49 => ⟨S4x16x3x65536, .f32⟩
  | 50 => ⟨S_, .f32⟩
  | 51 => ⟨S4x16x3, .f32⟩
  | 52 => ⟨S4x16x3, .f32⟩
  | 53 => ⟨S4x16x3, .f32⟩
  | 54 => ⟨S_, .f32⟩
  | 55 => ⟨S4x16, .f32⟩
  | 56 => ⟨S4x16, .f32⟩
  | 57 => ⟨S_, .f32⟩
  | 58 => ⟨S_, .f32⟩
  | 59 => ⟨S_, .f32⟩
  | 60 => ⟨S_, .f32⟩
  | 61 => ⟨S4x16x3x256x256, .f32⟩
  | 62 => ⟨S4x1x1x256x256, .f32⟩
  | 63 => ⟨S4x16x3x256x256, .f32⟩
  | 64 => ⟨S4x16x3x256x256, .f32⟩
  | 65 => ⟨S4x16x256x256, .f32⟩
  | 66 => ⟨S4x16x256x256, .f32⟩
  | 67 => ⟨S_, .f32⟩
  | 68 => ⟨S4x16x256x256, .f32⟩
  | 69 => ⟨S4x16x256x256, .f32⟩
  | 70 => ⟨S_, .f32⟩
  | 71 => ⟨S4x16x256x256, .f32⟩
  | 72 => ⟨S4x16x256x256, .f32⟩
  | 73 => ⟨S4x1x256x256, .f32⟩
  | 74 => ⟨S4x16x256x256, .f32⟩
  | 75 => ⟨S4x16x256x256, .f32⟩
  | 76 => ⟨S4x16x65536, .f32⟩
  | 77 => ⟨S_, .f32⟩
  | 78 => ⟨S4x16, .f32⟩
  | 79 => ⟨S4x16x1x1, .f32⟩
  | 80 => ⟨S_, .f32⟩
  | 81 => ⟨S4x16x1x1, .f32⟩
  | 82 => ⟨S4x16x1x1, .f32⟩
  | 83 => ⟨S4x16x256x256, .f32⟩
  | 84 => ⟨S4x16x256x256, .f32⟩
  | 85 => ⟨S4x16x1x256x256, .f32⟩
  | 86 => ⟨S4x16x3x256x256, .f32⟩
  | 87 => ⟨S4x16x3x256x256, .f32⟩
  | 88 => ⟨S4x16x3x65536, .f32⟩
  | 89 => ⟨S_, .f32⟩
  | 90 => ⟨S4x16x3, .f32⟩
  | 91 => ⟨S4x16x3, .f32⟩
  | 92 => ⟨S4x16x3, .f32⟩
  | 93 => ⟨S_, .f32⟩
  | 94 => ⟨S4x16, .f32⟩
  | 95 => ⟨S4x16, .f32⟩
  | 96 => ⟨S_, .f32⟩
  | 97 => ⟨S_, .f32⟩
  | 98 => ⟨S_, .f32⟩
  | 99 => ⟨S_, .f32⟩
  | 100 => ⟨S1, .f32⟩
  | 101 => ⟨S1, .f32⟩
  | 102 => ⟨S1, .f32⟩
  | 103 => ⟨S1, .f32⟩
  | 104 => ⟨S1, .f32⟩
  | 105 => ⟨S1, .f32⟩
  | 106 => ⟨S1, .f32⟩
  | 107 => ⟨S7, .f32⟩
  | _ => ⟨S4x134x256x256, .f32⟩

abbrev hbmTy (i : Nat) : BufTy := match i / 128 with
  | 0 => hbmTy0_0 i
  | 1 => hbmTy0_1 i
  | 2 => hbmTy0_2 i
  | _ => ⟨S4x134x256x256, .f32⟩

abbrev bufTy : (tb : Table) → Fin (tcTables nBuf tb) → BufTy
  | .hbm, ⟨i, _⟩ => hbmTy i
  | _, _ => ⟨S4x134x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_7 : Ref sig .tc := ⟨.hbm, 53, rfl⟩
abbrev main_v42 : Ref sig .tc := ⟨.hbm, 54, rfl⟩
abbrev main_v43 : Ref sig .tc := ⟨.hbm, 55, rfl⟩
abbrev main_cst_8 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_9 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_call0_v0 : Ref sig .tc := ⟨.hbm, 68, rfl⟩
abbrev main_call0_call0_cst : Ref sig .tc := ⟨.hbm, 69, rfl⟩
abbrev main_call0_call0_v0 : Ref sig .tc := ⟨.hbm, 70, rfl⟩
abbrev main_call0_call0_v1 : Ref sig .tc := ⟨.hbm, 71, rfl⟩
abbrev main_call0_call0_v2 : Ref sig .tc := ⟨.hbm, 72, rfl⟩
abbrev main_call0_call0_v3 : Ref sig .tc := ⟨.hbm, 73, rfl⟩
abbrev main_call0_call0_v4 : Ref sig .tc := ⟨.hbm, 74, rfl⟩
abbrev main_call0_call0_v5 : Ref sig .tc := ⟨.hbm, 75, rfl⟩
abbrev main_call0_call0_v6 : Ref sig .tc := ⟨.hbm, 76, rfl⟩
abbrev main_call0_call0_v7 : Ref sig .tc := ⟨.hbm, 77, rfl⟩
abbrev main_call0_call0_v8 : Ref sig .tc := ⟨.hbm, 78, rfl⟩
abbrev main_call0_call0_v9 : Ref sig .tc := ⟨.hbm, 79, rfl⟩
abbrev main_call0_call0_v10 : Ref sig .tc := ⟨.hbm, 80, rfl⟩
abbrev main_call0_call0_v11 : Ref sig .tc := ⟨.hbm, 81, rfl⟩
abbrev main_call0_v1 : Ref sig .tc := ⟨.hbm, 82, rfl⟩
abbrev main_v53 : Ref sig .tc := ⟨.hbm, 83, rfl⟩
abbrev main_v54 : Ref sig .tc := ⟨.hbm, 84, rfl⟩
abbrev main_cst_11 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_call1_v0 : Ref sig .tc := ⟨.hbm, 89, rfl⟩
abbrev main_call1_call0_cst : Ref sig .tc := ⟨.hbm, 90, rfl⟩
abbrev main_call1_call0_v0 : Ref sig .tc := ⟨.hbm, 91, rfl⟩
abbrev main_call1_call0_v1 : Ref sig .tc := ⟨.hbm, 92, rfl⟩
abbrev main_call1_call0_v2 : Ref sig .tc := ⟨.hbm, 93, rfl⟩
abbrev main_call1_call0_v3 : Ref sig .tc := ⟨.hbm, 94, rfl⟩
abbrev main_call1_call0_v4 : Ref sig .tc := ⟨.hbm, 95, rfl⟩
abbrev main_call1_call0_v5 : Ref sig .tc := ⟨.hbm, 96, rfl⟩
abbrev main_call1_call0_v6 : Ref sig .tc := ⟨.hbm, 97, rfl⟩
abbrev main_call1_call0_v7 : Ref sig .tc := ⟨.hbm, 98, rfl⟩
abbrev main_call1_call0_v8 : Ref sig .tc := ⟨.hbm, 99, rfl⟩
abbrev main_call1_call0_v9 : Ref sig .tc := ⟨.hbm, 100, rfl⟩
abbrev main_call1_call0_v10 : Ref sig .tc := ⟨.hbm, 101, rfl⟩
abbrev main_call1_call0_v11 : Ref sig .tc := ⟨.hbm, 102, rfl⟩
abbrev main_call1_v1 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_cst_12 : Ref sig .tc := ⟨.hbm, 107, rfl⟩
abbrev main_v61 : Ref sig .tc := ⟨.hbm, 108, rfl⟩
abbrev main_cst_13 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_call2_v0 : Ref sig .tc := ⟨.hbm, 113, rfl⟩
abbrev main_call2_cst : Ref sig .tc := ⟨.hbm, 114, rfl⟩
abbrev main_call2_v1 : Ref sig .tc := ⟨.hbm, 115, rfl⟩
abbrev main_v65 : Ref sig .tc := ⟨.hbm, 116, rfl⟩
abbrev main_cst_14 : Ref sig .tc := ⟨.hbm, 117, rfl⟩
abbrev main_v66 : Ref sig .tc := ⟨.hbm, 118, rfl⟩
abbrev main_v67 : Ref sig .tc := ⟨.hbm, 119, rfl⟩
abbrev main_cst_15 : Ref sig .tc := ⟨.hbm, 120, rfl⟩
abbrev main_call3_v0 : Ref sig .tc := ⟨.hbm, 121, rfl⟩
abbrev main_call3_v1 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_cst_16 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_c : Ref sig .tc := ⟨.hbm, 130, rfl⟩
abbrev main_v74 : Ref sig .tc := ⟨.hbm, 131, rfl⟩
abbrev main_c_17 : Ref sig .tc := ⟨.hbm, 132, rfl⟩
abbrev main_v75 : Ref sig .tc := ⟨.hbm, 133, rfl⟩
abbrev main_v76 : Ref sig .tc := ⟨.hbm, 134, rfl⟩
abbrev main_cst_18 : Ref sig .tc := ⟨.hbm, 135, rfl⟩
abbrev main_v77 : Ref sig .tc := ⟨.hbm, 136, rfl⟩
abbrev main_c_19 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_cst_20 : Ref sig .tc := ⟨.hbm, 142, rfl⟩
abbrev main_v82 : Ref sig .tc := ⟨.hbm, 143, rfl⟩
abbrev main_cst_21 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_cst_22 : Ref sig .tc := ⟨.hbm, 148, rfl⟩
abbrev main_v86 : Ref sig .tc := ⟨.hbm, 149, rfl⟩
abbrev main_cst_23 : Ref sig .tc := ⟨.hbm, 150, rfl⟩
abbrev main_v87 : Ref sig .tc := ⟨.hbm, 151, rfl⟩
abbrev main_v88 : Ref sig .tc := ⟨.hbm, 152, rfl⟩
abbrev main_call5_v0 : Ref sig .tc := ⟨.hbm, 153, rfl⟩
abbrev main_call5_cst : Ref sig .tc := ⟨.hbm, 154, rfl⟩
abbrev main_call5_v1 : Ref sig .tc := ⟨.hbm, 155, rfl⟩
abbrev main_v89 : Ref sig .tc := ⟨.hbm, 156, rfl⟩
abbrev main_cst_24 : Ref sig .tc := ⟨.hbm, 157, rfl⟩
abbrev main_v90 : Ref sig .tc := ⟨.hbm, 158, rfl⟩
abbrev main_v91 : Ref sig .tc := ⟨.hbm, 159, rfl⟩
abbrev main_cst_25 : Ref sig .tc := ⟨.hbm, 160, rfl⟩
abbrev main_call6_v0 : Ref sig .tc := ⟨.hbm, 161, rfl⟩
abbrev main_call6_v1 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_cst_26 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_c_27 : Ref sig .tc := ⟨.hbm, 170, rfl⟩
abbrev main_v98 : Ref sig .tc := ⟨.hbm, 171, rfl⟩
abbrev main_c_28 : Ref sig .tc := ⟨.hbm, 172, rfl⟩
abbrev main_v99 : Ref sig .tc := ⟨.hbm, 173, rfl⟩
abbrev main_v100 : Ref sig .tc := ⟨.hbm, 174, rfl⟩
abbrev main_cst_29 : Ref sig .tc := ⟨.hbm, 175, rfl⟩
abbrev main_v101 : Ref sig .tc := ⟨.hbm, 176, rfl⟩
abbrev main_c_30 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_cst_31 : Ref sig .tc := ⟨.hbm, 182, rfl⟩
abbrev main_v106 : Ref sig .tc := ⟨.hbm, 183, rfl⟩
abbrev main_cst_32 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_cst_33 : Ref sig .tc := ⟨.hbm, 188, rfl⟩
abbrev main_v110 : Ref sig .tc := ⟨.hbm, 189, rfl⟩
abbrev main_cst_34 : Ref sig .tc := ⟨.hbm, 190, rfl⟩
abbrev main_v111 : Ref sig .tc := ⟨.hbm, 191, rfl⟩
abbrev main_v112 : Ref sig .tc := ⟨.hbm, 192, rfl⟩
abbrev main_call8_v0 : Ref sig .tc := ⟨.hbm, 193, rfl⟩
abbrev main_call8_cst : Ref sig .tc := ⟨.hbm, 194, rfl⟩
abbrev main_call8_v1 : Ref sig .tc := ⟨.hbm, 195, rfl⟩
abbrev main_v113 : Ref sig .tc := ⟨.hbm, 196, rfl⟩
abbrev main_cst_35 : Ref sig .tc := ⟨.hbm, 197, rfl⟩
abbrev main_v114 : Ref sig .tc := ⟨.hbm, 198, rfl⟩
abbrev main_v115 : Ref sig .tc := ⟨.hbm, 199, rfl⟩
abbrev main_cst_36 : Ref sig .tc := ⟨.hbm, 200, rfl⟩
abbrev main_call9_v0 : Ref sig .tc := ⟨.hbm, 201, rfl⟩
abbrev main_call9_v1 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_cst_37 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_c_38 : Ref sig .tc := ⟨.hbm, 210, rfl⟩
abbrev main_v122 : Ref sig .tc := ⟨.hbm, 211, rfl⟩
abbrev main_c_39 : Ref sig .tc := ⟨.hbm, 212, rfl⟩
abbrev main_v123 : Ref sig .tc := ⟨.hbm, 213, rfl⟩
abbrev main_v124 : Ref sig .tc := ⟨.hbm, 214, rfl⟩
abbrev main_cst_40 : Ref sig .tc := ⟨.hbm, 215, rfl⟩
abbrev main_v125 : Ref sig .tc := ⟨.hbm, 216, rfl⟩
abbrev main_c_41 : Ref sig .tc := ⟨.hbm, 217, rfl⟩
abbrev main_v126 : Ref sig .tc := ⟨.hbm, 218, rfl⟩
abbrev main_v127 : Ref sig .tc := ⟨.hbm, 219, rfl⟩
abbrev main_v128 : Ref sig .tc := ⟨.hbm, 220, rfl⟩
abbrev main_v129 : Ref sig .tc := ⟨.hbm, 221, rfl⟩
abbrev main_cst_42 : Ref sig .tc := ⟨.hbm, 222, rfl⟩
abbrev main_v130 : Ref sig .tc := ⟨.hbm, 223, rfl⟩
abbrev main_cst_43 : Ref sig .tc := ⟨.hbm, 224, rfl⟩
abbrev main_v131 : Ref sig .tc := ⟨.hbm, 225, rfl⟩
abbrev main_v132 : Ref sig .tc := ⟨.hbm, 226, rfl⟩
abbrev main_v133 : Ref sig .tc := ⟨.hbm, 227, rfl⟩
abbrev main_cst_44 : Ref sig .tc := ⟨.hbm, 228, rfl⟩
abbrev main_v134 : Ref sig .tc := ⟨.hbm, 229, rfl⟩
abbrev main_cst_45 : Ref sig .tc := ⟨.hbm, 230, rfl⟩
abbrev main_v135 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_call11_cst : Ref sig .tc := ⟨.hbm, 235, rfl⟩
abbrev main_call11_v0 : Ref sig .tc := ⟨.hbm, 236, rfl⟩
abbrev main_call11_cst_0 : Ref sig .tc := ⟨.hbm, 237, rfl⟩
abbrev main_call11_v1 : Ref sig .tc := ⟨.hbm, 238, rfl⟩
abbrev main_call11_v2 : Ref sig .tc := ⟨.hbm, 239, rfl⟩
abbrev main_call11_v3 : Ref sig .tc := ⟨.hbm, 240, rfl⟩
abbrev main_call11_v4 : Ref sig .tc := ⟨.hbm, 241, rfl⟩
abbrev main_call11_v5 : Ref sig .tc := ⟨.hbm, 242, rfl⟩
abbrev main_call11_v6 : Ref sig .tc := ⟨.hbm, 243, rfl⟩
abbrev main_call11_cst_1 : Ref sig .tc := ⟨.hbm, 244, rfl⟩
abbrev main_call11_v7 : Ref sig .tc := ⟨.hbm, 245, rfl⟩
abbrev main_call11_v8 : Ref sig .tc := ⟨.hbm, 246, rfl⟩
abbrev main_call11_v9 : Ref sig .tc := ⟨.hbm, 247, rfl⟩
abbrev main_call11_v10 : Ref sig .tc := ⟨.hbm, 248, rfl⟩
abbrev main_v139 : Ref sig .tc := ⟨.hbm, 249, rfl⟩
abbrev main_v140 : Ref sig .tc := ⟨.hbm, 250, rfl⟩
abbrev main_call12_c : Ref sig .tc := ⟨.hbm, 251, rfl⟩
abbrev main_call12_v0 : Ref sig .tc := ⟨.hbm, 252, rfl⟩
abbrev main_call12_v1 : Ref sig .tc := ⟨.hbm, 253, rfl⟩
abbrev main_call12_c_0 : Ref sig .tc := ⟨.hbm, 254, rfl⟩
abbrev main_call12_v2 : Ref sig .tc := ⟨.hbm, 255, rfl⟩
abbrev main_call12_v3 : Ref sig .tc := ⟨.hbm, 256, rfl⟩
abbrev main_call12_v4 : Ref sig .tc := ⟨.hbm, 257, rfl⟩
abbrev main_call12_v5 : Ref sig .tc := ⟨.hbm, 258, rfl⟩
abbrev main_call12_c_1 : Ref sig .tc := ⟨.hbm, 259, rfl⟩
abbrev main_call12_c_2 : Ref sig .tc := ⟨.hbm, 260, rfl⟩
abbrev main_call12_v6 : Ref sig .tc := ⟨.hbm, 261, rfl⟩
abbrev main_call12_v7 : Ref sig .tc := ⟨.hbm, 262, rfl⟩
abbrev main_call12_v8 : Ref sig .tc := ⟨.hbm, 263, rfl⟩
abbrev main_call12_v9 : Ref sig .tc := ⟨.hbm, 264, rfl⟩
abbrev main_call12_v10 : Ref sig .tc := ⟨.hbm, 265, rfl⟩
abbrev main_call12_v11 : Ref sig .tc := ⟨.hbm, 266, rfl⟩
abbrev main_call12_c_3 : Ref sig .tc := ⟨.hbm, 267, rfl⟩
abbrev main_call12_v12 : Ref sig .tc := ⟨.hbm, 268, rfl⟩
abbrev main_call12_v13 : Ref sig .tc := ⟨.hbm, 269, rfl⟩
abbrev main_call12_cst : Ref sig .tc := ⟨.hbm, 270, rfl⟩
abbrev main_call12_v14 : Ref sig .tc := ⟨.hbm, 271, rfl⟩
abbrev main_v141 : Ref sig .tc := ⟨.hbm, 272, rfl⟩
abbrev main_cst_46 : Ref sig .tc := ⟨.hbm, 273, rfl⟩
abbrev main_v142 : Ref sig .tc := ⟨.hbm, 274, rfl⟩
abbrev main_cst_47 : Ref sig .tc := ⟨.hbm, 275, rfl⟩
abbrev main_v143 : Ref sig .tc := ⟨.hbm, 276, rfl⟩
abbrev main_v144 : Ref sig .tc := ⟨.hbm, 277, rfl⟩
abbrev main_v145 : Ref sig .tc := ⟨.hbm, 278, rfl⟩
abbrev main_v146 : Ref sig .tc := ⟨.hbm, 279, rfl⟩
abbrev main_v147 : Ref sig .tc := ⟨.hbm, 280, rfl⟩
abbrev main_v148 : Ref sig .tc := ⟨.hbm, 281, rfl⟩
abbrev main_v149 : Ref sig .tc := ⟨.hbm, 282, rfl⟩
abbrev main_v150 : Ref sig .tc := ⟨.hbm, 283, rfl⟩
abbrev main_cst_48 : Ref sig .tc := ⟨.hbm, 284, rfl⟩
abbrev main_v151 : Ref sig .tc := ⟨.hbm, 285, rfl⟩
abbrev main_v152 : Ref sig .tc := ⟨.hbm, 286, rfl⟩
abbrev main_cst_49 : Ref sig .tc := ⟨.hbm, 287, rfl⟩
abbrev main_v153 : Ref sig .tc := ⟨.hbm, 288, rfl⟩
abbrev main_v154 : Ref sig .tc := ⟨.hbm, 289, rfl⟩
abbrev main_v155 : Ref sig .tc := ⟨.hbm, 290, rfl⟩
abbrev main_v156 : Ref sig .tc := ⟨.hbm, 291, rfl⟩
abbrev main_v157 : Ref sig .tc := ⟨.hbm, 292, rfl⟩
abbrev main_v158 : Ref sig .tc := ⟨.hbm, 293, rfl⟩
abbrev main_cst_50 : Ref sig .tc := ⟨.hbm, 294, rfl⟩
abbrev main_v159 : Ref sig .tc := ⟨.hbm, 295, rfl⟩
abbrev main_v160 : Ref sig .tc := ⟨.hbm, 296, rfl⟩
abbrev main_cst_51 : Ref sig .tc := ⟨.hbm, 297, rfl⟩
abbrev main_v161 : Ref sig .tc := ⟨.hbm, 298, rfl⟩
abbrev main_v162 : Ref sig .tc := ⟨.hbm, 299, rfl⟩
abbrev main_v163 : Ref sig .tc := ⟨.hbm, 300, rfl⟩
abbrev main_v164 : Ref sig .tc := ⟨.hbm, 301, rfl⟩
abbrev main_v165 : Ref sig .tc := ⟨.hbm, 302, rfl⟩
abbrev main_v166 : Ref sig .tc := ⟨.hbm, 303, rfl⟩
abbrev main_v167 : Ref sig .tc := ⟨.hbm, 304, rfl⟩
abbrev main_v168 : Ref sig .tc := ⟨.hbm, 305, rfl⟩
abbrev main_cst_52 : Ref sig .tc := ⟨.hbm, 306, rfl⟩
abbrev main_v169 : Ref sig .tc := ⟨.hbm, 307, rfl⟩
abbrev main_v170 : Ref sig .tc := ⟨.hbm, 308, rfl⟩
abbrev main_call13_v0 : Ref sig .tc := ⟨.hbm, 309, rfl⟩
abbrev main_call13_cst : Ref sig .tc := ⟨.hbm, 310, rfl⟩
abbrev main_call13_v1 : Ref sig .tc := ⟨.hbm, 311, rfl⟩
abbrev main_v171 : Ref sig .tc := ⟨.hbm, 312, rfl⟩
abbrev main_cst_53 : Ref sig .tc := ⟨.hbm, 313, rfl⟩
abbrev main_v172 : Ref sig .tc := ⟨.hbm, 314, rfl⟩
abbrev main_cst_54 : Ref sig .tc := ⟨.hbm, 315, rfl⟩
abbrev main_v173 : Ref sig .tc := ⟨.hbm, 316, rfl⟩
abbrev main_v174 : Ref sig .tc := ⟨.hbm, 317, rfl⟩
abbrev main_v175 : Ref sig .tc := ⟨.hbm, 318, rfl⟩
abbrev main_v176 : Ref sig .tc := ⟨.hbm, 319, rfl⟩
abbrev main_v177 : Ref sig .tc := ⟨.hbm, 320, rfl⟩
abbrev main_v178 : Ref sig .tc := ⟨.hbm, 321, rfl⟩
abbrev main_v179 : Ref sig .tc := ⟨.hbm, 322, rfl⟩
abbrev main_cst_55 : Ref sig .tc := ⟨.hbm, 323, rfl⟩
abbrev main_v180 : Ref sig .tc := ⟨.hbm, 324, rfl⟩
abbrev main_v181 : Ref sig .tc := ⟨.hbm, 325, rfl⟩
abbrev main_cst_56 : Ref sig .tc := ⟨.hbm, 326, rfl⟩
abbrev main_v182 : Ref sig .tc := ⟨.hbm, 327, rfl⟩
abbrev main_v183 : Ref sig .tc := ⟨.hbm, 328, rfl⟩
abbrev main_v184 : Ref sig .tc := ⟨.hbm, 329, rfl⟩
abbrev main_v185 : Ref sig .tc := ⟨.hbm, 330, rfl⟩
abbrev main_v186 : Ref sig .tc := ⟨.hbm, 331, rfl⟩
abbrev main_v187 : Ref sig .tc := ⟨.hbm, 332, rfl⟩
abbrev main_cst_57 : Ref sig .tc := ⟨.hbm, 333, rfl⟩
abbrev main_v188 : Ref sig .tc := ⟨.hbm, 334, rfl⟩
abbrev main_v189 : Ref sig .tc := ⟨.hbm, 335, rfl⟩
abbrev main_cst_58 : Ref sig .tc := ⟨.hbm, 336, rfl⟩
abbrev main_v190 : Ref sig .tc := ⟨.hbm, 337, rfl⟩
abbrev main_v191 : Ref sig .tc := ⟨.hbm, 338, rfl⟩
abbrev main_v192 : Ref sig .tc := ⟨.hbm, 339, rfl⟩
abbrev main_v193 : Ref sig .tc := ⟨.hbm, 340, rfl⟩
abbrev main_v194 : Ref sig .tc := ⟨.hbm, 341, rfl⟩
abbrev main_v195 : Ref sig .tc := ⟨.hbm, 342, rfl⟩
abbrev main_v196 : Ref sig .tc := ⟨.hbm, 343, rfl⟩
abbrev main_v197 : Ref sig .tc := ⟨.hbm, 344, rfl⟩
abbrev main_cst_59 : Ref sig .tc := ⟨.hbm, 345, rfl⟩
abbrev main_v198 : Ref sig .tc := ⟨.hbm, 346, rfl⟩
abbrev main_v199 : Ref sig .tc := ⟨.hbm, 347, rfl⟩
abbrev main_call14_v0 : Ref sig .tc := ⟨.hbm, 348, rfl⟩
abbrev main_call14_cst : Ref sig .tc := ⟨.hbm, 349, rfl⟩
abbrev main_call14_v1 : Ref sig .tc := ⟨.hbm, 350, rfl⟩
abbrev main_v200 : Ref sig .tc := ⟨.hbm, 351, rfl⟩
abbrev main_cst_60 : Ref sig .tc := ⟨.hbm, 352, rfl⟩
abbrev main_v201 : Ref sig .tc := ⟨.hbm, 353, rfl⟩
abbrev main_cst_61 : Ref sig .tc := ⟨.hbm, 354, rfl⟩
abbrev main_v202 : Ref sig .tc := ⟨.hbm, 355, rfl⟩
abbrev main_v203 : Ref sig .tc := ⟨.hbm, 356, rfl⟩
abbrev main_v204 : Ref sig .tc := ⟨.hbm, 357, rfl⟩
abbrev main_v205 : Ref sig .tc := ⟨.hbm, 358, rfl⟩
abbrev main_v206 : Ref sig .tc := ⟨.hbm, 359, rfl⟩
abbrev main_v207 : Ref sig .tc := ⟨.hbm, 360, rfl⟩
abbrev main_v208 : Ref sig .tc := ⟨.hbm, 361, rfl⟩
abbrev main_v209 : Ref sig .tc := ⟨.hbm, 362, rfl⟩
abbrev main_v210 : Ref sig .tc := ⟨.hbm, 363, rfl⟩

abbrev nD : Nat := 1
abbrev τ : Topo := Topo.v7x

variable {F : FTy → Type} [FloatOps F]

class Facts₀ : Prop where
  slices_S4x134x256x256_S4x3x256x256_0_0_0_0 : S4x134x256x256.Slices ![0, 0, 0, 0] S4x3x256x256
  slices_S4x134x256x256_S4x1x256x256_0_3_0_0 : S4x134x256x256.Slices ![0, 3, 0, 0] S4x1x256x256
  shapeCasts_S4x1x256x256_S4x256x256 : S4x1x256x256.ShapeCasts S4x256x256
  slices_S4x134x256x256_S4x48x256x256_0_4_0_0 : S4x134x256x256.Slices ![0, 4, 0, 0] S4x48x256x256
  bcast_S_S4x48x256x256 : S_.BroadcastsInDim S4x48x256x256 (![] : Fin 0 → Fin S4x48x256x256.rank)
  slices_S4x134x256x256_S4x48x256x256_0_52_0_0 : S4x134x256x256.Slices ![0, 52, 0, 0] S4x48x256x256
  slices_S4x134x256x256_S4x18x256x256_0_100_0_0 : S4x134x256x256.Slices ![0, 100, 0, 0] S4x18x256x256
  slices_S4x134x256x256_S4x16x256x256_0_118_0_0 : S4x134x256x256.Slices ![0, 118, 0, 0] S4x16x256x256
  slices_S4x101x256x256_S4x3x256x256_0_0_0_0 : S4x101x256x256.Slices ![0, 0, 0, 0] S4x3x256x256
  slices_S4x101x256x256_S4x1x256x256_0_3_0_0 : S4x101x256x256.Slices ![0, 3, 0, 0] S4x1x256x256
  slices_S4x101x256x256_S4x48x256x256_0_4_0_0 : S4x101x256x256.Slices ![0, 4, 0, 0] S4x48x256x256
  slices_S4x101x256x256_S4x48x256x256_0_52_0_0 : S4x101x256x256.Slices ![0, 52, 0, 0] S4x48x256x256
  slices_S4x101x256x256_S4x1x256x256_0_100_0_0 : S4x101x256x256.Slices ![0, 100, 0, 0] S4x1x256x256
  slices_S4x16x6_S4x16x3_0_0_0 : S4x16x6.Slices ![0, 0, 0] S4x16x3
  bcast_S_S4x16x3 : S_.BroadcastsInDim S4x16x3 (![] : Fin 0 → Fin S4x16x3.rank)
  slices_S4x16x6_S4x16x3_0_0_3 : S4x16x6.Slices ![0, 0, 3] S4x16x3
  bcast_S_S4x256x256 : S_.BroadcastsInDim S4x256x256 (![] : Fin 0 → Fin S4x256x256.rank)
  reducesTo_S4x256x256_S_d0_1_2 : S4x256x256.ReducesTo [0, 1, 2] S_
  h_S_ : 0 < S_.numel
  reducesTo_S4x3x256x256_S4x256x256_d1 : S4x3x256x256.ReducesTo [1] S4x256x256
  shapeCasts_S4x256x256_S4x65536 : S4x256x256.ShapeCasts S4x65536
  bcast_S_S4x65536 : S_.BroadcastsInDim S4x65536 (![] : Fin 0 → Fin S4x65536.rank)
  natLt_1_32 : 1 < 32
  reducesTo_S4x65536_S4_d1 : S4x65536.ReducesTo [1] S4
  bcast_S_S4 : S_.BroadcastsInDim S4 (![] : Fin 0 → Fin S4.rank)
  reducesTo_S4_S_d0 : S4.ReducesTo [0] S_
  reducesTo_S4x48x256x256_S4x256x256_d1 : S4x48x256x256.ReducesTo [1] S4x256x256
  transposes_S4x18x256x256_S4x256x256x18_0_2_3_1 : S4x18x256x256.Transposes [0, 2, 3, 1] S4x256x256x18
  shapeCasts_S4x256x256x18_S262144x18 : S4x256x256x18.ShapeCasts S262144x18
  shapeCasts_S4x256x256_S262144 : S4x256x256.ShapeCasts S262144
  reducesTo_S262144x18_S262144_d1 : S262144x18.ReducesTo [1] S262144
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x18_0_1 : S262144x1.BroadcastsInDim S262144x18 (![0, 1] : Fin 2 → Fin S262144x18.rank)
  bcast_S_S262144x1 : S_.BroadcastsInDim S262144x1 (![] : Fin 0 → Fin S262144x1.rank)
  shapeCasts_S262144x1_S262144x1x1 : S262144x1.ShapeCasts S262144x1x1
  bcast_S_S262144x1x1 : S_.BroadcastsInDim S262144x1x1 (![] : Fin 0 → Fin S262144x1x1.rank)
  bcast_S1_S1x1x1_2 : S1.BroadcastsInDim S1x1x1 (![2] : Fin 1 → Fin S1x1x1.rank)
  bcast_S1x1x1_S262144x1x1_0_1_2 : S1x1x1.BroadcastsInDim S262144x1x1 (![0, 1, 2] : Fin 3 → Fin S262144x1x1.rank)
  reducesTo_S262144x1x1_S262144x1_d2 : S262144x1x1.ReducesTo [2] S262144x1
  reducesTo_S262144x1_S_d0_1 : S262144x1.ReducesTo [0, 1] S_
  shapeCasts_S4x48x256x256_S4x16x3x256x256 : S4x48x256x256.ShapeCasts S4x16x3x256x256
  bcast_S4x256x256_S4x1x1x256x256_0_3_4 : S4x256x256.BroadcastsInDim S4x1x1x256x256 (![0, 3, 4] : Fin 3 → Fin S4x1x1x256x256.rank)
  bcast_S4x1x1x256x256_S4x16x3x256x256_0_1_2_3_4 : S4x1x1x256x256.BroadcastsInDim S4x16x3x256x256 (![0, 1, 2, 3, 4] : Fin 5 → Fin S4x16x3x256x256.rank)
  bcast_S_S4x16x256x256 : S_.BroadcastsInDim S4x16x256x256 (![] : Fin 0 → Fin S4x16x256x256.rank)
  bcast_S4x256x256_S4x1x256x256_0_2_3 : S4x256x256.BroadcastsInDim S4x1x256x256 (![0, 2, 3] : Fin 3 → Fin S4x1x256x256.rank)
  bcast_S4x1x256x256_S4x16x256x256_0_1_2_3 : S4x1x256x256.BroadcastsInDim S4x16x256x256 (![0, 1, 2, 3] : Fin 4 → Fin S4x16x256x256.rank)
  shapeCasts_S4x16x256x256_S4x16x65536 : S4x16x256x256.ShapeCasts S4x16x65536
  reducesTo_S4x16x65536_S4x16_d2 : S4x16x65536.ReducesTo [2] S4x16
  bcast_S4x16_S4x16x1x1_0_1 : S4x16.BroadcastsInDim S4x16x1x1 (![0, 1] : Fin 2 → Fin S4x16x1x1.rank)
  bcast_S_S4x16x1x1 : S_.BroadcastsInDim S4x16x1x1 (![] : Fin 0 → Fin S4x16x1x1.rank)
  bcast_S4x16x1x1_S4x16x256x256_0_1_2_3 : S4x16x1x1.BroadcastsInDim S4x16x256x256 (![0, 1, 2, 3] : Fin 4 → Fin S4x16x256x256.rank)
  bcast_S4x16x256x256_S4x16x1x256x256_0_1_3_4 : S4x16x256x256.BroadcastsInDim S4x16x1x256x256 (![0, 1, 3, 4] : Fin 4 → Fin S4x16x1x256x256.rank)
  bcast_S4x16x1x256x256_S4x16x3x256x256_0_1_2_3_4 : S4x16x1x256x256.BroadcastsInDim S4x16x3x256x256 (![0, 1, 2, 3, 4] : Fin 5 → Fin S4x16x3x256x256.rank)
  shapeCasts_S4x16x3x256x256_S4x16x3x65536 : S4x16x3x256x256.ShapeCasts S4x16x3x65536
  reducesTo_S4x16x3x65536_S4x16x3_d3 : S4x16x3x65536.ReducesTo [3] S4x16x3
  reducesTo_S4x16x3_S4x16_d2 : S4x16x3.ReducesTo [2] S4x16
  reducesTo_S4x16_S_d0_1 : S4x16.ReducesTo [0, 1] S_
  bcast_S_S1 : S_.BroadcastsInDim S1 (![] : Fin 0 → Fin S1.rank)
  concatenates_S1_S1_S1_S1_S1_S1_S1_S7_d0 : Shape.Concatenates [S1, S1, S1, S1, S1, S1, S1] S7 0
  gather_S262144x18_S262144x1x1_S262144x1_n_1_0_0_1_2_11_wf : GatherDims.WF S262144x18 S262144x1x1 S262144x1 [] [1] [0] [1] [0] 2 ![1, 1]

variable [Facts₀]

def gather_S262144x18_S262144x1x1_S262144x1_n_1_0_0_1_2_11 : GatherDims S262144x18 S262144x1x1 S262144x1 where
  offsetDims := []
  collapsedSliceDims := [1]
  operandBatchingDims := [0]
  startIndicesBatchingDims := [0]
  startIndexMap := [1]
  indexVectorDim := 2
  sliceSizes := ![1, 1]
  wf := gather_S262144x18_S262144x1x1_S262144x1_n_1_0_0_1_2_11_wf

class Facts : Prop extends Facts₀ where

variable [Facts]
-- ==== Proof.TileSumsBits.Shared.lean ====
import proofs.«112959_j30356828848315_1_alg».proof.Proof.Gen.Kernel.Launch
import proofs.«112959_j30356828848315_1_alg».proof.Proof.Gen.Kernel.Skeleton
import proofs.«112959_j30356828848315_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! # Tile sums: what the two control cases share

The program is one pipelined region over a grid of 4 × 8 points (point `t = 8·b + h`) followed by host
operations that only read the region's four result arrays. The region's body accumulates, over the eight
tiles `h` of image `b`, partial sums into four small output blocks indexed by `b` alone; the blocks are
reset at `h = 0`. This module fixes the buffer contents at the region's entry, the shape of @main around the
region (the region first, then eleven stretches of host operations none of which writes an array of the
pipeline or allocates), each window's block, the closed form of the body's one branch condition
(`h = 0 ↔ t % 8 = 0`), and the staging memrefs the body is called with. -/

set_option maxRecDepth 16384

noncomputable section

namespace Cert.Kernel.TileSums

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: as launched (no host operation precedes it). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The references no host operation after the region writes: the three arguments and the region's four results. -/
abbrev keptRefs : List (Ref sig .tc) := [main_arg0, main_arg1, main_arg2, main_v0_0, main_v0_1, main_v0_2, main_v0_3]

/-- An operation that writes none of the kept references. -/
abbrev Keeps (op : HloOp τ sig (Elt F)) : Prop := ∀ b ∈ keptRefs, Proc.devRef (τ := τ) .tc b ∉ op.writes

theorem hostOps1_fresh : (hostOps1 : List (HloOp τ sig (Elt F))).Forall fun op => op.fresh = ∅ := by
  simp only [List.Forall]; repeat' constructor
/-- Each operation of this stretch writes only its own result, which is none of the kept references. -/
theorem hostOps1_keeps : (hostOps1 : List (HloOp τ sig (Elt F))).Forall Keeps := by
  simp only [List.Forall, Keeps, keptRefs, List.forall_mem_cons, List.not_mem_nil, IsEmpty.forall_iff, implies_true, and_true, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)
theorem hostOps1_1_fresh : (hostOps1_1 : List (HloOp τ sig (Elt F))).Forall fun op => op.fresh = ∅ := by
  simp only [List.Forall]; repeat' constructor
/-- Each operation of this stretch writes only its own result, which is none of the kept references. -/
theorem hostOps1_1_keeps : (hostOps1_1 : List (HloOp τ sig (Elt F))).Forall Keeps := by
  simp only [List.Forall, Keeps, keptRefs, List.forall_mem_cons, List.not_mem_nil, IsEmpty.forall_iff, implies_true, and_true, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)
theorem hostOps1_2_fresh : (hostOps1_2 : List (HloOp τ sig (Elt F))).Forall fun op => op.fresh = ∅ := by
  simp only [List.Forall]; repeat' constructor
/-- Each operation of this stretch writes only its own result, which is none of the kept references. -/
theorem hostOps1_2_keeps : (hostOps1_2 : List (HloOp τ sig (Elt F))).Forall Keeps := by
  simp only [List.Forall, Keeps, keptRefs, List.forall_mem_cons, List.not_mem_nil, IsEmpty.forall_iff, implies_true, and_true, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)
theorem hostOps1_3_fresh : (hostOps1_3 : List (HloOp τ sig (Elt F))).Forall fun op => op.fresh = ∅ := by
  simp only [List.Forall]; repeat' constructor
/-- Each operation of this stretch writes only its own result, which is none of the kept references. -/
theorem hostOps1_3_keeps : (hostOps1_3 : List (HloOp τ sig (Elt F))).Forall Keeps := by
  simp only [List.Forall, Keeps, keptRefs, List.forall_mem_cons, List.not_mem_nil, IsEmpty.forall_iff, implies_true, and_true, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)
theorem hostOps1_4_fresh : (hostOps1_4 : List (HloOp τ sig (Elt F))).Forall fun op => op.fresh = ∅ := by
  simp only [List.Forall]; repeat' constructor
/-- Each operation of this stretch writes only its own result, which is none of the kept references. -/
theorem hostOps1_4_keeps : (hostOps1_4 : List (HloOp τ sig (Elt F))).Forall Keeps := by
  simp only [List.Forall, Keeps, keptRefs, List.forall_mem_cons, List.not_mem_nil, IsEmpty.forall_iff, implies_true, and_true, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)
theorem hostOps1_5_fresh : (hostOps1_5 : List (HloOp τ sig (Elt F))).Forall fun op => op.fresh = ∅ := by
  simp only [List.Forall]; repeat' constructor
/-- Each operation of this stretch writes only its own result, which is none of the kept references. -/
theorem hostOps1_5_keeps : (hostOps1_5 : List (HloOp τ sig (Elt F))).Forall Keeps := by
  simp only [List.Forall, Keeps, keptRefs, List.forall_mem_cons, List.not_mem_nil, IsEmpty.forall_iff, implies_true, and_true, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)
theorem hostOps1_6_fresh : (hostOps1_6 : List (HloOp τ sig (Elt F))).Forall fun op => op.fresh = ∅ := by
  simp only [List.Forall]; repeat' constructor
/-- Each operation of this stretch writes only its own result, which is none of the kept references. -/
theorem hostOps1_6_keeps : (hostOps1_6 : List (HloOp τ sig (Elt F))).Forall Keeps := by
  simp only [List.Forall, Keeps, keptRefs, List.forall_mem_cons, List.not_mem_nil, IsEmpty.forall_iff, implies_true, and_true, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)
theorem hostOps1_7_fresh : (hostOps1_7 : List (HloOp τ sig (Elt F))).Forall fun op => op.fresh = ∅ := by
  simp only [List.Forall]; repeat' constructor
/-- Each operation of this stretch writes only its own result, which is none of the kept references. -/
theorem hostOps1_7_keeps : (hostOps1_7 : List (HloOp τ sig (Elt F))).Forall Keeps := by
  simp only [List.Forall, Keeps, keptRefs, List.forall_mem_cons, List.not_mem_nil, IsEmpty.forall_iff, implies_true, and_true, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)
theorem hostOps1_8_fresh : (hostOps1_8 : List (HloOp τ sig (Elt F))).Forall fun op => op.fresh = ∅ := by
  simp only [List.Forall]; repeat' constructor
/-- Each operation of this stretch writes only its own result, which is none of the kept references. -/
theorem hostOps1_8_keeps : (hostOps1_8 : List (HloOp τ sig (Elt F))).Forall Keeps := by
  simp only [List.Forall, Keeps, keptRefs, List.forall_mem_cons, List.not_mem_nil, IsEmpty.forall_iff, implies_true, and_true, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)
theorem hostOps1_9_fresh : (hostOps1_9 : List (HloOp τ sig (Elt F))).Forall fun op => op.fresh = ∅ := by
  simp only [List.Forall]; repeat' constructor
/-- Each operation of this stretch writes only its own result, which is none of the kept references. -/
theorem hostOps1_9_keeps : (hostOps1_9 : List (HloOp τ sig (Elt F))).Forall Keeps := by
  simp only [List.Forall, Keeps, keptRefs, List.forall_mem_cons, List.not_mem_nil, IsEmpty.forall_iff, implies_true, and_true, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)
theorem hostOps1_10_fresh : (hostOps1_10 : List (HloOp τ sig (Elt F))).Forall fun op => op.fresh = ∅ := by
  simp only [List.Forall]; repeat' constructor
/-- Each operation of this stretch writes only its own result, which is none of the kept references. -/
theorem hostOps1_10_keeps : (hostOps1_10 : List (HloOp τ sig (Elt F))).Forall Keeps := by
  simp only [List.Forall, Keeps, keptRefs, List.forall_mem_cons, List.not_mem_nil, IsEmpty.forall_iff, implies_true, and_true, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)

/-- The stretches of host operations after the region, in order. -/
abbrev tail : List (List (HloOp τ sig (Elt F))) := [hostOps1, hostOps1_1, hostOps1_2, hostOps1_3, hostOps1_4, hostOps1_5, hostOps1_6, hostOps1_7, hostOps1_8, hostOps1_9, hostOps1_10]

/-- @main around the region: the region, then the host stretches (`main_chain`): it reduces to the region continued
    by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6, StableHlo.seq hostOps1_7, StableHlo.seq hostOps1_8, StableHlo.seq hostOps1_9, StableHlo.seq hostOps1_10]) :=
  Pipeline.hmain_around cfgs 0 defs₀ 𝒱₀ m main [] [hostOps1, hostOps1_1, hostOps1_2, hostOps1_3, hostOps1_4, hostOps1_5, hostOps1_6, hostOps1_7, hostOps1_8, hostOps1_9, hostOps1_10] (by simp only [List.Forall])
    (by simp only [List.Forall]) main_chain

/-- Membership in the tail, stretch by stretch. -/
theorem tail_cases {P : List (HloOp τ sig (Elt F)) → Prop}
    (h0 : P hostOps1)
    (h1 : P hostOps1_1)
    (h2 : P hostOps1_2)
    (h3 : P hostOps1_3)
    (h4 : P hostOps1_4)
    (h5 : P hostOps1_5)
    (h6 : P hostOps1_6)
    (h7 : P hostOps1_7)
    (h8 : P hostOps1_8)
    (h9 : P hostOps1_9)
    (h10 : P hostOps1_10) :
    ∀ ops ∈ ([hostOps1, hostOps1_1, hostOps1_2, hostOps1_3, hostOps1_4, hostOps1_5, hostOps1_6, hostOps1_7, hostOps1_8, hostOps1_9, hostOps1_10] : List (List (HloOp τ sig (Elt F)))), P ops := by
  intro ops hops
  simp only [List.mem_cons, List.not_mem_nil, or_false] at hops
  rcases hops with rfl | rfl | rfl | rfl | rfl | rfl | rfl | rfl | rfl | rfl | rfl
  · exact h0
  · exact h1
  · exact h2
  · exact h3
  · exact h4
  · exact h5
  · exact h6
  · exact h7
  · exact h8
  · exact h9
  · exact h10

/-- The operations after the region touch the pipeline's arrays and the bypassing buffers only. -/
theorem sfx_sub : ∀ ops ∈ ([hostOps1, hostOps1_1, hostOps1_2, hostOps1_3, hostOps1_4, hostOps1_5, hostOps1_6, hostOps1_7, hostOps1_8, hostOps1_9, hostOps1_10] : List (List (HloOp τ sig (Elt F)))), ∀ op ∈ ops,
    op.bufs ⊆ Pipeline.tailRefs sig Pipeline.Prefetch.none spec0 := by
  rw [Pipeline.tailRefs_none spec0 launch0.win.arr_unscoped]
  exact tail_cases
    (fun op hop => Pipeline.sub_ucRefs op ((List.forall_iff_forall_mem.mp hostOps1_sub) op hop))
    (fun op hop => Pipeline.sub_ucRefs op ((List.forall_iff_forall_mem.mp hostOps1_1_sub) op hop))
    (fun op hop => Pipeline.sub_ucRefs op ((List.forall_iff_forall_mem.mp hostOps1_2_sub) op hop))
    (fun op hop => Pipeline.sub_ucRefs op ((List.forall_iff_forall_mem.mp hostOps1_3_sub) op hop))
    (fun op hop => Pipeline.sub_ucRefs op ((List.forall_iff_forall_mem.mp hostOps1_4_sub) op hop))
    (fun op hop => Pipeline.sub_ucRefs op ((List.forall_iff_forall_mem.mp hostOps1_5_sub) op hop))
    (fun op hop => Pipeline.sub_ucRefs op ((List.forall_iff_forall_mem.mp hostOps1_6_sub) op hop))
    (fun op hop => Pipeline.sub_ucRefs op ((List.forall_iff_forall_mem.mp hostOps1_7_sub) op hop))
    (fun op hop => Pipeline.sub_ucRefs op ((List.forall_iff_forall_mem.mp hostOps1_8_sub) op hop))
    (fun op hop => Pipeline.sub_ucRefs op ((List.forall_iff_forall_mem.mp hostOps1_9_sub) op hop))
    (fun op hop => Pipeline.sub_ucRefs op ((List.forall_iff_forall_mem.mp hostOps1_10_sub) op hop))
/-- They allocate nothing. -/
theorem sfx_fresh : ∀ ops ∈ ([hostOps1, hostOps1_1, hostOps1_2, hostOps1_3, hostOps1_4, hostOps1_5, hostOps1_6, hostOps1_7, hostOps1_8, hostOps1_9, hostOps1_10] : List (List (HloOp τ sig (Elt F)))), ∀ op ∈ ops, op.fresh = ∅ :=
  tail_cases
    (fun op hop => (List.forall_iff_forall_mem.mp hostOps1_fresh) op hop)
    (fun op hop => (List.forall_iff_forall_mem.mp hostOps1_1_fresh) op hop)
    (fun op hop => (List.forall_iff_forall_mem.mp hostOps1_2_fresh) op hop)
    (fun op hop => (List.forall_iff_forall_mem.mp hostOps1_3_fresh) op hop)
    (fun op hop => (List.forall_iff_forall_mem.mp hostOps1_4_fresh) op hop)
    (fun op hop => (List.forall_iff_forall_mem.mp hostOps1_5_fresh) op hop)
    (fun op hop => (List.forall_iff_forall_mem.mp hostOps1_6_fresh) op hop)
    (fun op hop => (List.forall_iff_forall_mem.mp hostOps1_7_fresh) op hop)
    (fun op hop => (List.forall_iff_forall_mem.mp hostOps1_8_fresh) op hop)
    (fun op hop => (List.forall_iff_forall_mem.mp hostOps1_9_fresh) op hop)
    (fun op hop => (List.forall_iff_forall_mem.mp hostOps1_10_fresh) op hop)
/-- None writes a kept reference. -/
theorem sfx_kept : ∀ ops ∈ ([hostOps1, hostOps1_1, hostOps1_2, hostOps1_3, hostOps1_4, hostOps1_5, hostOps1_6, hostOps1_7, hostOps1_8, hostOps1_9, hostOps1_10] : List (List (HloOp τ sig (Elt F)))), ∀ op ∈ ops, Keeps op :=
  tail_cases
    (fun op hop => (List.forall_iff_forall_mem.mp hostOps1_keeps) op hop)
    (fun op hop => (List.forall_iff_forall_mem.mp hostOps1_1_keeps) op hop)
    (fun op hop => (List.forall_iff_forall_mem.mp hostOps1_2_keeps) op hop)
    (fun op hop => (List.forall_iff_forall_mem.mp hostOps1_3_keeps) op hop)
    (fun op hop => (List.forall_iff_forall_mem.mp hostOps1_4_keeps) op hop)
    (fun op hop => (List.forall_iff_forall_mem.mp hostOps1_5_keeps) op hop)
    (fun op hop => (List.forall_iff_forall_mem.mp hostOps1_6_keeps) op hop)
    (fun op hop => (List.forall_iff_forall_mem.mp hostOps1_7_keeps) op hop)
    (fun op hop => (List.forall_iff_forall_mem.mp hostOps1_8_keeps) op hop)
    (fun op hop => (List.forall_iff_forall_mem.mp hostOps1_9_keeps) op hop)
    (fun op hop => (List.forall_iff_forall_mem.mp hostOps1_10_keeps) op hop)
/-- Each of the pipeline's six arrays is a kept reference. -/
theorem arrRef_kept : ∀ w : Fin 6, Pipeline.arrRef spec0 w ∈ keptRefs := by decide
/-- And none writes an array of the pipeline. -/
theorem sfx_keeps : ∀ ops ∈ ([hostOps1, hostOps1_1, hostOps1_2, hostOps1_3, hostOps1_4, hostOps1_5, hostOps1_6, hostOps1_7, hostOps1_8, hostOps1_9, hostOps1_10] : List (List (HloOp τ sig (Elt F)))), ∀ op ∈ ops,
    ∀ w, Proc.devRef .tc (Pipeline.arrRef spec0 w) ∉ op.writes :=
  fun ops hops op hop w => sfx_kept ops hops op hop _ (arrRef_kept w)

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is `V`'s and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's one conditional (the reset of the four outputs), from the grid coordinates: the
    tile coordinate is zero. -/
abbrev cond0_0 (i : grid0.Coords) : Prop := (Scalar.cmpi .ne (Scalar.extui (Scalar.cmpi .eq (BitVec.ofNat 32 (i 1).val) 0#32)) 0#32) = 1#1
/-- It holds at the points ≡ 0 (mod 8): the first tile of each image — decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging memrefs -/

/-- One staging buffer of output window 2, through which its contents are stated (the choice does not matter). -/
abbrev VO0_2 : View sig .tc .vmem S1x1x11 .f32 := (Memref.whole cc0_stg2_0 : Memref sig .tc .vmem S1x1x11 .f32).view
/-- One staging buffer of output window 3, through which its contents are stated (the choice does not matter). -/
abbrev VO0_3 : View sig .tc .vmem S1x1x16 .f32 := (Memref.whole cc0_stg3_0 : Memref sig .tc .vmem S1x1x16 .f32).view
/-- One staging buffer of output window 4, through which its contents are stated (the choice does not matter). -/
abbrev VO0_4 : View sig .tc .vmem S1x1x16x3 .f32 := (Memref.whole cc0_stg4_0 : Memref sig .tc .vmem S1x1x16x3 .f32).view
/-- One staging buffer of output window 5, through which its contents are stated (the choice does not matter). -/
abbrev VO0_5 : View sig .tc .vmem S1x1x16x3 .f32 := (Memref.whole cc0_stg5_0 : Memref sig .tc .vmem S1x1x16x3 .f32).view
/-- Each window's current staging memref at point `t`, spelled as the pipeline passes it, and its wholeness. -/
abbrev ms0_0 (t : Fin cfg0.N) : Memref sig .tc .vmem S1x134x32x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x101x32x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x11 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x16x3 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x16x3 .f32 := win0_5.stage (cfg0.slots t 5)
abbrev hs0_5 (t : Fin cfg0.N) : (ms0_5 t).IsWhole := hstage0_5 ((cfg0.slots t 5).cast nbuf0_5)

end Cert.Kernel.TileSums

end
-- ==== Proof.TileSumsBits.CaseFirstTile.lean ====
import proofs.«112959_j30356828848315_1_alg».proof.Proof.TileSumsBits.Shared

/-! # Tile sums: the body at the first tile of an image

At a point whose tile coordinate is zero the body first stores zeros into the four output blocks, then loads each
block back, adds the tile's partial sums and stores the block whole. Whatever the four staging buffers held before
is overwritten: the run below takes them at any contents and returns each with the pieces the stores leave (the
reset, then the accumulated block), the two input buffers unchanged. -/

set_option maxRecDepth 16384

noncomputable section

namespace Cert.Kernel.TileSums

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each output's staging memref, as pieces (last first), in the case of a first tile (the reset taken), with the
    proof that on whole staging memrefs — the inputs' at their contents, the outputs' at anything — the body runs
    to the continuation holding the inputs' as they were and each output's buffer with its pieces written. -/
noncomputable def kernelRun0_A (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : cond0_0 i)
    (x0 : Vec F S1x134x32x256 .f32) (x1 : Vec F S1x101x32x256 .f32) :
    Σ' (L2 : List (View.Piece (Elt F) S1x1x11 .f32)), Σ' (L3 : List (View.Piece (Elt F) S1x1x16 .f32)), Σ' (L4 : List (View.Piece (Elt F) S1x1x16x3 .f32)), { L5 : List (View.Piece (Elt F) S1x1x16x3 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0__pixel_kernel i arg2 harg2 arg3 harg3 arg4 harg4 arg5 harg5 arg6 harg6 arg7 harg7) K } := by
  refine ⟨?_, ?_, ?_, ?_, fun E K => ?run⟩
  case run =>
    simp only [cc0__pixel_kernel_eq_skeleton]; unfold cc0__pixel_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    iexists _; iexact H5

end Cert.Kernel.TileSums

end
-- ==== Proof.TileSumsBits.CaseLaterTile.lean ====
import proofs.«112959_j30356828848315_1_alg».proof.Proof.TileSumsBits.CaseFirstTile

/-! # Tile sums: the body at a later tile of an image

At a point whose tile coordinate is not zero the body skips the reset: it loads each of the four output blocks — which
hold what the point before left —, adds the tile's partial sums and stores the block whole. The run below takes the
four staging buffers at their running contents and returns each with the one piece its store leaves, the two input
buffers unchanged. -/

set_option maxRecDepth 16384

noncomputable section

namespace Cert.Kernel.TileSums

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each output's staging memref, as pieces (last first), in the case of a later tile (the reset skipped), with the
    proof that on whole staging memrefs — the inputs' at their contents, the outputs' at their running contents — the body runs
    to the continuation holding the inputs' as they were and each output's buffer with its pieces written. -/
noncomputable def kernelRun0_B (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : ¬cond0_0 i)
    (x0 : Vec F S1x134x32x256 .f32) (x1 : Vec F S1x101x32x256 .f32) (xo2 : Vec F S1x1x11 .f32) (xo3 : Vec F S1x1x16 .f32) (xo4 : Vec F S1x1x16x3 .f32) (xo5 : Vec F S1x1x16x3 .f32) :
    Σ' (L2 : List (View.Piece (Elt F) S1x1x11 .f32)), Σ' (L3 : List (View.Piece (Elt F) S1x1x16 .f32)), Σ' (L4 : List (View.Piece (Elt F) S1x1x16x3 .f32)), { L5 : List (View.Piece (Elt F) S1x1x16x3 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3 ∗ owns (c : Thread nD τ) arg6 fullShare xo4 ∗ owns (c : Thread nD τ) arg7 fullShare xo5
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0__pixel_kernel i arg2 harg2 arg3 harg3 arg4 harg4 arg5 harg5 arg6 harg6 arg7 harg7) K } := by
  refine ⟨?_, ?_, ?_, ?_, fun E K => ?run⟩
  case run =>
    simp only [cc0__pixel_kernel_eq_skeleton]; unfold cc0__pixel_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    iexists _; iexact H5

end Cert.Kernel.TileSums

end
-- ==== Proof.TileSumsBits.FrameRun.lean ====
import proofs.«112959_j30356828848315_1_alg».proof.Proof.TileSumsBits.CaseLaterTile

/-! # Tile sums: the frame run

From the two runs of the body (first tile of an image: the four output blocks reset, then accumulated; later tile:
accumulated over what the point before left) this module states what the four output staging buffers hold after each
of the 32 points (`outsAt0`, by recursion on the point: the blocks are written back only after an image's last
tile, so between two tiles of one image each buffer keeps what the body left), gives the pipeline's proof data,
discharges the body obligation at every point, runs @main (the region, then the host operations, which write none
of the pipeline's arrays), and concludes that the three argument arrays end as they began: the two staged inputs are
only read, and the third argument is staged by no window and written by no host operation. -/

set_option maxRecDepth 16384

noncomputable section

namespace Cert.Kernel.TileSums

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- In the case of a first tile the pieces left in output 2's buffer tile its block, so they cover it. -/
theorem cover0_A_2 (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : cond0_0 i)
    (x0 : Vec F S1x134x32x256 .f32) (x1 : Vec F S1x101x32x256 .f32) (y : S1x1x11.Idx) :
    ∃ pc ∈ (kernelRun0_A c i arg2 harg2 arg3 harg3 arg4 harg4 arg5 harg5 arg6 harg6 arg7 harg7 hc0 x0 x1).1, y ∈ pc.1.set :=
  View.cover_of_tiledL (kernelRun0_A c i arg2 harg2 arg3 harg3 arg4 harg4 arg5 harg5 arg6 harg6 arg7 harg7 hc0 x0 x1).1 S1x1x11.size (by sl_kernel_rfl) y

/-- What that case leaves in output 2's staging buffer: its pieces read back over junk. -/
def out0_A_2 (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : cond0_0 i)
    (x0 : Vec F S1x134x32x256 .f32) (x1 : Vec F S1x101x32x256 .f32) : Vec F S1x1x11 .f32 :=
  VO0_2.read (Elt F) (VO0_2.writes (Elt F) VO0_2.junk (kernelRun0_A c i arg2 harg2 arg3 harg3 arg4 harg4 arg5 harg5 arg6 harg6 arg7 harg7 hc0 x0 x1).1)

/-- In the case of a first tile the pieces left in output 3's buffer tile its block, so they cover it. -/
theorem cover0_A_3 (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : cond0_0 i)
    (x0 : Vec F S1x134x32x256 .f32) (x1 : Vec F S1x101x32x256 .f32) (y : S1x1x16.Idx) :
    ∃ pc ∈ (kernelRun0_A c i arg2 harg2 arg3 harg3 arg4 harg4 arg5 harg5 arg6 harg6 arg7 harg7 hc0 x0 x1).2.1, y ∈ pc.1.set :=
  View.cover_of_tiledL (kernelRun0_A c i arg2 harg2 arg3 harg3 arg4 harg4 arg5 harg5 arg6 harg6 arg7 harg7 hc0 x0 x1).2.1 S1x1x16.size (by sl_kernel_rfl) y

/-- What that case leaves in output 3's staging buffer: its pieces read back over junk. -/
def out0_A_3 (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : cond0_0 i)
    (x0 : Vec F S1x134x32x256 .f32) (x1 : Vec F S1x101x32x256 .f32) : Vec F S1x1x16 .f32 :=
  VO0_3.read (Elt F) (VO0_3.writes (Elt F) VO0_3.junk (kernelRun0_A c i arg2 harg2 arg3 harg3 arg4 harg4 arg5 harg5 arg6 harg6 arg7 harg7 hc0 x0 x1).2.1)

/-- In the case of a first tile the pieces left in output 4's buffer tile its block, so they cover it. -/
theorem cover0_A_4 (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : cond0_0 i)
    (x0 : Vec F S1x134x32x256 .f32) (x1 : Vec F S1x101x32x256 .f32) (y : S1x1x16x3.Idx) :
    ∃ pc ∈ (kernelRun0_A c i arg2 harg2 arg3 harg3 arg4 harg4 arg5 harg5 arg6 harg6 arg7 harg7 hc0 x0 x1).2.2.1, y ∈ pc.1.set :=
  View.cover_of_tiledL (kernelRun0_A c i arg2 harg2 arg3 harg3 arg4 harg4 arg5 harg5 arg6 harg6 arg7 harg7 hc0 x0 x1).2.2.1 S1x1x16x3.size (by sl_kernel_rfl) y

/-- What that case leaves in output 4's staging buffer: its pieces read back over junk. -/
def out0_A_4 (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : cond0_0 i)
    (x0 : Vec F S1x134x32x256 .f32) (x1 : Vec F S1x101x32x256 .f32) : Vec F S1x1x16x3 .f32 :=
  VO0_4.read (Elt F) (VO0_4.writes (Elt F) VO0_4.junk (kernelRun0_A c i arg2 harg2 arg3 harg3 arg4 harg4 arg5 harg5 arg6 harg6 arg7 harg7 hc0 x0 x1).2.2.1)

/-- In the case of a first tile the pieces left in output 5's buffer tile its block, so they cover it. -/
theorem cover0_A_5 (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : cond0_0 i)
    (x0 : Vec F S1x134x32x256 .f32) (x1 : Vec F S1x101x32x256 .f32) (y : S1x1x16x3.Idx) :
    ∃ pc ∈ (kernelRun0_A c i arg2 harg2 arg3 harg3 arg4 harg4 arg5 harg5 arg6 harg6 arg7 harg7 hc0 x0 x1).2.2.2.1, y ∈ pc.1.set :=
  View.cover_of_tiledL (kernelRun0_A c i arg2 harg2 arg3 harg3 arg4 harg4 arg5 harg5 arg6 harg6 arg7 harg7 hc0 x0 x1).2.2.2.1 S1x1x16x3.size (by sl_kernel_rfl) y

/-- What that case leaves in output 5's staging buffer: its pieces read back over junk. -/
def out0_A_5 (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : cond0_0 i)
    (x0 : Vec F S1x134x32x256 .f32) (x1 : Vec F S1x101x32x256 .f32) : Vec F S1x1x16x3 .f32 :=
  VO0_5.read (Elt F) (VO0_5.writes (Elt F) VO0_5.junk (kernelRun0_A c i arg2 harg2 arg3 harg3 arg4 harg4 arg5 harg5 arg6 harg6 arg7 harg7 hc0 x0 x1).2.2.2.1)

/-- In the case of a later tile the pieces left in output 2's buffer tile its block, so they cover it. -/
theorem cover0_B_2 (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : ¬cond0_0 i)
    (x0 : Vec F S1x134x32x256 .f32) (x1 : Vec F S1x101x32x256 .f32) (xo2 : Vec F S1x1x11 .f32) (xo3 : Vec F S1x1x16 .f32) (xo4 : Vec F S1x1x16x3 .f32) (xo5 : Vec F S1x1x16x3 .f32) (y : S1x1x11.Idx) :
    ∃ pc ∈ (kernelRun0_B c i arg2 harg2 arg3 harg3 arg4 harg4 arg5 harg5 arg6 harg6 arg7 harg7 hc0 x0 x1 xo2 xo3 xo4 xo5).1, y ∈ pc.1.set :=
  View.cover_of_tiledL (kernelRun0_B c i arg2 harg2 arg3 harg3 arg4 harg4 arg5 harg5 arg6 harg6 arg7 harg7 hc0 x0 x1 xo2 xo3 xo4 xo5).1 S1x1x11.size (by sl_kernel_rfl) y

/-- What that case leaves in output 2's staging buffer: its pieces read back over junk. -/
def out0_B_2 (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : ¬cond0_0 i)
    (x0 : Vec F S1x134x32x256 .f32) (x1 : Vec F S1x101x32x256 .f32) (xo2 : Vec F S1x1x11 .f32) (xo3 : Vec F S1x1x16 .f32) (xo4 : Vec F S1x1x16x3 .f32) (xo5 : Vec F S1x1x16x3 .f32) : Vec F S1x1x11 .f32 :=
  VO0_2.read (Elt F) (VO0_2.writes (Elt F) VO0_2.junk (kernelRun0_B c i arg2 harg2 arg3 harg3 arg4 harg4 arg5 harg5 arg6 harg6 arg7 harg7 hc0 x0 x1 xo2 xo3 xo4 xo5).1)

/-- In the case of a later tile the pieces left in output 3's buffer tile its block, so they cover it. -/
theorem cover0_B_3 (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : ¬cond0_0 i)
    (x0 : Vec F S1x134x32x256 .f32) (x1 : Vec F S1x101x32x256 .f32) (xo2 : Vec F S1x1x11 .f32) (xo3 : Vec F S1x1x16 .f32) (xo4 : Vec F S1x1x16x3 .f32) (xo5 : Vec F S1x1x16x3 .f32) (y : S1x1x16.Idx) :
    ∃ pc ∈ (kernelRun0_B c i arg2 harg2 arg3 harg3 arg4 harg4 arg5 harg5 arg6 harg6 arg7 harg7 hc0 x0 x1 xo2 xo3 xo4 xo5).2.1, y ∈ pc.1.set :=
  View.cover_of_tiledL (kernelRun0_B c i arg2 harg2 arg3 harg3 arg4 harg4 arg5 harg5 arg6 harg6 arg7 harg7 hc0 x0 x1 xo2 xo3 xo4 xo5).2.1 S1x1x16.size (by sl_kernel_rfl) y

/-- What that case leaves in output 3's staging buffer: its pieces read back over junk. -/
def out0_B_3 (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : ¬cond0_0 i)
    (x0 : Vec F S1x134x32x256 .f32) (x1 : Vec F S1x101x32x256 .f32) (xo2 : Vec F S1x1x11 .f32) (xo3 : Vec F S1x1x16 .f32) (xo4 : Vec F S1x1x16x3 .f32) (xo5 : Vec F S1x1x16x3 .f32) : Vec F S1x1x16 .f32 :=
  VO0_3.read (Elt F) (VO0_3.writes (Elt F) VO0_3.junk (kernelRun0_B c i arg2 harg2 arg3 harg3 arg4 harg4 arg5 harg5 arg6 harg6 arg7 harg7 hc0 x0 x1 xo2 xo3 xo4 xo5).2.1)

/-- In the case of a later tile the pieces left in output 4's buffer tile its block, so they cover it. -/
theorem cover0_B_4 (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : ¬cond0_0 i)
    (x0 : Vec F S1x134x32x256 .f32) (x1 : Vec F S1x101x32x256 .f32) (xo2 : Vec F S1x1x11 .f32) (xo3 : Vec F S1x1x16 .f32) (xo4 : Vec F S1x1x16x3 .f32) (xo5 : Vec F S1x1x16x3 .f32) (y : S1x1x16x3.Idx) :
    ∃ pc ∈ (kernelRun0_B c i arg2 harg2 arg3 harg3 arg4 harg4 arg5 harg5 arg6 harg6 arg7 harg7 hc0 x0 x1 xo2 xo3 xo4 xo5).2.2.1, y ∈ pc.1.set :=
  View.cover_of_tiledL (kernelRun0_B c i arg2 harg2 arg3 harg3 arg4 harg4 arg5 harg5 arg6 harg6 arg7 harg7 hc0 x0 x1 xo2 xo3 xo4 xo5).2.2.1 S1x1x16x3.size (by sl_kernel_rfl) y

/-- What that case leaves in output 4's staging buffer: its pieces read back over junk. -/
def out0_B_4 (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : ¬cond0_0 i)
    (x0 : Vec F S1x134x32x256 .f32) (x1 : Vec F S1x101x32x256 .f32) (xo2 : Vec F S1x1x11 .f32) (xo3 : Vec F S1x1x16 .f32) (xo4 : Vec F S1x1x16x3 .f32) (xo5 : Vec F S1x1x16x3 .f32) : Vec F S1x1x16x3 .f32 :=
  VO0_4.read (Elt F) (VO0_4.writes (Elt F) VO0_4.junk (kernelRun0_B c i arg2 harg2 arg3 harg3 arg4 harg4 arg5 harg5 arg6 harg6 arg7 harg7 hc0 x0 x1 xo2 xo3 xo4 xo5).2.2.1)

/-- In the case of a later tile the pieces left in output 5's buffer tile its block, so they cover it. -/
theorem cover0_B_5 (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : ¬cond0_0 i)
    (x0 : Vec F S1x134x32x256 .f32) (x1 : Vec F S1x101x32x256 .f32) (xo2 : Vec F S1x1x11 .f32) (xo3 : Vec F S1x1x16 .f32) (xo4 : Vec F S1x1x16x3 .f32) (xo5 : Vec F S1x1x16x3 .f32) (y : S1x1x16x3.Idx) :
    ∃ pc ∈ (kernelRun0_B c i arg2 harg2 arg3 harg3 arg4 harg4 arg5 harg5 arg6 harg6 arg7 harg7 hc0 x0 x1 xo2 xo3 xo4 xo5).2.2.2.1, y ∈ pc.1.set :=
  View.cover_of_tiledL (kernelRun0_B c i arg2 harg2 arg3 harg3 arg4 harg4 arg5 harg5 arg6 harg6 arg7 harg7 hc0 x0 x1 xo2 xo3 xo4 xo5).2.2.2.1 S1x1x16x3.size (by sl_kernel_rfl) y

/-- What that case leaves in output 5's staging buffer: its pieces read back over junk. -/
def out0_B_5 (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : ¬cond0_0 i)
    (x0 : Vec F S1x134x32x256 .f32) (x1 : Vec F S1x101x32x256 .f32) (xo2 : Vec F S1x1x11 .f32) (xo3 : Vec F S1x1x16 .f32) (xo4 : Vec F S1x1x16x3 .f32) (xo5 : Vec F S1x1x16x3 .f32) : Vec F S1x1x16x3 .f32 :=
  VO0_5.read (Elt F) (VO0_5.writes (Elt F) VO0_5.junk (kernelRun0_B c i arg2 harg2 arg3 harg3 arg4 harg4 arg5 harg5 arg6 harg6 arg7 harg7 hc0 x0 x1 xo2 xo3 xo4 xo5).2.2.2.1)

/-! ## What the outputs hold after each point -/

/-- THE ACCUMULATION. What the four outputs' staging buffers hold after the body at position `n` (a tuple, in window
    order): at a first tile the reset-and-accumulate case at the point's memrefs and input blocks; at a later tile the
    accumulate case over what this leaves at `n - 1` (the buffers are not written back between). -/
def outsAt0 (c : Dev nD) : (n : ℕ) → n < cfg0.N → Vec F S1x1x11 .f32 × Vec F S1x1x16 .f32 × Vec F S1x1x16x3 .f32 × Vec F S1x1x16x3 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩))
  | n + 1, hn =>
    if h0 : (n + 1) % 8 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2)

/-- `outsAt0` at a first tile: that case's contents. -/
theorem outsAt0_A (c : Dev nD) (t : Fin cfg0.N) (h0 : t.val % 8 = 0) :
    outsAt0 m c t.val t.isLt = (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t), out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t)) := by
  obtain ⟨n, hn⟩ := t
  cases n with
  | zero => exact rfl
  | succ n => exact (dif_pos h0).trans rfl

/-- `outsAt0` at a later tile: that case's contents, over what the point before left. -/
theorem outsAt0_B (c : Dev nD) (t : Fin cfg0.N) (h0 : ¬t.val % 8 = 0) :
    outsAt0 m c t.val t.isLt = (out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at point
    `t` each input's buffer at its block and the outputs' at `outsAt0`; the invariant the scoped rest and the
    generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2.1
    | ⟨5, _⟩ => (outsAt0 m c t.val t.isLt).2.2.2
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2.1 := by dsimp only [dats]
theorem after0_5 (c : Dev nD) (t : Fin cfg0.N) : (dats m 0 c).after 5 t = (outsAt0 m c t.val t.isLt).2.2.2 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a later tile output 2's current staging buffer holds what the body left at the point before: the point is not
    the first, and the buffer was not written back between (write-backs follow an image's last tile only). -/
theorem before0_2_B (c : Dev nD) (t : Fin cfg0.N) (h0 : ¬t.val % 8 = 0) (d) :
    (dats m 0 c).before 2 t d = (outsAt0 m c (t.val - 1) (Nat.lt_of_le_of_lt (Nat.sub_le _ _) t.isLt)).1 := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) (fun _ _ => rfl)]
  dsimp only [dats]
/-- At a later tile output 3's current staging buffer holds what the body left at the point before: the point is not
    the first, and the buffer was not written back between (write-backs follow an image's last tile only). -/
theorem before0_3_B (c : Dev nD) (t : Fin cfg0.N) (h0 : ¬t.val % 8 = 0) (d) :
    (dats m 0 c).before 3 t d = (outsAt0 m c (t.val - 1) (Nat.lt_of_le_of_lt (Nat.sub_le _ _) t.isLt)).2.1 := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (fun _ => rfl) (fun _ _ => rfl)]
  dsimp only [dats]
/-- At a later tile output 4's current staging buffer holds what the body left at the point before: the point is not
    the first, and the buffer was not written back between (write-backs follow an image's last tile only). -/
theorem before0_4_B (c : Dev nD) (t : Fin cfg0.N) (h0 : ¬t.val % 8 = 0) (d) :
    (dats m 0 c).before 4 t d = (outsAt0 m c (t.val - 1) (Nat.lt_of_le_of_lt (Nat.sub_le _ _) t.isLt)).2.2.1 := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    (fun _ => rfl) (fun _ _ => rfl)]
  dsimp only [dats]
/-- At a later tile output 5's current staging buffer holds what the body left at the point before: the point is not
    the first, and the buffer was not written back between (write-backs follow an image's last tile only). -/
theorem before0_5_B (c : Dev nD) (t : Fin cfg0.N) (h0 : ¬t.val % 8 = 0) (d) :
    (dats m 0 c).before 5 t d = (outsAt0 m c (t.val - 1) (Nat.lt_of_le_of_lt (Nat.sub_le _ _) t.isLt)).2.2.2 := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
/-- The body at any point: the inputs' memrefs hold their blocks; the closed form says which case the point is in; at a
    later tile each output holds what the point before left; so the case's run applies; the invariant passes through
    unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  have hN : t.val < 32 := lt_of_lt_of_eq t.isLt (show cfg0.N = 32 from N_0)
  by_cases h0 : t.val % 8 = 0
  · rw [outsAt0_A m c t h0]
    unfold out0_A_2 out0_A_3 out0_A_4 out0_A_5; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk m c 0 t) (iblk m c 1 t)).2.2.2.2 Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    iintro ⟨H0, H1, ⟨%e2, H2⟩, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _)
  · rw [outsAt0_B m c t h0]
    simp only [before0_2_B m c t h0, before0_3_B m c t h0, before0_4_B m c t h0, before0_5_B m c t h0]
    unfold out0_B_2 out0_B_3 out0_B_4 out0_B_5; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk m c 0 t) (iblk m c 1 t) _ _ _ _).2.2.2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, ⟨%e2, H2⟩, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _ _ _ _ _)
    isplitl [H4]
    · unfold owns; iexists _; isplitr
      swap; · iexact H4
      ipureintro; exact View.read_writes_of_cover _ _ _ _ _ (cover0_B_4 c _ _ _ _ _ _ _ _ _ _ _ _ _ _ _ _ _ _ _ _)
    unfold owns; iexists _; isplitr
    swap; · iexact H5
    ipureintro; exact View.read_writes_of_cover _ _ _ _ _ (cover0_B_5 c _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on the
    TensorCores terminates, and every final state has every array of the pipeline at what the library computes from the
    proof data and every other unscoped buffer as the host operations after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4, hostOps1_5, hostOps1_6, hostOps1_7, hostOps1_8, hostOps1_9, hostOps1_10])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5, hostOps1_6, hostOps1_7, hostOps1_8, hostOps1_9, hostOps1_10]) (hsub := sfx_sub) (hfresh := sfx_fresh) (hkeep := sfx_keeps)
    (hmain := hmain m Variants.none) (hA := A_eq m) (hin := fun _ => Idealize.SL.BI.Entails.refl _) (hout := fun _ => Idealize.SL.BI.Entails.refl _)

/-- The third argument is staged by no window, and no host operation after the region writes it: after the tail it
    holds what it held at launch. -/
theorem afterTail_main_arg2 (dats' : (p : Fin 1) → (c : Dev nD) → Dat τ (Elt F) Unit ℕ (UR sig nD τ) ℕ (cfgs p) c) (c : Dev nD) :
    Pipeline.afterTail₀ cfgs dats' 0 (V0 m) [hostOps1, hostOps1_1, hostOps1_2, hostOps1_3, hostOps1_4, hostOps1_5, hostOps1_6, hostOps1_7, hostOps1_8, hostOps1_9, hostOps1_10] c main_arg2 = m ((c.tc : Thread nD τ).loc main_arg2) := by
  unfold Pipeline.afterTail₀
  rw [StableHlo.after_of_forall_not_mem (b := Proc.devRef .tc main_arg2) _ _ (fun op hop => by
      obtain ⟨ops, hops, hop'⟩ := List.mem_flatten.mp hop
      exact sfx_kept ops hops op hop' main_arg2 (by decide)),
    Pipeline.withArrays_of_ne _ c (V0 m c) _ main_arg2 (by decide)]
  rfl

/-- THE FRAME from a frame run: for any proof data whose arrays are the region-entry contents, a run to the frame
    post read at the argument arrays — a staged input by the library's `Dat.arrAt_in`, the unstaged argument by the
    post's second clause and `afterTail_main_arg2` — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4, hostOps1_5, hostOps1_6, hostOps1_7, hostOps1_8, hostOps1_9, hostOps1_10]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (afterTail_main_arg2 m dats c)⟩) h

/-- THE FRAME: the program runs and its three argument arrays end unchanged, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.TileSums

end
-- ==== Proof.TileSums.Shared.lean ====
import proofs.«112959_j30356828848315_1_alg».proof.Proof.Gen.KernelIdeal.Launch
import proofs.«112959_j30356828848315_1_alg».proof.Proof.Gen.KernelIdeal.Skeleton
import proofs.«112959_j30356828848315_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! # Tile sums: what the two control cases share

The program is one pipelined region over a grid of 4 × 8 points (point `t = 8·b + h`) followed by host
operations that only read the region's four result arrays. The region's body accumulates, over the eight
tiles `h` of image `b`, partial sums into four small output blocks indexed by `b` alone; the blocks are
reset at `h = 0`. This module fixes the buffer contents at the region's entry, the shape of @main around the
region (the region first, then eleven stretches of host operations none of which writes an array of the
pipeline or allocates), each window's block, the closed form of the body's one branch condition
(`h = 0 ↔ t % 8 = 0`), and the staging memrefs the body is called with. -/

set_option maxRecDepth 16384

noncomputable section

namespace Cert.KernelIdeal.TileSums

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: as launched (no host operation precedes it). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The references no host operation after the region writes: the three arguments and the region's four results. -/
abbrev keptRefs : List (Ref sig .tc) := [main_arg0, main_arg1, main_arg2, main_v0_0, main_v0_1, main_v0_2, main_v0_3]

/-- An operation that writes none of the kept references. -/
abbrev Keeps (op : HloOp τ sig (Elt F)) : Prop := ∀ b ∈ keptRefs, Proc.devRef (τ := τ) .tc b ∉ op.writes

theorem hostOps1_fresh : (hostOps1 : List (HloOp τ sig (Elt F))).Forall fun op => op.fresh = ∅ := by
  simp only [List.Forall]; repeat' constructor
/-- Each operation of this stretch writes only its own result, which is none of the kept references. -/
theorem hostOps1_keeps : (hostOps1 : List (HloOp τ sig (Elt F))).Forall Keeps := by
  simp only [List.Forall, Keeps, keptRefs, List.forall_mem_cons, List.not_mem_nil, IsEmpty.forall_iff, implies_true, and_true, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)
theorem hostOps1_1_fresh : (hostOps1_1 : List (HloOp τ sig (Elt F))).Forall fun op => op.fresh = ∅ := by
  simp only [List.Forall]; repeat' constructor
/-- Each operation of this stretch writes only its own result, which is none of the kept references. -/
theorem hostOps1_1_keeps : (hostOps1_1 : List (HloOp τ sig (Elt F))).Forall Keeps := by
  simp only [List.Forall, Keeps, keptRefs, List.forall_mem_cons, List.not_mem_nil, IsEmpty.forall_iff, implies_true, and_true, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)
theorem hostOps1_2_fresh : (hostOps1_2 : List (HloOp τ sig (Elt F))).Forall fun op => op.fresh = ∅ := by
  simp only [List.Forall]; repeat' constructor
/-- Each operation of this stretch writes only its own result, which is none of the kept references. -/
theorem hostOps1_2_keeps : (hostOps1_2 : List (HloOp τ sig (Elt F))).Forall Keeps := by
  simp only [List.Forall, Keeps, keptRefs, List.forall_mem_cons, List.not_mem_nil, IsEmpty.forall_iff, implies_true, and_true, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)
theorem hostOps1_3_fresh : (hostOps1_3 : List (HloOp τ sig (Elt F))).Forall fun op => op.fresh = ∅ := by
  simp only [List.Forall]; repeat' constructor
/-- Each operation of this stretch writes only its own result, which is none of the kept references. -/
theorem hostOps1_3_keeps : (hostOps1_3 : List (HloOp τ sig (Elt F))).Forall Keeps := by
  simp only [List.Forall, Keeps, keptRefs, List.forall_mem_cons, List.not_mem_nil, IsEmpty.forall_iff, implies_true, and_true, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)
theorem hostOps1_4_fresh : (hostOps1_4 : List (HloOp τ sig (Elt F))).Forall fun op => op.fresh = ∅ := by
  simp only [List.Forall]; repeat' constructor
/-- Each operation of this stretch writes only its own result, which is none of the kept references. -/
theorem hostOps1_4_keeps : (hostOps1_4 : List (HloOp τ sig (Elt F))).Forall Keeps := by
  simp only [List.Forall, Keeps, keptRefs, List.forall_mem_cons, List.not_mem_nil, IsEmpty.forall_iff, implies_true, and_true, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)
theorem hostOps1_5_fresh : (hostOps1_5 : List (HloOp τ sig (Elt F))).Forall fun op => op.fresh = ∅ := by
  simp only [List.Forall]; repeat' constructor
/-- Each operation of this stretch writes only its own result, which is none of the kept references. -/
theorem hostOps1_5_keeps : (hostOps1_5 : List (HloOp τ sig (Elt F))).Forall Keeps := by
  simp only [List.Forall, Keeps, keptRefs, List.forall_mem_cons, List.not_mem_nil, IsEmpty.forall_iff, implies_true, and_true, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)
theorem hostOps1_6_fresh : (hostOps1_6 : List (HloOp τ sig (Elt F))).Forall fun op => op.fresh = ∅ := by
  simp only [List.Forall]; repeat' constructor
/-- Each operation of this stretch writes only its own result, which is none of the kept references. -/
theorem hostOps1_6_keeps : (hostOps1_6 : List (HloOp τ sig (Elt F))).Forall Keeps := by
  simp only [List.Forall, Keeps, keptRefs, List.forall_mem_cons, List.not_mem_nil, IsEmpty.forall_iff, implies_true, and_true, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)
theorem hostOps1_7_fresh : (hostOps1_7 : List (HloOp τ sig (Elt F))).Forall fun op => op.fresh = ∅ := by
  simp only [List.Forall]; repeat' constructor
/-- Each operation of this stretch writes only its own result, which is none of the kept references. -/
theorem hostOps1_7_keeps : (hostOps1_7 : List (HloOp τ sig (Elt F))).Forall Keeps := by
  simp only [List.Forall, Keeps, keptRefs, List.forall_mem_cons, List.not_mem_nil, IsEmpty.forall_iff, implies_true, and_true, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)
theorem hostOps1_8_fresh : (hostOps1_8 : List (HloOp τ sig (Elt F))).Forall fun op => op.fresh = ∅ := by
  simp only [List.Forall]; repeat' constructor
/-- Each operation of this stretch writes only its own result, which is none of the kept references. -/
theorem hostOps1_8_keeps : (hostOps1_8 : List (HloOp τ sig (Elt F))).Forall Keeps := by
  simp only [List.Forall, Keeps, keptRefs, List.forall_mem_cons, List.not_mem_nil, IsEmpty.forall_iff, implies_true, and_true, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)
theorem hostOps1_9_fresh : (hostOps1_9 : List (HloOp τ sig (Elt F))).Forall fun op => op.fresh = ∅ := by
  simp only [List.Forall]; repeat' constructor
/-- Each operation of this stretch writes only its own result, which is none of the kept references. -/
theorem hostOps1_9_keeps : (hostOps1_9 : List (HloOp τ sig (Elt F))).Forall Keeps := by
  simp only [List.Forall, Keeps, keptRefs, List.forall_mem_cons, List.not_mem_nil, IsEmpty.forall_iff, implies_true, and_true, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)
theorem hostOps1_10_fresh : (hostOps1_10 : List (HloOp τ sig (Elt F))).Forall fun op => op.fresh = ∅ := by
  simp only [List.Forall]; repeat' constructor
/-- Each operation of this stretch writes only its own result, which is none of the kept references. -/
theorem hostOps1_10_keeps : (hostOps1_10 : List (HloOp τ sig (Elt F))).Forall Keeps := by
  simp only [List.Forall, Keeps, keptRefs, List.forall_mem_cons, List.not_mem_nil, IsEmpty.forall_iff, implies_true, and_true, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)

/-- The stretches of host operations after the region, in order. -/
abbrev tail : List (List (HloOp τ sig (Elt F))) := [hostOps1, hostOps1_1, hostOps1_2, hostOps1_3, hostOps1_4, hostOps1_5, hostOps1_6, hostOps1_7, hostOps1_8, hostOps1_9, hostOps1_10]

/-- @main around the region: the region, then the host stretches (`main_chain`): it reduces to the region continued
    by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6, StableHlo.seq hostOps1_7, StableHlo.seq hostOps1_8, StableHlo.seq hostOps1_9, StableHlo.seq hostOps1_10]) :=
  Pipeline.hmain_around cfgs 0 defs₀ 𝒱₀ m main [] [hostOps1, hostOps1_1, hostOps1_2, hostOps1_3, hostOps1_4, hostOps1_5, hostOps1_6, hostOps1_7, hostOps1_8, hostOps1_9, hostOps1_10] (by simp only [List.Forall])
    (by simp only [List.Forall]) main_chain

/-- Membership in the tail, stretch by stretch. -/
theorem tail_cases {P : List (HloOp τ sig (Elt F)) → Prop}
    (h0 : P hostOps1)
    (h1 : P hostOps1_1)
    (h2 : P hostOps1_2)
    (h3 : P hostOps1_3)
    (h4 : P hostOps1_4)
    (h5 : P hostOps1_5)
    (h6 : P hostOps1_6)
    (h7 : P hostOps1_7)
    (h8 : P hostOps1_8)
    (h9 : P hostOps1_9)
    (h10 : P hostOps1_10) :
    ∀ ops ∈ ([hostOps1, hostOps1_1, hostOps1_2, hostOps1_3, hostOps1_4, hostOps1_5, hostOps1_6, hostOps1_7, hostOps1_8, hostOps1_9, hostOps1_10] : List (List (HloOp τ sig (Elt F)))), P ops := by
  intro ops hops
  simp only [List.mem_cons, List.not_mem_nil, or_false] at hops
  rcases hops with rfl | rfl | rfl | rfl | rfl | rfl | rfl | rfl | rfl | rfl | rfl
  · exact h0
  · exact h1
  · exact h2
  · exact h3
  · exact h4
  · exact h5
  · exact h6
  · exact h7
  · exact h8
  · exact h9
  · exact h10

/-- The operations after the region touch the pipeline's arrays and the bypassing buffers only. -/
theorem sfx_sub : ∀ ops ∈ ([hostOps1, hostOps1_1, hostOps1_2, hostOps1_3, hostOps1_4, hostOps1_5, hostOps1_6, hostOps1_7, hostOps1_8, hostOps1_9, hostOps1_10] : List (List (HloOp τ sig (Elt F)))), ∀ op ∈ ops,
    op.bufs ⊆ Pipeline.tailRefs sig Pipeline.Prefetch.none spec0 := by
  rw [Pipeline.tailRefs_none spec0 launch0.win.arr_unscoped]
  exact tail_cases
    (fun op hop => Pipeline.sub_ucRefs op ((List.forall_iff_forall_mem.mp hostOps1_sub) op hop))
    (fun op hop => Pipeline.sub_ucRefs op ((List.forall_iff_forall_mem.mp hostOps1_1_sub) op hop))
    (fun op hop => Pipeline.sub_ucRefs op ((List.forall_iff_forall_mem.mp hostOps1_2_sub) op hop))
    (fun op hop => Pipeline.sub_ucRefs op ((List.forall_iff_forall_mem.mp hostOps1_3_sub) op hop))
    (fun op hop => Pipeline.sub_ucRefs op ((List.forall_iff_forall_mem.mp hostOps1_4_sub) op hop))
    (fun op hop => Pipeline.sub_ucRefs op ((List.forall_iff_forall_mem.mp hostOps1_5_sub) op hop))
    (fun op hop => Pipeline.sub_ucRefs op ((List.forall_iff_forall_mem.mp hostOps1_6_sub) op hop))
    (fun op hop => Pipeline.sub_ucRefs op ((List.forall_iff_forall_mem.mp hostOps1_7_sub) op hop))
    (fun op hop => Pipeline.sub_ucRefs op ((List.forall_iff_forall_mem.mp hostOps1_8_sub) op hop))
    (fun op hop => Pipeline.sub_ucRefs op ((List.forall_iff_forall_mem.mp hostOps1_9_sub) op hop))
    (fun op hop => Pipeline.sub_ucRefs op ((List.forall_iff_forall_mem.mp hostOps1_10_sub) op hop))
/-- They allocate nothing. -/
theorem sfx_fresh : ∀ ops ∈ ([hostOps1, hostOps1_1, hostOps1_2, hostOps1_3, hostOps1_4, hostOps1_5, hostOps1_6, hostOps1_7, hostOps1_8, hostOps1_9, hostOps1_10] : List (List (HloOp τ sig (Elt F)))), ∀ op ∈ ops, op.fresh = ∅ :=
  tail_cases
    (fun op hop => (List.forall_iff_forall_mem.mp hostOps1_fresh) op hop)
    (fun op hop => (List.forall_iff_forall_mem.mp hostOps1_1_fresh) op hop)
    (fun op hop => (List.forall_iff_forall_mem.mp hostOps1_2_fresh) op hop)
    (fun op hop => (List.forall_iff_forall_mem.mp hostOps1_3_fresh) op hop)
    (fun op hop => (List.forall_iff_forall_mem.mp hostOps1_4_fresh) op hop)
    (fun op hop => (List.forall_iff_forall_mem.mp hostOps1_5_fresh) op hop)
    (fun op hop => (List.forall_iff_forall_mem.mp hostOps1_6_fresh) op hop)
    (fun op hop => (List.forall_iff_forall_mem.mp hostOps1_7_fresh) op hop)
    (fun op hop => (List.forall_iff_forall_mem.mp hostOps1_8_fresh) op hop)
    (fun op hop => (List.forall_iff_forall_mem.mp hostOps1_9_fresh) op hop)
    (fun op hop => (List.forall_iff_forall_mem.mp hostOps1_10_fresh) op hop)
/-- None writes a kept reference. -/
theorem sfx_kept : ∀ ops ∈ ([hostOps1, hostOps1_1, hostOps1_2, hostOps1_3, hostOps1_4, hostOps1_5, hostOps1_6, hostOps1_7, hostOps1_8, hostOps1_9, hostOps1_10] : List (List (HloOp τ sig (Elt F)))), ∀ op ∈ ops, Keeps op :=
  tail_cases
    (fun op hop => (List.forall_iff_forall_mem.mp hostOps1_keeps) op hop)
    (fun op hop => (List.forall_iff_forall_mem.mp hostOps1_1_keeps) op hop)
    (fun op hop => (List.forall_iff_forall_mem.mp hostOps1_2_keeps) op hop)
    (fun op hop => (List.forall_iff_forall_mem.mp hostOps1_3_keeps) op hop)
    (fun op hop => (List.forall_iff_forall_mem.mp hostOps1_4_keeps) op hop)
    (fun op hop => (List.forall_iff_forall_mem.mp hostOps1_5_keeps) op hop)
    (fun op hop => (List.forall_iff_forall_mem.mp hostOps1_6_keeps) op hop)
    (fun op hop => (List.forall_iff_forall_mem.mp hostOps1_7_keeps) op hop)
    (fun op hop => (List.forall_iff_forall_mem.mp hostOps1_8_keeps) op hop)
    (fun op hop => (List.forall_iff_forall_mem.mp hostOps1_9_keeps) op hop)
    (fun op hop => (List.forall_iff_forall_mem.mp hostOps1_10_keeps) op hop)
/-- Each of the pipeline's six arrays is a kept reference. -/
theorem arrRef_kept : ∀ w : Fin 6, Pipeline.arrRef spec0 w ∈ keptRefs := by decide
/-- And none writes an array of the pipeline. -/
theorem sfx_keeps : ∀ ops ∈ ([hostOps1, hostOps1_1, hostOps1_2, hostOps1_3, hostOps1_4, hostOps1_5, hostOps1_6, hostOps1_7, hostOps1_8, hostOps1_9, hostOps1_10] : List (List (HloOp τ sig (Elt F)))), ∀ op ∈ ops,
    ∀ w, Proc.devRef .tc (Pipeline.arrRef spec0 w) ∉ op.writes :=
  fun ops hops op hop w => sfx_kept ops hops op hop _ (arrRef_kept w)

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is `V`'s and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's one conditional (the reset of the four outputs), from the grid coordinates: the
    tile coordinate is zero. -/
abbrev cond0_0 (i : grid0.Coords) : Prop := (Scalar.cmpi .ne (Scalar.extui (Scalar.cmpi .eq (BitVec.ofNat 32 (i 1).val) 0#32)) 0#32) = 1#1
/-- It holds at the points ≡ 0 (mod 8): the first tile of each image — decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging memrefs -/

/-- One staging buffer of output window 2, through which its contents are stated (the choice does not matter). -/
abbrev VO0_2 : View sig .tc .vmem S1x1x11 .f32 := (Memref.whole cc0_stg2_0 : Memref sig .tc .vmem S1x1x11 .f32).view
/-- One staging buffer of output window 3, through which its contents are stated (the choice does not matter). -/
abbrev VO0_3 : View sig .tc .vmem S1x1x16 .f32 := (Memref.whole cc0_stg3_0 : Memref sig .tc .vmem S1x1x16 .f32).view
/-- One staging buffer of output window 4, through which its contents are stated (the choice does not matter). -/
abbrev VO0_4 : View sig .tc .vmem S1x1x16x3 .f32 := (Memref.whole cc0_stg4_0 : Memref sig .tc .vmem S1x1x16x3 .f32).view
/-- One staging buffer of output window 5, through which its contents are stated (the choice does not matter). -/
abbrev VO0_5 : View sig .tc .vmem S1x1x16x3 .f32 := (Memref.whole cc0_stg5_0 : Memref sig .tc .vmem S1x1x16x3 .f32).view
/-- Each window's current staging memref at point `t`, spelled as the pipeline passes it, and its wholeness. -/
abbrev ms0_0 (t : Fin cfg0.N) : Memref sig .tc .vmem S1x134x32x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x101x32x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x11 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x16x3 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x16x3 .f32 := win0_5.stage (cfg0.slots t 5)
abbrev hs0_5 (t : Fin cfg0.N) : (ms0_5 t).IsWhole := hstage0_5 ((cfg0.slots t 5).cast nbuf0_5)

end Cert.KernelIdeal.TileSums

end
-- ==== Proof.TileSums.CaseFirstTile.lean ====
import proofs.«112959_j30356828848315_1_alg».proof.Proof.TileSums.Shared

/-! # Tile sums: the body at the first tile of an image

At a point whose tile coordinate is zero the body first stores zeros into the four output blocks, then loads each
block back, adds the tile's partial sums and stores the block whole. Whatever the four staging buffers held before
is overwritten: the run below takes them at any contents and returns each with the pieces the stores leave (the
reset, then the accumulated block), the two input buffers unchanged. -/

set_option maxRecDepth 16384

noncomputable section

namespace Cert.KernelIdeal.TileSums

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each output's staging memref, as pieces (last first), in the case of a first tile (the reset taken), with the
    proof that on whole staging memrefs — the inputs' at their contents, the outputs' at anything — the body runs
    to the continuation holding the inputs' as they were and each output's buffer with its pieces written. -/
noncomputable def kernelRun0_A (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : cond0_0 i)
    (x0 : Vec F S1x134x32x256 .f32) (x1 : Vec F S1x101x32x256 .f32) :
    Σ' (L2 : List (View.Piece (Elt F) S1x1x11 .f32)), Σ' (L3 : List (View.Piece (Elt F) S1x1x16 .f32)), Σ' (L4 : List (View.Piece (Elt F) S1x1x16x3 .f32)), { L5 : List (View.Piece (Elt F) S1x1x16x3 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0__pixel_kernel i arg2 harg2 arg3 harg3 arg4 harg4 arg5 harg5 arg6 harg6 arg7 harg7) K } := by
  refine ⟨?_, ?_, ?_, ?_, fun E K => ?run⟩
  case run =>
    simp only [cc0__pixel_kernel_eq_skeleton]; unfold cc0__pixel_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    iexists _; iexact H5

end Cert.KernelIdeal.TileSums

end
-- ==== Proof.TileSums.CaseLaterTile.lean ====
import proofs.«112959_j30356828848315_1_alg».proof.Proof.TileSums.CaseFirstTile

/-! # Tile sums: the body at a later tile of an image

At a point whose tile coordinate is not zero the body skips the reset: it loads each of the four output blocks — which
hold what the point before left —, adds the tile's partial sums and stores the block whole. The run below takes the
four staging buffers at their running contents and returns each with the one piece its store leaves, the two input
buffers unchanged. -/

set_option maxRecDepth 16384

noncomputable section

namespace Cert.KernelIdeal.TileSums

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each output's staging memref, as pieces (last first), in the case of a later tile (the reset skipped), with the
    proof that on whole staging memrefs — the inputs' at their contents, the outputs' at their running contents — the body runs
    to the continuation holding the inputs' as they were and each output's buffer with its pieces written. -/
noncomputable def kernelRun0_B (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : ¬cond0_0 i)
    (x0 : Vec F S1x134x32x256 .f32) (x1 : Vec F S1x101x32x256 .f32) (xo2 : Vec F S1x1x11 .f32) (xo3 : Vec F S1x1x16 .f32) (xo4 : Vec F S1x1x16x3 .f32) (xo5 : Vec F S1x1x16x3 .f32) :
    Σ' (L2 : List (View.Piece (Elt F) S1x1x11 .f32)), Σ' (L3 : List (View.Piece (Elt F) S1x1x16 .f32)), Σ' (L4 : List (View.Piece (Elt F) S1x1x16x3 .f32)), { L5 : List (View.Piece (Elt F) S1x1x16x3 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3 ∗ owns (c : Thread nD τ) arg6 fullShare xo4 ∗ owns (c : Thread nD τ) arg7 fullShare xo5
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0__pixel_kernel i arg2 harg2 arg3 harg3 arg4 harg4 arg5 harg5 arg6 harg6 arg7 harg7) K } := by
  refine ⟨?_, ?_, ?_, ?_, fun E K => ?run⟩
  case run =>
    simp only [cc0__pixel_kernel_eq_skeleton]; unfold cc0__pixel_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    iexists _; iexact H5

end Cert.KernelIdeal.TileSums

end
-- ==== Proof.TileSums.FrameRun.lean ====
import proofs.«112959_j30356828848315_1_alg».proof.Proof.TileSums.CaseLaterTile

/-! # Tile sums: the frame run

From the two runs of the body (first tile of an image: the four output blocks reset, then accumulated; later tile:
accumulated over what the point before left) this module states what the four output staging buffers hold after each
of the 32 points (`outsAt0`, by recursion on the point: the blocks are written back only after an image's last
tile, so between two tiles of one image each buffer keeps what the body left), gives the pipeline's proof data,
discharges the body obligation at every point, runs @main (the region, then the host operations, which write none
of the pipeline's arrays), and concludes that the three argument arrays end as they began: the two staged inputs are
only read, and the third argument is staged by no window and written by no host operation. -/

set_option maxRecDepth 16384

noncomputable section

namespace Cert.KernelIdeal.TileSums

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- In the case of a first tile the pieces left in output 2's buffer tile its block, so they cover it. -/
theorem cover0_A_2 (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : cond0_0 i)
    (x0 : Vec F S1x134x32x256 .f32) (x1 : Vec F S1x101x32x256 .f32) (y : S1x1x11.Idx) :
    ∃ pc ∈ (kernelRun0_A c i arg2 harg2 arg3 harg3 arg4 harg4 arg5 harg5 arg6 harg6 arg7 harg7 hc0 x0 x1).1, y ∈ pc.1.set :=
  View.cover_of_tiledL (kernelRun0_A c i arg2 harg2 arg3 harg3 arg4 harg4 arg5 harg5 arg6 harg6 arg7 harg7 hc0 x0 x1).1 S1x1x11.size (by sl_kernel_rfl) y

/-- What that case leaves in output 2's staging buffer: its pieces read back over junk. -/
def out0_A_2 (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : cond0_0 i)
    (x0 : Vec F S1x134x32x256 .f32) (x1 : Vec F S1x101x32x256 .f32) : Vec F S1x1x11 .f32 :=
  VO0_2.read (Elt F) (VO0_2.writes (Elt F) VO0_2.junk (kernelRun0_A c i arg2 harg2 arg3 harg3 arg4 harg4 arg5 harg5 arg6 harg6 arg7 harg7 hc0 x0 x1).1)

/-- In the case of a first tile the pieces left in output 3's buffer tile its block, so they cover it. -/
theorem cover0_A_3 (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : cond0_0 i)
    (x0 : Vec F S1x134x32x256 .f32) (x1 : Vec F S1x101x32x256 .f32) (y : S1x1x16.Idx) :
    ∃ pc ∈ (kernelRun0_A c i arg2 harg2 arg3 harg3 arg4 harg4 arg5 harg5 arg6 harg6 arg7 harg7 hc0 x0 x1).2.1, y ∈ pc.1.set :=
  View.cover_of_tiledL (kernelRun0_A c i arg2 harg2 arg3 harg3 arg4 harg4 arg5 harg5 arg6 harg6 arg7 harg7 hc0 x0 x1).2.1 S1x1x16.size (by sl_kernel_rfl) y

/-- What that case leaves in output 3's staging buffer: its pieces read back over junk. -/
def out0_A_3 (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : cond0_0 i)
    (x0 : Vec F S1x134x32x256 .f32) (x1 : Vec F S1x101x32x256 .f32) : Vec F S1x1x16 .f32 :=
  VO0_3.read (Elt F) (VO0_3.writes (Elt F) VO0_3.junk (kernelRun0_A c i arg2 harg2 arg3 harg3 arg4 harg4 arg5 harg5 arg6 harg6 arg7 harg7 hc0 x0 x1).2.1)

/-- In the case of a first tile the pieces left in output 4's buffer tile its block, so they cover it. -/
theorem cover0_A_4 (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : cond0_0 i)
    (x0 : Vec F S1x134x32x256 .f32) (x1 : Vec F S1x101x32x256 .f32) (y : S1x1x16x3.Idx) :
    ∃ pc ∈ (kernelRun0_A c i arg2 harg2 arg3 harg3 arg4 harg4 arg5 harg5 arg6 harg6 arg7 harg7 hc0 x0 x1).2.2.1, y ∈ pc.1.set :=
  View.cover_of_tiledL (kernelRun0_A c i arg2 harg2 arg3 harg3 arg4 harg4 arg5 harg5 arg6 harg6 arg7 harg7 hc0 x0 x1).2.2.1 S1x1x16x3.size (by sl_kernel_rfl) y

/-- What that case leaves in output 4's staging buffer: its pieces read back over junk. -/
def out0_A_4 (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : cond0_0 i)
    (x0 : Vec F S1x134x32x256 .f32) (x1 : Vec F S1x101x32x256 .f32) : Vec F S1x1x16x3 .f32 :=
  VO0_4.read (Elt F) (VO0_4.writes (Elt F) VO0_4.junk (kernelRun0_A c i arg2 harg2 arg3 harg3 arg4 harg4 arg5 harg5 arg6 harg6 arg7 harg7 hc0 x0 x1).2.2.1)

/-- In the case of a first tile the pieces left in output 5's buffer tile its block, so they cover it. -/
theorem cover0_A_5 (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : cond0_0 i)
    (x0 : Vec F S1x134x32x256 .f32) (x1 : Vec F S1x101x32x256 .f32) (y : S1x1x16x3.Idx) :
    ∃ pc ∈ (kernelRun0_A c i arg2 harg2 arg3 harg3 arg4 harg4 arg5 harg5 arg6 harg6 arg7 harg7 hc0 x0 x1).2.2.2.1, y ∈ pc.1.set :=
  View.cover_of_tiledL (kernelRun0_A c i arg2 harg2 arg3 harg3 arg4 harg4 arg5 harg5 arg6 harg6 arg7 harg7 hc0 x0 x1).2.2.2.1 S1x1x16x3.size (by sl_kernel_rfl) y

/-- What that case leaves in output 5's staging buffer: its pieces read back over junk. -/
def out0_A_5 (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : cond0_0 i)
    (x0 : Vec F S1x134x32x256 .f32) (x1 : Vec F S1x101x32x256 .f32) : Vec F S1x1x16x3 .f32 :=
  VO0_5.read (Elt F) (VO0_5.writes (Elt F) VO0_5.junk (kernelRun0_A c i arg2 harg2 arg3 harg3 arg4 harg4 arg5 harg5 arg6 harg6 arg7 harg7 hc0 x0 x1).2.2.2.1)

/-- In the case of a later tile the pieces left in output 2's buffer tile its block, so they cover it. -/
theorem cover0_B_2 (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : ¬cond0_0 i)
    (x0 : Vec F S1x134x32x256 .f32) (x1 : Vec F S1x101x32x256 .f32) (xo2 : Vec F S1x1x11 .f32) (xo3 : Vec F S1x1x16 .f32) (xo4 : Vec F S1x1x16x3 .f32) (xo5 : Vec F S1x1x16x3 .f32) (y : S1x1x11.Idx) :
    ∃ pc ∈ (kernelRun0_B c i arg2 harg2 arg3 harg3 arg4 harg4 arg5 harg5 arg6 harg6 arg7 harg7 hc0 x0 x1 xo2 xo3 xo4 xo5).1, y ∈ pc.1.set :=
  View.cover_of_tiledL (kernelRun0_B c i arg2 harg2 arg3 harg3 arg4 harg4 arg5 harg5 arg6 harg6 arg7 harg7 hc0 x0 x1 xo2 xo3 xo4 xo5).1 S1x1x11.size (by sl_kernel_rfl) y

/-- What that case leaves in output 2's staging buffer: its pieces read back over junk. -/
def out0_B_2 (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : ¬cond0_0 i)
    (x0 : Vec F S1x134x32x256 .f32) (x1 : Vec F S1x101x32x256 .f32) (xo2 : Vec F S1x1x11 .f32) (xo3 : Vec F S1x1x16 .f32) (xo4 : Vec F S1x1x16x3 .f32) (xo5 : Vec F S1x1x16x3 .f32) : Vec F S1x1x11 .f32 :=
  VO0_2.read (Elt F) (VO0_2.writes (Elt F) VO0_2.junk (kernelRun0_B c i arg2 harg2 arg3 harg3 arg4 harg4 arg5 harg5 arg6 harg6 arg7 harg7 hc0 x0 x1 xo2 xo3 xo4 xo5).1)

/-- In the case of a later tile the pieces left in output 3's buffer tile its block, so they cover it. -/
theorem cover0_B_3 (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : ¬cond0_0 i)
    (x0 : Vec F S1x134x32x256 .f32) (x1 : Vec F S1x101x32x256 .f32) (xo2 : Vec F S1x1x11 .f32) (xo3 : Vec F S1x1x16 .f32) (xo4 : Vec F S1x1x16x3 .f32) (xo5 : Vec F S1x1x16x3 .f32) (y : S1x1x16.Idx) :
    ∃ pc ∈ (kernelRun0_B c i arg2 harg2 arg3 harg3 arg4 harg4 arg5 harg5 arg6 harg6 arg7 harg7 hc0 x0 x1 xo2 xo3 xo4 xo5).2.1, y ∈ pc.1.set :=
  View.cover_of_tiledL (kernelRun0_B c i arg2 harg2 arg3 harg3 arg4 harg4 arg5 harg5 arg6 harg6 arg7 harg7 hc0 x0 x1 xo2 xo3 xo4 xo5).2.1 S1x1x16.size (by sl_kernel_rfl) y

/-- What that case leaves in output 3's staging buffer: its pieces read back over junk. -/
def out0_B_3 (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : ¬cond0_0 i)
    (x0 : Vec F S1x134x32x256 .f32) (x1 : Vec F S1x101x32x256 .f32) (xo2 : Vec F S1x1x11 .f32) (xo3 : Vec F S1x1x16 .f32) (xo4 : Vec F S1x1x16x3 .f32) (xo5 : Vec F S1x1x16x3 .f32) : Vec F S1x1x16 .f32 :=
  VO0_3.read (Elt F) (VO0_3.writes (Elt F) VO0_3.junk (kernelRun0_B c i arg2 harg2 arg3 harg3 arg4 harg4 arg5 harg5 arg6 harg6 arg7 harg7 hc0 x0 x1 xo2 xo3 xo4 xo5).2.1)

/-- In the case of a later tile the pieces left in output 4's buffer tile its block, so they cover it. -/
theorem cover0_B_4 (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : ¬cond0_0 i)
    (x0 : Vec F S1x134x32x256 .f32) (x1 : Vec F S1x101x32x256 .f32) (xo2 : Vec F S1x1x11 .f32) (xo3 : Vec F S1x1x16 .f32) (xo4 : Vec F S1x1x16x3 .f32) (xo5 : Vec F S1x1x16x3 .f32) (y : S1x1x16x3.Idx) :
    ∃ pc ∈ (kernelRun0_B c i arg2 harg2 arg3 harg3 arg4 harg4 arg5 harg5 arg6 harg6 arg7 harg7 hc0 x0 x1 xo2 xo3 xo4 xo5).2.2.1, y ∈ pc.1.set :=
  View.cover_of_tiledL (kernelRun0_B c i arg2 harg2 arg3 harg3 arg4 harg4 arg5 harg5 arg6 harg6 arg7 harg7 hc0 x0 x1 xo2 xo3 xo4 xo5).2.2.1 S1x1x16x3.size (by sl_kernel_rfl) y

/-- What that case leaves in output 4's staging buffer: its pieces read back over junk. -/
def out0_B_4 (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : ¬cond0_0 i)
    (x0 : Vec F S1x134x32x256 .f32) (x1 : Vec F S1x101x32x256 .f32) (xo2 : Vec F S1x1x11 .f32) (xo3 : Vec F S1x1x16 .f32) (xo4 : Vec F S1x1x16x3 .f32) (xo5 : Vec F S1x1x16x3 .f32) : Vec F S1x1x16x3 .f32 :=
  VO0_4.read (Elt F) (VO0_4.writes (Elt F) VO0_4.junk (kernelRun0_B c i arg2 harg2 arg3 harg3 arg4 harg4 arg5 harg5 arg6 harg6 arg7 harg7 hc0 x0 x1 xo2 xo3 xo4 xo5).2.2.1)

/-- In the case of a later tile the pieces left in output 5's buffer tile its block, so they cover it. -/
theorem cover0_B_5 (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : ¬cond0_0 i)
    (x0 : Vec F S1x134x32x256 .f32) (x1 : Vec F S1x101x32x256 .f32) (xo2 : Vec F S1x1x11 .f32) (xo3 : Vec F S1x1x16 .f32) (xo4 : Vec F S1x1x16x3 .f32) (xo5 : Vec F S1x1x16x3 .f32) (y : S1x1x16x3.Idx) :
    ∃ pc ∈ (kernelRun0_B c i arg2 harg2 arg3 harg3 arg4 harg4 arg5 harg5 arg6 harg6 arg7 harg7 hc0 x0 x1 xo2 xo3 xo4 xo5).2.2.2.1, y ∈ pc.1.set :=
  View.cover_of_tiledL (kernelRun0_B c i arg2 harg2 arg3 harg3 arg4 harg4 arg5 harg5 arg6 harg6 arg7 harg7 hc0 x0 x1 xo2 xo3 xo4 xo5).2.2.2.1 S1x1x16x3.size (by sl_kernel_rfl) y

/-- What that case leaves in output 5's staging buffer: its pieces read back over junk. -/
def out0_B_5 (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : ¬cond0_0 i)
    (x0 : Vec F S1x134x32x256 .f32) (x1 : Vec F S1x101x32x256 .f32) (xo2 : Vec F S1x1x11 .f32) (xo3 : Vec F S1x1x16 .f32) (xo4 : Vec F S1x1x16x3 .f32) (xo5 : Vec F S1x1x16x3 .f32) : Vec F S1x1x16x3 .f32 :=
  VO0_5.read (Elt F) (VO0_5.writes (Elt F) VO0_5.junk (kernelRun0_B c i arg2 harg2 arg3 harg3 arg4 harg4 arg5 harg5 arg6 harg6 arg7 harg7 hc0 x0 x1 xo2 xo3 xo4 xo5).2.2.2.1)

/-! ## What the outputs hold after each point -/

/-- THE ACCUMULATION. What the four outputs' staging buffers hold after the body at position `n` (a tuple, in window
    order): at a first tile the reset-and-accumulate case at the point's memrefs and input blocks; at a later tile the
    accumulate case over what this leaves at `n - 1` (the buffers are not written back between). -/
def outsAt0 (c : Dev nD) : (n : ℕ) → n < cfg0.N → Vec F S1x1x11 .f32 × Vec F S1x1x16 .f32 × Vec F S1x1x16x3 .f32 × Vec F S1x1x16x3 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩))
  | n + 1, hn =>
    if h0 : (n + 1) % 8 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2)

/-- `outsAt0` at a first tile: that case's contents. -/
theorem outsAt0_A (c : Dev nD) (t : Fin cfg0.N) (h0 : t.val % 8 = 0) :
    outsAt0 m c t.val t.isLt = (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t), out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t)) := by
  obtain ⟨n, hn⟩ := t
  cases n with
  | zero => exact rfl
  | succ n => exact (dif_pos h0).trans rfl

/-- `outsAt0` at a later tile: that case's contents, over what the point before left. -/
theorem outsAt0_B (c : Dev nD) (t : Fin cfg0.N) (h0 : ¬t.val % 8 = 0) :
    outsAt0 m c t.val t.isLt = (out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at point
    `t` each input's buffer at its block and the outputs' at `outsAt0`; the invariant the scoped rest and the
    generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2.1
    | ⟨5, _⟩ => (outsAt0 m c t.val t.isLt).2.2.2
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2.1 := by dsimp only [dats]
theorem after0_5 (c : Dev nD) (t : Fin cfg0.N) : (dats m 0 c).after 5 t = (outsAt0 m c t.val t.isLt).2.2.2 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a later tile output 2's current staging buffer holds what the body left at the point before: the point is not
    the first, and the buffer was not written back between (write-backs follow an image's last tile only). -/
theorem before0_2_B (c : Dev nD) (t : Fin cfg0.N) (h0 : ¬t.val % 8 = 0) (d) :
    (dats m 0 c).before 2 t d = (outsAt0 m c (t.val - 1) (Nat.lt_of_le_of_lt (Nat.sub_le _ _) t.isLt)).1 := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) (fun _ _ => rfl)]
  dsimp only [dats]
/-- At a later tile output 3's current staging buffer holds what the body left at the point before: the point is not
    the first, and the buffer was not written back between (write-backs follow an image's last tile only). -/
theorem before0_3_B (c : Dev nD) (t : Fin cfg0.N) (h0 : ¬t.val % 8 = 0) (d) :
    (dats m 0 c).before 3 t d = (outsAt0 m c (t.val - 1) (Nat.lt_of_le_of_lt (Nat.sub_le _ _) t.isLt)).2.1 := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (fun _ => rfl) (fun _ _ => rfl)]
  dsimp only [dats]
/-- At a later tile output 4's current staging buffer holds what the body left at the point before: the point is not
    the first, and the buffer was not written back between (write-backs follow an image's last tile only). -/
theorem before0_4_B (c : Dev nD) (t : Fin cfg0.N) (h0 : ¬t.val % 8 = 0) (d) :
    (dats m 0 c).before 4 t d = (outsAt0 m c (t.val - 1) (Nat.lt_of_le_of_lt (Nat.sub_le _ _) t.isLt)).2.2.1 := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    (fun _ => rfl) (fun _ _ => rfl)]
  dsimp only [dats]
/-- At a later tile output 5's current staging buffer holds what the body left at the point before: the point is not
    the first, and the buffer was not written back between (write-backs follow an image's last tile only). -/
theorem before0_5_B (c : Dev nD) (t : Fin cfg0.N) (h0 : ¬t.val % 8 = 0) (d) :
    (dats m 0 c).before 5 t d = (outsAt0 m c (t.val - 1) (Nat.lt_of_le_of_lt (Nat.sub_le _ _) t.isLt)).2.2.2 := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
/-- The body at any point: the inputs' memrefs hold their blocks; the closed form says which case the point is in; at a
    later tile each output holds what the point before left; so the case's run applies; the invariant passes through
    unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  have hN : t.val < 32 := lt_of_lt_of_eq t.isLt (show cfg0.N = 32 from N_0)
  by_cases h0 : t.val % 8 = 0
  · rw [outsAt0_A m c t h0]
    unfold out0_A_2 out0_A_3 out0_A_4 out0_A_5; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk m c 0 t) (iblk m c 1 t)).2.2.2.2 Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    iintro ⟨H0, H1, ⟨%e2, H2⟩, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _)
  · rw [outsAt0_B m c t h0]
    simp only [before0_2_B m c t h0, before0_3_B m c t h0, before0_4_B m c t h0, before0_5_B m c t h0]
    unfold out0_B_2 out0_B_3 out0_B_4 out0_B_5; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk m c 0 t) (iblk m c 1 t) _ _ _ _).2.2.2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, ⟨%e2, H2⟩, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _ _ _ _ _)
    isplitl [H4]
    · unfold owns; iexists _; isplitr
      swap; · iexact H4
      ipureintro; exact View.read_writes_of_cover _ _ _ _ _ (cover0_B_4 c _ _ _ _ _ _ _ _ _ _ _ _ _ _ _ _ _ _ _ _)
    unfold owns; iexists _; isplitr
    swap; · iexact H5
    ipureintro; exact View.read_writes_of_cover _ _ _ _ _ (cover0_B_5 c _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on the
    TensorCores terminates, and every final state has every array of the pipeline at what the library computes from the
    proof data and every other unscoped buffer as the host operations after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4, hostOps1_5, hostOps1_6, hostOps1_7, hostOps1_8, hostOps1_9, hostOps1_10])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5, hostOps1_6, hostOps1_7, hostOps1_8, hostOps1_9, hostOps1_10]) (hsub := sfx_sub) (hfresh := sfx_fresh) (hkeep := sfx_keeps)
    (hmain := hmain m Variants.none) (hA := A_eq m) (hin := fun _ => Idealize.SL.BI.Entails.refl _) (hout := fun _ => Idealize.SL.BI.Entails.refl _)

/-- The third argument is staged by no window, and no host operation after the region writes it: after the tail it
    holds what it held at launch. -/
theorem afterTail_main_arg2 (dats' : (p : Fin 1) → (c : Dev nD) → Dat τ (Elt F) Unit ℕ (UR sig nD τ) ℕ (cfgs p) c) (c : Dev nD) :
    Pipeline.afterTail₀ cfgs dats' 0 (V0 m) [hostOps1, hostOps1_1, hostOps1_2, hostOps1_3, hostOps1_4, hostOps1_5, hostOps1_6, hostOps1_7, hostOps1_8, hostOps1_9, hostOps1_10] c main_arg2 = m ((c.tc : Thread nD τ).loc main_arg2) := by
  unfold Pipeline.afterTail₀
  rw [StableHlo.after_of_forall_not_mem (b := Proc.devRef .tc main_arg2) _ _ (fun op hop => by
      obtain ⟨ops, hops, hop'⟩ := List.mem_flatten.mp hop
      exact sfx_kept ops hops op hop' main_arg2 (by decide)),
    Pipeline.withArrays_of_ne _ c (V0 m c) _ main_arg2 (by decide)]
  rfl

/-- THE FRAME from a frame run: for any proof data whose arrays are the region-entry contents, a run to the frame
    post read at the argument arrays — a staged input by the library's `Dat.arrAt_in`, the unstaged argument by the
    post's second clause and `afterTail_main_arg2` — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4, hostOps1_5, hostOps1_6, hostOps1_7, hostOps1_8, hostOps1_9, hostOps1_10]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (afterTail_main_arg2 m dats c)⟩) h

/-- THE FRAME: the program runs and its three argument arrays end unchanged, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.TileSums

end
-- ==== Proof.TileTerms.lean ====
/-
  The four arrays of per-image sums the pixel kernel leaves, as functions of the two argument arrays.

  The grid visits image `b` (of 4) eight times, once per band `h` of 32 rows; the band's tile of an argument array is its
  rows 32·h … 32·h + 31 of image `b`, all channels and columns. At a visit each of the four output blocks becomes a fixed
  function (`next2 … next5`, the body's stores) of the two tiles and of the block's previous contents — zeros at the first
  band — namely the previous contents plus the tile's partial sums. The arrays hold, for image `b`, the block after band 7.
-/
import proofs.«112959_j30356828848315_1_alg».proof.Proof.Gen.KernelIdeal.Skeleton
import Idealize.ShloMosaic.Lib.ValueIdx

noncomputable section

namespace Cert.KernelIdeal.Tile

open Cert.KernelIdeal Cert.KernelIdeal.Gen Idealize.ShloMosaic Idealize.ShloMosaic.ValueIdx

variable {F : FTy → Type} [FloatOps F]

/-- Band `h` of image `b` of the first argument: rows 32·h … 32·h + 31, every channel and column. -/
def xTile (x : FVec F S4x134x256x256 .f32) (b : Fin 4) (h : Fin 8) : Vec F S1x134x32x256 .f32 :=
  fun i => x (ix4 b (⟨(i 1).val, (i 1).isLt⟩ : Fin 134) (⟨32 * h.val + (i 2).val, by have := (i 2).isLt; have : (i 2).val < 32 := this; omega⟩ : Fin 256)
    (⟨(i 3).val, (i 3).isLt⟩ : Fin 256))

/-- Band `h` of image `b` of the second argument. -/
def yTile (y : FVec F S4x101x256x256 .f32) (b : Fin 4) (h : Fin 8) : Vec F S1x101x32x256 .f32 :=
  fun i => y (ix4 b (⟨(i 1).val, (i 1).isLt⟩ : Fin 101) (⟨32 * h.val + (i 2).val, by have := (i 2).isLt; have : (i 2).val < 32 := this; omega⟩ : Fin 256)
    (⟨(i 3).val, (i 3).isLt⟩ : Fin 256))

/-- The mask bit of a tile: the target mask above 0.7. -/
abbrev gt (y0 : Vec F S1x101x32x256 .f32) : IVec S1x32x256 1 := k0_pay18 y0
/-- The squared differences of the location maps' sigmoids, per channel. -/
abbrev sqA (x0 : Vec F S1x134x32x256 .f32) (y0 : Vec F S1x101x32x256 .f32) : FVec F S1x48x32x256 .f32 :=
  k0_pay26 (k0_pay9 x0) (k0_pay15 y0)
/-- The sixteen joint scores' sigmoids. -/
abbrev sg (x0 : Vec F S1x134x32x256 .f32) : FVec F S1x16x32x256 .f32 := k0_pay38 (k0_pay12 x0)
/-- The target mask with a unit channel axis. -/
abbrev mk (y0 : Vec F S1x101x32x256 .f32) : FVec F S1x1x32x256 .f32 := k0_pay39 (k0_pay14 y0)

/-- The eleven statistics' block after a visit: the previous block plus the tile's eleven partial sums. -/
def next2 (x0 : Vec F S1x134x32x256 .f32) (y0 : Vec F S1x101x32x256 .f32) (prev : Vec F S1x1x11 .f32) : FVec F S1x1x11 .f32 :=
  k0_pay43 (k0_pay20 (k0_pay8 x0) (k0_pay14 y0) (k0_pay19 x0) (Scalar.ofBits .f32 0x00000000#32))
    (k0_pay23 (k0_pay7 x0) (k0_pay13 y0) (gt y0)) (k0_pay24 (k0_pay7 x0) (k0_pay13 y0) (gt y0)) (k0_pay25 (k0_pay7 x0) (k0_pay13 y0))
    (k0_pay29 (gt y0) (sqA x0 y0)) (k0_pay30 (gt y0) (sqA x0 y0)) (k0_pay31 (sqA x0 y0))
    (k0_pay34 (k0_pay10 x0) (k0_pay16 y0) (gt y0)) (k0_pay35 (k0_pay10 x0) (k0_pay16 y0) (gt y0)) (k0_pay36 (k0_pay10 x0) (k0_pay16 y0))
    (k0_pay37 (k0_pay11 x0) (k0_pay17 y0)) prev

/-- The sixteen score sums' block after a visit. -/
def next3 (x0 : Vec F S1x134x32x256 .f32) (y0 : Vec F S1x101x32x256 .f32) (prev : Vec F S1x1x16 .f32) : FVec F S1x1x16 .f32 :=
  k0_pay44 (sg x0) (mk y0) prev

/-- The weighted location sums' block after a visit. -/
def next4 (x0 : Vec F S1x134x32x256 .f32) (y0 : Vec F S1x101x32x256 .f32) (prev : Vec F S1x1x16x3 .f32) : FVec F S1x1x16x3 .f32 :=
  k0_pay1 (k0_pay41 (k0_pay9 x0) (k0_pay14 y0) (sg x0) (mk y0)) prev

/-- The weighted rotation sums' block after a visit. -/
def next5 (x0 : Vec F S1x134x32x256 .f32) (y0 : Vec F S1x101x32x256 .f32) (prev : Vec F S1x1x16x3 .f32) : FVec F S1x1x16x3 .f32 :=
  k0_pay2 (k0_pay42 (k0_pay10 x0) (k0_pay14 y0) (sg x0) (mk y0)) prev

/-- A block after band `n` of image `b`: the visit's function of the tiles and the block after band `n - 1`, from the
    zero block at band 0. -/
def run {S : Shape} (zero : Vec F S .f32)
    (next : Vec F S1x134x32x256 .f32 → Vec F S1x101x32x256 .f32 → Vec F S .f32 → Vec F S .f32)
    (x : FVec F S4x134x256x256 .f32) (y : FVec F S4x101x256x256 .f32) (b : Fin 4) : (n : ℕ) → n < 8 → Vec F S .f32
  | 0, hn => next (xTile x b ⟨0, hn⟩) (yTile y b ⟨0, hn⟩) zero
  | n + 1, hn => next (xTile x b ⟨n + 1, hn⟩) (yTile y b ⟨n + 1, hn⟩) (run zero next x y b n (Nat.lt_of_succ_lt hn))

/-- The statistics array [4,1,11]: image `b`'s block after band 7. -/
def stats (x : FVec F S4x134x256x256 .f32) (y : FVec F S4x101x256x256 .f32) : FVec F S4x1x11 .f32 :=
  fun j => run (k0_pay3 (F := F)) next2 x y ⟨(j 0).val, (j 0).isLt⟩ 7 (by omega) (ix3 (0 : Fin 1) (0 : Fin 1) (⟨(j 2).val, (j 2).isLt⟩ : Fin 11))

/-- The score sums array [4,1,16]. -/
def sd (x : FVec F S4x134x256x256 .f32) (y : FVec F S4x101x256x256 .f32) : FVec F S4x1x16 .f32 :=
  fun j => run (k0_pay4 (F := F)) next3 x y ⟨(j 0).val, (j 0).isLt⟩ 7 (by omega) (ix3 (0 : Fin 1) (0 : Fin 1) (⟨(j 2).val, (j 2).isLt⟩ : Fin 16))

/-- The weighted location sums array [4,1,16,3]. -/
def loc (x : FVec F S4x134x256x256 .f32) (y : FVec F S4x101x256x256 .f32) : FVec F S4x1x16x3 .f32 :=
  fun j => run (k0_pay5 (F := F)) next4 x y ⟨(j 0).val, (j 0).isLt⟩ 7 (by omega)
    (ix4 (0 : Fin 1) (0 : Fin 1) (⟨(j 2).val, (j 2).isLt⟩ : Fin 16) (⟨(j 3).val, (j 3).isLt⟩ : Fin 3))

/-- The weighted rotation sums array [4,1,16,3]. -/
def rot (x : FVec F S4x134x256x256 .f32) (y : FVec F S4x101x256x256 .f32) : FVec F S4x1x16x3 .f32 :=
  fun j => run (k0_pay6 (F := F)) next5 x y ⟨(j 0).val, (j 0).isLt⟩ 7 (by omega)
    (ix4 (0 : Fin 1) (0 : Fin 1) (⟨(j 2).val, (j 2).isLt⟩ : Fin 16) (⟨(j 3).val, (j 3).isLt⟩ : Fin 3))

end Cert.KernelIdeal.Tile

end
-- ==== Proof.TileSums.Pieces.lean ====
import proofs.«112959_j30356828848315_1_alg».proof.Proof.TileSums.FrameRun
import proofs.«112959_j30356828848315_1_alg».proof.Proof.TileTerms
import Idealize.ShloMosaic.Lib.Pipeline.Value

/-! # Tile sums: what a visit leaves in each output block

In either case of the body, what is left in an output block is the visit's function (`Tile.next2 … next5`: the block's
previous contents plus the tile's partial sums) of the point's two input tiles and of what the block held before the
accumulating store: at a later tile what the point before left; at a first tile the zero block the reset has just
stored, which the body reads back. -/

set_option maxRecDepth 16384

noncomputable section

namespace Cert.KernelIdeal.TileSums

open Cert.KernelIdeal.Gen Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- At a later tile, output 2's block becomes the visit's function of the two tiles and of what the block held. -/
theorem out_B_2 (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : ¬cond0_0 i)
    (x0 : Vec F S1x134x32x256 .f32) (x1 : Vec F S1x101x32x256 .f32) (xo2 : Vec F S1x1x11 .f32) (xo3 : Vec F S1x1x16 .f32) (xo4 : Vec F S1x1x16x3 .f32) (xo5 : Vec F S1x1x16x3 .f32) :
    out0_B_2 c i arg2 harg2 arg3 harg3 arg4 harg4 arg5 harg5 arg6 harg6 arg7 harg7 hc0 x0 x1 xo2 xo3 xo4 xo5 = Tile.next2 x0 x1 xo2 := by
  unfold out0_B_2
  rw [View.read_writes_eq_canon _ _ _ (cover0_B_2 c i arg2 harg2 arg3 harg3 arg4 harg4 arg5 harg5 arg6 harg6 arg7 harg7 hc0 x0 x1 xo2 xo3 xo4 xo5)]
  unfold kernelRun0_B
  dsimp only
  sl_unfold_words
  rw [View.canon_unit_zero hz3]
  simp only [View.readAt_eq_ld, harg2.read_unread, harg3.read_unread, harg4.read_unread, harg5.read_unread, harg6.read_unread, harg7.read_unread,
    View.ld_unit_zero (S := S1x134x32x256) hz4, View.ld_unit_zero (S := S1x101x32x256) hz4, View.ld_unit_zero (S := S1x1x11) hz3]
  rfl

/-- At a first tile, output 2's block becomes the visit's function of the two tiles and of the zero block the
    reset has just stored (the body reads it back). -/
theorem out_A_2 (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : cond0_0 i)
    (x0 : Vec F S1x134x32x256 .f32) (x1 : Vec F S1x101x32x256 .f32) :
    out0_A_2 c i arg2 harg2 arg3 harg3 arg4 harg4 arg5 harg5 arg6 harg6 arg7 harg7 hc0 x0 x1 = Tile.next2 x0 x1 (k0_pay3 (F := F)) := by
  unfold out0_A_2
  rw [View.read_writes_eq_canon _ _ _ (cover0_A_2 c i arg2 harg2 arg3 harg3 arg4 harg4 arg5 harg5 arg6 harg6 arg7 harg7 hc0 x0 x1)]
  unfold kernelRun0_A
  dsimp only
  sl_unfold_words
  rw [View.canon_cons_unit_zero (S := S1x1x11) hz3, View.readCov_unit_zero (S := S1x1x11) _ hz3]
  simp only [View.readAt_eq_ld, harg2.read_unread, harg3.read_unread,
    View.ld_unit_zero (S := S1x134x32x256) hz4, View.ld_unit_zero (S := S1x101x32x256) hz4, View.ld_unit_zero (S := S1x1x11) hz3]
  rfl

/-- At a later tile, output 3's block becomes the visit's function of the two tiles and of what the block held. -/
theorem out_B_3 (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : ¬cond0_0 i)
    (x0 : Vec F S1x134x32x256 .f32) (x1 : Vec F S1x101x32x256 .f32) (xo2 : Vec F S1x1x11 .f32) (xo3 : Vec F S1x1x16 .f32) (xo4 : Vec F S1x1x16x3 .f32) (xo5 : Vec F S1x1x16x3 .f32) :
    out0_B_3 c i arg2 harg2 arg3 harg3 arg4 harg4 arg5 harg5 arg6 harg6 arg7 harg7 hc0 x0 x1 xo2 xo3 xo4 xo5 = Tile.next3 x0 x1 xo3 := by
  unfold out0_B_3
  rw [View.read_writes_eq_canon _ _ _ (cover0_B_3 c i arg2 harg2 arg3 harg3 arg4 harg4 arg5 harg5 arg6 harg6 arg7 harg7 hc0 x0 x1 xo2 xo3 xo4 xo5)]
  unfold kernelRun0_B
  dsimp only
  sl_unfold_words
  rw [View.canon_unit_zero hz3]
  simp only [View.readAt_eq_ld, harg2.read_unread, harg3.read_unread, harg4.read_unread, harg5.read_unread, harg6.read_unread, harg7.read_unread,
    View.ld_unit_zero (S := S1x134x32x256) hz4, View.ld_unit_zero (S := S1x101x32x256) hz4, View.ld_unit_zero (S := S1x1x16) hz3]
  rfl

/-- At a first tile, output 3's block becomes the visit's function of the two tiles and of the zero block the
    reset has just stored (the body reads it back). -/
theorem out_A_3 (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : cond0_0 i)
    (x0 : Vec F S1x134x32x256 .f32) (x1 : Vec F S1x101x32x256 .f32) :
    out0_A_3 c i arg2 harg2 arg3 harg3 arg4 harg4 arg5 harg5 arg6 harg6 arg7 harg7 hc0 x0 x1 = Tile.next3 x0 x1 (k0_pay4 (F := F)) := by
  unfold out0_A_3
  rw [View.read_writes_eq_canon _ _ _ (cover0_A_3 c i arg2 harg2 arg3 harg3 arg4 harg4 arg5 harg5 arg6 harg6 arg7 harg7 hc0 x0 x1)]
  unfold kernelRun0_A
  dsimp only
  sl_unfold_words
  rw [View.canon_cons_unit_zero (S := S1x1x16) hz3, View.readCov_unit_zero (S := S1x1x16) _ hz3]
  simp only [View.readAt_eq_ld, harg2.read_unread, harg3.read_unread,
    View.ld_unit_zero (S := S1x134x32x256) hz4, View.ld_unit_zero (S := S1x101x32x256) hz4, View.ld_unit_zero (S := S1x1x16) hz3]
  rfl

/-- At a later tile, output 4's block becomes the visit's function of the two tiles and of what the block held. -/
theorem out_B_4 (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : ¬cond0_0 i)
    (x0 : Vec F S1x134x32x256 .f32) (x1 : Vec F S1x101x32x256 .f32) (xo2 : Vec F S1x1x11 .f32) (xo3 : Vec F S1x1x16 .f32) (xo4 : Vec F S1x1x16x3 .f32) (xo5 : Vec F S1x1x16x3 .f32) :
    out0_B_4 c i arg2 harg2 arg3 harg3 arg4 harg4 arg5 harg5 arg6 harg6 arg7 harg7 hc0 x0 x1 xo2 xo3 xo4 xo5 = Tile.next4 x0 x1 xo4 := by
  unfold out0_B_4
  rw [View.read_writes_eq_canon _ _ _ (cover0_B_4 c i arg2 harg2 arg3 harg3 arg4 harg4 arg5 harg5 arg6 harg6 arg7 harg7 hc0 x0 x1 xo2 xo3 xo4 xo5)]
  unfold kernelRun0_B
  dsimp only
  sl_unfold_words
  rw [View.canon_unit_zero hz4]
  simp only [View.readAt_eq_ld, harg2.read_unread, harg3.read_unread, harg4.read_unread, harg5.read_unread, harg6.read_unread, harg7.read_unread,
    View.ld_unit_zero (S := S1x134x32x256) hz4, View.ld_unit_zero (S := S1x101x32x256) hz4, View.ld_unit_zero (S := S1x1x16x3) hz4]
  rfl

/-- At a first tile, output 4's block becomes the visit's function of the two tiles and of the zero block the
    reset has just stored (the body reads it back). -/
theorem out_A_4 (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : cond0_0 i)
    (x0 : Vec F S1x134x32x256 .f32) (x1 : Vec F S1x101x32x256 .f32) :
    out0_A_4 c i arg2 harg2 arg3 harg3 arg4 harg4 arg5 harg5 arg6 harg6 arg7 harg7 hc0 x0 x1 = Tile.next4 x0 x1 (k0_pay5 (F := F)) := by
  unfold out0_A_4
  rw [View.read_writes_eq_canon _ _ _ (cover0_A_4 c i arg2 harg2 arg3 harg3 arg4 harg4 arg5 harg5 arg6 harg6 arg7 harg7 hc0 x0 x1)]
  unfold kernelRun0_A
  dsimp only
  sl_unfold_words
  rw [View.canon_cons_unit_zero (S := S1x1x16x3) hz4, View.readCov_unit_zero (S := S1x1x16x3) _ hz4]
  simp only [View.readAt_eq_ld, harg2.read_unread, harg3.read_unread,
    View.ld_unit_zero (S := S1x134x32x256) hz4, View.ld_unit_zero (S := S1x101x32x256) hz4, View.ld_unit_zero (S := S1x1x16x3) hz4]
  rfl

/-- At a later tile, output 5's block becomes the visit's function of the two tiles and of what the block held. -/
theorem out_B_5 (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : ¬cond0_0 i)
    (x0 : Vec F S1x134x32x256 .f32) (x1 : Vec F S1x101x32x256 .f32) (xo2 : Vec F S1x1x11 .f32) (xo3 : Vec F S1x1x16 .f32) (xo4 : Vec F S1x1x16x3 .f32) (xo5 : Vec F S1x1x16x3 .f32) :
    out0_B_5 c i arg2 harg2 arg3 harg3 arg4 harg4 arg5 harg5 arg6 harg6 arg7 harg7 hc0 x0 x1 xo2 xo3 xo4 xo5 = Tile.next5 x0 x1 xo5 := by
  unfold out0_B_5
  rw [View.read_writes_eq_canon _ _ _ (cover0_B_5 c i arg2 harg2 arg3 harg3 arg4 harg4 arg5 harg5 arg6 harg6 arg7 harg7 hc0 x0 x1 xo2 xo3 xo4 xo5)]
  unfold kernelRun0_B
  dsimp only
  sl_unfold_words
  rw [View.canon_unit_zero hz4]
  simp only [View.readAt_eq_ld, harg2.read_unread, harg3.read_unread, harg4.read_unread, harg5.read_unread, harg6.read_unread, harg7.read_unread,
    View.ld_unit_zero (S := S1x134x32x256) hz4, View.ld_unit_zero (S := S1x101x32x256) hz4, View.ld_unit_zero (S := S1x1x16x3) hz4]
  rfl

/-- At a first tile, output 5's block becomes the visit's function of the two tiles and of the zero block the
    reset has just stored (the body reads it back). -/
theorem out_A_5 (c : Dev nD) (i : grid0.Coords) (arg2 : Memref sig .tc .vmem S1x134x32x256 .f32) (harg2 : arg2.IsWhole) (arg3 : Memref sig .tc .vmem S1x101x32x256 .f32) (harg3 : arg3.IsWhole) (arg4 : Memref sig .tc .vmem S1x1x11 .f32) (harg4 : arg4.IsWhole) (arg5 : Memref sig .tc .vmem S1x1x16 .f32) (harg5 : arg5.IsWhole) (arg6 : Memref sig .tc .vmem S1x1x16x3 .f32) (harg6 : arg6.IsWhole) (arg7 : Memref sig .tc .vmem S1x1x16x3 .f32) (harg7 : arg7.IsWhole) (hc0 : cond0_0 i)
    (x0 : Vec F S1x134x32x256 .f32) (x1 : Vec F S1x101x32x256 .f32) :
    out0_A_5 c i arg2 harg2 arg3 harg3 arg4 harg4 arg5 harg5 arg6 harg6 arg7 harg7 hc0 x0 x1 = Tile.next5 x0 x1 (k0_pay6 (F := F)) := by
  unfold out0_A_5
  rw [View.read_writes_eq_canon _ _ _ (cover0_A_5 c i arg2 harg2 arg3 harg3 arg4 harg4 arg5 harg5 arg6 harg6 arg7 harg7 hc0 x0 x1)]
  unfold kernelRun0_A
  dsimp only
  sl_unfold_words
  rw [View.canon_cons_unit_zero (S := S1x1x16x3) hz4, View.readCov_unit_zero (S := S1x1x16x3) _ hz4]
  simp only [View.readAt_eq_ld, harg2.read_unread, harg3.read_unread,
    View.ld_unit_zero (S := S1x134x32x256) hz4, View.ld_unit_zero (S := S1x101x32x256) hz4, View.ld_unit_zero (S := S1x1x16x3) hz4]
  rfl

end Cert.KernelIdeal.TileSums

end
-- ==== Proof.TileSums.Bands.lean ====
import proofs.«112959_j30356828848315_1_alg».proof.Proof.TileSums.Pieces
import Idealize.ShloMosaic.Lib.Pipeline.Value

/-! # Tile sums: the output blocks after each point

Point `t = 8·b + h` of the grid reads band `h` of image `b` of each argument (the two input windows' index maps,
decided over the 32 points), so by induction on the point each output block after point `t` is the iteration
`Tile.run` of the visit's function over bands 0 … h of image `b`, from the zero block. -/

set_option maxRecDepth 16384

noncomputable section

namespace Cert.KernelIdeal.TileSums

open Cert.KernelIdeal.Gen Cert.KernelIdeal Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The printed index maps of the two input windows, decided over the grid: at point `t` the block index is
    (`t / 8`, 0, `t % 8`, 0). -/
theorem idx_in : ∀ t : Fin cfg0.N,
    win0_0.index t (0 : Fin 4) = t.val / 8 ∧ win0_0.index t (1 : Fin 4) = 0 ∧ win0_0.index t (2 : Fin 4) = t.val % 8 ∧ win0_0.index t (3 : Fin 4) = 0
    ∧ win0_1.index t (0 : Fin 4) = t.val / 8 ∧ win0_1.index t (1 : Fin 4) = 0 ∧ win0_1.index t (2 : Fin 4) = t.val % 8 ∧ win0_1.index t (3 : Fin 4) = 0 :=
  (by decide +kernel : ∀ t : Fin grid0.N, _)

/-- Input window 0's block at point `t` is band `t % 8` of image `t / 8` of the first argument. -/
theorem iblk0_eq (c : Dev nD) (t : Fin cfg0.N) (b : Fin 4) (h : Fin 8) (hb : b.val = t.val / 8) (hh : h.val = t.val % 8) :
    (iblk m c 0 t : Vec F S1x134x32x256 .f32) = Tile.xTile (V m c main_arg0) b h := by
  obtain ⟨e0, e1, e2, e3, -⟩ := idx_in t
  funext x
  unfold iblk Tile.xTile
  rw [View.read_apply]
  show V m c main_arg0 _ = V m c main_arg0 _
  congr 1
  funext a
  apply Fin.ext
  match a with
  | ⟨0, _⟩ => show win0_0.index t (0 : Fin 4) * 1 + 1 * (x 0).val = b.val; have : (x 0).val < 1 := (x 0).isLt; omega
  | ⟨1, _⟩ => show win0_0.index t (1 : Fin 4) * 134 + 1 * (x 1).val = (x 1).val; omega
  | ⟨2, _⟩ => show win0_0.index t (2 : Fin 4) * 32 + 1 * (x 2).val = 32 * h.val + (x 2).val; omega
  | ⟨3, _⟩ => show win0_0.index t (3 : Fin 4) * 256 + 1 * (x 3).val = (x 3).val; omega

/-- Input window 1's block at point `t` is band `t % 8` of image `t / 8` of the second argument. -/
theorem iblk1_eq (c : Dev nD) (t : Fin cfg0.N) (b : Fin 4) (h : Fin 8) (hb : b.val = t.val / 8) (hh : h.val = t.val % 8) :
    (iblk m c 1 t : Vec F S1x101x32x256 .f32) = Tile.yTile (V m c main_arg1) b h := by
  obtain ⟨-, -, -, -, e0, e1, e2, e3⟩ := idx_in t
  funext x
  unfold iblk Tile.yTile
  rw [View.read_apply]
  show V m c main_arg1 _ = V m c main_arg1 _
  congr 1
  funext a
  apply Fin.ext
  match a with
  | ⟨0, _⟩ => show win0_1.index t (0 : Fin 4) * 1 + 1 * (x 0).val = b.val; have : (x 0).val < 1 := (x 0).isLt; omega
  | ⟨1, _⟩ => show win0_1.index t (1 : Fin 4) * 101 + 1 * (x 1).val = (x 1).val; omega
  | ⟨2, _⟩ => show win0_1.index t (2 : Fin 4) * 32 + 1 * (x 2).val = 32 * h.val + (x 2).val; omega
  | ⟨3, _⟩ => show win0_1.index t (3 : Fin 4) * 256 + 1 * (x 3).val = (x 3).val; omega

/-! ## The iteration over an image's bands -/

/-- At band 0 the iteration is one visit from the zero block. -/
theorem run_first {S : Shape} (zero : Vec F S .f32)
    (next : Vec F S1x134x32x256 .f32 → Vec F S1x101x32x256 .f32 → Vec F S .f32 → Vec F S .f32)
    (x : FVec F S4x134x256x256 .f32) (y : FVec F S4x101x256x256 .f32) (b : Fin 4) (k : ℕ) (hk : k < 8) (h0 : k = 0) :
    Tile.run zero next x y b k hk = next (Tile.xTile x b ⟨k, hk⟩) (Tile.yTile y b ⟨k, hk⟩) zero := by
  subst h0; rfl

/-- At a later band it is one visit from the block after the band before. -/
theorem run_later {S : Shape} (zero : Vec F S .f32)
    (next : Vec F S1x134x32x256 .f32 → Vec F S1x101x32x256 .f32 → Vec F S .f32 → Vec F S .f32)
    (x : FVec F S4x134x256x256 .f32) (y : FVec F S4x101x256x256 .f32) (b : Fin 4) (k : ℕ) (hk : k + 1 < 8) :
    Tile.run zero next x y b (k + 1) hk
      = next (Tile.xTile x b ⟨k + 1, hk⟩) (Tile.yTile y b ⟨k + 1, hk⟩) (Tile.run zero next x y b k (Nat.lt_of_succ_lt hk)) := rfl

/-- The iteration depends on the image and the band through their values only. -/
theorem run_congr {S : Shape} (zero : Vec F S .f32)
    (next : Vec F S1x134x32x256 .f32 → Vec F S1x101x32x256 .f32 → Vec F S .f32 → Vec F S .f32)
    (x : FVec F S4x134x256x256 .f32) (y : FVec F S4x101x256x256 .f32) (b b' : Fin 4) (k k' : ℕ) (hk : k < 8) (hk' : k' < 8)
    (hb : b.val = b'.val) (hkk : k = k') : Tile.run zero next x y b k hk = Tile.run zero next x y b' k' hk' := by
  obtain rfl : b = b' := Fin.ext hb
  subst hkk; rfl

/-- The block after point `n` as the iteration over bands 0 … `n % 8` of image `n / 8`, the arguments as the
    region finds them. -/
def bandRun {S : Shape} (zero : Vec F S .f32)
    (next : Vec F S1x134x32x256 .f32 → Vec F S1x101x32x256 .f32 → Vec F S .f32 → Vec F S .f32)
    (c : Dev nD) (n : ℕ) (hn : n < cfg0.N) : Vec F S .f32 :=
  Tile.run zero next (V m c main_arg0) (V m c main_arg1)
    ⟨n / 8, by have := lt_of_lt_of_eq hn (show cfg0.N = 32 from N_0); omega⟩ (n % 8) (Nat.mod_lt _ (by decide))

/-- At a first tile: one visit of the point's blocks from the zero block. -/
theorem bandRun_first {S : Shape} (zero : Vec F S .f32)
    (next : Vec F S1x134x32x256 .f32 → Vec F S1x101x32x256 .f32 → Vec F S .f32 → Vec F S .f32)
    (c : Dev nD) (n : ℕ) (hn : n < cfg0.N) (h0 : n % 8 = 0) :
    bandRun m zero next c n hn = next (iblk m c 0 ⟨n, hn⟩) (iblk m c 1 ⟨n, hn⟩) zero := by
  unfold bandRun
  rw [run_first zero next _ _ _ (n % 8) _ h0,
    iblk0_eq m c ⟨n, hn⟩ ⟨n / 8, by have := lt_of_lt_of_eq hn (show cfg0.N = 32 from N_0); omega⟩ ⟨n % 8, Nat.mod_lt _ (by decide)⟩ rfl rfl,
    iblk1_eq m c ⟨n, hn⟩ ⟨n / 8, by have := lt_of_lt_of_eq hn (show cfg0.N = 32 from N_0); omega⟩ ⟨n % 8, Nat.mod_lt _ (by decide)⟩ rfl rfl]

/-- At a later tile: one visit of the point's blocks from the block after the point before. -/
theorem bandRun_later {S : Shape} (zero : Vec F S .f32)
    (next : Vec F S1x134x32x256 .f32 → Vec F S1x101x32x256 .f32 → Vec F S .f32 → Vec F S .f32)
    (c : Dev nD) (n : ℕ) (hn : n + 1 < cfg0.N) (h0 : ¬(n + 1) % 8 = 0) :
    bandRun m zero next c (n + 1) hn
      = next (iblk m c 0 ⟨n + 1, hn⟩) (iblk m c 1 ⟨n + 1, hn⟩) (bandRun m zero next c n (Nat.lt_of_succ_lt hn)) := by
  have hN := lt_of_lt_of_eq hn (show cfg0.N = 32 from N_0)
  have hk : n % 8 + 1 < 8 := by omega
  unfold bandRun
  rw [run_congr zero next _ _ ⟨(n + 1) / 8, by omega⟩ ⟨n / 8, by omega⟩ ((n + 1) % 8) (n % 8 + 1) (Nat.mod_lt _ (by decide)) hk
      (by show (n + 1) / 8 = n / 8; omega) (by omega),
    run_later zero next _ _ _ (n % 8) hk,
    iblk0_eq m c ⟨n + 1, hn⟩ ⟨n / 8, by omega⟩ ⟨n % 8 + 1, hk⟩ (by show n / 8 = (n + 1) / 8; omega) (by show n % 8 + 1 = (n + 1) % 8; omega),
    iblk1_eq m c ⟨n + 1, hn⟩ ⟨n / 8, by omega⟩ ⟨n % 8 + 1, hk⟩ (by show n / 8 = (n + 1) / 8; omega) (by show n % 8 + 1 = (n + 1) % 8; omega)]

/-! ## The four output blocks after each point -/

/-- After point `n` the four staging buffers hold the four iterations over bands 0 … `n % 8` of image `n / 8`. -/
theorem outsAt_eq (c : Dev nD) : ∀ (n : ℕ) (hn : n < cfg0.N),
    outsAt0 m c n hn = (bandRun m (k0_pay3 (F := F)) Tile.next2 c n hn, bandRun m (k0_pay4 (F := F)) Tile.next3 c n hn,
      bandRun m (k0_pay5 (F := F)) Tile.next4 c n hn, bandRun m (k0_pay6 (F := F)) Tile.next5 c n hn)
  | 0, hn => by
    rw [outsAt0_A m c ⟨0, hn⟩ rfl]
    refine congrArg₂ Prod.mk ?_ (congrArg₂ Prod.mk ?_ (congrArg₂ Prod.mk ?_ ?_))
    · exact (out_A_2 c _ _ _ _ _ _ _ _ _ _ _ _ _ _ _ _).trans (bandRun_first m _ _ c 0 hn rfl).symm
    · exact (out_A_3 c _ _ _ _ _ _ _ _ _ _ _ _ _ _ _ _).trans (bandRun_first m _ _ c 0 hn rfl).symm
    · exact (out_A_4 c _ _ _ _ _ _ _ _ _ _ _ _ _ _ _ _).trans (bandRun_first m _ _ c 0 hn rfl).symm
    · exact (out_A_5 c _ _ _ _ _ _ _ _ _ _ _ _ _ _ _ _).trans (bandRun_first m _ _ c 0 hn rfl).symm
  | n + 1, hn => by
    by_cases h0 : (n + 1) % 8 = 0
    · rw [outsAt0_A m c ⟨n + 1, hn⟩ h0]
      refine congrArg₂ Prod.mk ?_ (congrArg₂ Prod.mk ?_ (congrArg₂ Prod.mk ?_ ?_))
      · exact (out_A_2 c _ _ _ _ _ _ _ _ _ _ _ _ _ _ _ _).trans (bandRun_first m _ _ c (n + 1) hn h0).symm
      · exact (out_A_3 c _ _ _ _ _ _ _ _ _ _ _ _ _ _ _ _).trans (bandRun_first m _ _ c (n + 1) hn h0).symm
      · exact (out_A_4 c _ _ _ _ _ _ _ _ _ _ _ _ _ _ _ _).trans (bandRun_first m _ _ c (n + 1) hn h0).symm
      · exact (out_A_5 c _ _ _ _ _ _ _ _ _ _ _ _ _ _ _ _).trans (bandRun_first m _ _ c (n + 1) hn h0).symm
    · have ih := outsAt_eq c n (Nat.lt_of_succ_lt hn)
      rw [outsAt0_B m c ⟨n + 1, hn⟩ h0]
      show (out0_B_2 c _ _ _ _ _ _ _ _ _ _ _ _ _ _ _ _ (outsAt0 m c n _).1 (outsAt0 m c n _).2.1 (outsAt0 m c n _).2.2.1 (outsAt0 m c n _).2.2.2,
        out0_B_3 c _ _ _ _ _ _ _ _ _ _ _ _ _ _ _ _ (outsAt0 m c n _).1 (outsAt0 m c n _).2.1 (outsAt0 m c n _).2.2.1 (outsAt0 m c n _).2.2.2,
        out0_B_4 c _ _ _ _ _ _ _ _ _ _ _ _ _ _ _ _ (outsAt0 m c n _).1 (outsAt0 m c n _).2.1 (outsAt0 m c n _).2.2.1 (outsAt0 m c n _).2.2.2,
        out0_B_5 c _ _ _ _ _ _ _ _ _ _ _ _ _ _ _ _ (outsAt0 m c n _).1 (outsAt0 m c n _).2.1 (outsAt0 m c n _).2.2.1 (outsAt0 m c n _).2.2.2) = _
      rw [ih]
      refine congrArg₂ Prod.mk ?_ (congrArg₂ Prod.mk ?_ (congrArg₂ Prod.mk ?_ ?_))
      · exact (out_B_2 c _ _ _ _ _ _ _ _ _ _ _ _ _ _ _ _ _ _ _ _).trans (bandRun_later m _ _ c n hn h0).symm
      · exact (out_B_3 c _ _ _ _ _ _ _ _ _ _ _ _ _ _ _ _ _ _ _ _).trans (bandRun_later m _ _ c n hn h0).symm
      · exact (out_B_4 c _ _ _ _ _ _ _ _ _ _ _ _ _ _ _ _ _ _ _ _).trans (bandRun_later m _ _ c n hn h0).symm
      · exact (out_B_5 c _ _ _ _ _ _ _ _ _ _ _ _ _ _ _ _ _ _ _ _).trans (bandRun_later m _ _ c n hn h0).symm

end Cert.KernelIdeal.TileSums

end
-- ==== Proof.KernelTail.lean ====
/-
  What the host computes from the four arrays of per-sample sums the pixel kernel leaves: the seven losses.

  `a0 : [4,1,11]` holds, per sample, the sums over all pixels of: the binary cross entropy (column 0); for the three
  channel-norm maps (coordinates, locations, rotations) the masked norm, the count of nonzero masked norms and the norm
  (columns 1–3, 4–6, 7–9); the log-probability of the labelled class (column 10). `a1 : [4,1,16]` holds the per-joint sums of
  the scores, `a2, a3 : [4,1,16,3]` the per-joint, per-axis sums of the score-weighted location and rotation maps.
  The losses are: means over the four samples of (masked sum / max(count, 1) where the count is positive, else sum / 65536);
  total / 262144 for the cross entropy and (negated) for the class log-probability; and, for each pose, the sum over samples
  and joints of the Euclidean norm of (weighted sum / (score sum + ε) − sigmoid(target)), over 64.
-/
import proofs.«112959_j30356828848315_1_alg».proof.Proof.Gen.KernelIdeal.Launch
import Idealize.ShloMosaic.Lib.StableHlo.Run

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

/-- Column 0 of the per-sample statistics, as a vector over the four samples. -/
def col0 (st : FVec F S4x11 .f32) : FVec F S4 .f32 :=
  shapeCast S4 ((extractStridedSlice S4x1 ![0, 0] · slices_S4x11_S4x1_0_0) st) shapeCasts_S4x1_S4

/-- Column 1 of the per-sample statistics, as a vector over the four samples. -/
def col1 (st : FVec F S4x11 .f32) : FVec F S4 .f32 :=
  shapeCast S4 ((extractStridedSlice S4x1 ![0, 1] · slices_S4x11_S4x1_0_1) st) shapeCasts_S4x1_S4

/-- Column 2 of the per-sample statistics, as a vector over the four samples. -/
def col2 (st : FVec F S4x11 .f32) : FVec F S4 .f32 :=
  shapeCast S4 ((extractStridedSlice S4x1 ![0, 2] · slices_S4x11_S4x1_0_2) st) shapeCasts_S4x1_S4

/-- Column 3 of the per-sample statistics, as a vector over the four samples. -/
def col3 (st : FVec F S4x11 .f32) : FVec F S4 .f32 :=
  shapeCast S4 ((extractStridedSlice S4x1 ![0, 3] · slices_S4x11_S4x1_0_3) st) shapeCasts_S4x1_S4

/-- Column 4 of the per-sample statistics, as a vector over the four samples. -/
def col4 (st : FVec F S4x11 .f32) : FVec F S4 .f32 :=
  shapeCast S4 ((extractStridedSlice S4x1 ![0, 4] · slices_S4x11_S4x1_0_4) st) shapeCasts_S4x1_S4

/-- Column 5 of the per-sample statistics, as a vector over the four samples. -/
def col5 (st : FVec F S4x11 .f32) : FVec F S4 .f32 :=
  shapeCast S4 ((extractStridedSlice S4x1 ![0, 5] · slices_S4x11_S4x1_0_5) st) shapeCasts_S4x1_S4

/-- Column 6 of the per-sample statistics, as a vector over the four samples. -/
def col6 (st : FVec F S4x11 .f32) : FVec F S4 .f32 :=
  shapeCast S4 ((extractStridedSlice S4x1 ![0, 6] · slices_S4x11_S4x1_0_6) st) shapeCasts_S4x1_S4

/-- Column 7 of the per-sample statistics, as a vector over the four samples. -/
def col7 (st : FVec F S4x11 .f32) : FVec F S4 .f32 :=
  shapeCast S4 ((extractStridedSlice S4x1 ![0, 7] · slices_S4x11_S4x1_0_7) st) shapeCasts_S4x1_S4

/-- Column 8 of the per-sample statistics, as a vector over the four samples. -/
def col8 (st : FVec F S4x11 .f32) : FVec F S4 .f32 :=
  shapeCast S4 ((extractStridedSlice S4x1 ![0, 8] · slices_S4x11_S4x1_0_8) st) shapeCasts_S4x1_S4

/-- Column 9 of the per-sample statistics, as a vector over the four samples. -/
def col9 (st : FVec F S4x11 .f32) : FVec F S4 .f32 :=
  shapeCast S4 ((extractStridedSlice S4x1 ![0, 9] · slices_S4x11_S4x1_0_9) st) shapeCasts_S4x1_S4

/-- Column 10 of the per-sample statistics, as a vector over the four samples. -/
def col10 (st : FVec F S4x11 .f32) : FVec F S4 .f32 :=
  shapeCast S4 ((extractStridedSlice S4x1 ![0, 10] · slices_S4x11_S4x1_0_10) st) shapeCasts_S4x1_S4

/-- The sum of a per-sample vector over the four samples, divided by the constant with bit pattern `n`. -/
def meanOver (v : FVec F S4 .f32) (n : BitVec 32) : FVec F S_ .f32 :=
  Host.divf (Host.reduceAdd v (constant S_ .f32 0x00000000#32) reducesTo_S4_S_d0 h_S_) (constant S_ .f32 n)

/-- Per sample: the masked sum over max(count, 1) where the count is positive, the plain sum over 65536 otherwise. -/
def perSample (msum cnt dsum : FVec F S4 .f32) : FVec F S4 .f32 :=
  select (cmpf .ogt cnt (broadcastInDim S4 ![] bcast_S_S4 (constant S_ .f32 0x00000000#32)))
    (Host.divf msum (maximumf cnt (broadcastInDim S4 ![] bcast_S_S4 (constant S_ .f32 0x3F800000#32))))
    (Host.divf dsum (broadcastInDim S4 ![] bcast_S_S4 (constant S_ .f32 0x47800000#32)))

/-- The sigmoid of a [4,16,3] array as the host spells it: 1 / (1 + exp (−u)). -/
def sigm (u : FVec F S4x16x3 .f32) : FVec F S4x16x3 .f32 :=
  Host.divf (broadcastInDim S4x16x3 ![] bcast_S_S4x16x3 (constant S_ .f32 0x3F800000#32))
    (addf (broadcastInDim S4x16x3 ![] bcast_S_S4x16x3 (constant S_ .f32 0x3F800000#32)) (Host.exp (Host.negf u)))

/-- The score sums plus ε, spread over the three axes of each joint. -/
def denom (sd : FVec F S4x16 .f32) : FVec F S4x16x3 .f32 :=
  broadcastInDim S4x16x3 ![0, 1, 2] bcast_S4x16x1_S4x16x3_0_1_2
    (broadcastInDim S4x16x1 ![0, 1] bcast_S4x16_S4x16x1_0_1
      (addf sd (broadcastInDim S4x16 ![] bcast_S_S4x16 (constant S_ .f32 0x3727C5AC#32))))

/-- A pose loss: the Euclidean norm over the three axes of the difference, summed over samples and joints, over 64. -/
def poseLoss (d : FVec F S4x16x3 .f32) : FVec F S_ .f32 :=
  Host.divf (Host.reduceAdd (Host.sqrt (Host.reduceAdd (mulf d d) (constant S_ .f32 0x00000000#32) reducesTo_S4x16x3_S4x16_d2 h_S_))
    (constant S_ .f32 0x00000000#32) reducesTo_S4x16_S_d0_1 h_S_) (constant S_ .f32 0x42800000#32)

/-- The seven losses from the kernel's four arrays and the pose targets. -/
def out (a0 : FVec F S4x1x11 .f32) (a1 : FVec F S4x1x16 .f32) (a2 a3 : FVec F S4x1x16x3 .f32) (z : FVec F S4x16x6 .f32) :
    FVec F S7 .f32 :=
  let st : FVec F S4x11 .f32 := shapeCast S4x11 a0 shapeCasts_S4x1x11_S4x11
  let sd : FVec F S4x16 .f32 := shapeCast S4x16 a1 shapeCasts_S4x1x16_S4x16
  let lp : FVec F S4x16x3 .f32 := shapeCast S4x16x3 a2 shapeCasts_S4x1x16x3_S4x16x3
  let rp : FVec F S4x16x3 .f32 := shapeCast S4x16x3 a3 shapeCasts_S4x1x16x3_S4x16x3
  concatenate S7 0
    [⟨S1, broadcastInDim S1 ![] bcast_S_S1 (meanOver (perSample (col1 st) (col2 st) (col3 st)) 0x40800000#32)⟩,
     ⟨S1, broadcastInDim S1 ![] bcast_S_S1 (meanOver (col0 st) 0x48800000#32)⟩,
     ⟨S1, broadcastInDim S1 ![] bcast_S_S1 (poseLoss (subf (Host.divf lp (denom sd))
        (sigm ((extractStridedSlice S4x16x3 ![0, 0, 0] · slices_S4x16x6_S4x16x3_0_0_0) z))))⟩,
     ⟨S1, broadcastInDim S1 ![] bcast_S_S1 (meanOver (perSample (col4 st) (col5 st) (col6 st)) 0x40800000#32)⟩,
     ⟨S1, broadcastInDim S1 ![] bcast_S_S1 (poseLoss (subf (Host.divf rp (denom sd))
        (sigm ((extractStridedSlice S4x16x3 ![0, 0, 3] · slices_S4x16x6_S4x16x3_0_0_3) z))))⟩,
     ⟨S1, broadcastInDim S1 ![] bcast_S_S1 (meanOver (perSample (col7 st) (col8 st) (col9 st)) 0x40800000#32)⟩,
     ⟨S1, broadcastInDim S1 ![] bcast_S_S1
        (Host.divf (Host.negf (Host.reduceAdd (col10 st) (constant S_ .f32 0x00000000#32) reducesTo_S4_S_d0 h_S_))
          (constant S_ .f32 0x48800000#32))⟩]
    concatenates_S1_S1_S1_S1_S1_S1_S1_S7_d0

attribute [local irreducible] Host.reduceAdd in
set_option maxRecDepth 16384 in
set_option maxHeartbeats 1600000 in
/-- The host lines after the region compute `out` of the four arrays and the pose targets as they find them. -/
theorem out_eq (W : Valuation τ sig (Elt F)) :
    after (List.flatten [hostOps1, hostOps1_1, hostOps1_2, hostOps1_3, hostOps1_4, hostOps1_5, hostOps1_6, hostOps1_7,
        hostOps1_8, hostOps1_9, hostOps1_10]) W (main_v99 : DevRef τ sig)
      = out (W (main_v0_0 : DevRef τ sig)) (W (main_v0_1 : DevRef τ sig)) (W (main_v0_2 : DevRef τ sig))
          (W (main_v0_3 : DevRef τ sig)) (W (main_arg2 : DevRef τ sig)) := by
  simp only [List.flatten_cons, List.flatten_nil, List.append_nil, List.cons_append, List.nil_append, hostOps1, hostOps1_1,
    hostOps1_2, hostOps1_3, hostOps1_4, hostOps1_5, hostOps1_6, hostOps1_7, hostOps1_8, hostOps1_9, hostOps1_10]
  after_results_simp
  rfl

end Cert.KernelIdeal.Tail

end
-- ==== Proof.TileSums.Arrays.lean ====
import proofs.«112959_j30356828848315_1_alg».proof.Proof.TileSums.Bands
import proofs.«112959_j30356828848315_1_alg».proof.Proof.KernelTail

/-! # Tile sums: the four result arrays in closed form, and the program's result

After band 7 of image `b` (point `8·b + 7`) each output block is written back to row `b` of its array; these four
write-backs per array cover it, so each result array is the closed form `Tile.stats`, `Tile.sd`, `Tile.loc`,
`Tile.rot` of the two image arguments. The host operations after the region read those four arrays and the third
argument and write none of them, so the program's result is `Tail.out` of the four closed forms and the third
argument. -/

set_option maxRecDepth 16384

noncomputable section

namespace Cert.KernelIdeal.TileSums

open Cert.KernelIdeal.Gen Cert.KernelIdeal Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The iteration read at an index depends on the image, the band and the index through their values only. -/
theorem run_apply_congr {S : Shape} (zero : Vec F S .f32)
    (next : Vec F S1x134x32x256 .f32 → Vec F S1x101x32x256 .f32 → Vec F S .f32 → Vec F S .f32)
    (x : FVec F S4x134x256x256 .f32) (y : FVec F S4x101x256x256 .f32) (b b' : Fin 4) (k k' : ℕ) (hk : k < 8) (hk' : k' < 8)
    (j j' : S.Idx) (hb : b.val = b'.val) (hkk : k = k') (hj : j = j') :
    Tile.run zero next x y b k hk j = Tile.run zero next x y b' k' hk' j' := by
  rw [run_congr zero next x y b b' k k' hk hk' hb hkk, hj]

/-- The printed index maps of the four output windows, decided over the grid: at point `t` the block index is
    (`t / 8`, 0, 0) — (`t / 8`, 0, 0, 0) for the two rank-4 arrays. -/
theorem idx_out : ∀ t : Fin cfg0.N,
    win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = 0 ∧ win0_3.index t (2 : Fin 3) = 0
    ∧ win0_4.index t (0 : Fin 4) = t.val / 8 ∧ win0_4.index t (1 : Fin 4) = 0 ∧ win0_4.index t (2 : Fin 4) = 0 ∧ win0_4.index t (3 : Fin 4) = 0
    ∧ win0_5.index t (0 : Fin 4) = t.val / 8 ∧ win0_5.index t (1 : Fin 4) = 0 ∧ win0_5.index t (2 : Fin 4) = 0 ∧ win0_5.index t (3 : Fin 4) = 0 :=
  (by decide +kernel : ∀ t : Fin grid0.N, _)

/-! ## Output window 2 -/

/-- What the write-back after an image's last band writes is that image's row of the closed form. -/
theorem flushed2_eq (c : Dev nD) (t : Fin cfg0.N) (hf : (cfg0.win 2).flush t = true) :
    (dats m 0 c).flushed 2 t = ((cfg0.win 2).blk t).view.read (Elt F) (Tile.stats (V m c main_arg0) (V m c main_arg1)) := by
  have h7 : t.val % 8 = 7 := (flush0_2 t).mp hf
  have hN : t.val < 32 := lt_of_lt_of_eq t.isLt (show cfg0.N = 32 from N_0)
  obtain ⟨e0, e1, e2, -, -, -, -, -, -, -, -, -, -, -⟩ := idx_out t
  show (cfg0.win 2).cut (grid0.coords t) ((dats m 0 c).after 2 t) = _
  rw [after0_2, outsAt_eq]
  funext j
  rw [View.read_apply]
  show bandRun m (k0_pay3 (F := F)) Tile.next2 c t.val t.isLt j = Tile.stats (V m c main_arg0) (V m c main_arg1) (((cfg0.win 2).blk t).view.emb j)
  unfold bandRun Tile.stats
  refine run_apply_congr _ _ _ _ _ _ _ _ _ _ _ _ ?_ h7 ?_
  · show t.val / 8 = win0_2.index t (0 : Fin 3) * 1 + 1 * (j 0).val
    have : (j 0).val < 1 := (j 0).isLt
    omega
  · funext a
    match a with
    | ⟨0, _⟩ => exact Fin.ext (by show (j 0).val = 0; have : (j 0).val < 1 := (j 0).isLt; omega)
    | ⟨1, _⟩ => exact Fin.ext (by show (j 1).val = 0; have : (j 1).val < 1 := (j 1).isLt; omega)
    | ⟨2, _⟩ => exact Fin.ext (by show (j 2).val = win0_2.index t (2 : Fin 3) * 11 + 1 * (j 2).val; omega)

/-- An index of the array is in point `t`'s block iff each coordinate is in the block's range on its axis. -/
theorem mem_blk2 (t : Fin cfg0.N) (i : S4x1x11.Idx) :
    i ∈ ((cfg0.win 2).blk t).view.set ↔ ∀ a : Fin 3, win0_2.index t a * S1x1x11.size a ≤ (i a).val ∧ (i a).val < win0_2.index t a * S1x1x11.size a + S1x1x11.size a := by
  show i ∈ ((View.whole main_v0_0).slice (win0_2.rect t)).set ↔ _
  rw [View.set_slice_whole, Rect.mem_set_unit]
  exact Iff.rfl

/-- The array after the run: row `b` is covered by the write-back at point `8·b + 7`, so the whole array is the
    closed form. -/
theorem final2 (c : Dev nD) : (dats m 0 c).arrAt 2 cfg0.N = Tile.stats (V m c main_arg0) (V m c main_arg1) :=
  (dats m 0 c).arrAt_eq_of_cover 2 (Tile.stats (V m c main_arg0) (V m c main_arg1)) (flushed2_eq m c) fun i => by
    have hi0 : (i 0).val < 4 := (i 0).isLt
    have hi1 : (i 1).val < 1 := (i 1).isLt
    have hi2 : (i 2).val < 11 := (i 2).isLt
    have hN : cfg0.N = 32 := N_0
    obtain ⟨t, ht⟩ : ∃ t : Fin cfg0.N, t.val = 8 * (i 0).val + 7 := ⟨⟨8 * (i 0).val + 7, by omega⟩, rfl⟩
    obtain ⟨e0, e1, e2, -, -, -, -, -, -, -, -, -, -, -⟩ := idx_out t
    refine ⟨t, (flush0_2 t).mpr (by omega), ?_⟩
    rw [mem_blk2]
    intro a
    match a with
    | ⟨0, _⟩ => show win0_2.index t (0 : Fin 3) * 1 ≤ (i 0).val ∧ (i 0).val < win0_2.index t (0 : Fin 3) * 1 + 1; omega
    | ⟨1, _⟩ => show win0_2.index t (1 : Fin 3) * 1 ≤ (i 1).val ∧ (i 1).val < win0_2.index t (1 : Fin 3) * 1 + 1; omega
    | ⟨2, _⟩ => show win0_2.index t (2 : Fin 3) * 11 ≤ (i 2).val ∧ (i 2).val < win0_2.index t (2 : Fin 3) * 11 + 11; omega

/-! ## Output window 3 -/

/-- What the write-back after an image's last band writes is that image's row of the closed form. -/
theorem flushed3_eq (c : Dev nD) (t : Fin cfg0.N) (hf : (cfg0.win 3).flush t = true) :
    (dats m 0 c).flushed 3 t = ((cfg0.win 3).blk t).view.read (Elt F) (Tile.sd (V m c main_arg0) (V m c main_arg1)) := by
  have h7 : t.val % 8 = 7 := (flush0_3 t).mp hf
  have hN : t.val < 32 := lt_of_lt_of_eq t.isLt (show cfg0.N = 32 from N_0)
  obtain ⟨-, -, -, e0, e1, e2, -, -, -, -, -, -, -, -⟩ := idx_out t
  show (cfg0.win 3).cut (grid0.coords t) ((dats m 0 c).after 3 t) = _
  rw [after0_3, outsAt_eq]
  funext j
  rw [View.read_apply]
  show bandRun m (k0_pay4 (F := F)) Tile.next3 c t.val t.isLt j = Tile.sd (V m c main_arg0) (V m c main_arg1) (((cfg0.win 3).blk t).view.emb j)
  unfold bandRun Tile.sd
  refine run_apply_congr _ _ _ _ _ _ _ _ _ _ _ _ ?_ h7 ?_
  · show t.val / 8 = win0_3.index t (0 : Fin 3) * 1 + 1 * (j 0).val
    have : (j 0).val < 1 := (j 0).isLt
    omega
  · funext a
    match a with
    | ⟨0, _⟩ => exact Fin.ext (by show (j 0).val = 0; have : (j 0).val < 1 := (j 0).isLt; omega)
    | ⟨1, _⟩ => exact Fin.ext (by show (j 1).val = 0; have : (j 1).val < 1 := (j 1).isLt; omega)
    | ⟨2, _⟩ => exact Fin.ext (by show (j 2).val = win0_3.index t (2 : Fin 3) * 16 + 1 * (j 2).val; omega)

/-- An index of the array is in point `t`'s block iff each coordinate is in the block's range on its axis. -/
theorem mem_blk3 (t : Fin cfg0.N) (i : S4x1x16.Idx) :
    i ∈ ((cfg0.win 3).blk t).view.set ↔ ∀ a : Fin 3, win0_3.index t a * S1x1x16.size a ≤ (i a).val ∧ (i a).val < win0_3.index t a * S1x1x16.size a + S1x1x16.size a := by
  show i ∈ ((View.whole main_v0_1).slice (win0_3.rect t)).set ↔ _
  rw [View.set_slice_whole, Rect.mem_set_unit]
  exact Iff.rfl

/-- The array after the run: row `b` is covered by the write-back at point `8·b + 7`, so the whole array is the
    closed form. -/
theorem final3 (c : Dev nD) : (dats m 0 c).arrAt 3 cfg0.N = Tile.sd (V m c main_arg0) (V m c main_arg1) :=
  (dats m 0 c).arrAt_eq_of_cover 3 (Tile.sd (V m c main_arg0) (V m c main_arg1)) (flushed3_eq m c) fun i => by
    have hi0 : (i 0).val < 4 := (i 0).isLt
    have hi1 : (i 1).val < 1 := (i 1).isLt
    have hi2 : (i 2).val < 16 := (i 2).isLt
    have hN : cfg0.N = 32 := N_0
    obtain ⟨t, ht⟩ : ∃ t : Fin cfg0.N, t.val = 8 * (i 0).val + 7 := ⟨⟨8 * (i 0).val + 7, by omega⟩, rfl⟩
    obtain ⟨-, -, -, e0, e1, e2, -, -, -, -, -, -, -, -⟩ := idx_out t
    refine ⟨t, (flush0_3 t).mpr (by omega), ?_⟩
    rw [mem_blk3]
    intro a
    match a with
    | ⟨0, _⟩ => show win0_3.index t (0 : Fin 3) * 1 ≤ (i 0).val ∧ (i 0).val < win0_3.index t (0 : Fin 3) * 1 + 1; omega
    | ⟨1, _⟩ => show win0_3.index t (1 : Fin 3) * 1 ≤ (i 1).val ∧ (i 1).val < win0_3.index t (1 : Fin 3) * 1 + 1; omega
    | ⟨2, _⟩ => show win0_3.index t (2 : Fin 3) * 16 ≤ (i 2).val ∧ (i 2).val < win0_3.index t (2 : Fin 3) * 16 + 16; omega

/-! ## Output window 4 -/

/-- What the write-back after an image's last band writes is that image's row of the closed form. -/
theorem flushed4_eq (c : Dev nD) (t : Fin cfg0.N) (hf : (cfg0.win 4).flush t = true) :
    (dats m 0 c).flushed 4 t = ((cfg0.win 4).blk t).view.read (Elt F) (Tile.loc (V m c main_arg0) (V m c main_arg1)) := by
  have h7 : t.val % 8 = 7 := (flush0_4 t).mp hf
  have hN : t.val < 32 := lt_of_lt_of_eq t.isLt (show cfg0.N = 32 from N_0)
  obtain ⟨-, -, -, -, -, -, e0, e1, e2, e3, -, -, -, -⟩ := idx_out t
  show (cfg0.win 4).cut (grid0.coords t) ((dats m 0 c).after 4 t) = _
  rw [after0_4, outsAt_eq]
  funext j
  rw [View.read_apply]
  show bandRun m (k0_pay5 (F := F)) Tile.next4 c t.val t.isLt j = Tile.loc (V m c main_arg0) (V m c main_arg1) (((cfg0.win 4).blk t).view.emb j)
  unfold bandRun Tile.loc
  refine run_apply_congr _ _ _ _ _ _ _ _ _ _ _ _ ?_ h7 ?_
  · show t.val / 8 = win0_4.index t (0 : Fin 4) * 1 + 1 * (j 0).val
    have : (j 0).val < 1 := (j 0).isLt
    omega
  · funext a
    match a with
    | ⟨0, _⟩ => exact Fin.ext (by show (j 0).val = 0; have : (j 0).val < 1 := (j 0).isLt; omega)
    | ⟨1, _⟩ => exact Fin.ext (by show (j 1).val = 0; have : (j 1).val < 1 := (j 1).isLt; omega)
    | ⟨2, _⟩ => exact Fin.ext (by show (j 2).val = win0_4.index t (2 : Fin 4) * 16 + 1 * (j 2).val; omega)
    | ⟨3, _⟩ => exact Fin.ext (by show (j 3).val = win0_4.index t (3 : Fin 4) * 3 + 1 * (j 3).val; omega)

/-- An index of the array is in point `t`'s block iff each coordinate is in the block's range on its axis. -/
theorem mem_blk4 (t : Fin cfg0.N) (i : S4x1x16x3.Idx) :
    i ∈ ((cfg0.win 4).blk t).view.set ↔ ∀ a : Fin 4, win0_4.index t a * S1x1x16x3.size a ≤ (i a).val ∧ (i a).val < win0_4.index t a * S1x1x16x3.size a + S1x1x16x3.size a := by
  show i ∈ ((View.whole main_v0_2).slice (win0_4.rect t)).set ↔ _
  rw [View.set_slice_whole, Rect.mem_set_unit]
  exact Iff.rfl

/-- The array after the run: row `b` is covered by the write-back at point `8·b + 7`, so the whole array is the
    closed form. -/
theorem final4 (c : Dev nD) : (dats m 0 c).arrAt 4 cfg0.N = Tile.loc (V m c main_arg0) (V m c main_arg1) :=
  (dats m 0 c).arrAt_eq_of_cover 4 (Tile.loc (V m c main_arg0) (V m c main_arg1)) (flushed4_eq m c) fun i => by
    have hi0 : (i 0).val < 4 := (i 0).isLt
    have hi1 : (i 1).val < 1 := (i 1).isLt
    have hi2 : (i 2).val < 16 := (i 2).isLt
    have hi3 : (i 3).val < 3 := (i 3).isLt
    have hN : cfg0.N = 32 := N_0
    obtain ⟨t, ht⟩ : ∃ t : Fin cfg0.N, t.val = 8 * (i 0).val + 7 := ⟨⟨8 * (i 0).val + 7, by omega⟩, rfl⟩
    obtain ⟨-, -, -, -, -, -, e0, e1, e2, e3, -, -, -, -⟩ := idx_out t
    refine ⟨t, (flush0_4 t).mpr (by omega), ?_⟩
    rw [mem_blk4]
    intro a
    match a with
    | ⟨0, _⟩ => show win0_4.index t (0 : Fin 4) * 1 ≤ (i 0).val ∧ (i 0).val < win0_4.index t (0 : Fin 4) * 1 + 1; omega
    | ⟨1, _⟩ => show win0_4.index t (1 : Fin 4) * 1 ≤ (i 1).val ∧ (i 1).val < win0_4.index t (1 : Fin 4) * 1 + 1; omega
    | ⟨2, _⟩ => show win0_4.index t (2 : Fin 4) * 16 ≤ (i 2).val ∧ (i 2).val < win0_4.index t (2 : Fin 4) * 16 + 16; omega
    | ⟨3, _⟩ => show win0_4.index t (3 : Fin 4) * 3 ≤ (i 3).val ∧ (i 3).val < win0_4.index t (3 : Fin 4) * 3 + 3; omega

/-! ## Output window 5 -/

/-- What the write-back after an image's last band writes is that image's row of the closed form. -/
theorem flushed5_eq (c : Dev nD) (t : Fin cfg0.N) (hf : (cfg0.win 5).flush t = true) :
    (dats m 0 c).flushed 5 t = ((cfg0.win 5).blk t).view.read (Elt F) (Tile.rot (V m c main_arg0) (V m c main_arg1)) := by
  have h7 : t.val % 8 = 7 := (flush0_5 t).mp hf
  have hN : t.val < 32 := lt_of_lt_of_eq t.isLt (show cfg0.N = 32 from N_0)
  obtain ⟨-, -, -, -, -, -, -, -, -, -, e0, e1, e2, e3⟩ := idx_out t
  show (cfg0.win 5).cut (grid0.coords t) ((dats m 0 c).after 5 t) = _
  rw [after0_5, outsAt_eq]
  funext j
  rw [View.read_apply]
  show bandRun m (k0_pay6 (F := F)) Tile.next5 c t.val t.isLt j = Tile.rot (V m c main_arg0) (V m c main_arg1) (((cfg0.win 5).blk t).view.emb j)
  unfold bandRun Tile.rot
  refine run_apply_congr _ _ _ _ _ _ _ _ _ _ _ _ ?_ h7 ?_
  · show t.val / 8 = win0_5.index t (0 : Fin 4) * 1 + 1 * (j 0).val
    have : (j 0).val < 1 := (j 0).isLt
    omega
  · funext a
    match a with
    | ⟨0, _⟩ => exact Fin.ext (by show (j 0).val = 0; have : (j 0).val < 1 := (j 0).isLt; omega)
    | ⟨1, _⟩ => exact Fin.ext (by show (j 1).val = 0; have : (j 1).val < 1 := (j 1).isLt; omega)
    | ⟨2, _⟩ => exact Fin.ext (by show (j 2).val = win0_5.index t (2 : Fin 4) * 16 + 1 * (j 2).val; omega)
    | ⟨3, _⟩ => exact Fin.ext (by show (j 3).val = win0_5.index t (3 : Fin 4) * 3 + 1 * (j 3).val; omega)

/-- An index of the array is in point `t`'s block iff each coordinate is in the block's range on its axis. -/
theorem mem_blk5 (t : Fin cfg0.N) (i : S4x1x16x3.Idx) :
    i ∈ ((cfg0.win 5).blk t).view.set ↔ ∀ a : Fin 4, win0_5.index t a * S1x1x16x3.size a ≤ (i a).val ∧ (i a).val < win0_5.index t a * S1x1x16x3.size a + S1x1x16x3.size a := by
  show i ∈ ((View.whole main_v0_3).slice (win0_5.rect t)).set ↔ _
  rw [View.set_slice_whole, Rect.mem_set_unit]
  exact Iff.rfl

/-- The array after the run: row `b` is covered by the write-back at point `8·b + 7`, so the whole array is the
    closed form. -/
theorem final5 (c : Dev nD) : (dats m 0 c).arrAt 5 cfg0.N = Tile.rot (V m c main_arg0) (V m c main_arg1) :=
  (dats m 0 c).arrAt_eq_of_cover 5 (Tile.rot (V m c main_arg0) (V m c main_arg1)) (flushed5_eq m c) fun i => by
    have hi0 : (i 0).val < 4 := (i 0).isLt
    have hi1 : (i 1).val < 1 := (i 1).isLt
    have hi2 : (i 2).val < 16 := (i 2).isLt
    have hi3 : (i 3).val < 3 := (i 3).isLt
    have hN : cfg0.N = 32 := N_0
    obtain ⟨t, ht⟩ : ∃ t : Fin cfg0.N, t.val = 8 * (i 0).val + 7 := ⟨⟨8 * (i 0).val + 7, by omega⟩, rfl⟩
    obtain ⟨-, -, -, -, -, -, -, -, -, -, e0, e1, e2, e3⟩ := idx_out t
    refine ⟨t, (flush0_5 t).mpr (by omega), ?_⟩
    rw [mem_blk5]
    intro a
    match a with
    | ⟨0, _⟩ => show win0_5.index t (0 : Fin 4) * 1 ≤ (i 0).val ∧ (i 0).val < win0_5.index t (0 : Fin 4) * 1 + 1; omega
    | ⟨1, _⟩ => show win0_5.index t (1 : Fin 4) * 1 ≤ (i 1).val ∧ (i 1).val < win0_5.index t (1 : Fin 4) * 1 + 1; omega
    | ⟨2, _⟩ => show win0_5.index t (2 : Fin 4) * 16 ≤ (i 2).val ∧ (i 2).val < win0_5.index t (2 : Fin 4) * 16 + 16; omega
    | ⟨3, _⟩ => show win0_5.index t (3 : Fin 4) * 3 ≤ (i 3).val ∧ (i 3).val < win0_5.index t (3 : Fin 4) * 3 + 3; omega

/-! ## The program's run, read -/

/-- The core's buffer contents when the host operations after the region start: the four result arrays as the
    region leaves them, every other buffer as launched. -/
abbrev W (c : Dev nD) : Valuation τ sig (Elt F) :=
  Pipeline.withArrays spec0 c (V0 m c) fun w => (dats m 0 c).arrAt w cfg0.N

theorem W_main_v0_0 (c : Dev nD) : W m c (main_v0_0 : DevRef τ sig) = Tile.stats (m ((c.tc : Thread nD τ).loc main_arg0)) (m ((c.tc : Thread nD τ).loc main_arg1)) :=
  (Pipeline.withArrays_arr spec0 launch0.win.arr_inj c (V0 m c) (fun w => (dats m 0 c).arrAt w cfg0.N) 2).trans (final2 m c)
theorem W_main_v0_1 (c : Dev nD) : W m c (main_v0_1 : DevRef τ sig) = Tile.sd (m ((c.tc : Thread nD τ).loc main_arg0)) (m ((c.tc : Thread nD τ).loc main_arg1)) :=
  (Pipeline.withArrays_arr spec0 launch0.win.arr_inj c (V0 m c) (fun w => (dats m 0 c).arrAt w cfg0.N) 3).trans (final3 m c)
theorem W_main_v0_2 (c : Dev nD) : W m c (main_v0_2 : DevRef τ sig) = Tile.loc (m ((c.tc : Thread nD τ).loc main_arg0)) (m ((c.tc : Thread nD τ).loc main_arg1)) :=
  (Pipeline.withArrays_arr spec0 launch0.win.arr_inj c (V0 m c) (fun w => (dats m 0 c).arrAt w cfg0.N) 4).trans (final4 m c)
theorem W_main_v0_3 (c : Dev nD) : W m c (main_v0_3 : DevRef τ sig) = Tile.rot (m ((c.tc : Thread nD τ).loc main_arg0)) (m ((c.tc : Thread nD τ).loc main_arg1)) :=
  (Pipeline.withArrays_arr spec0 launch0.win.arr_inj c (V0 m c) (fun w => (dats m 0 c).arrAt w cfg0.N) 5).trans (final5 m c)
theorem W_main_arg2 (c : Dev nD) : W m c (main_arg2 : DevRef τ sig) = m ((c.tc : Thread nD τ).loc main_arg2) :=
  Pipeline.withArrays_of_ne spec0 c (V0 m c) (fun w => (dats m 0 c).arrAt w cfg0.N) main_arg2 (by decide)

/-- The result of the host operations after the region: the seven losses of the four closed-form arrays and the
    third argument. -/
theorem tail_value (c : Dev nD) :
    Pipeline.afterTail₀ cfgs (dats m) 0 (V0 m) [hostOps1, hostOps1_1, hostOps1_2, hostOps1_3, hostOps1_4, hostOps1_5, hostOps1_6, hostOps1_7, hostOps1_8, hostOps1_9, hostOps1_10] c main_v99
      = Tail.out (Tile.stats (m ((c.tc : Thread nD τ).loc main_arg0)) (m ((c.tc : Thread nD τ).loc main_arg1)))
          (Tile.sd (m ((c.tc : Thread nD τ).loc main_arg0)) (m ((c.tc : Thread nD τ).loc main_arg1)))
          (Tile.loc (m ((c.tc : Thread nD τ).loc main_arg0)) (m ((c.tc : Thread nD τ).loc main_arg1)))
          (Tile.rot (m ((c.tc : Thread nD τ).loc main_arg0)) (m ((c.tc : Thread nD τ).loc main_arg1)))
          (m ((c.tc : Thread nD τ).loc main_arg2)) := by
  show StableHlo.after (List.flatten [hostOps1, hostOps1_1, hostOps1_2, hostOps1_3, hostOps1_4, hostOps1_5, hostOps1_6, hostOps1_7, hostOps1_8, hostOps1_9, hostOps1_10]) (W m c) (main_v99 : DevRef τ sig) = _
  rw [Tail.out_eq (W m c), W_main_v0_0, W_main_v0_1, W_main_v0_2, W_main_v0_3, W_main_arg2]

/-- THE RUN, READ: the program runs; its result is the seven losses of the four arrays of per-image sums, each a
    closed form of the two image arguments; its three arguments end unchanged. -/
theorem value_run : θ_run defs (onTc (τ := τ) (main (F := F))) ⟨m, fun _ => 0, ρ⟩ (fun r => ∀ c : Dev nD,
      r.2.mem ((c.tc : Thread nD τ).loc main_v99)
        = Tail.out (Tile.stats (m ((c.tc : Thread nD τ).loc main_arg0)) (m ((c.tc : Thread nD τ).loc main_arg1)))
            (Tile.sd (m ((c.tc : Thread nD τ).loc main_arg0)) (m ((c.tc : Thread nD τ).loc main_arg1)))
            (Tile.loc (m ((c.tc : Thread nD τ).loc main_arg0)) (m ((c.tc : Thread nD τ).loc main_arg1)))
            (Tile.rot (m ((c.tc : Thread nD τ).loc main_arg0)) (m ((c.tc : Thread nD τ).loc main_arg1)))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_v99 (Pipeline.mem_restRefs_of main_v99 (by decide) (by decide))).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (afterTail_main_arg2 m (dats m) c)⟩)
    (run_main m ρ)

end Cert.KernelIdeal.TileSums

end
-- ==== Proof.ReferenceRun.Ops.lean ====
/-
  The reference program's operations, re-listed: @main's statements in the program's order, each call of a
  module-local function replaced by that function's own operations over the call's buffer record (the printed
  text of each operation unchanged), cut into consecutive runs; beside each run the buffers its operations
  write, in the same order; then each printed window of @main and the whole program as concatenations of the runs.
-/
import proofs.«112959_j30356828848315_1_alg».proof.ReferenceIdeal
import Idealize.ShloMosaic.Lib.StableHlo.Run

set_option maxRecDepth 4096

noncomputable section

namespace Cert.ReferenceIdeal.RefRun

open Cert.ReferenceIdeal Idealize.ShloMosaic Idealize.ShloMosaic.StableHlo Idealize.SL.Sem
open Cert.ReferenceIdeal.Facts₀ Cert.ReferenceIdeal.Facts

variable {F : FTy → Type} [FloatOps F] [Facts]

/-- Operations 1 … 23 of the 60 in @main's window 0. -/
def run0_0 : List (HloOp τ sig (Elt F)) :=
  [ StableHlo.unary main_arg0 main_v0 ((extractStridedSlice S4x3x256x256 ![0, 0, 0, 0] · slices_S4x134x256x256_S4x3x256x256_0_0_0_0) : (⟨S4x134x256x256, .f32⟩ : BufTy).Contents (Elt F) → (⟨S4x3x256x256, .f32⟩ : BufTy).Contents (Elt F)),
    StableHlo.unary main_arg0 main_v1 ((extractStridedSlice S4x1x256x256 ![0, 3, 0, 0] · slices_S4x134x256x256_S4x1x256x256_0_3_0_0) : (⟨S4x134x256x256, .f32⟩ : BufTy).Contents (Elt F) → (⟨S4x1x256x256, .f32⟩ : BufTy).Contents (Elt F)),
    StableHlo.reshape main_v1 main_v2 rfl shapeCasts_S4x1x256x256_S4x256x256,
    StableHlo.unary main_arg0 main_v3 ((extractStridedSlice S4x48x256x256 ![0, 4, 0, 0] · slices_S4x134x256x256_S4x48x256x256_0_4_0_0) : (⟨S4x134x256x256, .f32⟩ : BufTy).Contents (Elt F) → (⟨S4x48x256x256, .f32⟩ : BufTy).Contents (Elt F)),
    StableHlo.unary main_v3 main_v4 (Host.negf : (⟨S4x48x256x256, .f32⟩ : BufTy).Contents (Elt F) → (⟨S4x48x256x256, .f32⟩ : BufTy).Contents (Elt F)),
    StableHlo.unary main_v4 main_v5 (Host.exp : (⟨S4x48x256x256, .f32⟩ : BufTy).Contents (Elt F) → (⟨S4x48x256x256, .f32⟩ : BufTy).Contents (Elt F)),
    StableHlo.nullary main_cst (constant S_ .f32 0x3F800000#32),
    StableHlo.unary main_cst main_v6 (broadcastInDim S4x48x256x256 ![] bcast_S_S4x48x256x256 : (⟨S_, .f32⟩ : BufTy).Contents (Elt F) → (⟨S4x48x256x256, .f32⟩ : BufTy).Contents (Elt F)),
    StableHlo.binary main_v6 main_v5 main_v7 (addf : (⟨S4x48x256x256, .f32⟩ : BufTy).Contents (Elt F) → (⟨S4x48x256x256, .f32⟩ : BufTy).Contents (Elt F) → (⟨S4x48x256x256, .f32⟩ : BufTy).Contents (Elt F)),
    StableHlo.nullary main_cst_0 (constant S_ .f32 0x3F800000#32),
    StableHlo.unary main_cst_0 main_v8 (broadcastInDim S4x48x256x256 ![] bcast_S_S4x48x256x256 : (⟨S_, .f32⟩ : BufTy).Contents (Elt F) → (⟨S4x48x256x256, .f32⟩ : BufTy).Contents (Elt F)),
    StableHlo.binary main_v8 main_v7 main_v9 (Host.divf : (⟨S4x48x256x256, .f32⟩ : BufTy).Contents (Elt F) → (⟨S4x48x256x256, .f32⟩ : BufTy).Contents (Elt F) → (⟨S4x48x256x256, .f32⟩ : BufTy).Contents (Elt F)),
    StableHlo.unary main_arg0 main_v10 ((extractStridedSlice S4x48x256x256 ![0, 52, 0, 0] · slices_S4x134x256x256_S4x48x256x256_0_52_0_0) : (⟨S4x134x256x256, .f32⟩ : BufTy).Contents (Elt F) → (⟨S4x48x256x256, .f32⟩ : BufTy).Contents (Elt F)),
    StableHlo.unary main_v10 main_v11 (Host.negf : (⟨S4x48x256x256, .f32⟩ : BufTy).Contents (Elt F) → (⟨S4x48x256x256, .f32⟩ : BufTy).Contents (Elt F)),
    StableHlo.unary main_v11 main_v12 (Host.exp : (⟨S4x48x256x256, .f32⟩ : BufTy).Contents (Elt F) → (⟨S4x48x256x256, .f32⟩ : BufTy).Contents (Elt F)),
    StableHlo.nullary main_cst_1 (constant S_ .f32 0x3F800000#32),
    StableHlo.unary main_cst_1 main_v13 (broadcastInDim S4x48x256x256 ![] bcast_S_S4x48x256x256 : (⟨S_, .f32⟩ : BufTy).Contents (Elt F) → (⟨S4x48x256x256, .f32⟩ : BufTy).Contents (Elt F)),
    StableHlo.binary main_v13 main_v12 main_v14 (addf : (⟨S4x48x256x256, .f32⟩ : BufTy).Contents (Elt F) → (⟨S4x48x256x256, .f32⟩ : BufTy).Contents (Elt F) → (⟨S4x48x256x256, .f32⟩ : BufTy).Contents (Elt F)),
    StableHlo.nullary main_cst_2 (constant S_ .f32 0x3F800000#32),
    StableHlo.unary main_cst_2 main_v15 (broadcastInDim S4x48x256x256 ![] bcast_S_S4x48x256x256 : (⟨S_, .f32⟩ : BufTy).Contents (Elt F) → (⟨S4x48x256x256, .f32⟩ : BufTy).Contents (Elt F)),
    StableHlo.binary main_v15 main_v14 main_v16 (Host.divf : (⟨S4x48x256x256, .f32⟩ : BufTy).Contents (Elt F) → (⟨S4x48x256x256, .f32⟩ : BufTy).Contents (Elt F) → (⟨S4x48x256x256, .f32⟩ : BufTy).Contents (Elt F)),
    StableHlo.unary main_arg0 main_v17 ((extractStridedSlice S4x18x256x256 ![0, 100, 0, 0] · slices_S4x134x256x256_S4x18x256x256_0_100_0_0) : (⟨S4x134x256x256, .f32⟩ : BufTy).Contents (Elt F) → (⟨S4x18x256x256, .f32⟩ : BufTy).Contents (Elt F)),
    StableHlo.unary main_arg0 main_v18 ((extractStridedSlice S4x16x256x256 ![0, 118, 0, 0] · slices_S4x134x256x256_S4x16x256x256_0_118_0_0) : (⟨S4x134x256x256, .f32⟩ : BufTy).Contents (Elt F) → (⟨S4x16x256x256, .f32⟩ : BufTy).Contents (Elt F)) ]

/-- The buffers the operations of `run0_0` write, in order. -/
def run0_0_writes : List (Ref sig .tc) :=
  [ main_v0, main_v1, main_v2, main_v3, main_v4, main_v5, main_cst, main_v6, main_v7, main_cst_0, main_v8, main_v9, main_v10, main_v11, main_v12, main_cst_1, main_v13, main_v14, main_cst_2, main_v15, main_v16, main_v17, main_v18 ]

/-- Operations 24 … 47 of the 60 in @main's window 0. -/
def run0_1 : List (HloOp τ sig (Elt F)) :=
  [ StableHlo.unary main_arg1 main_v19 ((extractStridedSlice S4x3x256x256 ![0, 0, 0, 0] · slices_S4x101x256x256_S4x3x256x256_0_0_0_0) : (⟨S4x101x256x256, .f32⟩ : BufTy).Contents (Elt F) → (⟨S4x3x256x256, .f32⟩ : BufTy).Contents (Elt F)),
    StableHlo.unary main_arg1 main_v20 ((extractStridedSlice S4x1x256x256 ![0, 3, 0, 0] · slices_S4x101x256x256_S4x1x256x256_0_3_0_0) : (⟨S4x101x256x256, .f32⟩ : BufTy).Contents (Elt F) → (⟨S4x1x256x256, .f32⟩ : BufTy).Contents (Elt F)),
    StableHlo.reshape main_v20 main_v21 rfl shapeCasts_S4x1x256x256_S4x256x256,
    StableHlo.unary main_arg1 main_v22 ((extractStridedSlice S4x48x256x256 ![0, 4, 0, 0] · slices_S4x101x256x256_S4x48x256x256_0_4_0_0) : (⟨S4x101x256x256, .f32⟩ : BufTy).Contents (Elt F) → (⟨S4x48x256x256, .f32⟩ : BufTy).Contents (Elt F)),
    StableHlo.unary main_v22 main_v23 (Host.negf : (⟨S4x48x256x256, .f32⟩ : BufTy).Contents (Elt F) → (⟨S4x48x256x256, .f32⟩ : BufTy).Contents (Elt F)),
    StableHlo.unary main_v23 main_v24 (Host.exp : (⟨S4x48x256x256, .f32⟩ : BufTy).Contents (Elt F) → (⟨S4x48x256x256, .f32⟩ : BufTy).Contents (Elt F)),
    StableHlo.nullary main_cst_3 (constant S_ .f32 0x3F800000#32),
    StableHlo.unary main_cst_3 main_v25 (broadcastInDim S4x48x256x256 ![] bcast_S_S4x48x256x256 : (⟨S_, .f32⟩ : BufTy).Contents (Elt F) → (⟨S4x48x256x256, .f32⟩ : BufTy).Contents (Elt F)),
    StableHlo.binary main_v25 main_v24 main_v26 (addf : (⟨S4x48x256x256, .f32⟩ : BufTy).Contents (Elt F) → (⟨S4x48x256x256, .f32⟩ : BufTy).Contents (Elt F) → (⟨S4x48x256x256, .f32⟩ : BufTy).Contents (Elt F)),
    StableHlo.nullary main_cst_4 (constant S_ .f32 0x3F800000#32),
    StableHlo.unary main_cst_4 main_v27 (broadcastInDim S4x48x256x256 ![] bcast_S_S4x48x256x256 : (⟨S_, .f32⟩ : BufTy).Contents (Elt F) → (⟨S4x48x256x256, .f32⟩ : BufTy).Contents (Elt F)),
    StableHlo.binary main_v27 main_v26 main_v28 (Host.divf : (⟨S4x48x256x256, .f32⟩ : BufTy).Contents (Elt F) → (⟨S4x48x256x256, .f32⟩ : BufTy).Contents (Elt F) → (⟨S4x48x256x256, .f32⟩ : BufTy).Contents (Elt F)),
    StableHlo.unary main_arg1 main_v29 ((extractStridedSlice S4x48x256x256 ![0, 52, 0, 0] · slices_S4x101x256x256_S4x48x256x256_0_52_0_0) : (⟨S4x101x256x256, .f32⟩ : BufTy).Contents (Elt F) → (⟨S4x48x256x256, .f32⟩ : BufTy).Contents (Elt F)),
    StableHlo.unary main_v29 main_v30 (Host.negf : (⟨S4x48x256x256, .f32⟩ : BufTy).Contents (Elt F) → (⟨S4x48x256x256, .f32⟩ : BufTy).Contents (Elt F)),
    StableHlo.unary main_v30 main_v31 (Host.exp : (⟨S4x48x256x256, .f32⟩ : BufTy).Contents (Elt F) → (⟨S4x48x256x256, .f32⟩ : BufTy).Contents (Elt F)),
    StableHlo.nullary main_cst_5 (constant S_ .f32 0x3F800000#32),
    StableHlo.unary main_cst_5 main_v32 (broadcastInDim S4x48x256x256 ![] bcast_S_S4x48x256x256 : (⟨S_, .f32⟩ : BufTy).Contents (Elt F) → (⟨S4x48x256x256, .f32⟩ : BufTy).Contents (Elt F)),
    StableHlo.binary main_v32 main_v31 main_v33 (addf : (⟨S4x48x256x256, .f32⟩ : BufTy).Contents (Elt F) → (⟨S4x48x256x256, .f32⟩ : BufTy).Contents (Elt F) → (⟨S4x48x256x256, .f32⟩ : BufTy).Contents (Elt F)),
    StableHlo.nullary main_cst_6 (constant S_ .f32 0x3F800000#32),
    StableHlo.unary main_cst_6 main_v34 (broadcastInDim S4x48x256x256 ![] bcast_S_S4x48x256x256 : (⟨S_, .f32⟩ : BufTy).Contents (Elt F) → (⟨S4x48x256x256, .f32⟩ : BufTy).Contents (Elt F)),
    StableHlo.binary main_v34 main_v33 main_v35 (Host.divf : (⟨S4x48x256x256, .f32⟩ : BufTy).Contents (Elt F) → (⟨S4x48x256x256, .f32⟩ : BufTy).Contents (Elt F) → (⟨S4x48x256x256, .f32⟩ : BufTy).Contents (Elt F)),
    StableHlo.unary main_arg1 main_v36 ((extractStridedSlice S4x1x256x256 ![0, 100, 0, 0] · slices_S4x101x256x256_S4x1x256x256_0_100_0_0) : (⟨S4x101x256x256, .f32⟩ : BufTy).Contents (Elt F) → (⟨S4x1x256x256, .f32⟩ : BufTy).Contents (Elt F)),
    StableHlo.reshape main_v36 main_v37 rfl shapeCasts_S4x1x256x256_S4x256x256,
    StableHlo.unary main_v37 main_v38 (fptosi 32 : (⟨S4x256x256, .f32⟩ : BufTy).Contents (Elt F) → (⟨S4x256x256, .i32⟩ : BufTy).Contents (Elt F)) ]

/-- The buffers the operations of `run0_1` write, in order. -/
def run0_1_writes : List (Ref sig .tc) :=
  [ main_v19, main_v20, main_v21, main_v22, main_v23, main_v24, main_cst_3, main_v25, main_v26, main_cst_4, main_v27, main_v28, main_v29, main_v30, main_v31, main_cst_5, main_v32, main_v33, main_cst_6, main_v34, main_v35, main_v36, main_v37, main_v38 ]

/-- Operations 48 … 60 of the 60 in @main's window 0. -/
def run0_2 : List (HloOp τ sig (Elt F)) :=
  [ StableHlo.unary main_arg2 main_v39 ((extractStridedSlice S4x16x3 ![0, 0, 0] · slices_S4x16x6_S4x16x3_0_0_0) : (⟨S4x16x6, .f32⟩ : BufTy).Contents (Elt F) → (⟨S4x16x3, .f32⟩ : BufTy).Contents (Elt F)),
    StableHlo.unary main_v39 main_v40 (Host.negf : (⟨S4x16x3, .f32⟩ : BufTy).Contents (Elt F) → (⟨S4x16x3, .f32⟩ : BufTy).Contents (Elt F)),
    StableHlo.unary main_v40 main_v41 (Host.exp : (⟨S4x16x3, .f32⟩ : BufTy).Contents (Elt F) → (⟨S4x16x3, .f32⟩ : BufTy).Contents (Elt F)),
    StableHlo.nullary main_cst_7 (constant S_ .f32 0x3F800000#32),
    StableHlo.unary main_cst_7 main_v42 (broadcastInDim S4x16x3 ![] bcast_S_S4x16x3 : (⟨S_, .f32⟩ : BufTy).Contents (Elt F) → (⟨S4x16x3, .f32⟩ : BufTy).Contents (Elt F)),
    StableHlo.binary main_v42 main_v41 main_v43 (addf : (⟨S4x16x3, .f32⟩ : BufTy).Contents (Elt F) → (⟨S4x16x3, .f32⟩ : BufTy).Contents (Elt F) → (⟨S4x16x3, .f32⟩ : BufTy).Contents (Elt F)),
    StableHlo.nullary main_cst_8 (constant S_ .f32 0x3F800000#32),
    StableHlo.unary main_cst_8 main_v44 (broadcastInDim S4x16x3 ![] bcast_S_S4x16x3 : (⟨S_, .f32⟩ : BufTy).Contents (Elt F) → (⟨S4x16x3, .f32⟩ : BufTy).Contents (Elt F)),
    StableHlo.binary main_v44 main_v43 main_v45 (Host.divf : (⟨S4x16x3, .f32⟩ : BufTy).Contents (Elt F) → (⟨S4x16x3, .f32⟩ : BufTy).Contents (Elt F) → (⟨S4x16x3, .f32⟩ : BufTy).Contents (Elt F)),
    StableHlo.unary main_arg2 main_v46 ((extractStridedSlice S4x16x3 ![0, 0, 3] · slices_S4x16x6_S4x16x3_0_0_3) : (⟨S4x16x6, .f32⟩ : BufTy).Contents (Elt F) → (⟨S4x16x3, .f32⟩ : BufTy).Contents (Elt F)),
    StableHlo.unary main_v46 main_v47 (Host.negf : (⟨S4x16x3, .f32⟩ : BufTy).Contents (Elt F) → (⟨S4x16x3, .f32⟩ : BufTy).Contents (Elt F)),
    StableHlo.unary main_v47 main_v48 (Host.exp : (⟨S4x16x3, .f32⟩ : BufTy).Contents (Elt F) → (⟨S4x16x3, .f32⟩ : BufTy).Contents (Elt F)),
    StableHlo.nullary main_cst_9 (constant S_ .f32 0x3F800000#32) ]

/-- The buffers the operations of `run0_2` write, in order. -/
def run0_2_writes : List (Ref sig .tc) :=
  [ main_v39, main_v40, main_v41, main_cst_7, main_v42, main_v43, main_cst_8, main_v44, main_v45, main_v46, main_v47, main_v48, main_cst_9 ]

/-- Operations 1 … 5 of the 98 in @main's window 1. -/
def run1_0 : List (HloOp τ sig (Elt F)) :=
  [ StableHlo.unary main_cst_9 main_v49 (broadcastInDim S4x16x3 ![] bcast_S_S4x16x3 : (⟨S_, .f32⟩ : BufTy).Contents (Elt F) → (⟨S4x16x3, .f32⟩ : BufTy).Contents (Elt F)),
    StableHlo.binary main_v49 main_v48 main_v50 (addf : (⟨S4x16x3, .f32⟩ : BufTy).Contents (Elt F) → (⟨S4x16x3, .f32⟩ : BufTy).Contents (Elt F) → (⟨S4x16x3, .f32⟩ : BufTy).Contents (Elt F)),
    StableHlo.nullary main_cst_10 (constant S_ .f32 0x3F800000#32),
    StableHlo.unary main_cst_10 main_v51 (broadcastInDim S4x16x3 ![] bcast_S_S4x16x3 : (⟨S_, .f32⟩ : BufTy).Contents (Elt F) → (⟨S4x16x3, .f32⟩ : BufTy).Contents (Elt F)),
    StableHlo.binary main_v51 main_v50 main_v52 (Host.divf : (⟨S4x16x3, .f32⟩ : BufTy).Contents (Elt F) → (⟨S4x16x3, .f32⟩ : BufTy).Contents (Elt F) → (⟨S4x16x3, .f32⟩ : BufTy).Contents (Elt F)) ]

/-- The buffers the operations of `run1_0` write, in order. -/
def run1_0_writes : List (Ref sig .tc) :=
  [ main_v49, main_v50, main_cst_10, main_v51, main_v52 ]

/-- Operations 6 … 49 of the 98 in @main's window 1. -/
def run1_1 : List (HloOp τ sig (Elt F)) :=
  [ StableHlo.TRef.unary (.of main_v2 : StableHlo.TRef sig ⟨S4x256x256, .f32⟩) main_call0.v0 Host.negf,
    StableHlo.TRef.nullary main_call0.call0.cst (constant S_ .f32 0x00000000#32),
    StableHlo.TRef.unary main_call0.call0.cst main_call0.call0.v0 (broadcastInDim S4x256x256 ![] bcast_S_S4x256x256),
    StableHlo.TRef.binary main_call0.v0 main_call0.call0.v0 main_call0.call0.v1 maximumf,
    StableHlo.TRef.unary main_call0.call0.cst main_call0.call0.v2 (broadcastInDim S4x256x256 ![] bcast_S_S4x256x256),
    StableHlo.TRef.binary main_call0.v0 main_call0.call0.v2 main_call0.call0.v3 subf,
    StableHlo.TRef.binary main_call0.call0.v3 main_call0.call0.v3 main_call0.call0.v4 (cmpf .une),
    StableHlo.TRef.unary main_call0.call0.cst main_call0.call0.v5 (broadcastInDim S4x256x256 ![] bcast_S_S4x256x256),
    StableHlo.TRef.binary main_call0.v0 main_call0.call0.v5 main_call0.call0.v6 addf,
    StableHlo.TRef.unary main_call0.call0.v3 main_call0.call0.v7 Host.absf,
    StableHlo.TRef.unary main_call0.call0.v7 main_call0.call0.v8 Host.negf,
    StableHlo.TRef.unary main_call0.call0.v8 main_call0.call0.v9 Host.exp,
    StableHlo.TRef.unary main_call0.call0.v9 main_call0.call0.v10 Host.log1p,
    StableHlo.TRef.binary main_call0.call0.v1 main_call0.call0.v10 main_call0.call0.v11 addf,
    StableHlo.TRef.ternary main_call0.call0.v4 main_call0.call0.v6 main_call0.call0.v11 main_call0.call0.v12 select,
    StableHlo.TRef.unary main_call0.call0.v12 main_call0.v2 Host.negf,
    StableHlo.binary main_v21 main_v53 main_v54 (mulf : (⟨S4x256x256, .f32⟩ : BufTy).Contents (Elt F) → (⟨S4x256x256, .f32⟩ : BufTy).Contents (Elt F) → (⟨S4x256x256, .f32⟩ : BufTy).Contents (Elt F)),
    StableHlo.nullary main_cst_11 (constant S_ .f32 0x3F800000#32),
    StableHlo.unary main_cst_11 main_v55 (broadcastInDim S4x256x256 ![] bcast_S_S4x256x256 : (⟨S_, .f32⟩ : BufTy).Contents (Elt F) → (⟨S4x256x256, .f32⟩ : BufTy).Contents (Elt F)),
    StableHlo.binary main_v55 main_v21 main_v56 (subf : (⟨S4x256x256, .f32⟩ : BufTy).Contents (Elt F) → (⟨S4x256x256, .f32⟩ : BufTy).Contents (Elt F) → (⟨S4x256x256, .f32⟩ : BufTy).Contents (Elt F)),
    StableHlo.unary main_v2 main_v57 (Host.negf : (⟨S4x256x256, .f32⟩ : BufTy).Contents (Elt F) → (⟨S4x256x256, .f32⟩ : BufTy).Contents (Elt F)),
    StableHlo.TRef.unary (.of main_v57 : StableHlo.TRef sig ⟨S4x256x256, .f32⟩) main_call1.v0 Host.negf,
    StableHlo.TRef.nullary main_call1.call0.cst (constant S_ .f32 0x00000000#32),
    StableHlo.TRef.unary main_call1.call0.cst main_call1.call0.v0 (broadcastInDim S4x256x256 ![] bcast_S_S4x256x256),
    StableHlo.TRef.binary main_call1.v0 main_call1.call0.v0 main_call1.call0.v1 maximumf,
    StableHlo.TRef.unary main_call1.call0.cst main_call1.call0.v2 (broadcastInDim S4x256x256 ![] bcast_S_S4x256x256),
    StableHlo.TRef.binary main_call1.v0 main_call1.call0.v2 main_call1.call0.v3 subf,
    StableHlo.TRef.binary main_call1.call0.v3 main_call1.call0.v3 main_call1.call0.v4 (cmpf .une),
    StableHlo.TRef.unary main_call1.call0.cst main_call1.call0.v5 (broadcastInDim S4x256x256 ![] bcast_S_S4x256x256),
    StableHlo.TRef.binary main_call1.v0 main_call1.call0.v5 main_call1.call0.v6 addf,
    StableHlo.TRef.unary main_call1.call0.v3 main_call1.call0.v7 Host.absf,
    StableHlo.TRef.unary main_call1.call0.v7 main_call1.call0.v8 Host.negf,
    StableHlo.TRef.unary main_call1.call0.v8 main_call1.call0.v9 Host.exp,
    StableHlo.TRef.unary main_call1.call0.v9 main_call1.call0.v10 Host.log1p,
    StableHlo.TRef.binary main_call1.call0.v1 main_call1.call0.v10 main_call1.call0.v11 addf,
    StableHlo.TRef.ternary main_call1.call0.v4 main_call1.call0.v6 main_call1.call0.v11 main_call1.call0.v12 select,
    StableHlo.TRef.unary main_call1.call0.v12 main_call1.v2 Host.negf,
    StableHlo.binary main_v56 main_v58 main_v59 (mulf : (⟨S4x256x256, .f32⟩ : BufTy).Contents (Elt F) → (⟨S4x256x256, .f32⟩ : BufTy).Contents (Elt F) → (⟨S4x256x256, .f32⟩ : BufTy).Contents (Elt F)),
    StableHlo.binary main_v54 main_v59 main_v60 (addf : (⟨S4x256x256, .f32⟩ : BufTy).Contents (Elt F) → (⟨S4x256x256, .f32⟩ : BufTy).Contents (Elt F) → (⟨S4x256x256, .f32⟩ : BufTy).Contents (Elt F)),
    StableHlo.nullary main_cst_12 (constant S_ .f32 0x00000000#32),
    StableHlo.binary main_v60 main_cst_12 main_v61 ((fun x v => Host.reduceAdd x v reducesTo_S4x256x256_S_d0_1_2 h_S_) : (⟨S4x256x256, .f32⟩ : BufTy).Contents (Elt F) → (⟨S_, .f32⟩ : BufTy).Contents (Elt F) → (⟨S_, .f32⟩ : BufTy).Contents (Elt F)),
    StableHlo.nullary main_cst_13 (constant S_ .f32 0x48800000#32),
    StableHlo.binary main_v61 main_cst_13 main_v62 (Host.divf : (⟨S_, .f32⟩ : BufTy).Contents (Elt F) → (⟨S_, .f32⟩ : BufTy).Contents (Elt F) → (⟨S_, .f32⟩ : BufTy).Contents (Elt F)),
    StableHlo.unary main_v62 main_v63 (Host.negf : (⟨S_, .f32⟩ : BufTy).Contents (Elt F) → (⟨S_, .f32⟩ : BufTy).Contents (Elt F)) ]

/-- The buffers the operations of `run1_1` write, in order. -/
def run1_1_writes : List (Ref sig .tc) :=
  [ main_call0.v0.ref, main_call0.call0.cst.ref, main_call0.call0.v0.ref, main_call0.call0.v1.ref, main_call0.call0.v2.ref, main_call0.call0.v3.ref, main_call0.call0.v4.ref, main_call0.call0.v5.ref, main_call0.call0.v6.ref, main_call0.call0.v7.ref, main_call0.call0.v8.ref, main_call0.call0.v9.ref, main_call0.call0.v10.ref, main_call0.call0.v11.ref, main_call0.call0.v12.ref, main_call0.v2.ref, main_v54, main_cst_11, main_v55, main_v56, main_v57, main_call1.v0.ref, main_call1.call0.cst.ref, main_call1.call0.v0.ref, main_call1.call0.v1.ref, main_call1.call0.v2.ref, main_call1.call0.v3.ref, main_call1.call0.v4.ref, main_call1.call0.v5.ref, main_call1.call0.v6.ref, main_call1.call0.v7.ref, main_call1.call0.v8.ref, main_call1.call0.v9.ref, main_call1.call0.v10.ref, main_call1.call0.v11.ref, main_call1.call0.v12.ref, main_call1.v2.ref, main_v59, main_v60, main_cst_12, main_v61, main_cst_13, main_v62, main_v63 ]

/-- Operations 50 … 89 of the 98 in @main's window 1. -/
def run1_2 : List (HloOp τ sig (Elt F)) :=
  [ StableHlo.binary main_v0 main_v19 main_v64 (subf : (⟨S4x3x256x256, .f32⟩ : BufTy).Contents (Elt F) → (⟨S4x3x256x256, .f32⟩ : BufTy).Contents (Elt F) → (⟨S4x3x256x256, .f32⟩ : BufTy).Contents (Elt F)),
    StableHlo.TRef.binary (.of main_v64 : StableHlo.TRef sig ⟨S4x3x256x256, .f32⟩) (.of main_v64 : StableHlo.TRef sig ⟨S4x3x256x256, .f32⟩) main_call2.v0 mulf,
    StableHlo.TRef.nullary main_call2.cst (constant S_ .f32 0x00000000#32),
    StableHlo.TRef.binary main_call2.v0 main_call2.cst main_call2.v1 (fun x v => Host.reduceAdd x v reducesTo_S4x3x256x256_S4x256x256_d1 h_S_),
    StableHlo.TRef.unary main_call2.v1 main_call2.v2 Host.sqrt,
    StableHlo.nullary main_cst_14 (constant S_ .f32 0x3F333333#32),
    StableHlo.unary main_cst_14 main_v66 (broadcastInDim S4x256x256 ![] bcast_S_S4x256x256 : (⟨S_, .f32⟩ : BufTy).Contents (Elt F) → (⟨S4x256x256, .f32⟩ : BufTy).Contents (Elt F)),
    StableHlo.binary main_v21 main_v66 main_v67 (cmpf .ogt : (⟨S4x256x256, .f32⟩ : BufTy).Contents (Elt F) → (⟨S4x256x256, .f32⟩ : BufTy).Contents (Elt F) → (⟨S4x256x256, .i1⟩ : BufTy).Contents (Elt F)),
    StableHlo.nullary main_cst_15 (constant S_ .f32 0x00000000#32),
    StableHlo.TRef.unary (.of main_cst_15 : StableHlo.TRef sig ⟨S_, .f32⟩) main_call3.v0 id,
    StableHlo.TRef.unary main_call3.v0 main_call3.v1 (broadcastInDim S4x256x256 ![] bcast_S_S4x256x256),
    StableHlo.TRef.ternary (.of main_v67 : StableHlo.TRef sig ⟨S4x256x256, .i1⟩) (.of main_v65 : StableHlo.TRef sig ⟨S4x256x256, .f32⟩) main_call3.v1 main_call3.v2 select,
    StableHlo.reshape main_v68 main_v69 rfl shapeCasts_S4x256x256_S4x65536,
    StableHlo.reshape main_v65 main_v70 rfl shapeCasts_S4x256x256_S4x65536,
    StableHlo.nullary main_cst_16 (constant S_ .f32 0x00000000#32),
    StableHlo.unary main_cst_16 main_v71 (broadcastInDim S4x65536 ![] bcast_S_S4x65536 : (⟨S_, .f32⟩ : BufTy).Contents (Elt F) → (⟨S4x65536, .f32⟩ : BufTy).Contents (Elt F)),
    StableHlo.binary main_v69 main_v71 main_v72 (cmpf .une : (⟨S4x65536, .f32⟩ : BufTy).Contents (Elt F) → (⟨S4x65536, .f32⟩ : BufTy).Contents (Elt F) → (⟨S4x65536, .i1⟩ : BufTy).Contents (Elt F)),
    StableHlo.unary main_v72 main_v73 ((extui 32 · natLt_1_32) : (⟨S4x65536, .i1⟩ : BufTy).Contents (Elt F) → (⟨S4x65536, .i32⟩ : BufTy).Contents (Elt F)),
    StableHlo.nullary main_c (constantI S_ 32 0#32),
    StableHlo.binary main_v73 main_c main_v74 ((fun x v => Host.reduce IntOp.addi x v reducesTo_S4x65536_S4_d1 h_S_) : (⟨S4x65536, .i32⟩ : BufTy).Contents (Elt F) → (⟨S_, .i32⟩ : BufTy).Contents (Elt F) → (⟨S4, .i32⟩ : BufTy).Contents (Elt F)),
    StableHlo.nullary main_c_17 (constantI S_ 32 0#32),
    StableHlo.unary main_c_17 main_v75 (broadcastInDim S4 ![] bcast_S_S4 : (⟨S_, .i32⟩ : BufTy).Contents (Elt F) → (⟨S4, .i32⟩ : BufTy).Contents (Elt F)),
    StableHlo.binary main_v74 main_v75 main_v76 (cmpi .sgt : (⟨S4, .i32⟩ : BufTy).Contents (Elt F) → (⟨S4, .i32⟩ : BufTy).Contents (Elt F) → (⟨S4, .i1⟩ : BufTy).Contents (Elt F)),
    StableHlo.nullary main_cst_18 (constant S_ .f32 0x00000000#32),
    StableHlo.binary main_v69 main_cst_18 main_v77 ((fun x v => Host.reduceAdd x v reducesTo_S4x65536_S4_d1 h_S_) : (⟨S4x65536, .f32⟩ : BufTy).Contents (Elt F) → (⟨S_, .f32⟩ : BufTy).Contents (Elt F) → (⟨S4, .f32⟩ : BufTy).Contents (Elt F)),
    StableHlo.nullary main_c_19 (constantI S_ 32 1#32),
    StableHlo.unary main_c_19 main_v78 (broadcastInDim S4 ![] bcast_S_S4 : (⟨S_, .i32⟩ : BufTy).Contents (Elt F) → (⟨S4, .i32⟩ : BufTy).Contents (Elt F)),
    StableHlo.binary main_v74 main_v78 main_v79 (maxsi : (⟨S4, .i32⟩ : BufTy).Contents (Elt F) → (⟨S4, .i32⟩ : BufTy).Contents (Elt F) → (⟨S4, .i32⟩ : BufTy).Contents (Elt F)),
    StableHlo.unary main_v79 main_v80 (sitofp .f32 : (⟨S4, .i32⟩ : BufTy).Contents (Elt F) → (⟨S4, .f32⟩ : BufTy).Contents (Elt F)),
    StableHlo.binary main_v77 main_v80 main_v81 (Host.divf : (⟨S4, .f32⟩ : BufTy).Contents (Elt F) → (⟨S4, .f32⟩ : BufTy).Contents (Elt F) → (⟨S4, .f32⟩ : BufTy).Contents (Elt F)),
    StableHlo.nullary main_cst_20 (constant S_ .f32 0x00000000#32),
    StableHlo.binary main_v70 main_cst_20 main_v82 ((fun x v => Host.reduceAdd x v reducesTo_S4x65536_S4_d1 h_S_) : (⟨S4x65536, .f32⟩ : BufTy).Contents (Elt F) → (⟨S_, .f32⟩ : BufTy).Contents (Elt F) → (⟨S4, .f32⟩ : BufTy).Contents (Elt F)),
    StableHlo.nullary main_cst_21 (constant S_ .f32 0x47800000#32),
    StableHlo.unary main_cst_21 main_v83 (broadcastInDim S4 ![] bcast_S_S4 : (⟨S_, .f32⟩ : BufTy).Contents (Elt F) → (⟨S4, .f32⟩ : BufTy).Contents (Elt F)),
    StableHlo.binary main_v82 main_v83 main_v84 (Host.divf : (⟨S4, .f32⟩ : BufTy).Contents (Elt F) → (⟨S4, .f32⟩ : BufTy).Contents (Elt F) → (⟨S4, .f32⟩ : BufTy).Contents (Elt F)),
    StableHlo.TRef.ternary (.of main_v76 : StableHlo.TRef sig ⟨S4, .i1⟩) (.of main_v81 : StableHlo.TRef sig ⟨S4, .f32⟩) (.of main_v84 : StableHlo.TRef sig ⟨S4, .f32⟩) main_call4.v0 select,
    StableHlo.nullary main_cst_22 (constant S_ .f32 0x00000000#32),
    StableHlo.binary main_v85 main_cst_22 main_v86 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.nullary main_cst_23 (constant S_ .f32 0x40800000#32),
    StableHlo.binary main_v86 main_cst_23 main_v87 (Host.divf : (⟨S_, .f32⟩ : BufTy).Contents (Elt F) → (⟨S_, .f32⟩ : BufTy).Contents (Elt F) → (⟨S_, .f32⟩ : BufTy).Contents (Elt F)) ]

/-- The buffers the operations of `run1_2` write, in order. -/
def run1_2_writes : List (Ref sig .tc) :=
  [ main_v64, main_call2.v0.ref, main_call2.cst.ref, main_call2.v1.ref, main_call2.v2.ref, main_cst_14, main_v66, main_v67, main_cst_15, main_call3.v0.ref, main_call3.v1.ref, main_call3.v2.ref, main_v69, main_v70, main_cst_16, main_v71, main_v72, main_v73, main_c, main_v74, main_c_17, main_v75, main_v76, main_cst_18, main_v77, main_c_19, main_v78, main_v79, main_v80, main_v81, main_cst_20, main_v82, main_cst_21, main_v83, main_v84, main_call4.v0.ref, main_cst_22, main_v86, main_cst_23, main_v87 ]

/-- Operations 90 … 98 of the 98 in @main's window 1. -/
def run1_3 : List (HloOp τ sig (Elt F)) :=
  [ StableHlo.binary main_v9 main_v28 main_v88 (subf : (⟨S4x48x256x256, .f32⟩ : BufTy).Contents (Elt F) → (⟨S4x48x256x256, .f32⟩ : BufTy).Contents (Elt F) → (⟨S4x48x256x256, .f32⟩ : BufTy).Contents (Elt F)),
    StableHlo.TRef.binary (.of main_v88 : StableHlo.TRef sig ⟨S4x48x256x256, .f32⟩) (.of main_v88 : StableHlo.TRef sig ⟨S4x48x256x256, .f32⟩) main_call5.v0 mulf,
    StableHlo.TRef.nullary main_call5.cst (constant S_ .f32 0x00000000#32),
    StableHlo.TRef.binary main_call5.v0 main_call5.cst main_call5.v1 (fun x v => Host.reduceAdd x v reducesTo_S4x48x256x256_S4x256x256_d1 h_S_),
    StableHlo.TRef.unary main_call5.v1 main_call5.v2 Host.sqrt,
    StableHlo.nullary main_cst_24 (constant S_ .f32 0x3F333333#32),
    StableHlo.unary main_cst_24 main_v90 (broadcastInDim S4x256x256 ![] bcast_S_S4x256x256 : (⟨S_, .f32⟩ : BufTy).Contents (Elt F) → (⟨S4x256x256, .f32⟩ : BufTy).Contents (Elt F)),
    StableHlo.binary main_v21 main_v90 main_v91 (cmpf .ogt : (⟨S4x256x256, .f32⟩ : BufTy).Contents (Elt F) → (⟨S4x256x256, .f32⟩ : BufTy).Contents (Elt F) → (⟨S4x256x256, .i1⟩ : BufTy).Contents (Elt F)),
    StableHlo.nullary main_cst_25 (constant S_ .f32 0x00000000#32) ]

/-- The buffers the operations of `run1_3` write, in order. -/
def run1_3_writes : List (Ref sig .tc) :=
  [ main_v88, main_call5.v0.ref, main_call5.cst.ref, main_call5.v1.ref, main_call5.v2.ref, main_cst_24, main_v90, main_v91, main_cst_25 ]

/-- Operations 1 … 31 of the 67 in @main's window 2. -/
def run2_0 : List (HloOp τ sig (Elt F)) :=
  [ StableHlo.TRef.unary (.of main_cst_25 : StableHlo.TRef sig ⟨S_, .f32⟩) main_call6.v0 id,
    StableHlo.TRef.unary main_call6.v0 main_call6.v1 (broadcastInDim S4x256x256 ![] bcast_S_S4x256x256),
    StableHlo.TRef.ternary (.of main_v91 : StableHlo.TRef sig ⟨S4x256x256, .i1⟩) (.of main_v89 : StableHlo.TRef sig ⟨S4x256x256, .f32⟩) main_call6.v1 main_call6.v2 select,
    StableHlo.reshape main_v92 main_v93 rfl shapeCasts_S4x256x256_S4x65536,
    StableHlo.reshape main_v89 main_v94 rfl shapeCasts_S4x256x256_S4x65536,
    StableHlo.nullary main_cst_26 (constant S_ .f32 0x00000000#32),
    StableHlo.unary main_cst_26 main_v95 (broadcastInDim S4x65536 ![] bcast_S_S4x65536 : (⟨S_, .f32⟩ : BufTy).Contents (Elt F) → (⟨S4x65536, .f32⟩ : BufTy).Contents (Elt F)),
    StableHlo.binary main_v93 main_v95 main_v96 (cmpf .une : (⟨S4x65536, .f32⟩ : BufTy).Contents (Elt F) → (⟨S4x65536, .f32⟩ : BufTy).Contents (Elt F) → (⟨S4x65536, .i1⟩ : BufTy).Contents (Elt F)),
    StableHlo.unary main_v96 main_v97 ((extui 32 · natLt_1_32) : (⟨S4x65536, .i1⟩ : BufTy).Contents (Elt F) → (⟨S4x65536, .i32⟩ : BufTy).Contents (Elt F)),
    StableHlo.nullary main_c_27 (constantI S_ 32 0#32),
    StableHlo.binary main_v97 main_c_27 main_v98 ((fun x v => Host.reduce IntOp.addi x v reducesTo_S4x65536_S4_d1 h_S_) : (⟨S4x65536, .i32⟩ : BufTy).Contents (Elt F) → (⟨S_, .i32⟩ : BufTy).Contents (Elt F) → (⟨S4, .i32⟩ : BufTy).Contents (Elt F)),
    StableHlo.nullary main_c_28 (constantI S_ 32 0#32),
    StableHlo.unary main_c_28 main_v99 (broadcastInDim S4 ![] bcast_S_S4 : (⟨S_, .i32⟩ : BufTy).Contents (Elt F) → (⟨S4, .i32⟩ : BufTy).Contents (Elt F)),
    StableHlo.binary main_v98 main_v99 main_v100 (cmpi .sgt : (⟨S4, .i32⟩ : BufTy).Contents (Elt F) → (⟨S4, .i32⟩ : BufTy).Contents (Elt F) → (⟨S4, .i1⟩ : BufTy).Contents (Elt F)),
    StableHlo.nullary main_cst_29 (constant S_ .f32 0x00000000#32),
    StableHlo.binary main_v93 main_cst_29 main_v101 ((fun x v => Host.reduceAdd x v reducesTo_S4x65536_S4_d1 h_S_) : (⟨S4x65536, .f32⟩ : BufTy).Contents (Elt F) → (⟨S_, .f32⟩ : BufTy).Contents (Elt F) → (⟨S4, .f32⟩ : BufTy).Contents (Elt F)),
    StableHlo.nullary main_c_30 (constantI S_ 32 1#32),
    StableHlo.unary main_c_30 main_v102 (broadcastInDim S4 ![] bcast_S_S4 : (⟨S_, .i32⟩ : BufTy).Contents (Elt F) → (⟨S4, .i32⟩ : BufTy).Contents (Elt F)),
    StableHlo.binary main_v98 main_v102 main_v103 (maxsi : (⟨S4, .i32⟩ : BufTy).Contents (Elt F) → (⟨S4, .i32⟩ : BufTy).Contents (Elt F) → (⟨S4, .i32⟩ : BufTy).Contents (Elt F)),
    StableHlo.unary main_v103 main_v104 (sitofp .f32 : (⟨S4, .i32⟩ : BufTy).Contents (Elt F) → (⟨S4, .f32⟩ : BufTy).Contents (Elt F)),
    StableHlo.binary main_v101 main_v104 main_v105 (Host.divf : (⟨S4, .f32⟩ : BufTy).Contents (Elt F) → (⟨S4, .f32⟩ : BufTy).Contents (Elt F) → (⟨S4, .f32⟩ : BufTy).Contents (Elt F)),
    StableHlo.nullary main_cst_31 (constant S_ .f32 0x00000000#32),
    StableHlo.binary main_v94 main_cst_31 main_v106 ((fun x v => Host.reduceAdd x v reducesTo_S4x65536_S4_d1 h_S_) : (⟨S4x65536, .f32⟩ : BufTy).Contents (Elt F) → (⟨S_, .f32⟩ : BufTy).Contents (Elt F) → (⟨S4, .f32⟩ : BufTy).Contents (Elt F)),
    StableHlo.nullary main_cst_32 (constant S_ .f32 0x47800000#32),
    StableHlo.unary main_cst_32 main_v107 (broadcastInDim S4 ![] bcast_S_S4 : (⟨S_, .f32⟩ : BufTy).Contents (Elt F) → (⟨S4, .f32⟩ : BufTy).Contents (Elt F)),
    StableHlo.binary main_v106 main_v107 main_v108 (Host.divf : (⟨S4, .f32⟩ : BufTy).Contents (Elt F) → (⟨S4, .f32⟩ : BufTy).Contents (Elt F) → (⟨S4, .f32⟩ : BufTy).Contents (Elt F)),
    StableHlo.TRef.ternary (.of main_v100 : StableHlo.TRef sig ⟨S4, .i1⟩) (.of main_v105 : StableHlo.TRef sig ⟨S4, .f32⟩) (.of main_v108 : StableHlo.TRef sig ⟨S4, .f32⟩) main_call7.v0 select,
    StableHlo.nullary main_cst_33 (constant S_ .f32 0x00000000#32),
    StableHlo.binary main_v109 main_cst_33 main_v110 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.nullary main_cst_34 (constant S_ .f32 0x40800000#32),
    StableHlo.binary main_v110 main_cst_34 main_v111 (Host.divf : (⟨S_, .f32⟩ : BufTy).Contents (Elt F) → (⟨S_, .f32⟩ : BufTy).Contents (Elt F) → (⟨S_, .f32⟩ : BufTy).Contents (Elt F)) ]

/-- The buffers the operations of `run2_0` write, in order. -/
def run2_0_writes : List (Ref sig .tc) :=
  [ main_call6.v0.ref, main_call6.v1.ref, main_call6.v2.ref, main_v93, main_v94, main_cst_26, main_v95, main_v96, main_v97, main_c_27, main_v98, main_c_28, main_v99, main_v100, main_cst_29, main_v101, main_c_30, main_v102, main_v103, main_v104, main_v105, main_cst_31, main_v106, main_cst_32, main_v107, main_v108, main_call7.v0.ref, main_cst_33, main_v110, main_cst_34, main_v111 ]

/-- Operations 32 … 67 of the 67 in @main's window 2. -/
def run2_1 : List (HloOp τ sig (Elt F)) :=
  [ StableHlo.binary main_v16 main_v35 main_v112 (subf : (⟨S4x48x256x256, .f32⟩ : BufTy).Contents (Elt F) → (⟨S4x48x256x256, .f32⟩ : BufTy).Contents (Elt F) → (⟨S4x48x256x256, .f32⟩ : BufTy).Contents (Elt F)),
    StableHlo.TRef.binary (.of main_v112 : StableHlo.TRef sig ⟨S4x48x256x256, .f32⟩) (.of main_v112 : StableHlo.TRef sig ⟨S4x48x256x256, .f32⟩) main_call8.v0 mulf,
    StableHlo.TRef.nullary main_call8.cst (constant S_ .f32 0x00000000#32),
    StableHlo.TRef.binary main_call8.v0 main_call8.cst main_call8.v1 (fun x v => Host.reduceAdd x v reducesTo_S4x48x256x256_S4x256x256_d1 h_S_),
    StableHlo.TRef.unary main_call8.v1 main_call8.v2 Host.sqrt,
    StableHlo.nullary main_cst_35 (constant S_ .f32 0x3F333333#32),
    StableHlo.unary main_cst_35 main_v114 (broadcastInDim S4x256x256 ![] bcast_S_S4x256x256 : (⟨S_, .f32⟩ : BufTy).Contents (Elt F) → (⟨S4x256x256, .f32⟩ : BufTy).Contents (Elt F)),
    StableHlo.binary main_v21 main_v114 main_v115 (cmpf .ogt : (⟨S4x256x256, .f32⟩ : BufTy).Contents (Elt F) → (⟨S4x256x256, .f32⟩ : BufTy).Contents (Elt F) → (⟨S4x256x256, .i1⟩ : BufTy).Contents (Elt F)),
    StableHlo.nullary main_cst_36 (constant S_ .f32 0x00000000#32),
    StableHlo.TRef.unary (.of main_cst_36 : StableHlo.TRef sig ⟨S_, .f32⟩) main_call9.v0 id,
    StableHlo.TRef.unary main_call9.v0 main_call9.v1 (broadcastInDim S4x256x256 ![] bcast_S_S4x256x256),
    StableHlo.TRef.ternary (.of main_v115 : StableHlo.TRef sig ⟨S4x256x256, .i1⟩) (.of main_v113 : StableHlo.TRef sig ⟨S4x256x256, .f32⟩) main_call9.v1 main_call9.v2 select,
    StableHlo.reshape main_v116 main_v117 rfl shapeCasts_S4x256x256_S4x65536,
    StableHlo.reshape main_v113 main_v118 rfl shapeCasts_S4x256x256_S4x65536,
    StableHlo.nullary main_cst_37 (constant S_ .f32 0x00000000#32),
    StableHlo.unary main_cst_37 main_v119 (broadcastInDim S4x65536 ![] bcast_S_S4x65536 : (⟨S_, .f32⟩ : BufTy).Contents (Elt F) → (⟨S4x65536, .f32⟩ : BufTy).Contents (Elt F)),
    StableHlo.binary main_v117 main_v119 main_v120 (cmpf .une : (⟨S4x65536, .f32⟩ : BufTy).Contents (Elt F) → (⟨S4x65536, .f32⟩ : BufTy).Contents (Elt F) → (⟨S4x65536, .i1⟩ : BufTy).Contents (Elt F)),
    StableHlo.unary main_v120 main_v121 ((extui 32 · natLt_1_32) : (⟨S4x65536, .i1⟩ : BufTy).Contents (Elt F) → (⟨S4x65536, .i32⟩ : BufTy).Contents (Elt F)),
    StableHlo.nullary main_c_38 (constantI S_ 32 0#32),
    StableHlo.binary main_v121 main_c_38 main_v122 ((fun x v => Host.reduce IntOp.addi x v reducesTo_S4x65536_S4_d1 h_S_) : (⟨S4x65536, .i32⟩ : BufTy).Contents (Elt F) → (⟨S_, .i32⟩ : BufTy).Contents (Elt F) → (⟨S4, .i32⟩ : BufTy).Contents (Elt F)),
    StableHlo.nullary main_c_39 (constantI S_ 32 0#32),
    StableHlo.unary main_c_39 main_v123 (broadcastInDim S4 ![] bcast_S_S4 : (⟨S_, .i32⟩ : BufTy).Contents (Elt F) → (⟨S4, .i32⟩ : BufTy).Contents (Elt F)),
    StableHlo.binary main_v122 main_v123 main_v124 (cmpi .sgt : (⟨S4, .i32⟩ : BufTy).Contents (Elt F) → (⟨S4, .i32⟩ : BufTy).Contents (Elt F) → (⟨S4, .i1⟩ : BufTy).Contents (Elt F)),
    StableHlo.nullary main_cst_40 (constant S_ .f32 0x00000000#32),
    StableHlo.binary main_v117 main_cst_40 main_v125 ((fun x v => Host.reduceAdd x v reducesTo_S4x65536_S4_d1 h_S_) : (⟨S4x65536, .f32⟩ : BufTy).Contents (Elt F) → (⟨S_, .f32⟩ : BufTy).Contents (Elt F) → (⟨S4, .f32⟩ : BufTy).Contents (Elt F)),
    StableHlo.nullary main_c_41 (constantI S_ 32 1#32),
    StableHlo.unary main_c_41 main_v126 (broadcastInDim S4 ![] bcast_S_S4 : (⟨S_, .i32⟩ : BufTy).Contents (Elt F) → (⟨S4, .i32⟩ : BufTy).Contents (Elt F)),
    StableHlo.binary main_v122 main_v126 main_v127 (maxsi : (⟨S4, .i32⟩ : BufTy).Contents (Elt F) → (⟨S4, .i32⟩ : BufTy).Contents (Elt F) → (⟨S4, .i32⟩ : BufTy).Contents (Elt F)),
    StableHlo.unary main_v127 main_v128 (sitofp .f32 : (⟨S4, .i32⟩ : BufTy).Contents (Elt F) → (⟨S4, .f32⟩ : BufTy).Contents (Elt F)),
    StableHlo.binary main_v125 main_v128 main_v129 (Host.divf : (⟨S4, .f32⟩ : BufTy).Contents (Elt F) → (⟨S4, .f32⟩ : BufTy).Contents (Elt F) → (⟨S4, .f32⟩ : BufTy).Contents (Elt F)),
    StableHlo.nullary main_cst_42 (constant S_ .f32 0x00000000#32),
    StableHlo.binary main_v118 main_cst_42 main_v130 ((fun x v => Host.reduceAdd x v reducesTo_S4x65536_S4_d1 h_S_) : (⟨S4x65536, .f32⟩ : BufTy).Contents (Elt F) → (⟨S_, .f32⟩ : BufTy).Contents (Elt F) → (⟨S4, .f32⟩ : BufTy).Contents (Elt F)),
    StableHlo.nullary main_cst_43 (constant S_ .f32 0x47800000#32),
    StableHlo.unary main_cst_43 main_v131 (broadcastInDim S4 ![] bcast_S_S4 : (⟨S_, .f32⟩ : BufTy).Contents (Elt F) → (⟨S4, .f32⟩ : BufTy).Contents (Elt F)),
    StableHlo.binary main_v130 main_v131 main_v132 (Host.divf : (⟨S4, .f32⟩ : BufTy).Contents (Elt F) → (⟨S4, .f32⟩ : BufTy).Contents (Elt F) → (⟨S4, .f32⟩ : BufTy).Contents (Elt F)),
    StableHlo.TRef.ternary (.of main_v124 : StableHlo.TRef sig ⟨S4, .i1⟩) (.of main_v129 : StableHlo.TRef sig ⟨S4, .f32⟩) (.of main_v132 : StableHlo.TRef sig ⟨S4, .f32⟩) main_call10.v0 select ]

/-- The buffers the operations of `run2_1` write, in order. -/
def run2_1_writes : List (Ref sig .tc) :=
  [ main_v112, main_call8.v0.ref, main_call8.cst.ref, main_call8.v1.ref, main_call8.v2.ref, main_cst_35, main_v114, main_v115, main_cst_36, main_call9.v0.ref, main_call9.v1.ref, main_call9.v2.ref, main_v117, main_v118, main_cst_37, main_v119, main_v120, main_v121, main_c_38, main_v122, main_c_39, main_v123, main_v124, main_cst_40, main_v125, main_c_41, main_v126, main_v127, main_v128, main_v129, main_cst_42, main_v130, main_cst_43, main_v131, main_v132, main_call10.v0.ref ]

/-- Operations 1 … 4 of the 98 in @main's window 3. -/
def run3_0 : List (HloOp τ sig (Elt F)) :=
  [ StableHlo.nullary main_cst_44 (constant S_ .f32 0x00000000#32),
    StableHlo.binary main_v133 main_cst_44 main_v134 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.nullary main_cst_45 (constant S_ .f32 0x40800000#32),
    StableHlo.binary main_v134 main_cst_45 main_v135 (Host.divf : (⟨S_, .f32⟩ : BufTy).Contents (Elt F) → (⟨S_, .f32⟩ : BufTy).Contents (Elt F) → (⟨S_, .f32⟩ : BufTy).Contents (Elt F)) ]

/-- The buffers the operations of `run3_0` write, in order. -/
def run3_0_writes : List (Ref sig .tc) :=
  [ main_cst_44, main_v134, main_cst_45, main_v135 ]

/-- Operations 5 … 50 of the 98 in @main's window 3. -/
def run3_1 : List (HloOp τ sig (Elt F)) :=
  [ StableHlo.unary main_v17 main_v136 ((transpose S4x256x256x18 [0, 2, 3, 1] · transposes_S4x18x256x256_S4x256x256x18_0_2_3_1) : (⟨S4x18x256x256, .f32⟩ : BufTy).Contents (Elt F) → (⟨S4x256x256x18, .f32⟩ : BufTy).Contents (Elt F)),
    StableHlo.reshape main_v136 main_v137 rfl shapeCasts_S4x256x256x18_S262144x18,
    StableHlo.reshape main_v38 main_v138 rfl shapeCasts_S4x256x256_S262144,
    StableHlo.TRef.nullary main_call11.cst (constant S_ .f32 0xFF800000#32),
    StableHlo.TRef.binary (.of main_v137 : StableHlo.TRef sig ⟨S262144x18, .f32⟩) main_call11.cst main_call11.v0 (fun x v => Host.reduce FloatOps.maximumf x v reducesTo_S262144x18_S262144_d1 h_S_),
    StableHlo.TRef.nullary main_call11.cst_0 (constant S_ .f32 0xFF800000#32),
    StableHlo.TRef.unary main_call11.cst_0 main_call11.v1 (broadcastInDim S262144 ![] bcast_S_S262144),
    StableHlo.TRef.binary main_call11.v1 main_call11.v0 main_call11.v2 maximumf,
    StableHlo.TRef.unary main_call11.v2 main_call11.v3 (broadcastInDim S262144x1 ![0] bcast_S262144_S262144x1_0),
    StableHlo.TRef.unary main_call11.v3 main_call11.v4 (broadcastInDim S262144x18 ![0, 1] bcast_S262144x1_S262144x18_0_1),
    StableHlo.TRef.binary (.of main_v137 : StableHlo.TRef sig ⟨S262144x18, .f32⟩) main_call11.v4 main_call11.v5 subf,
    StableHlo.TRef.unary main_call11.v5 main_call11.v6 Host.exp,
    StableHlo.TRef.nullary main_call11.cst_1 (constant S_ .f32 0x00000000#32),
    StableHlo.TRef.binary main_call11.v6 main_call11.cst_1 main_call11.v7 (fun x v => Host.reduceAdd x v reducesTo_S262144x18_S262144_d1 h_S_),
    StableHlo.TRef.unary main_call11.v7 main_call11.v8 (broadcastInDim S262144x1 ![0] bcast_S262144_S262144x1_0),
    StableHlo.TRef.unary main_call11.v8 main_call11.v9 Host.log,
    StableHlo.TRef.unary main_call11.v9 main_call11.v10 (broadcastInDim S262144x18 ![0, 1] bcast_S262144x1_S262144x18_0_1),
    StableHlo.TRef.binary main_call11.v5 main_call11.v10 main_call11.v11 subf,
    StableHlo.unary main_v138 main_v140 (broadcastInDim S262144x1 ![0] bcast_S262144_S262144x1_0 : (⟨S262144, .i32⟩ : BufTy).Contents (Elt F) → (⟨S262144x1, .i32⟩ : BufTy).Contents (Elt F)),
    StableHlo.TRef.nullary main_call12.c (constantI S_ 32 0#32),
    StableHlo.TRef.unary main_call12.c main_call12.v0 (broadcastInDim S262144x1 ![] bcast_S_S262144x1),
    StableHlo.TRef.binary (.of main_v140 : StableHlo.TRef sig ⟨S262144x1, .i32⟩) main_call12.v0 main_call12.v1 (cmpi .slt),
    StableHlo.TRef.nullary main_call12.c_0 (constantI S_ 32 18#32),
    StableHlo.TRef.unary main_call12.c_0 main_call12.v2 (broadcastInDim S262144x1 ![] bcast_S_S262144x1),
    StableHlo.TRef.binary (.of main_v140 : StableHlo.TRef sig ⟨S262144x1, .i32⟩) main_call12.v2 main_call12.v3 addi,
    StableHlo.TRef.ternary main_call12.v1 main_call12.v3 (.of main_v140 : StableHlo.TRef sig ⟨S262144x1, .i32⟩) main_call12.v4 select,
    StableHlo.TRef.reshape main_call12.v4 main_call12.v5 rfl shapeCasts_S262144x1_S262144x1x1,
    StableHlo.TRef.nullary main_call12.c_1 (constantI S1 32 17#32),
    StableHlo.TRef.nullary main_call12.c_2 (constantI S_ 32 0#32),
    StableHlo.TRef.unary main_call12.c_2 main_call12.v6 (broadcastInDim S262144x1x1 ![] bcast_S_S262144x1x1),
    StableHlo.TRef.binary main_call12.v5 main_call12.v6 main_call12.v7 (cmpi .sge),
    StableHlo.TRef.unary main_call12.c_1 main_call12.v8 (broadcastInDim S1x1x1 ![2] bcast_S1_S1x1x1_2),
    StableHlo.TRef.unary main_call12.v8 main_call12.v9 (broadcastInDim S262144x1x1 ![0, 1, 2] bcast_S1x1x1_S262144x1x1_0_1_2),
    StableHlo.TRef.binary main_call12.v5 main_call12.v9 main_call12.v10 (cmpi .sle),
    StableHlo.TRef.binary main_call12.v7 main_call12.v10 main_call12.v11 andi,
    StableHlo.TRef.nullary main_call12.c_3 (constantI S_ 1 1#1),
    StableHlo.TRef.binary main_call12.v11 main_call12.c_3 main_call12.v12 (fun x v => Host.reduce IntOp.andi x v reducesTo_S262144x1x1_S262144x1_d2 h_S_),
    StableHlo.TRef.binary (.of main_v139 : StableHlo.TRef sig ⟨S262144x18, .f32⟩) main_call12.v5 main_call12.v13 (fun x i => Host.gather gather_S262144x18_S262144x1x1_S262144x1_n_1_0_0_1_2_11 x i),
    StableHlo.TRef.nullary main_call12.cst (constant S_ .f32 0x7FC00000#32),
    StableHlo.TRef.unary main_call12.cst main_call12.v14 (broadcastInDim S262144x1 ![] bcast_S_S262144x1),
    StableHlo.TRef.ternary main_call12.v12 main_call12.v13 main_call12.v14 main_call12.v15 select,
    StableHlo.nullary main_cst_46 (constant S_ .f32 0x00000000#32),
    StableHlo.binary main_v141 main_cst_46 main_v142 ((fun x v => Host.reduceAdd x v reducesTo_S262144x1_S_d0_1 h_S_) : (⟨S262144x1, .f32⟩ : BufTy).Contents (Elt F) → (⟨S_, .f32⟩ : BufTy).Contents (Elt F) → (⟨S_, .f32⟩ : BufTy).Contents (Elt F)),
    StableHlo.nullary main_cst_47 (constant S_ .f32 0x48800000#32),
    StableHlo.binary main_v142 main_cst_47 main_v143 (Host.divf : (⟨S_, .f32⟩ : BufTy).Contents (Elt F) → (⟨S_, .f32⟩ : BufTy).Contents (Elt F) → (⟨S_, .f32⟩ : BufTy).Contents (Elt F)),
    StableHlo.unary main_v143 main_v144 (Host.negf : (⟨S_, .f32⟩ : BufTy).Contents (Elt F) → (⟨S_, .f32⟩ : BufTy).Contents (Elt F)) ]

/-- The buffers the operations of `run3_1` write, in order. -/
def run3_1_writes : List (Ref sig .tc) :=
  [ main_v136, main_v137, main_v138, main_call11.cst.ref, main_call11.v0.ref, main_call11.cst_0.ref, main_call11.v1.ref, main_call11.v2.ref, main_call11.v3.ref, main_call11.v4.ref, main_call11.v5.ref, main_call11.v6.ref, main_call11.cst_1.ref, main_call11.v7.ref, main_call11.v8.ref, main_call11.v9.ref, main_call11.v10.ref, main_call11.v11.ref, main_v140, main_call12.c.ref, main_call12.v0.ref, main_call12.v1.ref, main_call12.c_0.ref, main_call12.v2.ref, main_call12.v3.ref, main_call12.v4.ref, main_call12.v5.ref, main_call12.c_1.ref, main_call12.c_2.ref, main_call12.v6.ref, main_call12.v7.ref, main_call12.v8.ref, main_call12.v9.ref, main_call12.v10.ref, main_call12.v11.ref, main_call12.c_3.ref, main_call12.v12.ref, main_call12.v13.ref, main_call12.cst.ref, main_call12.v14.ref, main_call12.v15.ref, main_cst_46, main_v142, main_cst_47, main_v143, main_v144 ]

/-- Operations 51 … 89 of the 98 in @main's window 3. -/
def run3_2 : List (HloOp τ sig (Elt F)) :=
  [ StableHlo.reshape main_v9 main_v145 rfl shapeCasts_S4x48x256x256_S4x16x3x256x256,
    StableHlo.unary main_v21 main_v146 (broadcastInDim S4x1x1x256x256 ![0, 3, 4] bcast_S4x256x256_S4x1x1x256x256_0_3_4 : (⟨S4x256x256, .f32⟩ : BufTy).Contents (Elt F) → (⟨S4x1x1x256x256, .f32⟩ : BufTy).Contents (Elt F)),
    StableHlo.unary main_v146 main_v147 (broadcastInDim S4x16x3x256x256 ![0, 1, 2, 3, 4] bcast_S4x1x1x256x256_S4x16x3x256x256_0_1_2_3_4 : (⟨S4x1x1x256x256, .f32⟩ : BufTy).Contents (Elt F) → (⟨S4x16x3x256x256, .f32⟩ : BufTy).Contents (Elt F)),
    StableHlo.binary main_v145 main_v147 main_v148 (mulf : (⟨S4x16x3x256x256, .f32⟩ : BufTy).Contents (Elt F) → (⟨S4x16x3x256x256, .f32⟩ : BufTy).Contents (Elt F) → (⟨S4x16x3x256x256, .f32⟩ : BufTy).Contents (Elt F)),
    StableHlo.unary main_v18 main_v149 (Host.negf : (⟨S4x16x256x256, .f32⟩ : BufTy).Contents (Elt F) → (⟨S4x16x256x256, .f32⟩ : BufTy).Contents (Elt F)),
    StableHlo.unary main_v149 main_v150 (Host.exp : (⟨S4x16x256x256, .f32⟩ : BufTy).Contents (Elt F) → (⟨S4x16x256x256, .f32⟩ : BufTy).Contents (Elt F)),
    StableHlo.nullary main_cst_48 (constant S_ .f32 0x3F800000#32),
    StableHlo.unary main_cst_48 main_v151 (broadcastInDim S4x16x256x256 ![] bcast_S_S4x16x256x256 : (⟨S_, .f32⟩ : BufTy).Contents (Elt F) → (⟨S4x16x256x256, .f32⟩ : BufTy).Contents (Elt F)),
    StableHlo.binary main_v151 main_v150 main_v152 (addf : (⟨S4x16x256x256, .f32⟩ : BufTy).Contents (Elt F) → (⟨S4x16x256x256, .f32⟩ : BufTy).Contents (Elt F) → (⟨S4x16x256x256, .f32⟩ : BufTy).Contents (Elt F)),
    StableHlo.nullary main_cst_49 (constant S_ .f32 0x3F800000#32),
    StableHlo.unary main_cst_49 main_v153 (broadcastInDim S4x16x256x256 ![] bcast_S_S4x16x256x256 : (⟨S_, .f32⟩ : BufTy).Contents (Elt F) → (⟨S4x16x256x256, .f32⟩ : BufTy).Contents (Elt F)),
    StableHlo.binary main_v153 main_v152 main_v154 (Host.divf : (⟨S4x16x256x256, .f32⟩ : BufTy).Contents (Elt F) → (⟨S4x16x256x256, .f32⟩ : BufTy).Contents (Elt F) → (⟨S4x16x256x256, .f32⟩ : BufTy).Contents (Elt F)),
    StableHlo.unary main_v21 main_v155 (broadcastInDim S4x1x256x256 ![0, 2, 3] bcast_S4x256x256_S4x1x256x256_0_2_3 : (⟨S4x256x256, .f32⟩ : BufTy).Contents (Elt F) → (⟨S4x1x256x256, .f32⟩ : BufTy).Contents (Elt F)),
    StableHlo.unary main_v155 main_v156 (broadcastInDim S4x16x256x256 ![0, 1, 2, 3] bcast_S4x1x256x256_S4x16x256x256_0_1_2_3 : (⟨S4x1x256x256, .f32⟩ : BufTy).Contents (Elt F) → (⟨S4x16x256x256, .f32⟩ : BufTy).Contents (Elt F)),
    StableHlo.binary main_v154 main_v156 main_v157 (mulf : (⟨S4x16x256x256, .f32⟩ : BufTy).Contents (Elt F) → (⟨S4x16x256x256, .f32⟩ : BufTy).Contents (Elt F) → (⟨S4x16x256x256, .f32⟩ : BufTy).Contents (Elt F)),
    StableHlo.reshape main_v157 main_v158 rfl shapeCasts_S4x16x256x256_S4x16x65536,
    StableHlo.nullary main_cst_50 (constant S_ .f32 0x00000000#32),
    StableHlo.binary main_v158 main_cst_50 main_v159 ((fun x v => Host.reduceAdd x v reducesTo_S4x16x65536_S4x16_d2 h_S_) : (⟨S4x16x65536, .f32⟩ : BufTy).Contents (Elt F) → (⟨S_, .f32⟩ : BufTy).Contents (Elt F) → (⟨S4x16, .f32⟩ : BufTy).Contents (Elt F)),
    StableHlo.unary main_v159 main_v160 (broadcastInDim S4x16x1x1 ![0, 1] bcast_S4x16_S4x16x1x1_0_1 : (⟨S4x16, .f32⟩ : BufTy).Contents (Elt F) → (⟨S4x16x1x1, .f32⟩ : BufTy).Contents (Elt F)),
    StableHlo.nullary main_cst_51 (constant S_ .f32 0x3727C5AC#32),
    StableHlo.unary main_cst_51 main_v161 (broadcastInDim S4x16x1x1 ![] bcast_S_S4x16x1x1 : (⟨S_, .f32⟩ : BufTy).Contents (Elt F) → (⟨S4x16x1x1, .f32⟩ : BufTy).Contents (Elt F)),
    StableHlo.binary main_v160 main_v161 main_v162 (addf : (⟨S4x16x1x1, .f32⟩ : BufTy).Contents (Elt F) → (⟨S4x16x1x1, .f32⟩ : BufTy).Contents (Elt F) → (⟨S4x16x1x1, .f32⟩ : BufTy).Contents (Elt F)),
    StableHlo.unary main_v162 main_v163 (broadcastInDim S4x16x256x256 ![0, 1, 2, 3] bcast_S4x16x1x1_S4x16x256x256_0_1_2_3 : (⟨S4x16x1x1, .f32⟩ : BufTy).Contents (Elt F) → (⟨S4x16x256x256, .f32⟩ : BufTy).Contents (Elt F)),
    StableHlo.binary main_v157 main_v163 main_v164 (Host.divf : (⟨S4x16x256x256, .f32⟩ : BufTy).Contents (Elt F) → (⟨S4x16x256x256, .f32⟩ : BufTy).Contents (Elt F) → (⟨S4x16x256x256, .f32⟩ : BufTy).Contents (Elt F)),
    StableHlo.unary main_v164 main_v165 (broadcastInDim S4x16x1x256x256 ![0, 1, 3, 4] bcast_S4x16x256x256_S4x16x1x256x256_0_1_3_4 : (⟨S4x16x256x256, .f32⟩ : BufTy).Contents (Elt F) → (⟨S4x16x1x256x256, .f32⟩ : BufTy).Contents (Elt F)),
    StableHlo.unary main_v165 main_v166 (broadcastInDim S4x16x3x256x256 ![0, 1, 2, 3, 4] bcast_S4x16x1x256x256_S4x16x3x256x256_0_1_2_3_4 : (⟨S4x16x1x256x256, .f32⟩ : BufTy).Contents (Elt F) → (⟨S4x16x3x256x256, .f32⟩ : BufTy).Contents (Elt F)),
    StableHlo.binary main_v148 main_v166 main_v167 (mulf : (⟨S4x16x3x256x256, .f32⟩ : BufTy).Contents (Elt F) → (⟨S4x16x3x256x256, .f32⟩ : BufTy).Contents (Elt F) → (⟨S4x16x3x256x256, .f32⟩ : BufTy).Contents (Elt F)),
    StableHlo.reshape main_v167 main_v168 rfl shapeCasts_S4x16x3x256x256_S4x16x3x65536,
    StableHlo.nullary main_cst_52 (constant S_ .f32 0x00000000#32),
    StableHlo.binary main_v168 main_cst_52 main_v169 ((fun x v => Host.reduceAdd x v reducesTo_S4x16x3x65536_S4x16x3_d3 h_S_) : (⟨S4x16x3x65536, .f32⟩ : BufTy).Contents (Elt F) → (⟨S_, .f32⟩ : BufTy).Contents (Elt F) → (⟨S4x16x3, .f32⟩ : BufTy).Contents (Elt F)),
    StableHlo.binary main_v169 main_v45 main_v170 (subf : (⟨S4x16x3, .f32⟩ : BufTy).Contents (Elt F) → (⟨S4x16x3, .f32⟩ : BufTy).Contents (Elt F) → (⟨S4x16x3, .f32⟩ : BufTy).Contents (Elt F)),
    StableHlo.TRef.binary (.of main_v170 : StableHlo.TRef sig ⟨S4x16x3, .f32⟩) (.of main_v170 : StableHlo.TRef sig ⟨S4x16x3, .f32⟩) main_call13.v0 mulf,
    StableHlo.TRef.nullary main_call13.cst (constant S_ .f32 0x00000000#32),
    StableHlo.TRef.binary main_call13.v0 main_call13.cst main_call13.v1 (fun x v => Host.reduceAdd x v reducesTo_S4x16x3_S4x16_d2 h_S_),
    StableHlo.TRef.unary main_call13.v1 main_call13.v2 Host.sqrt,
    StableHlo.nullary main_cst_53 (constant S_ .f32 0x00000000#32),
    StableHlo.binary main_v171 main_cst_53 main_v172 ((fun x v => Host.reduceAdd x v reducesTo_S4x16_S_d0_1 h_S_) : (⟨S4x16, .f32⟩ : BufTy).Contents (Elt F) → (⟨S_, .f32⟩ : BufTy).Contents (Elt F) → (⟨S_, .f32⟩ : BufTy).Contents (Elt F)),
    StableHlo.nullary main_cst_54 (constant S_ .f32 0x42800000#32),
    StableHlo.binary main_v172 main_cst_54 main_v173 (Host.divf : (⟨S_, .f32⟩ : BufTy).Contents (Elt F) → (⟨S_, .f32⟩ : BufTy).Contents (Elt F) → (⟨S_, .f32⟩ : BufTy).Contents (Elt F)) ]

/-- The buffers the operations of `run3_2` write, in order. -/
def run3_2_writes : List (Ref sig .tc) :=
  [ main_v145, main_v146, main_v147, main_v148, main_v149, main_v150, main_cst_48, main_v151, main_v152, main_cst_49, main_v153, main_v154, main_v155, main_v156, main_v157, main_v158, main_cst_50, main_v159, main_v160, main_cst_51, main_v161, main_v162, main_v163, main_v164, main_v165, main_v166, main_v167, main_v168, main_cst_52, main_v169, main_v170, main_call13.v0.ref, main_call13.cst.ref, main_call13.v1.ref, main_call13.v2.ref, main_cst_53, main_v172, main_cst_54, main_v173 ]

/-- Operations 90 … 98 of the 98 in @main's window 3. -/
def run3_3 : List (HloOp τ sig (Elt F)) :=
  [ StableHlo.reshape main_v16 main_v174 rfl shapeCasts_S4x48x256x256_S4x16x3x256x256,
    StableHlo.unary main_v21 main_v175 (broadcastInDim S4x1x1x256x256 ![0, 3, 4] bcast_S4x256x256_S4x1x1x256x256_0_3_4 : (⟨S4x256x256, .f32⟩ : BufTy).Contents (Elt F) → (⟨S4x1x1x256x256, .f32⟩ : BufTy).Contents (Elt F)),
    StableHlo.unary main_v175 main_v176 (broadcastInDim S4x16x3x256x256 ![0, 1, 2, 3, 4] bcast_S4x1x1x256x256_S4x16x3x256x256_0_1_2_3_4 : (⟨S4x1x1x256x256, .f32⟩ : BufTy).Contents (Elt F) → (⟨S4x16x3x256x256, .f32⟩ : BufTy).Contents (Elt F)),
    StableHlo.binary main_v174 main_v176 main_v177 (mulf : (⟨S4x16x3x256x256, .f32⟩ : BufTy).Contents (Elt F) → (⟨S4x16x3x256x256, .f32⟩ : BufTy).Contents (Elt F) → (⟨S4x16x3x256x256, .f32⟩ : BufTy).Contents (Elt F)),
    StableHlo.unary main_v18 main_v178 (Host.negf : (⟨S4x16x256x256, .f32⟩ : BufTy).Contents (Elt F) → (⟨S4x16x256x256, .f32⟩ : BufTy).Contents (Elt F)),
    StableHlo.unary main_v178 main_v179 (Host.exp : (⟨S4x16x256x256, .f32⟩ : BufTy).Contents (Elt F) → (⟨S4x16x256x256, .f32⟩ : BufTy).Contents (Elt F)),
    StableHlo.nullary main_cst_55 (constant S_ .f32 0x3F800000#32),
    StableHlo.unary main_cst_55 main_v180 (broadcastInDim S4x16x256x256 ![] bcast_S_S4x16x256x256 : (⟨S_, .f32⟩ : BufTy).Contents (Elt F) → (⟨S4x16x256x256, .f32⟩ : BufTy).Contents (Elt F)),
    StableHlo.binary main_v180 main_v179 main_v181 (addf : (⟨S4x16x256x256, .f32⟩ : BufTy).Contents (Elt F) → (⟨S4x16x256x256, .f32⟩ : BufTy).Contents (Elt F) → (⟨S4x16x256x256, .f32⟩ : BufTy).Contents (Elt F)) ]

/-- The buffers the operations of `run3_3` write, in order. -/
def run3_3_writes : List (Ref sig .tc) :=
  [ main_v174, main_v175, main_v176, main_v177, main_v178, main_v179, main_cst_55, main_v180, main_v181 ]

/-- Operations 1 … 30 of the 38 in @main's window 4. -/
def run4_0 : List (HloOp τ sig (Elt F)) :=
  [ StableHlo.nullary main_cst_56 (constant S_ .f32 0x3F800000#32),
    StableHlo.unary main_cst_56 main_v182 (broadcastInDim S4x16x256x256 ![] bcast_S_S4x16x256x256 : (⟨S_, .f32⟩ : BufTy).Contents (Elt F) → (⟨S4x16x256x256, .f32⟩ : BufTy).Contents (Elt F)),
    StableHlo.binary main_v182 main_v181 main_v183 (Host.divf : (⟨S4x16x256x256, .f32⟩ : BufTy).Contents (Elt F) → (⟨S4x16x256x256, .f32⟩ : BufTy).Contents (Elt F) → (⟨S4x16x256x256, .f32⟩ : BufTy).Contents (Elt F)),
    StableHlo.unary main_v21 main_v184 (broadcastInDim S4x1x256x256 ![0, 2, 3] bcast_S4x256x256_S4x1x256x256_0_2_3 : (⟨S4x256x256, .f32⟩ : BufTy).Contents (Elt F) → (⟨S4x1x256x256, .f32⟩ : BufTy).Contents (Elt F)),
    StableHlo.unary main_v184 main_v185 (broadcastInDim S4x16x256x256 ![0, 1, 2, 3] bcast_S4x1x256x256_S4x16x256x256_0_1_2_3 : (⟨S4x1x256x256, .f32⟩ : BufTy).Contents (Elt F) → (⟨S4x16x256x256, .f32⟩ : BufTy).Contents (Elt F)),
    StableHlo.binary main_v183 main_v185 main_v186 (mulf : (⟨S4x16x256x256, .f32⟩ : BufTy).Contents (Elt F) → (⟨S4x16x256x256, .f32⟩ : BufTy).Contents (Elt F) → (⟨S4x16x256x256, .f32⟩ : BufTy).Contents (Elt F)),
    StableHlo.reshape main_v186 main_v187 rfl shapeCasts_S4x16x256x256_S4x16x65536,
    StableHlo.nullary main_cst_57 (constant S_ .f32 0x00000000#32),
    StableHlo.binary main_v187 main_cst_57 main_v188 ((fun x v => Host.reduceAdd x v reducesTo_S4x16x65536_S4x16_d2 h_S_) : (⟨S4x16x65536, .f32⟩ : BufTy).Contents (Elt F) → (⟨S_, .f32⟩ : BufTy).Contents (Elt F) → (⟨S4x16, .f32⟩ : BufTy).Contents (Elt F)),
    StableHlo.unary main_v188 main_v189 (broadcastInDim S4x16x1x1 ![0, 1] bcast_S4x16_S4x16x1x1_0_1 : (⟨S4x16, .f32⟩ : BufTy).Contents (Elt F) → (⟨S4x16x1x1, .f32⟩ : BufTy).Contents (Elt F)),
    StableHlo.nullary main_cst_58 (constant S_ .f32 0x3727C5AC#32),
    StableHlo.unary main_cst_58 main_v190 (broadcastInDim S4x16x1x1 ![] bcast_S_S4x16x1x1 : (⟨S_, .f32⟩ : BufTy).Contents (Elt F) → (⟨S4x16x1x1, .f32⟩ : BufTy).Contents (Elt F)),
    StableHlo.binary main_v189 main_v190 main_v191 (addf : (⟨S4x16x1x1, .f32⟩ : BufTy).Contents (Elt F) → (⟨S4x16x1x1, .f32⟩ : BufTy).Contents (Elt F) → (⟨S4x16x1x1, .f32⟩ : BufTy).Contents (Elt F)),
    StableHlo.unary main_v191 main_v192 (broadcastInDim S4x16x256x256 ![0, 1, 2, 3] bcast_S4x16x1x1_S4x16x256x256_0_1_2_3 : (⟨S4x16x1x1, .f32⟩ : BufTy).Contents (Elt F) → (⟨S4x16x256x256, .f32⟩ : BufTy).Contents (Elt F)),
    StableHlo.binary main_v186 main_v192 main_v193 (Host.divf : (⟨S4x16x256x256, .f32⟩ : BufTy).Contents (Elt F) → (⟨S4x16x256x256, .f32⟩ : BufTy).Contents (Elt F) → (⟨S4x16x256x256, .f32⟩ : BufTy).Contents (Elt F)),
    StableHlo.unary main_v193 main_v194 (broadcastInDim S4x16x1x256x256 ![0, 1, 3, 4] bcast_S4x16x256x256_S4x16x1x256x256_0_1_3_4 : (⟨S4x16x256x256, .f32⟩ : BufTy).Contents (Elt F) → (⟨S4x16x1x256x256, .f32⟩ : BufTy).Contents (Elt F)),
    StableHlo.unary main_v194 main_v195 (broadcastInDim S4x16x3x256x256 ![0, 1, 2, 3, 4] bcast_S4x16x1x256x256_S4x16x3x256x256_0_1_2_3_4 : (⟨S4x16x1x256x256, .f32⟩ : BufTy).Contents (Elt F) → (⟨S4x16x3x256x256, .f32⟩ : BufTy).Contents (Elt F)),
    StableHlo.binary main_v177 main_v195 main_v196 (mulf : (⟨S4x16x3x256x256, .f32⟩ : BufTy).Contents (Elt F) → (⟨S4x16x3x256x256, .f32⟩ : BufTy).Contents (Elt F) → (⟨S4x16x3x256x256, .f32⟩ : BufTy).Contents (Elt F)),
    StableHlo.reshape main_v196 main_v197 rfl shapeCasts_S4x16x3x256x256_S4x16x3x65536,
    StableHlo.nullary main_cst_59 (constant S_ .f32 0x00000000#32),
    StableHlo.binary main_v197 main_cst_59 main_v198 ((fun x v => Host.reduceAdd x v reducesTo_S4x16x3x65536_S4x16x3_d3 h_S_) : (⟨S4x16x3x65536, .f32⟩ : BufTy).Contents (Elt F) → (⟨S_, .f32⟩ : BufTy).Contents (Elt F) → (⟨S4x16x3, .f32⟩ : BufTy).Contents (Elt F)),
    StableHlo.binary main_v198 main_v52 main_v199 (subf : (⟨S4x16x3, .f32⟩ : BufTy).Contents (Elt F) → (⟨S4x16x3, .f32⟩ : BufTy).Contents (Elt F) → (⟨S4x16x3, .f32⟩ : BufTy).Contents (Elt F)),
    StableHlo.TRef.binary (.of main_v199 : StableHlo.TRef sig ⟨S4x16x3, .f32⟩) (.of main_v199 : StableHlo.TRef sig ⟨S4x16x3, .f32⟩) main_call14.v0 mulf,
    StableHlo.TRef.nullary main_call14.cst (constant S_ .f32 0x00000000#32),
    StableHlo.TRef.binary main_call14.v0 main_call14.cst main_call14.v1 (fun x v => Host.reduceAdd x v reducesTo_S4x16x3_S4x16_d2 h_S_),
    StableHlo.TRef.unary main_call14.v1 main_call14.v2 Host.sqrt,
    StableHlo.nullary main_cst_60 (constant S_ .f32 0x00000000#32),
    StableHlo.binary main_v200 main_cst_60 main_v201 ((fun x v => Host.reduceAdd x v reducesTo_S4x16_S_d0_1 h_S_) : (⟨S4x16, .f32⟩ : BufTy).Contents (Elt F) → (⟨S_, .f32⟩ : BufTy).Contents (Elt F) → (⟨S_, .f32⟩ : BufTy).Contents (Elt F)),
    StableHlo.nullary main_cst_61 (constant S_ .f32 0x42800000#32),
    StableHlo.binary main_v201 main_cst_61 main_v202 (Host.divf : (⟨S_, .f32⟩ : BufTy).Contents (Elt F) → (⟨S_, .f32⟩ : BufTy).Contents (Elt F) → (⟨S_, .f32⟩ : BufTy).Contents (Elt F)) ]

/-- The buffers the operations of `run4_0` write, in order. -/
def run4_0_writes : List (Ref sig .tc) :=
  [ main_cst_56, main_v182, main_v183, main_v184, main_v185, main_v186, main_v187, main_cst_57, main_v188, main_v189, main_cst_58, main_v190, main_v191, main_v192, main_v193, main_v194, main_v195, main_v196, main_v197, main_cst_59, main_v198, main_v199, main_call14.v0.ref, main_call14.cst.ref, main_call14.v1.ref, main_call14.v2.ref, main_cst_60, main_v201, main_cst_61, main_v202 ]

/-- Operations 31 … 38 of the 38 in @main's window 4. -/
def run4_1 : List (HloOp τ sig (Elt F)) :=
  [ StableHlo.unary main_v87 main_v203 (broadcastInDim S1 ![] bcast_S_S1 : (⟨S_, .f32⟩ : BufTy).Contents (Elt F) → (⟨S1, .f32⟩ : BufTy).Contents (Elt F)),
    StableHlo.unary main_v63 main_v204 (broadcastInDim S1 ![] bcast_S_S1 : (⟨S_, .f32⟩ : BufTy).Contents (Elt F) → (⟨S1, .f32⟩ : BufTy).Contents (Elt F)),
    StableHlo.unary main_v173 main_v205 (broadcastInDim S1 ![] bcast_S_S1 : (⟨S_, .f32⟩ : BufTy).Contents (Elt F) → (⟨S1, .f32⟩ : BufTy).Contents (Elt F)),
    StableHlo.unary main_v111 main_v206 (broadcastInDim S1 ![] bcast_S_S1 : (⟨S_, .f32⟩ : BufTy).Contents (Elt F) → (⟨S1, .f32⟩ : BufTy).Contents (Elt F)),
    StableHlo.unary main_v202 main_v207 (broadcastInDim S1 ![] bcast_S_S1 : (⟨S_, .f32⟩ : BufTy).Contents (Elt F) → (⟨S1, .f32⟩ : BufTy).Contents (Elt F)),
    StableHlo.unary main_v135 main_v208 (broadcastInDim S1 ![] bcast_S_S1 : (⟨S_, .f32⟩ : BufTy).Contents (Elt F) → (⟨S1, .f32⟩ : BufTy).Contents (Elt F)),
    StableHlo.unary main_v144 main_v209 (broadcastInDim S1 ![] bcast_S_S1 : (⟨S_, .f32⟩ : BufTy).Contents (Elt F) → (⟨S1, .f32⟩ : BufTy).Contents (Elt F)),
    StableHlo.nary ![main_v203, main_v204, main_v205, main_v206, main_v207, main_v208, main_v209] main_v210 (fun u => concatenate S7 0 [⟨S1, u 0⟩, ⟨S1, u 1⟩, ⟨S1, u 2⟩, ⟨S1, u 3⟩, ⟨S1, u 4⟩, ⟨S1, u 5⟩, ⟨S1, u 6⟩] concatenates_S1_S1_S1_S1_S1_S1_S1_S7_d0) ]

/-- The buffers the operations of `run4_1` write, in order. -/
def run4_1_writes : List (Ref sig .tc) :=
  [ main_v203, main_v204, main_v205, main_v206, main_v207, main_v208, main_v209, main_v210 ]

/-- The operations of @main's window 0 (`main_part0`), the calls unfolded. -/
def opsPart0 : List (HloOp τ sig (Elt F)) :=
  run0_0 ++ run0_1 ++ run0_2

/-- The operations of @main's window 1 (`main_part1`), the calls unfolded. -/
def opsPart1 : List (HloOp τ sig (Elt F)) :=
  run1_0 ++ run1_1 ++ run1_2 ++ run1_3

/-- The operations of @main's window 2 (`main_part2`), the calls unfolded. -/
def opsPart2 : List (HloOp τ sig (Elt F)) :=
  run2_0 ++ run2_1

/-- The operations of @main's window 3 (`main_part3`), the calls unfolded. -/
def opsPart3 : List (HloOp τ sig (Elt F)) :=
  run3_0 ++ run3_1 ++ run3_2 ++ run3_3

/-- The operations of @main's window 4 (`main_part4`), the calls unfolded. -/
def opsPart4 : List (HloOp τ sig (Elt F)) :=
  run4_0 ++ run4_1

/-- @main's 361 operations, in order, the calls unfolded. -/
def ops : List (HloOp τ sig (Elt F)) :=
  opsPart0 ++ opsPart1 ++ opsPart2 ++ opsPart3 ++ opsPart4

end Cert.ReferenceIdeal.RefRun

end
-- ==== Proof.ReferenceRun.Main.lean ====
/-
  The reference program is a straight line of its 361 host operations: each printed window of @main, its calls
  unfolded, is `seq` of the corresponding list, so @main is `seq ops`; every operation touches TensorCore buffers
  only, determines its result, and writes exactly one buffer, the one listed beside it. Hence the run: every weakly
  fair execution terminates with each buffer at the fold of the operations over the launch contents (`run_main`), a
  run of operations leaves every buffer it does not write as it was (`frame_of`), and no operation writes an argument
  (`arg0_eq`, `arg1_eq`, `arg2_eq`).
-/
import proofs.«112959_j30356828848315_1_alg».proof.Proof.ReferenceRun.Ops
import Idealize.ShloMosaic.Lib.StableHlo.Run
import Idealize.ShloMosaic.Lib.Pipeline.Frame

noncomputable section

namespace Cert.ReferenceIdeal.RefRun

open Cert.ReferenceIdeal Idealize.ShloMosaic Idealize.ShloMosaic.TcCoe Idealize.ShloMosaic.StableHlo Idealize.SL.Sem
open Cert.ReferenceIdeal.Facts₀ Cert.ReferenceIdeal.Facts

variable {F : FTy → Type} [FloatOps F] [Facts]

/-! ## @main is the line of its operations

Sequencing in the free monad grafts the continuation onto the leaves by structural recursion, so a window of @main —
a chain of `hlo` steps, a call the callee's chain over the call's record — and `seq` of the window's list compute to
the same tree. -/

set_option maxRecDepth 16384 in
theorem part0_eq (c : Dev nD) : main_part0 (F := F) c = seq opsPart0 := rfl
set_option maxRecDepth 16384 in
theorem part1_eq (c : Dev nD) : main_part1 (F := F) c = seq opsPart1 := rfl
set_option maxRecDepth 16384 in
theorem part2_eq (c : Dev nD) : main_part2 (F := F) c = seq opsPart2 := rfl
set_option maxRecDepth 16384 in
theorem part3_eq (c : Dev nD) : main_part3 (F := F) c = seq opsPart3 := rfl
set_option maxRecDepth 16384 in
theorem part4_eq (c : Dev nD) : main_part4 (F := F) c = seq opsPart4 := rfl

/-- @main runs its five windows in order, and `ops` is their lists in that order. -/
theorem main_eq (c : Dev nD) : main (F := F) c = seq ops := by
  unfold main ops
  simp only [seq_append, part0_eq, part1_eq, part2_eq, part3_eq, part4_eq, bind_assoc]

/-! ## What each operation touches and writes -/

/-- What is used of each operation: it touches TensorCore buffers only, it determines its result, and it writes exactly
    one buffer, one of the list `L`. -/
structure Good (L : List (Ref sig .tc)) (op : HloOp τ sig (Elt F)) : Prop where
  bufs_sub : op.bufs ⊆ tcRefs τ sig
  fresh : op.fresh = ∅
  writes : ∃ y, y ∈ L ∧ op.writes = {Proc.devRef .tc y}

/-- A run of operations that each write one buffer of `L` leaves every buffer outside `L` as it was. -/
theorem frame_of {L : List (Ref sig .tc)} {l : List (HloOp τ sig (Elt F))} (h : l.Forall (Good L))
    (V : Valuation τ sig (Elt F)) {r : Ref sig .tc} (hr : r ∉ L) :
    after l V (Proc.devRef .tc r) = V (Proc.devRef .tc r) :=
  after_of_forall_not_mem l V fun op hop hb => by
    obtain ⟨-, -, y, hy, hw⟩ := List.forall_iff_forall_mem.mp h op hop
    rw [hw, Finset.mem_singleton] at hb
    exact hr (Proc.devRef_injective _ hb ▸ hy)

/-- Every operation of a literal list is `Good` for the list of buffers beside it: one goal per operation, the buffers it
    touches by the builder's lemma, the buffer it writes by computation. -/
macro "bufs_sub" : tactic =>
  `(tactic| first
    | (exact nullary_bufs_sub ..) | (exact unary_bufs_sub ..) | (exact binary_bufs_sub ..)
    | (exact ternary_bufs_sub ..) | (exact reshape_bufs_sub ..) | (exact nary_bufs_sub ..))

macro "good_ops" : tactic =>
  `(tactic| (and_intros <;> exact ⟨(by bufs_sub), rfl, _, (by decide), rfl⟩))

set_option maxHeartbeats 2000000
set_option maxRecDepth 8192

theorem good0_0 : (run0_0 : List (HloOp τ sig (Elt F))).Forall (Good run0_0_writes) := by
  unfold run0_0; good_ops
theorem good0_1 : (run0_1 : List (HloOp τ sig (Elt F))).Forall (Good run0_1_writes) := by
  unfold run0_1; good_ops
theorem good0_2 : (run0_2 : List (HloOp τ sig (Elt F))).Forall (Good run0_2_writes) := by
  unfold run0_2; good_ops
theorem good1_0 : (run1_0 : List (HloOp τ sig (Elt F))).Forall (Good run1_0_writes) := by
  unfold run1_0; good_ops
theorem good1_1 : (run1_1 : List (HloOp τ sig (Elt F))).Forall (Good run1_1_writes) := by
  unfold run1_1; good_ops
theorem good1_2 : (run1_2 : List (HloOp τ sig (Elt F))).Forall (Good run1_2_writes) := by
  unfold run1_2; good_ops
theorem good1_3 : (run1_3 : List (HloOp τ sig (Elt F))).Forall (Good run1_3_writes) := by
  unfold run1_3; good_ops
theorem good2_0 : (run2_0 : List (HloOp τ sig (Elt F))).Forall (Good run2_0_writes) := by
  unfold run2_0; good_ops
theorem good2_1 : (run2_1 : List (HloOp τ sig (Elt F))).Forall (Good run2_1_writes) := by
  unfold run2_1; good_ops
theorem good3_0 : (run3_0 : List (HloOp τ sig (Elt F))).Forall (Good run3_0_writes) := by
  unfold run3_0; good_ops
theorem good3_1 : (run3_1 : List (HloOp τ sig (Elt F))).Forall (Good run3_1_writes) := by
  unfold run3_1; good_ops
theorem good3_2 : (run3_2 : List (HloOp τ sig (Elt F))).Forall (Good run3_2_writes) := by
  unfold run3_2; good_ops
theorem good3_3 : (run3_3 : List (HloOp τ sig (Elt F))).Forall (Good run3_3_writes) := by
  unfold run3_3; good_ops
theorem good4_0 : (run4_0 : List (HloOp τ sig (Elt F))).Forall (Good run4_0_writes) := by
  unfold run4_0; good_ops
theorem good4_1 : (run4_1 : List (HloOp τ sig (Elt F))).Forall (Good run4_1_writes) := by
  unfold run4_1; good_ops

/-- Every operation of the program touches TensorCore buffers only and determines its result. -/
theorem ops_good : ∀ op ∈ (ops : List (HloOp τ sig (Elt F))), op.bufs ⊆ tcRefs τ sig ∧ op.fresh = ∅ := by
  intro op h
  simp only [ops, opsPart0, opsPart1, opsPart2, opsPart3, opsPart4, List.mem_append, or_assoc] at h
  rcases h with h | h | h | h | h | h | h | h | h | h | h | h | h | h | h
  exacts [⟨(List.forall_iff_forall_mem.mp good0_0 op h).1, (List.forall_iff_forall_mem.mp good0_0 op h).2⟩,
    ⟨(List.forall_iff_forall_mem.mp good0_1 op h).1, (List.forall_iff_forall_mem.mp good0_1 op h).2⟩,
    ⟨(List.forall_iff_forall_mem.mp good0_2 op h).1, (List.forall_iff_forall_mem.mp good0_2 op h).2⟩,
    ⟨(List.forall_iff_forall_mem.mp good1_0 op h).1, (List.forall_iff_forall_mem.mp good1_0 op h).2⟩,
    ⟨(List.forall_iff_forall_mem.mp good1_1 op h).1, (List.forall_iff_forall_mem.mp good1_1 op h).2⟩,
    ⟨(List.forall_iff_forall_mem.mp good1_2 op h).1, (List.forall_iff_forall_mem.mp good1_2 op h).2⟩,
    ⟨(List.forall_iff_forall_mem.mp good1_3 op h).1, (List.forall_iff_forall_mem.mp good1_3 op h).2⟩,
    ⟨(List.forall_iff_forall_mem.mp good2_0 op h).1, (List.forall_iff_forall_mem.mp good2_0 op h).2⟩,
    ⟨(List.forall_iff_forall_mem.mp good2_1 op h).1, (List.forall_iff_forall_mem.mp good2_1 op h).2⟩,
    ⟨(List.forall_iff_forall_mem.mp good3_0 op h).1, (List.forall_iff_forall_mem.mp good3_0 op h).2⟩,
    ⟨(List.forall_iff_forall_mem.mp good3_1 op h).1, (List.forall_iff_forall_mem.mp good3_1 op h).2⟩,
    ⟨(List.forall_iff_forall_mem.mp good3_2 op h).1, (List.forall_iff_forall_mem.mp good3_2 op h).2⟩,
    ⟨(List.forall_iff_forall_mem.mp good3_3 op h).1, (List.forall_iff_forall_mem.mp good3_3 op h).2⟩,
    ⟨(List.forall_iff_forall_mem.mp good4_0 op h).1, (List.forall_iff_forall_mem.mp good4_0 op h).2⟩,
    ⟨(List.forall_iff_forall_mem.mp good4_1 op h).1, (List.forall_iff_forall_mem.mp good4_1 op h).2⟩]

theorem ops_sub : (ops : List (HloOp τ sig (Elt F))).Forall fun op => op.bufs ⊆ tcRefs τ sig :=
  List.forall_iff_forall_mem.mpr fun op h => (ops_good op h).1

/-- The fold over the whole program is the fold over its runs, one after the other. -/
theorem after_ops (V : Valuation τ sig (Elt F)) :
    after ops V = after run4_1 (after run4_0 (after run3_3 (after run3_2 (after run3_1 (after run3_0 (after run2_1
      (after run2_0 (after run1_3 (after run1_2 (after run1_1 (after run1_0 (after run0_2 (after run0_1
        (after run0_0 V)))))))))))))) := by
  simp only [ops, opsPart0, opsPart1, opsPart2, opsPart3, opsPart4, after_append]

/-- A buffer none of the runs writes is, after the whole program, as it was. -/
theorem frame_ops (V : Valuation τ sig (Elt F)) {r : Ref sig .tc} (h0_0 : r ∉ run0_0_writes) (h0_1 : r ∉ run0_1_writes) (h0_2 : r ∉ run0_2_writes) (h1_0 : r ∉ run1_0_writes) (h1_1 : r ∉ run1_1_writes) (h1_2 : r ∉ run1_2_writes) (h1_3 : r ∉ run1_3_writes) (h2_0 : r ∉ run2_0_writes) (h2_1 : r ∉ run2_1_writes) (h3_0 : r ∉ run3_0_writes) (h3_1 : r ∉ run3_1_writes) (h3_2 : r ∉ run3_2_writes) (h3_3 : r ∉ run3_3_writes) (h4_0 : r ∉ run4_0_writes) (h4_1 : r ∉ run4_1_writes) :
    after ops V (Proc.devRef .tc r) = V (Proc.devRef .tc r) := by
  rw [after_ops, frame_of good4_1 _ h4_1, frame_of good4_0 _ h4_0, frame_of good3_3 _ h3_3, frame_of good3_2 _ h3_2, frame_of good3_1 _ h3_1, frame_of good3_0 _ h3_0, frame_of good2_1 _ h2_1, frame_of good2_0 _ h2_0, frame_of good1_3 _ h1_3, frame_of good1_2 _ h1_2, frame_of good1_1 _ h1_1, frame_of good1_0 _ h1_0, frame_of good0_2 _ h0_2, frame_of good0_1 _ h0_1, frame_of good0_0 _ h0_0]

/-- No operation writes the first argument. -/
theorem arg0_eq (V : Valuation τ sig (Elt F)) : after ops V (main_arg0 : DevRef τ sig) = V (main_arg0 : DevRef τ sig) :=
  frame_ops V (by decide) (by decide) (by decide) (by decide) (by decide) (by decide) (by decide) (by decide) (by decide) (by decide) (by decide) (by decide) (by decide) (by decide) (by decide)
/-- No operation writes the second argument. -/
theorem arg1_eq (V : Valuation τ sig (Elt F)) : after ops V (main_arg1 : DevRef τ sig) = V (main_arg1 : DevRef τ sig) :=
  frame_ops V (by decide) (by decide) (by decide) (by decide) (by decide) (by decide) (by decide) (by decide) (by decide) (by decide) (by decide) (by decide) (by decide) (by decide) (by decide)
/-- No operation writes the third argument. -/
theorem arg2_eq (V : Valuation τ sig (Elt F)) : after ops V (main_arg2 : DevRef τ sig) = V (main_arg2 : DevRef τ sig) :=
  frame_ops V (by decide) (by decide) (by decide) (by decide) (by decide) (by decide) (by decide) (by decide) (by decide) (by decide) (by decide) (by decide) (by decide) (by decide) (by decide)

/-! ## The run -/

theorem scopedRefs_eq : (Finset.univ.filter fun b : Ref sig .tc => b.isScoped) = ∅ := by decide
theorem scopedSems_eq : (Finset.univ.filter fun sm : SemLoc sig => sm.isScoped .tc) = ∅ := by decide

/-- At the compiled mesh, for any float values, from any memory with zero counters: every weakly fair execution of @main
    on the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ
    (fun _ op h => (ops_good op h).2)

end Cert.ReferenceIdeal.RefRun

end
-- ==== Proof.ReferenceRun.Terms.lean ====
/-
  The reference program's result as one function of its three arguments, built from named intermediate
  functions that mirror the program's own operations (its slices, sigmoids, the outlined log-sigmoid / softplus,
  the channel norms, the masked means, the log-softmax and gather, the weighted-centre chain), each a plain
  composition of the printed pure operations with the evidence the program cites.
-/
import proofs.«112959_j30356828848315_1_alg».proof.ReferenceIdeal

noncomputable section

namespace Cert.ReferenceIdeal.RefRun

open Cert.ReferenceIdeal Idealize.ShloMosaic
open Cert.ReferenceIdeal.Facts₀ Cert.ReferenceIdeal.Facts

variable {F : FTy → Type} [FloatOps F] [Facts]

/-! ## Scalars and their splats -/

/-- The scalar `0.0`. -/
def zero : FVec F S_ .f32 := constant S_ .f32 0x00000000#32
/-- The scalar `1.0`. -/
def one : FVec F S_ .f32 := constant S_ .f32 0x3F800000#32
/-- `0.0` at every point of a `4×256×256` map. -/
def zeros3 : FVec F S4x256x256 .f32 := broadcastInDim S4x256x256 ![] bcast_S_S4x256x256 zero
/-- `1.0` at every point of a `4×256×256` map. -/
def ones3 : FVec F S4x256x256 .f32 := broadcastInDim S4x256x256 ![] bcast_S_S4x256x256 one

/-! ## The sigmoid, `1 / (1 + exp (-u))`, at the three shapes it is taken at -/

/-- The sigmoid of a `4×48×256×256` block. -/
def sigm48 (u : FVec F S4x48x256x256 .f32) : FVec F S4x48x256x256 .f32 :=
  Host.divf (broadcastInDim S4x48x256x256 ![] bcast_S_S4x48x256x256 one)
    (addf (broadcastInDim S4x48x256x256 ![] bcast_S_S4x48x256x256 one) (Host.exp (Host.negf u)))

/-- The sigmoid of a `4×16×256×256` block. -/
def sigm16 (u : FVec F S4x16x256x256 .f32) : FVec F S4x16x256x256 .f32 :=
  Host.divf (broadcastInDim S4x16x256x256 ![] bcast_S_S4x16x256x256 one)
    (addf (broadcastInDim S4x16x256x256 ![] bcast_S_S4x16x256x256 one) (Host.exp (Host.negf u)))

/-- The sigmoid of a `4×16×3` table. -/
def sigm3 (u : FVec F S4x16x3 .f32) : FVec F S4x16x3 .f32 :=
  Host.divf (broadcastInDim S4x16x3 ![] bcast_S_S4x16x3 one)
    (addf (broadcastInDim S4x16x3 ![] bcast_S_S4x16x3 one) (Host.exp (Host.negf u)))

/-! ## The arguments' parts

The first argument `x : 4×134×256×256` is cut along its second axis into `3 + 1 + 48 + 48 + 18 + 16` channels, the
second `y : 4×101×256×256` into `3 + 1 + 48 + 48 + 1`, the third `z : 4×16×6` along its last axis into `3 + 3`. -/

/-- Channels `0‥3` of `x` (the program's `%0`). -/
def xColour (x : FVec F S4x134x256x256 .f32) : FVec F S4x3x256x256 .f32 :=
  extractStridedSlice S4x3x256x256 ![0, 0, 0, 0] x slices_S4x134x256x256_S4x3x256x256_0_0_0_0
/-- Channel `3` of `x`, as a `4×256×256` map (`%2`). -/
def xMask (x : FVec F S4x134x256x256 .f32) : FVec F S4x256x256 .f32 :=
  shapeCast S4x256x256 (extractStridedSlice S4x1x256x256 ![0, 3, 0, 0] x slices_S4x134x256x256_S4x1x256x256_0_3_0_0)
    shapeCasts_S4x1x256x256_S4x256x256
/-- The sigmoid of channels `4‥52` of `x` (`%9`). -/
def xSigA (x : FVec F S4x134x256x256 .f32) : FVec F S4x48x256x256 .f32 :=
  sigm48 (extractStridedSlice S4x48x256x256 ![0, 4, 0, 0] x slices_S4x134x256x256_S4x48x256x256_0_4_0_0)
/-- The sigmoid of channels `52‥100` of `x` (`%16`). -/
def xSigB (x : FVec F S4x134x256x256 .f32) : FVec F S4x48x256x256 .f32 :=
  sigm48 (extractStridedSlice S4x48x256x256 ![0, 52, 0, 0] x slices_S4x134x256x256_S4x48x256x256_0_52_0_0)
/-- Channels `100‥118` of `x` (`%17`). -/
def xLogits (x : FVec F S4x134x256x256 .f32) : FVec F S4x18x256x256 .f32 :=
  extractStridedSlice S4x18x256x256 ![0, 100, 0, 0] x slices_S4x134x256x256_S4x18x256x256_0_100_0_0
/-- Channels `118‥134` of `x` (`%18`). -/
def xWeights (x : FVec F S4x134x256x256 .f32) : FVec F S4x16x256x256 .f32 :=
  extractStridedSlice S4x16x256x256 ![0, 118, 0, 0] x slices_S4x134x256x256_S4x16x256x256_0_118_0_0

/-- Channels `0‥3` of `y` (`%19`). -/
def yColour (y : FVec F S4x101x256x256 .f32) : FVec F S4x3x256x256 .f32 :=
  extractStridedSlice S4x3x256x256 ![0, 0, 0, 0] y slices_S4x101x256x256_S4x3x256x256_0_0_0_0
/-- Channel `3` of `y`, as a `4×256×256` map (`%21`). -/
def yMask (y : FVec F S4x101x256x256 .f32) : FVec F S4x256x256 .f32 :=
  shapeCast S4x256x256 (extractStridedSlice S4x1x256x256 ![0, 3, 0, 0] y slices_S4x101x256x256_S4x1x256x256_0_3_0_0)
    shapeCasts_S4x1x256x256_S4x256x256
/-- The sigmoid of channels `4‥52` of `y` (`%28`). -/
def ySigA (y : FVec F S4x101x256x256 .f32) : FVec F S4x48x256x256 .f32 :=
  sigm48 (extractStridedSlice S4x48x256x256 ![0, 4, 0, 0] y slices_S4x101x256x256_S4x48x256x256_0_4_0_0)
/-- The sigmoid of channels `52‥100` of `y` (`%35`). -/
def ySigB (y : FVec F S4x101x256x256 .f32) : FVec F S4x48x256x256 .f32 :=
  sigm48 (extractStridedSlice S4x48x256x256 ![0, 52, 0, 0] y slices_S4x101x256x256_S4x48x256x256_0_52_0_0)
/-- Channel `100` of `y` as a `4×256×256` map, converted to 32-bit integers (`%38`). -/
def yLabel (y : FVec F S4x101x256x256 .f32) : IVec S4x256x256 32 :=
  fptosi 32 (shapeCast S4x256x256 (extractStridedSlice S4x1x256x256 ![0, 100, 0, 0] y slices_S4x101x256x256_S4x1x256x256_0_100_0_0)
    shapeCasts_S4x1x256x256_S4x256x256)

/-- The sigmoid of columns `0‥3` of `z` (`%45`). -/
def zSigA (z : FVec F S4x16x6 .f32) : FVec F S4x16x3 .f32 :=
  sigm3 (extractStridedSlice S4x16x3 ![0, 0, 0] z slices_S4x16x6_S4x16x3_0_0_0)
/-- The sigmoid of columns `3‥6` of `z` (`%52`). -/
def zSigB (z : FVec F S4x16x6 .f32) : FVec F S4x16x3 .f32 :=
  sigm3 (extractStridedSlice S4x16x3 ![0, 0, 3] z slices_S4x16x6_S4x16x3_0_0_3)

/-! ## The outlined `softplus` and `log_sigmoid` -/

/-- `softplus a`: where `a - 0` is not a number, `a + 0`; elsewhere `max a 0 + log1p (exp (-|a - 0|))`. -/
def softplus (a : FVec F S4x256x256 .f32) : FVec F S4x256x256 .f32 :=
  select (cmpf .une (subf a zeros3) (subf a zeros3)) (addf a zeros3)
    (addf (maximumf a zeros3) (Host.log1p (Host.exp (Host.negf (Host.absf (subf a zeros3))))))

/-- `log_sigmoid u = -(softplus (-u))`. -/
def logSigmoid (u : FVec F S4x256x256 .f32) : FVec F S4x256x256 .f32 :=
  Host.negf (softplus (Host.negf u))

/-- The mask's cross-entropy (`%63`): minus the mean over all `4·256·256` points of
    `t · log_sigmoid m + (1 - t) · log_sigmoid (-m)`, `m` the mask channel of `x` and `t` that of `y`. -/
def maskLoss (x : FVec F S4x134x256x256 .f32) (y : FVec F S4x101x256x256 .f32) : FVec F S_ .f32 :=
  Host.negf
    (Host.divf
      (Host.reduceAdd
        (addf (mulf (yMask y) (logSigmoid (xMask x)))
          (mulf (subf ones3 (yMask y)) (logSigmoid (Host.negf (xMask x)))))
        zero reducesTo_S4x256x256_S_d0_1_2 h_S_)
      (constant S_ .f32 0x48800000#32))

/-! ## The channel norms of a difference (`@norm`, `@norm_1`) -/

/-- The Euclidean norm along the three channels of `a - b` (`%65`). -/
def diffNorm3 (a b : FVec F S4x3x256x256 .f32) : FVec F S4x256x256 .f32 :=
  Host.sqrt (Host.reduceAdd (mulf (subf a b) (subf a b)) zero reducesTo_S4x3x256x256_S4x256x256_d1 h_S_)

/-- The Euclidean norm along the forty-eight channels of `a - b` (`%89`, `%113`). -/
def diffNorm48 (a b : FVec F S4x48x256x256 .f32) : FVec F S4x256x256 .f32 :=
  Host.sqrt (Host.reduceAdd (mulf (subf a b) (subf a b)) zero reducesTo_S4x48x256x256_S4x256x256_d1 h_S_)

/-! ## The masked mean (the program's `%66 … %87`, and twice more) -/

/-- The map `nrm` kept where `msk > 0.7` and zero elsewhere, each image flattened (`%69`). -/
def kept (nrm msk : FVec F S4x256x256 .f32) : FVec F S4x65536 .f32 :=
  shapeCast S4x65536
    (select (cmpf .ogt msk (broadcastInDim S4x256x256 ![] bcast_S_S4x256x256 (constant S_ .f32 0x3F333333#32))) nrm zeros3)
    shapeCasts_S4x256x256_S4x65536

/-- Per image, how many kept values are not zero (`%74`). -/
def keptCount (nrm msk : FVec F S4x256x256 .f32) : IVec S4 32 :=
  Host.reduce IntOp.addi
    (extui 32 (cmpf .une (kept nrm msk) (broadcastInDim S4x65536 ![] bcast_S_S4x65536 zero)) natLt_1_32)
    (constantI S_ 32 0#32) reducesTo_S4x65536_S4_d1 h_S_

/-- Per image (`%85`): the kept values' sum over their count (at least one) where the count is positive, the plain
    mean of `nrm` over the `65536` points elsewhere. -/
def perImage (nrm msk : FVec F S4x256x256 .f32) : FVec F S4 .f32 :=
  select (cmpi .sgt (keptCount nrm msk) (broadcastInDim S4 ![] bcast_S_S4 (constantI S_ 32 0#32)))
    (Host.divf (Host.reduceAdd (kept nrm msk) zero reducesTo_S4x65536_S4_d1 h_S_)
      (sitofp .f32 (maxsi (keptCount nrm msk) (broadcastInDim S4 ![] bcast_S_S4 (constantI S_ 32 1#32)))))
    (Host.divf (Host.reduceAdd (shapeCast S4x65536 nrm shapeCasts_S4x256x256_S4x65536) zero reducesTo_S4x65536_S4_d1 h_S_)
      (broadcastInDim S4 ![] bcast_S_S4 (constant S_ .f32 0x47800000#32)))

/-- The mean over the four images of `perImage` (`%87`, `%111`, `%135`). -/
def maskedMean (nrm msk : FVec F S4x256x256 .f32) : FVec F S_ .f32 :=
  Host.divf (Host.reduceAdd (perImage nrm msk) zero reducesTo_S4_S_d0 h_S_) (constant S_ .f32 0x40800000#32)

/-! ## The class term (`%136 … %144`) -/

/-- The row maxima of a `262144×18` table, not below minus infinity, spread back over the eighteen columns
    (`%4` of `@log_softmax`). -/
def rowMax (a : FVec F S262144x18 .f32) : FVec F S262144x18 .f32 :=
  broadcastInDim S262144x18 ![0, 1] bcast_S262144x1_S262144x18_0_1
    (broadcastInDim S262144x1 ![0] bcast_S262144_S262144x1_0
      (maximumf (broadcastInDim S262144 ![] bcast_S_S262144 (constant S_ .f32 0xFF800000#32))
        (Host.reduce FloatOps.maximumf a (constant S_ .f32 0xFF800000#32) reducesTo_S262144x18_S262144_d1 h_S_)))

/-- `@log_softmax` along the eighteen classes: `(a - rowMax a) - log (Σ exp (a - rowMax a))`. -/
def logSoftmax (a : FVec F S262144x18 .f32) : FVec F S262144x18 .f32 :=
  subf (subf a (rowMax a))
    (broadcastInDim S262144x18 ![0, 1] bcast_S262144x1_S262144x18_0_1
      (Host.log
        (broadcastInDim S262144x1 ![0] bcast_S262144_S262144x1_0
          (Host.reduceAdd (Host.exp (subf a (rowMax a))) zero reducesTo_S262144x18_S262144_d1 h_S_))))

/-- The index table `@take_along_axis` gathers at (its `%5`): a negative index raised by `18`, as `262144×1×1`. -/
def wrapIndex (i : IVec S262144x1 32) : IVec S262144x1x1 32 :=
  shapeCast S262144x1x1
    (select (cmpi .slt i (broadcastInDim S262144x1 ![] bcast_S_S262144x1 (constantI S_ 32 0#32)))
      (addi i (broadcastInDim S262144x1 ![] bcast_S_S262144x1 (constantI S_ 32 18#32))) i)
    shapeCasts_S262144x1_S262144x1x1

/-- `@take_along_axis a i`: row by row the entry of `a` at the wrapped index where that lies in `0 ≤ · ≤ 17`, and the
    quiet not-a-number elsewhere. -/
def takeAlong (a : FVec F S262144x18 .f32) (i : IVec S262144x1 32) : FVec F S262144x1 .f32 :=
  select
    (Host.reduce IntOp.andi
      (andi (cmpi .sge (wrapIndex i) (broadcastInDim S262144x1x1 ![] bcast_S_S262144x1x1 (constantI S_ 32 0#32)))
        (cmpi .sle (wrapIndex i)
          (broadcastInDim S262144x1x1 ![0, 1, 2] bcast_S1x1x1_S262144x1x1_0_1_2
            (broadcastInDim S1x1x1 ![2] bcast_S1_S1x1x1_2 (constantI S1 32 17#32)))))
      (constantI S_ 1 1#1) reducesTo_S262144x1x1_S262144x1_d2 h_S_)
    (Host.gather gather_S262144x18_S262144x1x1_S262144x1_n_1_0_0_1_2_11 a (wrapIndex i))
    (broadcastInDim S262144x1 ![] bcast_S_S262144x1 (constant S_ .f32 0x7FC00000#32))

/-- The class channels of `x` moved last and flattened to `262144×18` (`%137`). -/
def xLogitRows (x : FVec F S4x134x256x256 .f32) : FVec F S262144x18 .f32 :=
  shapeCast S262144x18
    (transpose S4x256x256x18 [0, 2, 3, 1] (xLogits x) transposes_S4x18x256x256_S4x256x256x18_0_2_3_1)
    shapeCasts_S4x256x256x18_S262144x18

/-- The labels flattened to one column (`%140`). -/
def yLabelColumn (y : FVec F S4x101x256x256 .f32) : IVec S262144x1 32 :=
  broadcastInDim S262144x1 ![0] bcast_S262144_S262144x1_0 (shapeCast S262144 (yLabel y) shapeCasts_S4x256x256_S262144)

/-- The class term (`%144`): minus the mean over the `262144` points of the log-softmax of the class channels taken at
    the label. -/
def skinLoss (x : FVec F S4x134x256x256 .f32) (y : FVec F S4x101x256x256 .f32) : FVec F S_ .f32 :=
  Host.negf
    (Host.divf
      (Host.reduceAdd (takeAlong (logSoftmax (xLogitRows x)) (yLabelColumn y)) zero reducesTo_S262144x1_S_d0_1 h_S_)
      (constant S_ .f32 0x48800000#32))

/-! ## The weighted-centre term (`%145 … %173`, and again `%174 … %202`) -/

/-- The sixteen weight maps (`%157`): the sigmoid of `x`'s last sixteen channels times `y`'s mask. -/
def score (x : FVec F S4x134x256x256 .f32) (y : FVec F S4x101x256x256 .f32) : FVec F S4x16x256x256 .f32 :=
  mulf (sigm16 (xWeights x))
    (broadcastInDim S4x16x256x256 ![0, 1, 2, 3] bcast_S4x1x256x256_S4x16x256x256_0_1_2_3
      (broadcastInDim S4x1x256x256 ![0, 2, 3] bcast_S4x256x256_S4x1x256x256_0_2_3 (yMask y)))

/-- Each weight map over its own sum plus `1e-5` (`%164`). -/
def scoreNormalized (x : FVec F S4x134x256x256 .f32) (y : FVec F S4x101x256x256 .f32) : FVec F S4x16x256x256 .f32 :=
  Host.divf (score x y)
    (broadcastInDim S4x16x256x256 ![0, 1, 2, 3] bcast_S4x16x1x1_S4x16x256x256_0_1_2_3
      (addf
        (broadcastInDim S4x16x1x1 ![0, 1] bcast_S4x16_S4x16x1x1_0_1
          (Host.reduceAdd (shapeCast S4x16x65536 (score x y) shapeCasts_S4x16x256x256_S4x16x65536) zero
            reducesTo_S4x16x65536_S4x16_d2 h_S_))
        (broadcastInDim S4x16x1x1 ![] bcast_S_S4x16x1x1 (constant S_ .f32 0x3727C5AC#32))))

/-- The weighted centres (`%169`): the forty-eight maps `s` as `16×3`, times `y`'s mask, times the normalized weights,
    summed over each image's points. -/
def centres (s : FVec F S4x48x256x256 .f32) (x : FVec F S4x134x256x256 .f32) (y : FVec F S4x101x256x256 .f32) :
    FVec F S4x16x3 .f32 :=
  Host.reduceAdd
    (shapeCast S4x16x3x65536
      (mulf
        (mulf (shapeCast S4x16x3x256x256 s shapeCasts_S4x48x256x256_S4x16x3x256x256)
          (broadcastInDim S4x16x3x256x256 ![0, 1, 2, 3, 4] bcast_S4x1x1x256x256_S4x16x3x256x256_0_1_2_3_4
            (broadcastInDim S4x1x1x256x256 ![0, 3, 4] bcast_S4x256x256_S4x1x1x256x256_0_3_4 (yMask y))))
        (broadcastInDim S4x16x3x256x256 ![0, 1, 2, 3, 4] bcast_S4x16x1x256x256_S4x16x3x256x256_0_1_2_3_4
          (broadcastInDim S4x16x1x256x256 ![0, 1, 3, 4] bcast_S4x16x256x256_S4x16x1x256x256_0_1_3_4 (scoreNormalized x y))))
      shapeCasts_S4x16x3x256x256_S4x16x3x65536)
    zero reducesTo_S4x16x3x65536_S4x16x3_d3 h_S_

/-- The centre term (`%173`, `%202`): the mean over the `4·16` rows of the Euclidean norm (`@norm_2`) of
    `centres s x y - tar`. -/
def poseLoss (s : FVec F S4x48x256x256 .f32) (x : FVec F S4x134x256x256 .f32) (y : FVec F S4x101x256x256 .f32)
    (tar : FVec F S4x16x3 .f32) : FVec F S_ .f32 :=
  Host.divf
    (Host.reduceAdd
      (Host.sqrt
        (Host.reduceAdd (mulf (subf (centres s x y) tar) (subf (centres s x y) tar)) zero reducesTo_S4x16x3_S4x16_d2 h_S_))
      zero reducesTo_S4x16_S_d0_1 h_S_)
    (constant S_ .f32 0x42800000#32)

/-! ## The result -/

/-- A scalar as a one-element vector. -/
def single (v : FVec F S_ .f32) : FVec F S1 .f32 := broadcastInDim S1 ![] bcast_S_S1 v

/-- The seven terms in the program's order (`%87, %63, %173, %111, %202, %135, %144`). -/
def out (x : FVec F S4x134x256x256 .f32) (y : FVec F S4x101x256x256 .f32) (z : FVec F S4x16x6 .f32) : FVec F S7 .f32 :=
  concatenate S7 0
    [⟨S1, single (maskedMean (diffNorm3 (xColour x) (yColour y)) (yMask y))⟩,
     ⟨S1, single (maskLoss x y)⟩,
     ⟨S1, single (poseLoss (xSigA x) x y (zSigA z))⟩,
     ⟨S1, single (maskedMean (diffNorm48 (xSigA x) (ySigA y)) (yMask y))⟩,
     ⟨S1, single (poseLoss (xSigB x) x y (zSigB z))⟩,
     ⟨S1, single (maskedMean (diffNorm48 (xSigB x) (ySigB y)) (yMask y))⟩,
     ⟨S1, single (skinLoss x y)⟩]
    concatenates_S1_S1_S1_S1_S1_S1_S1_S7_d0

end Cert.ReferenceIdeal.RefRun

end
-- ==== Proof.ReferenceRun.TermsOf.lean ====
/-
  The terms of the reference program's result, restated over the intermediate values a run of its operations reads
  (where a run starts in the middle of one of them): the mask's cross-entropy from the two mask maps, the masked
  mean from the selected map, the class term from the class channels and labels, the weighted-centre term from the
  masked maps, the weight maps and the target.
-/
import proofs.«112959_j30356828848315_1_alg».proof.Proof.ReferenceRun.Terms

-- one theorem at a time: each fold's rewriting pass holds its own copy of the run's operations while it runs
set_option Elab.async false

noncomputable section

namespace Cert.ReferenceIdeal.RefRun

open Cert.ReferenceIdeal Idealize.ShloMosaic Idealize.ShloMosaic.TcCoe Idealize.ShloMosaic.StableHlo Idealize.SL.Sem
open Cert.ReferenceIdeal.Facts₀ Cert.ReferenceIdeal.Facts

variable {F : FTy → Type} [FloatOps F] [Facts]

/-! ## The terms over intermediate values -/

/-- The mask's cross-entropy from the two mask maps (`maskLoss x y` at `xMask x`, `yMask y`). -/
def maskLossOf (m t : FVec F S4x256x256 .f32) : FVec F S_ .f32 :=
  Host.negf
    (Host.divf
      (Host.reduceAdd (addf (mulf t (logSigmoid m)) (mulf (subf ones3 t) (logSigmoid (Host.negf m))))
        zero reducesTo_S4x256x256_S_d0_1_2 h_S_)
      (constant S_ .f32 0x48800000#32))

/-- The threshold `0.7` at every point of a `4×256×256` map. -/
def threshold3 : FVec F S4x256x256 .f32 :=
  broadcastInDim S4x256x256 ![] bcast_S_S4x256x256 (constant S_ .f32 0x3F333333#32)

/-- Per image, how many values of the selected map `k` are not zero. -/
def keptCountOf (k : FVec F S4x256x256 .f32) : IVec S4 32 :=
  Host.reduce IntOp.addi
    (extui 32
      (cmpf .une (shapeCast S4x65536 k shapeCasts_S4x256x256_S4x65536) (broadcastInDim S4x65536 ![] bcast_S_S4x65536 zero))
      natLt_1_32)
    (constantI S_ 32 0#32) reducesTo_S4x65536_S4_d1 h_S_

/-- `perImage nrm msk` from the selected map `k` (`nrm` where the mask passes the threshold, zero elsewhere). -/
def perImageOf (k nrm : FVec F S4x256x256 .f32) : FVec F S4 .f32 :=
  select (cmpi .sgt (keptCountOf k) (broadcastInDim S4 ![] bcast_S_S4 (constantI S_ 32 0#32)))
    (Host.divf (Host.reduceAdd (shapeCast S4x65536 k shapeCasts_S4x256x256_S4x65536) zero reducesTo_S4x65536_S4_d1 h_S_)
      (sitofp .f32 (maxsi (keptCountOf k) (broadcastInDim S4 ![] bcast_S_S4 (constantI S_ 32 1#32)))))
    (Host.divf (Host.reduceAdd (shapeCast S4x65536 nrm shapeCasts_S4x256x256_S4x65536) zero reducesTo_S4x65536_S4_d1 h_S_)
      (broadcastInDim S4 ![] bcast_S_S4 (constant S_ .f32 0x47800000#32)))

/-- The mean of four per-image values. -/
def meanOf4 (p : FVec F S4 .f32) : FVec F S_ .f32 :=
  Host.divf (Host.reduceAdd p zero reducesTo_S4_S_d0 h_S_) (constant S_ .f32 0x40800000#32)

/-- The class term from the class channels and the labels (`skinLoss x y` at `xLogits x`, `yLabel y`). -/
def skinOf (lg : FVec F S4x18x256x256 .f32) (lab : IVec S4x256x256 32) : FVec F S_ .f32 :=
  Host.negf
    (Host.divf
      (Host.reduceAdd
        (takeAlong
          (logSoftmax
            (shapeCast S262144x18 (transpose S4x256x256x18 [0, 2, 3, 1] lg transposes_S4x18x256x256_S4x256x256x18_0_2_3_1)
              shapeCasts_S4x256x256x18_S262144x18))
          (broadcastInDim S262144x1 ![0] bcast_S262144_S262144x1_0 (shapeCast S262144 lab shapeCasts_S4x256x256_S262144)))
        zero reducesTo_S262144x1_S_d0_1 h_S_)
      (constant S_ .f32 0x48800000#32))

/-- Forty-eight maps as `16×3`, times the mask spread over them. -/
def maskedMaps (s : FVec F S4x48x256x256 .f32) (m : FVec F S4x256x256 .f32) : FVec F S4x16x3x256x256 .f32 :=
  mulf (shapeCast S4x16x3x256x256 s shapeCasts_S4x48x256x256_S4x16x3x256x256)
    (broadcastInDim S4x16x3x256x256 ![0, 1, 2, 3, 4] bcast_S4x1x1x256x256_S4x16x3x256x256_0_1_2_3_4
      (broadcastInDim S4x1x1x256x256 ![0, 3, 4] bcast_S4x256x256_S4x1x1x256x256_0_3_4 m))

/-- `1 + exp (-w)`, the sigmoid's denominator. -/
def expDen (w : FVec F S4x16x256x256 .f32) : FVec F S4x16x256x256 .f32 :=
  addf (broadcastInDim S4x16x256x256 ![] bcast_S_S4x16x256x256 one) (Host.exp (Host.negf w))

/-- The weight maps from the sigmoid's denominator and the mask. -/
def scoreOf (den : FVec F S4x16x256x256 .f32) (m : FVec F S4x256x256 .f32) : FVec F S4x16x256x256 .f32 :=
  mulf (Host.divf (broadcastInDim S4x16x256x256 ![] bcast_S_S4x16x256x256 one) den)
    (broadcastInDim S4x16x256x256 ![0, 1, 2, 3] bcast_S4x1x256x256_S4x16x256x256_0_1_2_3
      (broadcastInDim S4x1x256x256 ![0, 2, 3] bcast_S4x256x256_S4x1x256x256_0_2_3 m))

/-- Each weight map over its own sum plus `1e-5`. -/
def normOf (sc : FVec F S4x16x256x256 .f32) : FVec F S4x16x256x256 .f32 :=
  Host.divf sc
    (broadcastInDim S4x16x256x256 ![0, 1, 2, 3] bcast_S4x16x1x1_S4x16x256x256_0_1_2_3
      (addf
        (broadcastInDim S4x16x1x1 ![0, 1] bcast_S4x16_S4x16x1x1_0_1
          (Host.reduceAdd (shapeCast S4x16x65536 sc shapeCasts_S4x16x256x256_S4x16x65536) zero
            reducesTo_S4x16x65536_S4x16_d2 h_S_))
        (broadcastInDim S4x16x1x1 ![] bcast_S_S4x16x1x1 (constant S_ .f32 0x3727C5AC#32))))

/-- The weighted centres from the masked maps and the weight maps. -/
def centresOf (sm : FVec F S4x16x3x256x256 .f32) (sc : FVec F S4x16x256x256 .f32) : FVec F S4x16x3 .f32 :=
  Host.reduceAdd
    (shapeCast S4x16x3x65536
      (mulf sm
        (broadcastInDim S4x16x3x256x256 ![0, 1, 2, 3, 4] bcast_S4x16x1x256x256_S4x16x3x256x256_0_1_2_3_4
          (broadcastInDim S4x16x1x256x256 ![0, 1, 3, 4] bcast_S4x16x256x256_S4x16x1x256x256_0_1_3_4 (normOf sc))))
      shapeCasts_S4x16x3x256x256_S4x16x3x65536)
    zero reducesTo_S4x16x3x65536_S4x16x3_d3 h_S_

/-- The centre term from the masked maps, the weight maps and the target. -/
def poseOf (sm : FVec F S4x16x3x256x256 .f32) (sc : FVec F S4x16x256x256 .f32) (tar : FVec F S4x16x3 .f32) :
    FVec F S_ .f32 :=
  Host.divf
    (Host.reduceAdd
      (Host.sqrt
        (Host.reduceAdd (mulf (subf (centresOf sm sc) tar) (subf (centresOf sm sc) tar)) zero
          reducesTo_S4x16x3_S4x16_d2 h_S_))
      zero reducesTo_S4x16_S_d0_1 h_S_)
    (constant S_ .f32 0x42800000#32)

end Cert.ReferenceIdeal.RefRun

end
-- ==== Proof.ReferenceRun.ValuesA.lean ====
/-
  What the runs of the reference program's operations leave in the buffers later operations read — the arguments' parts and their sigmoids, and the mask's cross-entropy —
  as terms of the contents of the buffers the run itself reads: each the fold of the run's operations at that buffer,
  by computation.
-/
import proofs.«112959_j30356828848315_1_alg».proof.Proof.ReferenceRun.Ops
import proofs.«112959_j30356828848315_1_alg».proof.Proof.ReferenceRun.TermsOf
import Idealize.ShloMosaic.Lib.StableHlo.Run

-- one theorem at a time: each fold's rewriting pass holds its own copy of the run's operations while it runs
set_option Elab.async false

noncomputable section

namespace Cert.ReferenceIdeal.RefRun

open Cert.ReferenceIdeal Idealize.ShloMosaic Idealize.ShloMosaic.TcCoe Idealize.ShloMosaic.StableHlo Idealize.SL.Sem
open Cert.ReferenceIdeal.Facts₀ Cert.ReferenceIdeal.Facts

variable {F : FTy → Type} [FloatOps F] [Facts]

/-! ## The runs' results

Each is the fold of the run's operations read at one buffer: every operation's result at its own buffer is its function
of its operands' contents, at any other buffer what was there; the reductions and the gather stay folded. -/

attribute [local irreducible] Host.reduce Host.reduceAdd Host.gather

section
set_option maxRecDepth 16384
set_option maxHeartbeats 2000000

/-! ### The first argument's parts -/

theorem v0_run0_0 (V : Valuation τ sig (Elt F)) :
    after run0_0 V (main_v0 : DevRef τ sig) = xColour (V (main_arg0 : DevRef τ sig)) := by
  unfold run0_0; after_results_simp <;> rfl
theorem v2_run0_0 (V : Valuation τ sig (Elt F)) :
    after run0_0 V (main_v2 : DevRef τ sig) = xMask (V (main_arg0 : DevRef τ sig)) := by
  unfold run0_0; after_results_simp <;> rfl
theorem v9_run0_0 (V : Valuation τ sig (Elt F)) :
    after run0_0 V (main_v9 : DevRef τ sig) = xSigA (V (main_arg0 : DevRef τ sig)) := by
  unfold run0_0; after_results_simp <;> rfl
theorem v16_run0_0 (V : Valuation τ sig (Elt F)) :
    after run0_0 V (main_v16 : DevRef τ sig) = xSigB (V (main_arg0 : DevRef τ sig)) := by
  unfold run0_0; after_results_simp <;> rfl
theorem v17_run0_0 (V : Valuation τ sig (Elt F)) :
    after run0_0 V (main_v17 : DevRef τ sig) = xLogits (V (main_arg0 : DevRef τ sig)) := by
  unfold run0_0; after_results_simp <;> rfl
theorem v18_run0_0 (V : Valuation τ sig (Elt F)) :
    after run0_0 V (main_v18 : DevRef τ sig) = xWeights (V (main_arg0 : DevRef τ sig)) := by
  unfold run0_0; after_results_simp <;> rfl

/-! ### The second argument's parts -/

theorem v19_run0_1 (V : Valuation τ sig (Elt F)) :
    after run0_1 V (main_v19 : DevRef τ sig) = yColour (V (main_arg1 : DevRef τ sig)) := by
  unfold run0_1; after_results_simp <;> rfl
theorem v21_run0_1 (V : Valuation τ sig (Elt F)) :
    after run0_1 V (main_v21 : DevRef τ sig) = yMask (V (main_arg1 : DevRef τ sig)) := by
  unfold run0_1; after_results_simp <;> rfl
theorem v28_run0_1 (V : Valuation τ sig (Elt F)) :
    after run0_1 V (main_v28 : DevRef τ sig) = ySigA (V (main_arg1 : DevRef τ sig)) := by
  unfold run0_1; after_results_simp <;> rfl
theorem v35_run0_1 (V : Valuation τ sig (Elt F)) :
    after run0_1 V (main_v35 : DevRef τ sig) = ySigB (V (main_arg1 : DevRef τ sig)) := by
  unfold run0_1; after_results_simp <;> rfl
theorem v38_run0_1 (V : Valuation τ sig (Elt F)) :
    after run0_1 V (main_v38 : DevRef τ sig) = yLabel (V (main_arg1 : DevRef τ sig)) := by
  unfold run0_1; after_results_simp <;> rfl

/-! ### The third argument's parts (the second sigmoid is finished by the next run) -/

theorem v45_run0_2 (V : Valuation τ sig (Elt F)) :
    after run0_2 V (main_v45 : DevRef τ sig) = zSigA (V (main_arg2 : DevRef τ sig)) := by
  unfold run0_2; after_results_simp <;> rfl
theorem v48_run0_2 (V : Valuation τ sig (Elt F)) :
    after run0_2 V (main_v48 : DevRef τ sig)
      = Host.exp (Host.negf (extractStridedSlice S4x16x3 ![0, 0, 3] (V (main_arg2 : DevRef τ sig)) slices_S4x16x6_S4x16x3_0_0_3)) := by
  unfold run0_2; after_results_simp <;> rfl
theorem cst9_run0_2 (V : Valuation τ sig (Elt F)) :
    after run0_2 V (main_cst_9 : DevRef τ sig) = one := by
  unfold run0_2; after_results_simp <;> rfl
theorem v52_run1_0 (V : Valuation τ sig (Elt F)) :
    after run1_0 V (main_v52 : DevRef τ sig)
      = Host.divf (broadcastInDim S4x16x3 ![] bcast_S_S4x16x3 one)
          (addf (broadcastInDim S4x16x3 ![] bcast_S_S4x16x3 (V (main_cst_9 : DevRef τ sig))) (V (main_v48 : DevRef τ sig))) := by
  unfold run1_0; after_results_simp <;> rfl

/-! ### The mask's cross-entropy -/

theorem v63_run1_1 (V : Valuation τ sig (Elt F)) :
    after run1_1 V (main_v63 : DevRef τ sig)
      = maskLossOf (V (main_v2 : DevRef τ sig)) (V (main_v21 : DevRef τ sig)) := by
  unfold run1_1; after_results_simp <;> rfl

end

end Cert.ReferenceIdeal.RefRun

end
-- ==== Proof.ReferenceRun.ValuesB.lean ====
/-
  What the runs of the reference program's operations leave in the buffers later operations read — the three masked means of channel norms —
  as terms of the contents of the buffers the run itself reads: each the fold of the run's operations at that buffer,
  by computation.
-/
import proofs.«112959_j30356828848315_1_alg».proof.Proof.ReferenceRun.Ops
import proofs.«112959_j30356828848315_1_alg».proof.Proof.ReferenceRun.TermsOf
import Idealize.ShloMosaic.Lib.StableHlo.Run

-- one theorem at a time: each fold's rewriting pass holds its own copy of the run's operations while it runs
set_option Elab.async false

noncomputable section

namespace Cert.ReferenceIdeal.RefRun

open Cert.ReferenceIdeal Idealize.ShloMosaic Idealize.ShloMosaic.TcCoe Idealize.ShloMosaic.StableHlo Idealize.SL.Sem
open Cert.ReferenceIdeal.Facts₀ Cert.ReferenceIdeal.Facts

variable {F : FTy → Type} [FloatOps F] [Facts]

/-! ## The runs' results

Each is the fold of the run's operations read at one buffer: every operation's result at its own buffer is its function
of its operands' contents, at any other buffer what was there; the reductions and the gather stay folded. -/

attribute [local irreducible] Host.reduce Host.reduceAdd Host.gather

/-- Closes `after run V b = term` for a run's literal list: the fold's results by one rewriting pass, then computation. -/
macro "run_value" : tactic => `(tactic| (after_results_simp <;> rfl))

section
set_option maxRecDepth 16384
set_option maxHeartbeats 2000000

/-! ### The three masked means -/

theorem v87_run1_2 (V : Valuation τ sig (Elt F)) :
    after run1_2 V (main_v87 : DevRef τ sig)
      = meanOf4
          (perImageOf
            (select (cmpf .ogt (V (main_v21 : DevRef τ sig)) threshold3)
              (diffNorm3 (V (main_v0 : DevRef τ sig)) (V (main_v19 : DevRef τ sig))) zeros3)
            (diffNorm3 (V (main_v0 : DevRef τ sig)) (V (main_v19 : DevRef τ sig)))) := by
  unfold run1_2; run_value

theorem v89_run1_3 (V : Valuation τ sig (Elt F)) :
    after run1_3 V (main_v89 : DevRef τ sig)
      = diffNorm48 (V (main_v9 : DevRef τ sig)) (V (main_v28 : DevRef τ sig)) := by
  unfold run1_3; run_value
theorem v91_run1_3 (V : Valuation τ sig (Elt F)) :
    after run1_3 V (main_v91 : DevRef τ sig) = cmpf .ogt (V (main_v21 : DevRef τ sig)) threshold3 := by
  unfold run1_3; run_value
theorem cst25_run1_3 (V : Valuation τ sig (Elt F)) :
    after run1_3 V (main_cst_25 : DevRef τ sig) = zero := by
  unfold run1_3; run_value

theorem v111_run2_0 (V : Valuation τ sig (Elt F)) :
    after run2_0 V (main_v111 : DevRef τ sig)
      = meanOf4
          (perImageOf
            (select (V (main_v91 : DevRef τ sig)) (V (main_v89 : DevRef τ sig))
              (broadcastInDim S4x256x256 ![] bcast_S_S4x256x256 (V (main_cst_25 : DevRef τ sig))))
            (V (main_v89 : DevRef τ sig))) := by
  unfold run2_0; run_value

theorem v133_run2_1 (V : Valuation τ sig (Elt F)) :
    after run2_1 V (main_v133 : DevRef τ sig)
      = perImageOf
          (select (cmpf .ogt (V (main_v21 : DevRef τ sig)) threshold3)
            (diffNorm48 (V (main_v16 : DevRef τ sig)) (V (main_v35 : DevRef τ sig))) zeros3)
          (diffNorm48 (V (main_v16 : DevRef τ sig)) (V (main_v35 : DevRef τ sig))) := by
  unfold run2_1; run_value

theorem v135_run3_0 (V : Valuation τ sig (Elt F)) :
    after run3_0 V (main_v135 : DevRef τ sig) = meanOf4 (V (main_v133 : DevRef τ sig)) := by
  unfold run3_0; run_value

end

end Cert.ReferenceIdeal.RefRun

end
-- ==== Proof.ReferenceRun.ValuesC.lean ====
/-
  What the runs of the reference program's operations leave in the buffers later operations read — the class term —
  as terms of the contents of the buffers the run itself reads: each the fold of the run's operations at that buffer,
  by computation.
-/
import proofs.«112959_j30356828848315_1_alg».proof.Proof.ReferenceRun.Ops
import proofs.«112959_j30356828848315_1_alg».proof.Proof.ReferenceRun.TermsOf
import Idealize.ShloMosaic.Lib.StableHlo.Run

-- one theorem at a time: each fold's rewriting pass holds its own copy of the run's operations while it runs
set_option Elab.async false

noncomputable section

namespace Cert.ReferenceIdeal.RefRun

open Cert.ReferenceIdeal Idealize.ShloMosaic Idealize.ShloMosaic.TcCoe Idealize.ShloMosaic.StableHlo Idealize.SL.Sem
open Cert.ReferenceIdeal.Facts₀ Cert.ReferenceIdeal.Facts

variable {F : FTy → Type} [FloatOps F] [Facts]

/-! ## The runs' results

Each is the fold of the run's operations read at one buffer: every operation's result at its own buffer is its function
of its operands' contents, at any other buffer what was there; the reductions and the gather stay folded. -/

attribute [local irreducible] Host.reduce Host.reduceAdd Host.gather

section
set_option maxRecDepth 16384
set_option maxHeartbeats 2000000

/-! ### Transport along a buffer's type equation

A value written through a typed reference is carried to the buffer's own type and back when it is read; where the
buffer's type is the value's type by computation, either transport is the identity. -/

/-- Carried to the buffer's type and back: the value itself. -/
private theorem ofBuf_toBuf {T : BufTy} (x : TRef sig T) (v : T.Contents (Elt F)) : x.ofBuf (x.toBuf v) = v := by
  obtain ⟨r, h, _, _⟩ := x
  subst h
  rfl

private theorem toBuf_v141 (h1 h2 h3) (v : (⟨S262144x1, .f32⟩ : BufTy).Contents (Elt F)) :
    (TRef.of main_v141 (T := ⟨S262144x1, .f32⟩) h1 h2 h3).toBuf v = v := cast_eq _ v

private theorem toBuf_c12v4 (h1 h2 h3) (v : (⟨S262144x1, .i32⟩ : BufTy).Contents (Elt F)) :
    (TRef.of main_call12_v4 (T := ⟨S262144x1, .i32⟩) h1 h2 h3).toBuf v = v := cast_eq _ v

private theorem ofBuf_c12v5 (h1 h2 h3) (v : main_call12_v5.ty.Contents (Elt F)) :
    (TRef.of main_call12_v5 (T := ⟨S262144x1x1, .i32⟩) h1 h2 h3).ofBuf v = v := cast_eq _ v

private theorem ofBuf_v140 (h1 h2 h3) (v : main_v140.ty.Contents (Elt F)) :
    (TRef.of main_v140 (T := ⟨S262144x1, .i32⟩) h1 h2 h3).ofBuf v = v := cast_eq _ v

private theorem ofBuf_v137 (h1 h2 h3) (v : main_v137.ty.Contents (Elt F)) :
    (TRef.of main_v137 (T := ⟨S262144x18, .f32⟩) h1 h2 h3).ofBuf v = v := cast_eq _ v

/-! ### The class term -/

theorem v144_run3_1 (V : Valuation τ sig (Elt F)) :
    after run3_1 V (main_v144 : DevRef τ sig)
      = skinOf (V (main_v17 : DevRef τ sig)) (V (main_v38 : DevRef τ sig)) := by
  unfold run3_1
  after_results_simp
  simp only [ofBuf_toBuf, toBuf_v141, toBuf_c12v4, ofBuf_c12v5, ofBuf_v140, ofBuf_v137]
  unfold skinOf takeAlong logSoftmax rowMax wrapIndex
  rfl

end

end Cert.ReferenceIdeal.RefRun

end
-- ==== Proof.ReferenceRun.ValuesD.lean ====
/-
  What the runs of the reference program's operations leave in the buffers later operations read — the two weighted-centre terms and the result vector —
  as terms of the contents of the buffers the run itself reads: each the fold of the run's operations at that buffer,
  by computation.
-/
import proofs.«112959_j30356828848315_1_alg».proof.Proof.ReferenceRun.Ops
import proofs.«112959_j30356828848315_1_alg».proof.Proof.ReferenceRun.TermsOf
import Idealize.ShloMosaic.Lib.StableHlo.Run

-- one theorem at a time: each fold's rewriting pass holds its own copy of the run's operations while it runs
set_option Elab.async false

noncomputable section

namespace Cert.ReferenceIdeal.RefRun

open Cert.ReferenceIdeal Idealize.ShloMosaic Idealize.ShloMosaic.TcCoe Idealize.ShloMosaic.StableHlo Idealize.SL.Sem
open Cert.ReferenceIdeal.Facts₀ Cert.ReferenceIdeal.Facts

variable {F : FTy → Type} [FloatOps F] [Facts]

/-! ## The runs' results

Each is the fold of the run's operations read at one buffer: every operation's result at its own buffer is its function
of its operands' contents, at any other buffer what was there; the reductions and the gather stay folded. -/

attribute [local irreducible] Host.reduce Host.reduceAdd Host.gather

section
set_option maxRecDepth 16384
set_option maxHeartbeats 2000000

/-! ### The two weighted-centre terms -/

theorem v173_run3_2 (V : Valuation τ sig (Elt F)) :
    after run3_2 V (main_v173 : DevRef τ sig)
      = poseOf (maskedMaps (V (main_v9 : DevRef τ sig)) (V (main_v21 : DevRef τ sig)))
          (scoreOf (expDen (V (main_v18 : DevRef τ sig))) (V (main_v21 : DevRef τ sig)))
          (V (main_v45 : DevRef τ sig)) := by
  unfold run3_2; after_results_simp <;> rfl

theorem v177_run3_3 (V : Valuation τ sig (Elt F)) :
    after run3_3 V (main_v177 : DevRef τ sig)
      = maskedMaps (V (main_v16 : DevRef τ sig)) (V (main_v21 : DevRef τ sig)) := by
  unfold run3_3; after_results_simp <;> rfl
theorem v181_run3_3 (V : Valuation τ sig (Elt F)) :
    after run3_3 V (main_v181 : DevRef τ sig) = expDen (V (main_v18 : DevRef τ sig)) := by
  unfold run3_3; after_results_simp <;> rfl

theorem v202_run4_0 (V : Valuation τ sig (Elt F)) :
    after run4_0 V (main_v202 : DevRef τ sig)
      = poseOf (V (main_v177 : DevRef τ sig))
          (scoreOf (V (main_v181 : DevRef τ sig)) (V (main_v21 : DevRef τ sig)))
          (V (main_v52 : DevRef τ sig)) := by
  unfold run4_0; after_results_simp <;> rfl

/-! ### The result vector -/

theorem v210_run4_1 (V : Valuation τ sig (Elt F)) :
    after run4_1 V (main_v210 : DevRef τ sig)
      = concatenate S7 0
          [⟨S1, single (V (main_v87 : DevRef τ sig))⟩, ⟨S1, single (V (main_v63 : DevRef τ sig))⟩,
           ⟨S1, single (V (main_v173 : DevRef τ sig))⟩, ⟨S1, single (V (main_v111 : DevRef τ sig))⟩,
           ⟨S1, single (V (main_v202 : DevRef τ sig))⟩, ⟨S1, single (V (main_v135 : DevRef τ sig))⟩,
           ⟨S1, single (V (main_v144 : DevRef τ sig))⟩]
          concatenates_S1_S1_S1_S1_S1_S1_S1_S7_d0 := by
  unfold run4_1
  simp only [after_cons, after_nil]
  rfl

end

end Cert.ReferenceIdeal.RefRun

end
-- ==== Proof.ReferenceRun.Run.lean ====
/-
  The reference program's result buffer, after its 361 operations, holds `out` of the three arguments' contents: the
  fold over the program is the fold over its runs in order; read at the result buffer it is the last run's vector of
  the seven scalars, each read through the runs after the one that writes it (which leave it as it was) down to that
  run's term over the buffers it reads, and so on down to the arguments; the term reached is `out` by unfolding the
  definitions. With the run of the straight line this is the statement about every execution (`run`).
-/
import proofs.«112959_j30356828848315_1_alg».proof.Proof.ReferenceRun.Main
import proofs.«112959_j30356828848315_1_alg».proof.Proof.ReferenceRun.ValuesA
import proofs.«112959_j30356828848315_1_alg».proof.Proof.ReferenceRun.ValuesB
import proofs.«112959_j30356828848315_1_alg».proof.Proof.ReferenceRun.ValuesC
import proofs.«112959_j30356828848315_1_alg».proof.Proof.ReferenceRun.ValuesD

noncomputable section

namespace Cert.ReferenceIdeal.RefRun

open Cert.ReferenceIdeal Idealize.ShloMosaic Idealize.ShloMosaic.TcCoe Idealize.ShloMosaic.StableHlo Idealize.SL.Sem
open Cert.ReferenceIdeal.Facts₀ Cert.ReferenceIdeal.Facts

variable {F : FTy → Type} [FloatOps F] [Facts]

/-! ## A run leaves the buffers it does not write: as rewriting rules, the buffer's reference not indexed -/

theorem fr0_0 (V : Valuation τ sig (Elt F)) {r : Ref sig .tc} (hr : r ∉ run0_0_writes) :
    after run0_0 V (no_index (Proc.devRef .tc r)) = V (Proc.devRef .tc r) := frame_of good0_0 V hr
theorem fr0_1 (V : Valuation τ sig (Elt F)) {r : Ref sig .tc} (hr : r ∉ run0_1_writes) :
    after run0_1 V (no_index (Proc.devRef .tc r)) = V (Proc.devRef .tc r) := frame_of good0_1 V hr
theorem fr0_2 (V : Valuation τ sig (Elt F)) {r : Ref sig .tc} (hr : r ∉ run0_2_writes) :
    after run0_2 V (no_index (Proc.devRef .tc r)) = V (Proc.devRef .tc r) := frame_of good0_2 V hr
theorem fr1_0 (V : Valuation τ sig (Elt F)) {r : Ref sig .tc} (hr : r ∉ run1_0_writes) :
    after run1_0 V (no_index (Proc.devRef .tc r)) = V (Proc.devRef .tc r) := frame_of good1_0 V hr
theorem fr1_1 (V : Valuation τ sig (Elt F)) {r : Ref sig .tc} (hr : r ∉ run1_1_writes) :
    after run1_1 V (no_index (Proc.devRef .tc r)) = V (Proc.devRef .tc r) := frame_of good1_1 V hr
theorem fr1_2 (V : Valuation τ sig (Elt F)) {r : Ref sig .tc} (hr : r ∉ run1_2_writes) :
    after run1_2 V (no_index (Proc.devRef .tc r)) = V (Proc.devRef .tc r) := frame_of good1_2 V hr
theorem fr1_3 (V : Valuation τ sig (Elt F)) {r : Ref sig .tc} (hr : r ∉ run1_3_writes) :
    after run1_3 V (no_index (Proc.devRef .tc r)) = V (Proc.devRef .tc r) := frame_of good1_3 V hr
theorem fr2_0 (V : Valuation τ sig (Elt F)) {r : Ref sig .tc} (hr : r ∉ run2_0_writes) :
    after run2_0 V (no_index (Proc.devRef .tc r)) = V (Proc.devRef .tc r) := frame_of good2_0 V hr
theorem fr2_1 (V : Valuation τ sig (Elt F)) {r : Ref sig .tc} (hr : r ∉ run2_1_writes) :
    after run2_1 V (no_index (Proc.devRef .tc r)) = V (Proc.devRef .tc r) := frame_of good2_1 V hr
theorem fr3_0 (V : Valuation τ sig (Elt F)) {r : Ref sig .tc} (hr : r ∉ run3_0_writes) :
    after run3_0 V (no_index (Proc.devRef .tc r)) = V (Proc.devRef .tc r) := frame_of good3_0 V hr
theorem fr3_1 (V : Valuation τ sig (Elt F)) {r : Ref sig .tc} (hr : r ∉ run3_1_writes) :
    after run3_1 V (no_index (Proc.devRef .tc r)) = V (Proc.devRef .tc r) := frame_of good3_1 V hr
theorem fr3_2 (V : Valuation τ sig (Elt F)) {r : Ref sig .tc} (hr : r ∉ run3_2_writes) :
    after run3_2 V (no_index (Proc.devRef .tc r)) = V (Proc.devRef .tc r) := frame_of good3_2 V hr
theorem fr3_3 (V : Valuation τ sig (Elt F)) {r : Ref sig .tc} (hr : r ∉ run3_3_writes) :
    after run3_3 V (no_index (Proc.devRef .tc r)) = V (Proc.devRef .tc r) := frame_of good3_3 V hr
theorem fr4_0 (V : Valuation τ sig (Elt F)) {r : Ref sig .tc} (hr : r ∉ run4_0_writes) :
    after run4_0 V (no_index (Proc.devRef .tc r)) = V (Proc.devRef .tc r) := frame_of good4_0 V hr
theorem fr4_1 (V : Valuation τ sig (Elt F)) {r : Ref sig .tc} (hr : r ∉ run4_1_writes) :
    after run4_1 V (no_index (Proc.devRef .tc r)) = V (Proc.devRef .tc r) := frame_of good4_1 V hr

/-! ## The runs' results once more, as rewriting rules: the buffer's reference not indexed -/

theorem v0_run0_0' (V : Valuation τ sig (Elt F)) :
    after run0_0 V (no_index (main_v0 : DevRef τ sig))
      = xColour (V (main_arg0 : DevRef τ sig)) := v0_run0_0 V
theorem v2_run0_0' (V : Valuation τ sig (Elt F)) :
    after run0_0 V (no_index (main_v2 : DevRef τ sig))
      = xMask (V (main_arg0 : DevRef τ sig)) := v2_run0_0 V
theorem v9_run0_0' (V : Valuation τ sig (Elt F)) :
    after run0_0 V (no_index (main_v9 : DevRef τ sig))
      = xSigA (V (main_arg0 : DevRef τ sig)) := v9_run0_0 V
theorem v16_run0_0' (V : Valuation τ sig (Elt F)) :
    after run0_0 V (no_index (main_v16 : DevRef τ sig))
      = xSigB (V (main_arg0 : DevRef τ sig)) := v16_run0_0 V
theorem v17_run0_0' (V : Valuation τ sig (Elt F)) :
    after run0_0 V (no_index (main_v17 : DevRef τ sig))
      = xLogits (V (main_arg0 : DevRef τ sig)) := v17_run0_0 V
theorem v18_run0_0' (V : Valuation τ sig (Elt F)) :
    after run0_0 V (no_index (main_v18 : DevRef τ sig))
      = xWeights (V (main_arg0 : DevRef τ sig)) := v18_run0_0 V
theorem v19_run0_1' (V : Valuation τ sig (Elt F)) :
    after run0_1 V (no_index (main_v19 : DevRef τ sig))
      = yColour (V (main_arg1 : DevRef τ sig)) := v19_run0_1 V
theorem v21_run0_1' (V : Valuation τ sig (Elt F)) :
    after run0_1 V (no_index (main_v21 : DevRef τ sig))
      = yMask (V (main_arg1 : DevRef τ sig)) := v21_run0_1 V
theorem v28_run0_1' (V : Valuation τ sig (Elt F)) :
    after run0_1 V (no_index (main_v28 : DevRef τ sig))
      = ySigA (V (main_arg1 : DevRef τ sig)) := v28_run0_1 V
theorem v35_run0_1' (V : Valuation τ sig (Elt F)) :
    after run0_1 V (no_index (main_v35 : DevRef τ sig))
      = ySigB (V (main_arg1 : DevRef τ sig)) := v35_run0_1 V
theorem v38_run0_1' (V : Valuation τ sig (Elt F)) :
    after run0_1 V (no_index (main_v38 : DevRef τ sig))
      = yLabel (V (main_arg1 : DevRef τ sig)) := v38_run0_1 V
theorem v45_run0_2' (V : Valuation τ sig (Elt F)) :
    after run0_2 V (no_index (main_v45 : DevRef τ sig))
      = zSigA (V (main_arg2 : DevRef τ sig)) := v45_run0_2 V
theorem v48_run0_2' (V : Valuation τ sig (Elt F)) :
    after run0_2 V (no_index (main_v48 : DevRef τ sig))
      = Host.exp (Host.negf (extractStridedSlice S4x16x3 ![0, 0, 3] (V (main_arg2 : DevRef τ sig)) slices_S4x16x6_S4x16x3_0_0_3)) := v48_run0_2 V
theorem cst9_run0_2' (V : Valuation τ sig (Elt F)) :
    after run0_2 V (no_index (main_cst_9 : DevRef τ sig))
      = one := cst9_run0_2 V
theorem v52_run1_0' (V : Valuation τ sig (Elt F)) :
    after run1_0 V (no_index (main_v52 : DevRef τ sig))
      = Host.divf (broadcastInDim S4x16x3 ![] bcast_S_S4x16x3 one)
          (addf (broadcastInDim S4x16x3 ![] bcast_S_S4x16x3 (V (main_cst_9 : DevRef τ sig))) (V (main_v48 : DevRef τ sig))) := v52_run1_0 V
theorem v63_run1_1' (V : Valuation τ sig (Elt F)) :
    after run1_1 V (no_index (main_v63 : DevRef τ sig))
      = maskLossOf (V (main_v2 : DevRef τ sig)) (V (main_v21 : DevRef τ sig)) := v63_run1_1 V
theorem v87_run1_2' (V : Valuation τ sig (Elt F)) :
    after run1_2 V (no_index (main_v87 : DevRef τ sig))
      = meanOf4
          (perImageOf
            (select (cmpf .ogt (V (main_v21 : DevRef τ sig)) threshold3)
              (diffNorm3 (V (main_v0 : DevRef τ sig)) (V (main_v19 : DevRef τ sig))) zeros3)
            (diffNorm3 (V (main_v0 : DevRef τ sig)) (V (main_v19 : DevRef τ sig)))) := v87_run1_2 V
theorem v89_run1_3' (V : Valuation τ sig (Elt F)) :
    after run1_3 V (no_index (main_v89 : DevRef τ sig))
      = diffNorm48 (V (main_v9 : DevRef τ sig)) (V (main_v28 : DevRef τ sig)) := v89_run1_3 V
theorem v91_run1_3' (V : Valuation τ sig (Elt F)) :
    after run1_3 V (no_index (main_v91 : DevRef τ sig))
      = cmpf .ogt (V (main_v21 : DevRef τ sig)) threshold3 := v91_run1_3 V
theorem cst25_run1_3' (V : Valuation τ sig (Elt F)) :
    after run1_3 V (no_index (main_cst_25 : DevRef τ sig))
      = zero := cst25_run1_3 V
theorem v111_run2_0' (V : Valuation τ sig (Elt F)) :
    after run2_0 V (no_index (main_v111 : DevRef τ sig))
      = meanOf4
          (perImageOf
            (select (V (main_v91 : DevRef τ sig)) (V (main_v89 : DevRef τ sig))
              (broadcastInDim S4x256x256 ![] bcast_S_S4x256x256 (V (main_cst_25 : DevRef τ sig))))
            (V (main_v89 : DevRef τ sig))) := v111_run2_0 V
theorem v133_run2_1' (V : Valuation τ sig (Elt F)) :
    after run2_1 V (no_index (main_v133 : DevRef τ sig))
      = perImageOf
          (select (cmpf .ogt (V (main_v21 : DevRef τ sig)) threshold3)
            (diffNorm48 (V (main_v16 : DevRef τ sig)) (V (main_v35 : DevRef τ sig))) zeros3)
          (diffNorm48 (V (main_v16 : DevRef τ sig)) (V (main_v35 : DevRef τ sig))) := v133_run2_1 V
theorem v135_run3_0' (V : Valuation τ sig (Elt F)) :
    after run3_0 V (no_index (main_v135 : DevRef τ sig))
      = meanOf4 (V (main_v133 : DevRef τ sig)) := v135_run3_0 V
theorem v144_run3_1' (V : Valuation τ sig (Elt F)) :
    after run3_1 V (no_index (main_v144 : DevRef τ sig))
      = skinOf (V (main_v17 : DevRef τ sig)) (V (main_v38 : DevRef τ sig)) := v144_run3_1 V
theorem v173_run3_2' (V : Valuation τ sig (Elt F)) :
    after run3_2 V (no_index (main_v173 : DevRef τ sig))
      = poseOf (maskedMaps (V (main_v9 : DevRef τ sig)) (V (main_v21 : DevRef τ sig)))
          (scoreOf (expDen (V (main_v18 : DevRef τ sig))) (V (main_v21 : DevRef τ sig)))
          (V (main_v45 : DevRef τ sig)) := v173_run3_2 V
theorem v177_run3_3' (V : Valuation τ sig (Elt F)) :
    after run3_3 V (no_index (main_v177 : DevRef τ sig))
      = maskedMaps (V (main_v16 : DevRef τ sig)) (V (main_v21 : DevRef τ sig)) := v177_run3_3 V
theorem v181_run3_3' (V : Valuation τ sig (Elt F)) :
    after run3_3 V (no_index (main_v181 : DevRef τ sig))
      = expDen (V (main_v18 : DevRef τ sig)) := v181_run3_3 V
theorem v202_run4_0' (V : Valuation τ sig (Elt F)) :
    after run4_0 V (no_index (main_v202 : DevRef τ sig))
      = poseOf (V (main_v177 : DevRef τ sig))
          (scoreOf (V (main_v181 : DevRef τ sig)) (V (main_v21 : DevRef τ sig)))
          (V (main_v52 : DevRef τ sig)) := v202_run4_0 V
theorem v210_run4_1' (V : Valuation τ sig (Elt F)) :
    after run4_1 V (no_index (main_v210 : DevRef τ sig))
      = concatenate S7 0
          [⟨S1, single (V (main_v87 : DevRef τ sig))⟩, ⟨S1, single (V (main_v63 : DevRef τ sig))⟩,
           ⟨S1, single (V (main_v173 : DevRef τ sig))⟩, ⟨S1, single (V (main_v111 : DevRef τ sig))⟩,
           ⟨S1, single (V (main_v202 : DevRef τ sig))⟩, ⟨S1, single (V (main_v135 : DevRef τ sig))⟩,
           ⟨S1, single (V (main_v144 : DevRef τ sig))⟩]
          concatenates_S1_S1_S1_S1_S1_S1_S1_S7_d0 := v210_run4_1 V

/-! ## The terms over intermediate values are the result's own -/

theorem zeros3_eq : (broadcastInDim S4x256x256 ![] bcast_S_S4x256x256 zero : FVec F S4x256x256 .f32) = zeros3 := rfl

theorem maskLoss_eq (x : FVec F S4x134x256x256 .f32) (y : FVec F S4x101x256x256 .f32) :
    maskLossOf (xMask x) (yMask y) = maskLoss x y := rfl

theorem maskedMean_eq (nrm msk : FVec F S4x256x256 .f32) :
    meanOf4 (perImageOf (select (cmpf .ogt msk threshold3) nrm zeros3) nrm) = maskedMean nrm msk := rfl

theorem skinLoss_eq (x : FVec F S4x134x256x256 .f32) (y : FVec F S4x101x256x256 .f32) :
    skinOf (xLogits x) (yLabel y) = skinLoss x y := rfl

theorem poseLoss_eq (s : FVec F S4x48x256x256 .f32) (x : FVec F S4x134x256x256 .f32) (y : FVec F S4x101x256x256 .f32)
    (tar : FVec F S4x16x3 .f32) :
    poseOf (maskedMaps s (yMask y)) (scoreOf (expDen (xWeights x)) (yMask y)) tar = poseLoss s x y tar := rfl

theorem zSigB_eq (z : FVec F S4x16x6 .f32) :
    Host.divf (broadcastInDim S4x16x3 ![] bcast_S_S4x16x3 one)
        (addf (broadcastInDim S4x16x3 ![] bcast_S_S4x16x3 one)
          (Host.exp (Host.negf (extractStridedSlice S4x16x3 ![0, 0, 3] z slices_S4x16x6_S4x16x3_0_0_3))))
      = zSigB z := rfl

/-! ## The result -/

attribute [local irreducible] Host.reduce Host.reduceAdd Host.gather

/-- The buffers' contents before the last run of operations (the seven broadcasts and the concatenation). -/
def before_last (V : Valuation τ sig (Elt F)) : Valuation τ sig (Elt F) :=
  after run4_0 (after run3_3 (after run3_2 (after run3_1 (after run3_0 (after run2_1 (after run2_0 (after run1_3
    (after run1_2 (after run1_1 (after run1_0 (after run0_2 (after run0_1 (after run0_0 V)))))))))))))

theorem after_ops_last (V : Valuation τ sig (Elt F)) : after ops V = after run4_1 (before_last V) := after_ops V

/-- Reads a buffer back through the runs: a run that does not write it leaves it as it was (the buffer is not in the
    run's list, by computation), the run that writes it gives its term over the buffers it reads. -/
macro "read_back" : tactic =>
  `(tactic| simp (disch := decide) only [v202_run4_0', v181_run3_3', v177_run3_3', v173_run3_2', v144_run3_1', v135_run3_0', v133_run2_1', v111_run2_0', cst25_run1_3', v91_run1_3', v89_run1_3', v87_run1_2', v63_run1_1', v52_run1_0', cst9_run0_2', v48_run0_2', v45_run0_2', v38_run0_1', v35_run0_1', v28_run0_1', v21_run0_1', v19_run0_1', v18_run0_0', v17_run0_0', v16_run0_0', v9_run0_0', v2_run0_0', v0_run0_0',
    fr0_0, fr0_1, fr0_2, fr1_0, fr1_1, fr1_2, fr1_3, fr2_0, fr2_1, fr3_0, fr3_1, fr3_2, fr3_3, fr4_0, fr4_1])

/-! Each of the seven scalars, read before the last run: through the runs after the one that writes it, which leave it
as it was, then that run's term over the buffers it reads, and so on down to the arguments. -/

set_option maxRecDepth 16384 in
set_option maxHeartbeats 4000000 in
theorem s87 (V : Valuation τ sig (Elt F)) :
    before_last V (main_v87 : DevRef τ sig) = maskedMean (diffNorm3 (xColour (V (main_arg0 : DevRef τ sig))) (yColour (V (main_arg1 : DevRef τ sig)))) (yMask (V (main_arg1 : DevRef τ sig))) := by
  unfold before_last
  read_back
  exact maskedMean_eq _ _
set_option maxRecDepth 16384 in
set_option maxHeartbeats 4000000 in
theorem s63 (V : Valuation τ sig (Elt F)) :
    before_last V (main_v63 : DevRef τ sig) = maskLoss (V (main_arg0 : DevRef τ sig)) (V (main_arg1 : DevRef τ sig)) := by
  unfold before_last
  read_back
  exact maskLoss_eq _ _
set_option maxRecDepth 16384 in
set_option maxHeartbeats 4000000 in
theorem s173 (V : Valuation τ sig (Elt F)) :
    before_last V (main_v173 : DevRef τ sig) = poseLoss (xSigA (V (main_arg0 : DevRef τ sig))) (V (main_arg0 : DevRef τ sig)) (V (main_arg1 : DevRef τ sig)) (zSigA (V (main_arg2 : DevRef τ sig))) := by
  unfold before_last
  read_back
  exact poseLoss_eq _ _ _ _
set_option maxRecDepth 16384 in
set_option maxHeartbeats 4000000 in
theorem s111 (V : Valuation τ sig (Elt F)) :
    before_last V (main_v111 : DevRef τ sig) = maskedMean (diffNorm48 (xSigA (V (main_arg0 : DevRef τ sig))) (ySigA (V (main_arg1 : DevRef τ sig)))) (yMask (V (main_arg1 : DevRef τ sig))) := by
  unfold before_last
  read_back
  rw [zeros3_eq]
  exact maskedMean_eq _ _
set_option maxRecDepth 16384 in
set_option maxHeartbeats 4000000 in
theorem s202 (V : Valuation τ sig (Elt F)) :
    before_last V (main_v202 : DevRef τ sig) = poseLoss (xSigB (V (main_arg0 : DevRef τ sig))) (V (main_arg0 : DevRef τ sig)) (V (main_arg1 : DevRef τ sig)) (zSigB (V (main_arg2 : DevRef τ sig))) := by
  unfold before_last
  read_back
  rw [zSigB_eq]
  exact poseLoss_eq _ _ _ _
set_option maxRecDepth 16384 in
set_option maxHeartbeats 4000000 in
theorem s135 (V : Valuation τ sig (Elt F)) :
    before_last V (main_v135 : DevRef τ sig) = maskedMean (diffNorm48 (xSigB (V (main_arg0 : DevRef τ sig))) (ySigB (V (main_arg1 : DevRef τ sig)))) (yMask (V (main_arg1 : DevRef τ sig))) := by
  unfold before_last
  read_back
  exact maskedMean_eq _ _
set_option maxRecDepth 16384 in
set_option maxHeartbeats 4000000 in
theorem s144 (V : Valuation τ sig (Elt F)) :
    before_last V (main_v144 : DevRef τ sig) = skinLoss (V (main_arg0 : DevRef τ sig)) (V (main_arg1 : DevRef τ sig)) := by
  unfold before_last
  read_back
  exact skinLoss_eq _ _

/-- After the program the result buffer holds `out` of the arguments' contents. -/
theorem out_eq (V : Valuation τ sig (Elt F)) :
    after ops V (main_v210 : DevRef τ sig)
      = out (V (main_arg0 : DevRef τ sig)) (V (main_arg1 : DevRef τ sig)) (V (main_arg2 : DevRef τ sig)) := by
  rw [after_ops_last, v210_run4_1, s87, s63, s173, s111, s202, s135, s144]
  rfl

/-- On every device, for any float values, from any memory with zero counters: every weakly fair execution of @main
    terminates with the result buffer at `out` of the three arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v210)
          = out (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v210).trans (out_eq _), (h c main_arg0).trans (arg0_eq _),
      (h c main_arg1).trans (arg1_eq _), (h c main_arg2).trans (arg2_eq _)⟩)
    (run_main m ρ)

end Cert.ReferenceIdeal.RefRun

end
-- ==== Proof.LibFinite.lean ====
/-
  Extended reals that are real numbers, and the operations that keep them so.
-/
import Idealize.ShloMosaic.PureOps.Ideal

noncomputable section

namespace Cert.LibFinite

open Idealize.ShloMosaic

/-- An extended real that is a real number (neither infinity). -/
def IsFin (x : EReal) : Prop := ∃ y : ℝ, x = (y : EReal)

theorem isFin_coe (y : ℝ) : IsFin (y : EReal) := ⟨y, rfl⟩

/-- Zero is the real number zero. -/
theorem isFin_zero : IsFin (0 : EReal) := ⟨0, rfl⟩

/-- The sum of two reals is the real sum: the coercion is additive. -/
theorem IsFin.add {x y : EReal} (hx : IsFin x) (hy : IsFin y) : IsFin (x + y) := by
  obtain ⟨a, rfl⟩ := hx
  obtain ⟨b, rfl⟩ := hy
  exact ⟨a + b, (EReal.coe_add a b).symm⟩

/-- The difference of two reals is the real difference. -/
theorem IsFin.sub {x y : EReal} (hx : IsFin x) (hy : IsFin y) : IsFin (x - y) := by
  obtain ⟨a, rfl⟩ := hx
  obtain ⟨b, rfl⟩ := hy
  exact ⟨a - b, (EReal.coe_sub a b).symm⟩

/-- The product of two reals is the real product. -/
theorem IsFin.mul {x y : EReal} (hx : IsFin x) (hy : IsFin y) : IsFin (x * y) := by
  obtain ⟨a, rfl⟩ := hx
  obtain ⟨b, rfl⟩ := hy
  exact ⟨a * b, (EReal.coe_mul a b).symm⟩

/-- The larger of two reals is one of them. -/
theorem IsFin.max {x y : EReal} (hx : IsFin x) (hy : IsFin y) : IsFin (max x y) := by
  rcases max_choice x y with h | h
  · rw [h]; exact hx
  · rw [h]; exact hy

/-- A real divided by a nonzero real is the real quotient: off zero the quotient is the product with the
    inverse, and the inverse of a real is the real inverse. -/
theorem IsFin.div {x y : EReal} (hx : IsFin x) (hy : IsFin y) (h0 : y ≠ 0) : IsFin (Ideal.div x y) := by
  obtain ⟨a, rfl⟩ := hx
  obtain ⟨b, rfl⟩ := hy
  refine ⟨a * b⁻¹, ?_⟩
  rw [Ideal.div, if_neg h0, ← EReal.coe_inv, ← EReal.coe_mul]

/-- A finite sum of reals is a real, by induction on the index set. -/
theorem IsFin.sum {ι : Type} (s : Finset ι) (f : ι → EReal) (h : ∀ i ∈ s, IsFin (f i)) :
    IsFin (∑ i ∈ s, f i) := by
  classical
  induction s using Finset.induction_on with
  | empty => simpa using isFin_zero
  | insert a s ha ih =>
    rw [Finset.sum_insert ha]
    exact (h a (Finset.mem_insert_self a s)).add (ih fun i hi => h i (Finset.mem_insert_of_mem hi))

/-- The pattern of `+0.0` denotes `0`. -/
theorem ofBits_zero : Ideal.ofBits .f32 0x00000000#32 = (0 : EReal) := by
  simp [Ideal.ofBits, Ideal.ieee]

/-- The pattern of `1.0` (exponent field `127`, zero fraction) denotes `2^23 · 2^(127 - 127 - 23) = 1`. -/
theorem ofBits_one : Ideal.ofBits .f32 0x3F800000#32 = ((1 : ℝ) : EReal) := by
  simp [Ideal.ofBits, Ideal.ieee, -EReal.coe_mul]; norm_num

/-- The pattern `0x47C35000` (exponent field `143`, fraction `0x435000`) denotes
    `(2^23 + 0x435000) · 2^(143 - 127 - 23) = 12800000 / 128 = 100000`. -/
theorem ofBits_1e5 : Ideal.ofBits .f32 0x47C35000#32 = ((100000 : ℝ) : EReal) := by
  simp [Ideal.ofBits, Ideal.ieee, -EReal.coe_mul]; norm_num

/-- The pattern `0x3727C5AC` has exponent field `110`, neither all ones nor zero: a normal number, a real. -/
theorem isFin_ofBits_eps : IsFin (Ideal.ofBits .f32 0x3727C5AC#32) := by
  simp [Ideal.ofBits, Ideal.ieee, -EReal.coe_mul]
  exact isFin_coe _

/-- A maximum against `1` is at least `1`, so it is not `0`. -/
theorem max_one_ne_zero (x : EReal) : max x (Ideal.ofBits .f32 0x3F800000#32) ≠ 0 := by
  rw [ofBits_one]
  have h : ((1 : ℝ) : EReal) ≤ max x ((1 : ℝ) : EReal) := le_max_right _ _
  have h0 : (0 : EReal) < ((1 : ℝ) : EReal) := by exact_mod_cast zero_lt_one
  exact (lt_of_lt_of_le h0 h).ne'

end Cert.LibFinite

end
-- ==== Proof.PreconditionRead.lean ====
/-
  What the precondition says, entry by entry: every entry of the three argument arrays is a real number, and every
  label (channel 100 of the second array, converted to a 32-bit integer) lies in 0 … 17.

  The printed predicate is a conjunction of four "all" reductions: |x| < +∞ over each array, and 0 ≤ label < 18 over the
  label plane. A conjunction of one-bit words is one exactly when both are; a reduction by "and" that is one had a one at
  every entry; |x| < +∞ on the extended reals excludes both infinities; the signed comparisons read on the integers.
-/
import proofs.«112959_j30356828848315_1_alg».proof.Proof.Gen.Pre_finite_inputs
import proofs.«112959_j30356828848315_1_alg».proof.Proof.LibFinite
import Idealize.ShloMosaic.Lib.ReduceAll
import Idealize.ShloMosaic.PureOps.Ideal.Laws
import Idealize.ShloMosaic.Lib.ValueIdx
import Idealize.ShloMosaic.Lib.WordArith

noncomputable section

namespace Cert.Pre_finite_inputs.Decode

open Cert.Pre_finite_inputs Cert.Pre_finite_inputs.Gen Idealize.ShloMosaic Cert.LibFinite

instance : Subsingleton S_.Idx := ⟨fun a b => funext fun d => d.elim0⟩

/-- The pattern of +∞. -/
theorem ofBits_inf : Ideal.ofBits .f32 0x7F800000#32 = (⊤ : EReal) := by
  simp [Ideal.ofBits, Ideal.ieee]

/-- An extended real whose absolute value is below +∞ is a real number. -/
theorem isFin_of_abs_lt (x : EReal)
    (h : FloatOps.cmpf (F := Ideal) (φ := .f32) .olt (FloatOps.hostAbsf (F := Ideal) (φ := .f32) x) (Ideal.ofBits .f32 0x7F800000#32) = 1#1) :
    IsFin x := by
  rw [ofBits_inf] at h
  have h' : max x (-x) < ⊤ := by
    have : Ideal.cmp .olt (max x (-x)) ⊤ = 1#1 := h
    unfold Ideal.cmp at this
    have h2 := (WordArith.ofBool_eq_one_iff _).mp this
    simpa using h2
  induction x using EReal.rec with
  | bot => simp at h'
  | top => simp at h'
  | coe r => exact ⟨r, rfl⟩

/-- The label plane of the second array: channel 100, as 32-bit integers. -/
def labels (Y : FVec Ideal S4x101x256x256 .f32) : IVec S4x256x256 32 :=
  fptosi 32 (shapeCast S4x256x256 (extractStridedSlice S4x1x256x256 ![0, 100, 0, 0] Y slices_S4x101x256x256_S4x1x256x256_0_100_0_0)
    shapeCasts_S4x1x256x256_S4x256x256)

/-- The precondition read entry by entry. -/
theorem decode (X : FVec Ideal S4x134x256x256 .f32) (Y : FVec Ideal S4x101x256x256 .f32) (Z : FVec Ideal S4x16x6 .f32)
    (h : Cert.Pre_finite_inputs.fn (F := Ideal) X Y Z = fun _ => 1#1) :
    (∀ i, IsFin (X i)) ∧ (∀ i, IsFin (Y i)) ∧ (∀ i, IsFin (Z i))
      ∧ ∀ i, 0 ≤ (labels Y i).toInt ∧ (labels Y i).toInt < 18 := by
  have h0 := congrFun h ValueIdx.ix0
  dsimp only [fn, fn_part1] at h0
  obtain ⟨h13, h25⟩ := IntOp.andi_eq_one.1 h0
  obtain ⟨h8, h12⟩ := IntOp.andi_eq_one.1 h13
  obtain ⟨h3, h7⟩ := IntOp.andi_eq_one.1 h8
  refine ⟨fun i => isFin_of_abs_lt _ (Host.reduce_andi_all _ _ _ _ _ h3 i), fun i => isFin_of_abs_lt _ (Host.reduce_andi_all _ _ _ _ _ h7 i),
    fun i => isFin_of_abs_lt _ (Host.reduce_andi_all _ _ _ _ _ h12 i), fun i => ?_⟩
  have hi := Host.reduce_andi_all _ _ _ _ _ h25 i
  obtain ⟨hge, hlt⟩ := IntOp.andi_eq_one.1 hi
  constructor
  · have : IntOp.cmpi .sge (labels Y i) 0#32 = 1#1 := hge
    unfold IntOp.cmpi at this
    have h2 : (0#32 : BitVec 32).sle (labels Y i) = true := (WordArith.ofBool_eq_one_iff _).mp this
    rw [BitVec.sle_eq_decide] at h2
    simpa using h2
  · have : IntOp.cmpi .slt (labels Y i) 18#32 = 1#1 := hlt
    unfold IntOp.cmpi at this
    have h2 : (labels Y i).slt 18#32 = true := (WordArith.ofBool_eq_one_iff _).mp this
    rw [BitVec.slt_eq_decide] at h2
    have h18 : (18#32 : BitVec 32).toInt = 18 := by decide
    rw [h18] at h2
    simpa using h2

end Cert.Pre_finite_inputs.Decode

end
-- ==== Proof.TileSumsApply.lean ====
/-
  The four arrays of per-image sums read at an entry: zero plus the sum over the eight bands of the band's partial sum.

  Each visit's store is "previous contents + the tile's partial sums" entry by entry (the shape casts involved only add or
  keep unit axes, and the eleven statistics are eleven one-element vectors laid side by side), and the block starts at
  zero, so by induction on the band the block after band 7 is 0 + Σ_{h < 8} (partial sum of band h).
-/
import proofs.«112959_j30356828848315_1_alg».proof.Proof.TileTerms
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-- A one-element vector viewed as a 1×1 matrix holds that element. -/
theorem unit_col (u : FVec Ideal S1 .f32) (h : S1.ShapeCasts S1x1) (q : S1x1.Idx) :
    shapeCast S1x1 u h q = u (ix1 (0 : Fin 1)) := by
  rw [show shapeCast S1x1 u h q = u (fun a => q a.succ) from shapeCast_addUnit_apply (n := 1) ![1] u h q]
  congr 1
  funext a
  match a with
  | ⟨0, _⟩ =>
    have h1 : (q (1 : Fin 2)).val < 1 := (q (1 : Fin 2)).isLt
    exact Fin.ext (show (q (1 : Fin 2)).val = 0 by omega)

/-- A list of 1×1 columns given by a family, laid side by side, read at column `n` of row 0. -/
theorem concat_cols {N : ℕ} (t : Shape) (xs : List ((s : Shape) × (s.Idx → EReal))) (f : Fin N → (S1x1.Idx → EReal))
    (hxs : xs = List.ofFn fun n : Fin N => (⟨S1x1, f n⟩ : (s : Shape) × (s.Idx → EReal)))
    (hrk : t.rank = 2) (h : Shape.Concatenates (xs.map (·.1)) t ⟨1, by omega⟩) (j : t.Idx) (n : Fin N)
    (hn : (j ⟨1, by omega⟩).val = n.val) (h0 : (j ⟨0, by omega⟩).val = 0) :
    concatenate t ⟨1, by omega⟩ xs h j = f n (ix2 (0 : Fin 1) (0 : Fin 1)) := by
  subst hxs
  refine concatenate_ofFn_unit_apply ⟨1, by omega⟩ f h hrk.symm rfl j n hn _ ?_
  intro b hb
  match b with
  | ⟨0, _⟩ => exact h0.symm
  | ⟨1, _⟩ => exact absurd (Fin.ext rfl) hb

/-- The statistics' store at entry `i`: the previous entry plus the `i`-th partial sum. -/
theorem pay43_apply (v : Fin 11 → FVec Ideal S1 .f32) (prev : Vec Ideal S1x1x11 .f32) (i : Fin 11) :
    k0_pay43 (v 0) (v 1) (v 2) (v 3) (v 4) (v 5) (v 6) (v 7) (v 8) (v 9) (v 10) prev (ix3 (0 : Fin 1) (0 : Fin 1) i)
      = prev (ix3 (0 : Fin 1) (0 : Fin 1) i) + v i (ix1 (0 : Fin 1)) := by
  unfold k0_pay43
  show (shapeCast S1x1x11 prev _) _ + (shapeCast S1x1x11 _ _) _ = _
  rw [shapeCast_self]
  congr 1
  rw [show ∀ (w : S1x11.Idx → EReal) (h : S1x11.ShapeCasts S1x1x11) (j : S1x1x11.Idx), shapeCast S1x1x11 w h j = w (fun a => j a.succ)
    from fun w h j => shapeCast_addUnit_apply (n := 2) ![1, 11] w h j]
  exact (concat_cols S1x11 _ (fun n => shapeCast S1x1 (v n) shapeCasts_S1_S1x1) rfl rfl _ _ i rfl rfl).trans (unit_col _ _ _)

/-- The score sums' store at joint `j`: the previous entry plus the tile's sum for the joint. -/
theorem pay44_apply (s16 : FVec Ideal S1x16x32x256 .f32) (m1 : FVec Ideal S1x1x32x256 .f32) (prev : Vec Ideal S1x1x16 .f32) (j : Fin 16) :
    k0_pay44 s16 m1 prev (ix3 (0 : Fin 1) (0 : Fin 1) j)
      = prev (ix3 (0 : Fin 1) (0 : Fin 1) j)
        + multiReduction (F := Ideal) .add [2, 3] S1x16 (k0_pay40 s16 m1) 0x00000000#32 reduces_S1x16x32x256_S1x16 (.inl rfl) rfl
            (ix2 (0 : Fin 1) j) := by
  unfold k0_pay44
  show (shapeCast S1x1x16 prev _) _ + (shapeCast S1x1x16 _ _) _ = _
  rw [shapeCast_self]
  congr 1
  rw [show ∀ (w : S1x16.Idx → EReal) (h : S1x16.ShapeCasts S1x1x16) (q : S1x1x16.Idx), shapeCast S1x1x16 w h q = w (fun a => q a.succ)
    from fun w h q => shapeCast_addUnit_apply (n := 2) ![1, 16] w h q]
  congr 1
  funext a
  match a with
  | ⟨0, _⟩ => rfl
  | ⟨1, _⟩ => rfl

/-- A weighted sums' store at joint `j`, axis `k`: the previous entry plus the tile's weighted sum. -/
theorem pay1_apply (w3 : FVec Ideal S1x16x3 .f32) (prev : Vec Ideal S1x1x16x3 .f32) (j : Fin 16) (k : Fin 3) :
    k0_pay1 w3 prev (ix4 (0 : Fin 1) (0 : Fin 1) j k) = prev (ix4 (0 : Fin 1) (0 : Fin 1) j k) + w3 (ix3 (0 : Fin 1) j k) := by
  unfold k0_pay1
  show (shapeCast S1x1x16x3 prev _) _ + (shapeCast S1x1x16x3 _ _) _ = _
  rw [shapeCast_self]
  congr 1
  rw [show ∀ (w : S1x16x3.Idx → EReal) (h : S1x16x3.ShapeCasts S1x1x16x3) (q : S1x1x16x3.Idx), shapeCast S1x1x16x3 w h q = w (fun a => q a.succ)
    from fun w h q => shapeCast_addUnit_apply (n := 3) ![1, 16, 3] w h q]
  congr 1
  funext a
  match a with
  | ⟨0, _⟩ => rfl
  | ⟨1, _⟩ => rfl
  | ⟨2, _⟩ => rfl

/-- The same store, spelled for the second weighted map. -/
theorem pay2_apply (w3 : FVec Ideal S1x16x3 .f32) (prev : Vec Ideal S1x1x16x3 .f32) (j : Fin 16) (k : Fin 3) :
    k0_pay2 w3 prev (ix4 (0 : Fin 1) (0 : Fin 1) j k) = prev (ix4 (0 : Fin 1) (0 : Fin 1) j k) + w3 (ix3 (0 : Fin 1) j k) := by
  unfold k0_pay2
  show (shapeCast S1x1x16x3 prev _) _ + (shapeCast S1x1x16x3 _ _) _ = _
  rw [shapeCast_self]
  congr 1
  rw [show ∀ (w : S1x16x3.Idx → EReal) (h : S1x16x3.ShapeCasts S1x1x16x3) (q : S1x1x16x3.Idx), shapeCast S1x1x16x3 w h q = w (fun a => q a.succ)
    from fun w h q => shapeCast_addUnit_apply (n := 3) ![1, 16, 3] w h q]
  congr 1
  funext a
  match a with
  | ⟨0, _⟩ => rfl
  | ⟨1, _⟩ => rfl
  | ⟨2, _⟩ => rfl

/-- A block that starts at zero and gains `T (tile)` at every visit holds, after band `n`, zero plus the sum of the
    gains of bands 0 … n. -/
theorem run_apply {S : Shape} (zero : Vec Ideal S .f32)
    (next : Vec Ideal S1x134x32x256 .f32 → Vec Ideal S1x101x32x256 .f32 → Vec Ideal S .f32 → Vec Ideal S .f32)
    (T : Vec Ideal S1x134x32x256 .f32 → Vec Ideal S1x101x32x256 .f32 → EReal) (q : S.Idx) (hz : zero q = 0)
    (hnext : ∀ x0 y0 prev, next x0 y0 prev q = prev q + T x0 y0)
    (x : FVec Ideal S4x134x256x256 .f32) (y : FVec Ideal S4x101x256x256 .f32) (b : Fin 4) :
    ∀ (n : ℕ) (hn : n < 8), run zero next x y b n hn q
      = 0 + ∑ h : Fin (n + 1), T (xTile x b ⟨h.val, by omega⟩) (yTile y b ⟨h.val, by omega⟩)
  | 0, hn => by
    rw [run, hnext, hz]
    simp
  | n + 1, hn => by
    rw [run, hnext, run_apply zero next T q hz hnext x y b n (Nat.lt_of_succ_lt hn), add_assoc]
    congr 1
    exact (Fin.sum_univ_castSucc (fun h : Fin (n + 1 + 1) => T (xTile x b ⟨h.val, by omega⟩) (yTile y b ⟨h.val, by omega⟩))).symm

/-- The eleven partial sums of a tile, in the statistics' order. -/
def part2 (x0 : Vec Ideal S1x134x32x256 .f32) (y0 : Vec Ideal S1x101x32x256 .f32) : Fin 11 → FVec Ideal S1 .f32 :=
  ![k0_pay20 (k0_pay8 x0) (k0_pay14 y0) (k0_pay19 x0) (Scalar.ofBits .f32 0x00000000#32),
    k0_pay23 (k0_pay7 x0) (k0_pay13 y0) (gt y0), k0_pay24 (k0_pay7 x0) (k0_pay13 y0) (gt y0), k0_pay25 (k0_pay7 x0) (k0_pay13 y0),
    k0_pay29 (gt y0) (sqA x0 y0), k0_pay30 (gt y0) (sqA x0 y0), k0_pay31 (sqA x0 y0),
    k0_pay34 (k0_pay10 x0) (k0_pay16 y0) (gt y0), k0_pay35 (k0_pay10 x0) (k0_pay16 y0) (gt y0), k0_pay36 (k0_pay10 x0) (k0_pay16 y0),
    k0_pay37 (k0_pay11 x0) (k0_pay17 y0)]

/-- The statistics of image `b`: zero plus the sum over the eight bands of each partial sum. -/
theorem stats_apply (x : FVec Ideal S4x134x256x256 .f32) (y : FVec Ideal S4x101x256x256 .f32) (b : Fin 4) (i : Fin 11) :
    stats x y (ix3 b (0 : Fin 1) i) = 0 + ∑ h : Fin 8, part2 (xTile x b h) (yTile y b h) i (ix1 (0 : Fin 1)) :=
  run_apply (k0_pay3 (F := Ideal)) next2 (fun x0 y0 => part2 x0 y0 i (ix1 (0 : Fin 1))) _ Ideal.ofBits_zero_f32
    (fun x0 y0 prev => pay43_apply (part2 x0 y0) prev i) x y b 7 (by omega)

/-- The score sums of image `b`, joint `j`. -/
theorem sd_apply (x : FVec Ideal S4x134x256x256 .f32) (y : FVec Ideal S4x101x256x256 .f32) (b : Fin 4) (j : Fin 16) :
    sd x y (ix3 b (0 : Fin 1) j)
      = 0 + ∑ h : Fin 8, multiReduction (F := Ideal) .add [2, 3] S1x16 (k0_pay40 (sg (xTile x b h)) (mk (yTile y b h))) 0x00000000#32
          reduces_S1x16x32x256_S1x16 (.inl rfl) rfl (ix2 (0 : Fin 1) j) :=
  run_apply (k0_pay4 (F := Ideal)) next3
    (fun x0 y0 => multiReduction (F := Ideal) .add [2, 3] S1x16 (k0_pay40 (sg x0) (mk y0)) 0x00000000#32
      reduces_S1x16x32x256_S1x16 (.inl rfl) rfl (ix2 (0 : Fin 1) j)) _ Ideal.ofBits_zero_f32
    (fun x0 y0 prev => pay44_apply (sg x0) (mk y0) prev j) x y b 7 (by omega)

/-- The weighted location sums of image `b`, joint `j`, axis `k`. -/
theorem loc_apply (x : FVec Ideal S4x134x256x256 .f32) (y : FVec Ideal S4x101x256x256 .f32) (b : Fin 4) (j : Fin 16) (k : Fin 3) :
    loc x y (ix4 b (0 : Fin 1) j k)
      = 0 + ∑ h : Fin 8, k0_pay41 (k0_pay9 (xTile x b h)) (k0_pay14 (yTile y b h)) (sg (xTile x b h)) (mk (yTile y b h))
          (ix3 (0 : Fin 1) j k) :=
  run_apply (k0_pay5 (F := Ideal)) next4
    (fun x0 y0 => k0_pay41 (k0_pay9 x0) (k0_pay14 y0) (sg x0) (mk y0) (ix3 (0 : Fin 1) j k)) _ Ideal.ofBits_zero_f32
    (fun x0 y0 prev => pay1_apply _ prev j k) x y b 7 (by omega)

/-- The weighted rotation sums of image `b`, joint `j`, axis `k`. -/
theorem rot_apply (x : FVec Ideal S4x134x256x256 .f32) (y : FVec Ideal S4x101x256x256 .f32) (b : Fin 4) (j : Fin 16) (k : Fin 3) :
    rot x y (ix4 b (0 : Fin 1) j k)
      = 0 + ∑ h : Fin 8, k0_pay42 (k0_pay10 (xTile x b h)) (k0_pay14 (yTile y b h)) (sg (xTile x b h)) (mk (yTile y b h))
          (ix3 (0 : Fin 1) j k) :=
  run_apply (k0_pay6 (F := Ideal)) next5
    (fun x0 y0 => k0_pay42 (k0_pay10 x0) (k0_pay14 y0) (sg x0) (mk y0) (ix3 (0 : Fin 1) j k)) _ Ideal.ofBits_zero_f32
    (fun x0 y0 prev => pay2_apply _ prev j k) x y b 7 (by omega)

end Cert.KernelIdeal.Tile

end
-- ==== Proof.LibBlockSum.lean ====
/-
  Blocked sums. A sum over `a * b` consecutive indices taken block by block — `a` consecutive blocks of `b`
  indices each — is the whole sum. Stated over the naturals below a bound, over `Fin`-indexed families, and at the
  two literal sizes 16 × 256 = 4096 and 11 × 384 = 4224.
-/
import Mathlib.Algebra.BigOperators.Fin
import Mathlib.Algebra.BigOperators.Intervals

namespace Cert.LibBlockSum

open Finset

variable {M : Type*} [AddCommMonoid M]

/-- The sum of `f` over the first `a * b` naturals, taken as `a` consecutive blocks of `b`, is the whole sum. -/
theorem sum_range_blocks (a b : ℕ) (f : ℕ → M) :
    ∑ j ∈ range a, ∑ l ∈ range b, f (b * j + l) = ∑ i ∈ range (a * b), f i := by
  induction a with
  | zero => simp
  | succ a ih =>
    rw [Finset.sum_range_succ, ih, Nat.succ_mul, Finset.sum_range_add, Nat.mul_comm b a]

/-- The same over `Fin`-indexed blocks: block `j` of `a`, position `l` of `b` inside it, is index `b * j + l`. -/
theorem sum_fin_blocks (a b : ℕ) (f : ℕ → M) :
    ∑ j : Fin a, ∑ l : Fin b, f (b * j.val + l.val) = ∑ i : Fin (a * b), f i.val := by
  rw [Fin.sum_univ_eq_sum_range (fun i => f i) (a * b), ← sum_range_blocks a b f,
    ← Fin.sum_univ_eq_sum_range (fun j => ∑ l ∈ range b, f (b * j + l)) a]
  exact Finset.sum_congr rfl fun j _ => Fin.sum_univ_eq_sum_range (fun l => f (b * j.val + l)) b

/-- Position `l` of block `j` lies below `a * b`. -/
theorem block_index_lt {a b j l : ℕ} (hj : j < a) (hl : l < b) : b * j + l < a * b :=
  calc b * j + l < b * j + b := Nat.add_lt_add_left hl _
    _ = b * (j + 1) := (Nat.mul_succ b j).symm
    _ ≤ b * a := Nat.mul_le_mul_left b hj
    _ = a * b := Nat.mul_comm b a

/-- A family over `Fin n` with `n = a * b`, summed block by block, is summed whole. -/
theorem sum_fin_blocks_of_eq {n : ℕ} (a b : ℕ) (hn : a * b = n) (g : Fin n → M) :
    ∑ j : Fin a, ∑ l : Fin b, g ⟨b * j.val + l.val, hn ▸ block_index_lt j.isLt l.isLt⟩ = ∑ i : Fin n, g i := by
  subst hn
  have h := sum_fin_blocks a b (fun k => if hk : k < a * b then g ⟨k, hk⟩ else 0)
  refine Eq.trans (Finset.sum_congr rfl fun j _ => Finset.sum_congr rfl fun l _ => ?_)
    (h.trans (Finset.sum_congr rfl fun i _ => ?_))
  · rw [dif_pos (block_index_lt j.isLt l.isLt)]
  · rw [dif_pos i.isLt]

/-- 16 blocks of 256 make 4096. -/
theorem sum_blocks_16_256 (g : Fin 4096 → M) :
    ∑ j : Fin 16, ∑ l : Fin 256, g ⟨256 * j.val + l.val, by omega⟩ = ∑ i : Fin 4096, g i :=
  sum_fin_blocks_of_eq 16 256 rfl g

/-- 11 blocks of 384 make 4224. -/
theorem sum_blocks_11_384 (g : Fin 4224 → M) :
    ∑ j : Fin 11, ∑ l : Fin 384, g ⟨384 * j.val + l.val, by omega⟩ = ∑ i : Fin 4224, g i :=
  sum_fin_blocks_of_eq 11 384 rfl g

end Cert.LibBlockSum
-- ==== Proof.LibReindex.lean ====
/-
  Re-indexing finite sums over consecutive indices. A sum over `n = a * b` indices is a double sum over `a`
  blocks of `b` indices each, the index written `i * b + j` or `b * i + j`; a sum over `n = a + b + c` indices
  is the sum of its three consecutive blocks. All over an arbitrary additive commutative monoid.
-/
import Mathlib.Algebra.BigOperators.Fin
import Mathlib.Logic.Equiv.Fin.Basic

namespace Cert.LibReindex

open scoped BigOperators

variable {M : Type*} [AddCommMonoid M]

/-- Position `j` of block `i`, among `a` blocks of `b`, lies below `a * b`. -/
theorem mul_add_lt {a b : ℕ} (i : Fin a) (j : Fin b) : i.val * b + j.val < a * b :=
  calc i.val * b + j.val < i.val * b + b := Nat.add_lt_add_left j.isLt _
    _ = (i.val + 1) * b := (Nat.succ_mul _ _).symm
    _ ≤ a * b := Nat.mul_le_mul_right _ i.isLt

/-- The same with the block size written first. -/
theorem mul_add_lt' {a b : ℕ} (i : Fin a) (j : Fin b) : b * i.val + j.val < a * b :=
  Nat.mul_comm b i.val ▸ mul_add_lt i j

/-- A sum over `n = a * b` indices is the double sum over `a` blocks of `b`: the index is `i * b + j`. -/
theorem sum_mul_add {n : ℕ} (a b : ℕ) (hn : n = a * b) (f : Fin n → M) :
    ∑ r : Fin n, f r = ∑ i : Fin a, ∑ j : Fin b, f ⟨i.val * b + j.val, hn ▸ mul_add_lt i j⟩ := by
  subst hn
  rw [← Equiv.sum_comp finProdFinEquiv f, Fintype.sum_prod_type]
  refine Finset.sum_congr rfl fun i _ => Finset.sum_congr rfl fun j _ => congrArg f (Fin.ext ?_)
  show j.val + b * i.val = i.val * b + j.val
  rw [Nat.add_comm, Nat.mul_comm]

/-- A sum over `n = a * b` indices is the double sum over `a` blocks of `b`: the index is `b * i + j`. -/
theorem sum_mul_add' {n : ℕ} (a b : ℕ) (hn : n = a * b) (f : Fin n → M) :
    ∑ r : Fin n, f r = ∑ i : Fin a, ∑ j : Fin b, f ⟨b * i.val + j.val, hn ▸ mul_add_lt' i j⟩ := by
  rw [sum_mul_add a b hn f]
  refine Finset.sum_congr rfl fun i _ => Finset.sum_congr rfl fun j _ => congrArg f (Fin.ext ?_)
  show i.val * b + j.val = b * i.val + j.val
  rw [Nat.mul_comm]

/-- A sum over `n = a + b + c` indices is the sum of its three consecutive blocks. -/
theorem sum_three_blocks {n : ℕ} (a b c : ℕ) (hn : n = a + b + c) (f : Fin n → M) :
    ∑ k : Fin n, f k
      = (∑ i : Fin a, f ⟨i.val, by omega⟩ + ∑ i : Fin b, f ⟨a + i.val, by omega⟩)
        + ∑ i : Fin c, f ⟨a + b + i.val, by omega⟩ := by
  subst hn
  rw [Fin.sum_univ_add, Fin.sum_univ_add]
  rfl

end Cert.LibReindex
-- ==== Proof.IndexSums.lean ====
/-
  Sums over the index sets of arrays, written as iterated sums over the coordinates.

  An index of a rank-3 array is the triple of its coordinates, so a sum over all indices is the triple sum over the
  coordinates; with a leading axis of extent one the outer sum has one term. The 256 rows of an image are 8 bands of
  32 rows, and the 65536 points of a flattened image are 256 rows of 256 columns, row-major: a sum over rows is the
  sum over bands of the sums over a band's rows, and a sum over flattened points is the sum over rows and columns.
-/
import Idealize.ShloMosaic.Lib.ValueIdx
import proofs.«112959_j30356828848315_1_alg».proof.Proof.LibBlockSum
import proofs.«112959_j30356828848315_1_alg».proof.Proof.LibReindex

noncomputable section

open scoped BigOperators

namespace Cert.IndexSums

open Idealize.ShloMosaic Idealize.ShloMosaic.ValueIdx

variable {M : Type*} [AddCommMonoid M]

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- With a leading axis of extent one: the double sum over the other two coordinates. -/
theorem sum_idx3_unit {n1 n2 : Nat} (f : (⟨3, ![1, n1, n2]⟩ : Shape).Idx → M) :
    ∑ i, f i = ∑ b : Fin n1, ∑ c : Fin n2, f (ix3 (0 : Fin 1) b c) := by
  rw [sum_idx3, Fin.sum_univ_one]

/-- Row `r` of band `h` is row `32 * h + r` of the image. -/
abbrev bandRow (h : Fin 8) (r : Fin 32) : Fin 256 := ⟨32 * h.val + r.val, by omega⟩

/-- A sum over the 256 rows is the sum over the 8 bands of the sums over each band's 32 rows. -/
theorem sum_bands (g : Fin 256 → M) : ∑ h : Fin 8, ∑ r : Fin 32, g (bandRow h r) = ∑ R : Fin 256, g R :=
  Cert.LibBlockSum.sum_fin_blocks_of_eq 8 32 rfl g

/-- Column `c` of row `R` is point `256 * R + c` of the flattened image. -/
abbrev flatPoint (R : Fin 256) (c : Fin 256) : Fin 65536 := ⟨256 * R.val + c.val, by omega⟩

/-- A sum over the 65536 flattened points is the sum over rows and columns. -/
theorem sum_flat (g : Fin 65536 → M) : ∑ p : Fin 65536, g p = ∑ R : Fin 256, ∑ c : Fin 256, g (flatPoint R c) :=
  Cert.LibReindex.sum_mul_add' 256 256 rfl g

/-- A sum over flattened points, taken band by band. -/
theorem sum_flat_bands (g : Fin 65536 → M) :
    ∑ p : Fin 65536, g p = ∑ h : Fin 8, ∑ r : Fin 32, ∑ c : Fin 256, g (flatPoint (bandRow h r) c) := by
  rw [sum_flat, ← sum_bands]

end Cert.IndexSums

end
-- ==== Proof.PixelTerms.lean ====
/-
  The per-pixel quantities both programs sum for the three masked channel-norm means, as functions of the entries of
  the two argument arrays `x : [4,134,256,256]` and `y : [4,101,256,256]` at image `b`, row `R`, column `c`.

  The mask is channel 3 of `y`. The first norm is the Euclidean norm over channels 0‥3 of `x - y`; the second and
  third are the Euclidean norms over 48 channels (from channel 4, from channel 52) of the difference of the logistic
  functions of `x` and `y`. A norm is kept where the mask exceeds 0.7 and replaced by zero elsewhere; the indicator
  of a kept value is 1 where it is not zero and 0 where it is, as a real number.
-/
import Idealize.ShloMosaic.Lib.ValueIdx

noncomputable section

open scoped BigOperators

namespace Cert.PixelTerms

open Idealize.ShloMosaic Idealize.ShloMosaic.ValueIdx

/-- The first argument array, as a function of its index. -/
abbrev XArr : Type := (⟨4, ![4, 134, 256, 256]⟩ : Shape).Idx → EReal
/-- The second argument array, as a function of its index. -/
abbrev YArr : Type := (⟨4, ![4, 101, 256, 256]⟩ : Shape).Idx → EReal

/-- The square of a difference. -/
def sqd (a b : EReal) : EReal := (a - b) * (a - b)

/-- A value kept where the mask value `t` exceeds 0.7, zero elsewhere. -/
def keptPx (t n : EReal) : EReal :=
  Scalar.select (Ideal.cmp .ogt t (Ideal.ofBits .f32 0x3F333333#32)) n (Ideal.ofBits .f32 0x00000000#32)

/-- The indicator of "not zero": the one-bit comparison widened to 32 bits, read signed, as a real. -/
def indPx (k : EReal) : EReal :=
  ((((Ideal.cmp .one k (Ideal.ofBits .f32 0x00000000#32)).setWidth 32).toInt : ℝ) : EReal)

/-- The mask: channel 3 of `y`. -/
def msk (y : YArr) (b : Fin 4) (R c : Fin 256) : EReal := y (ix4 b (3 : Fin 101) R c)

/-- The Euclidean norm over channels 0‥3 of `x - y`. -/
def nrm3 (x : XArr) (y : YArr) (b : Fin 4) (R c : Fin 256) : EReal :=
  Ideal.sqrt (∑ ch : Fin 3, sqd (x (ix4 b (⟨ch.val, by omega⟩ : Fin 134) R c)) (y (ix4 b (⟨ch.val, by omega⟩ : Fin 101) R c)))

/-- The Euclidean norm over the 48 channels from `o` of the difference of the logistic functions of `x` and `y`. -/
def nrm48 (o : ℕ) (ho : o + 48 ≤ 101) (x : XArr) (y : YArr) (b : Fin 4) (R c : Fin 256) : EReal :=
  Ideal.sqrt (∑ ch : Fin 48, sqd (Ideal.logistic (x (ix4 b (⟨o + ch.val, by omega⟩ : Fin 134) R c)))
    (Ideal.logistic (y (ix4 b (⟨o + ch.val, by omega⟩ : Fin 101) R c))))

end Cert.PixelTerms

end
-- ==== Proof.TileColumns.lean ====
/-
  Columns 1–9 of the per-image statistics, read as sums over the pixels of the image.

  Each of the nine partial sums of a band's tile is the sum, over the tile's 32 rows and 256 columns, of a per-pixel
  quantity: a channel norm (the square root of the sum over channels of squared differences), the norm kept where the
  mask exceeds 0.7, or the indicator that the kept norm is not zero. A tile's entry at row `r` of band `h` is the
  image's entry at row `32 h + r`, so with the unrolling of the eight visits each column of image `b` is zero plus
  the sum over bands, rows of a band and columns of the per-pixel quantity of the whole arrays.
-/
import proofs.«112959_j30356828848315_1_alg».proof.Proof.TileSumsApply
import proofs.«112959_j30356828848315_1_alg».proof.Proof.IndexSums
import proofs.«112959_j30356828848315_1_alg».proof.Proof.PixelTerms

noncomputable section

open scoped BigOperators

namespace Cert.KernelIdeal.TileColumns

open Cert.KernelIdeal Cert.KernelIdeal.Gen Cert.KernelIdeal.Tile Idealize.ShloMosaic Idealize.ShloMosaic.ValueIdx
open Cert.IndexSums Cert.PixelTerms

/-! ## Sums over a tile and over channels -/

/-- The sum of a `1×32×256` tile over its rows and columns. -/
theorem tileSum (v : FVec Ideal S1x32x256 .f32) :
    multiReduction (F := Ideal) .add [1, 2] S1 v 0x00000000#32 reduces_S1x32x256_S1 (.inl rfl) rfl (ix1 (0 : Fin 1))
      = ∑ r : Fin 32, ∑ c : Fin 256, v (ix3 (0 : Fin 1) r c) :=
  (Ideal.multiReduction_add_total v _ reduces_S1x32x256_S1 (by decide) _ _ _).trans (sum_idx3_unit v)

/-- The sum over the three channels of a `1×3×32×256` block, at a pixel. -/
theorem chanSum3 (src : FVec Ideal S1x3x32x256 .f32) (r : Fin 32) (c : Fin 256) :
    multiReduction (F := Ideal) .add [1] S1x32x256 src 0x00000000#32 reduces_S1x3x32x256_S1x32x256 (.inl rfl) rfl
        (ix3 (0 : Fin 1) r c)
      = ∑ ch : Fin 3, src (ix4 (0 : Fin 1) ch r c) := by
  refine (Ideal.multiReduction_add_single src _ reduces_S1x3x32x256_S1x32x256 _ _ _).trans ?_
  show ∑ k : Fin 3, _ = _
  refine Finset.sum_congr rfl fun k _ => congrArg src (funext fun a => Fin.ext ?_)
  match a with
  | ⟨0, _⟩ => rfl
  | ⟨1, _⟩ => rfl
  | ⟨2, _⟩ => rfl
  | ⟨3, _⟩ => rfl

/-- The sum over the forty-eight channels of a `1×48×32×256` block, at a pixel. -/
theorem chanSum48 (src : FVec Ideal S1x48x32x256 .f32) (r : Fin 32) (c : Fin 256) :
    multiReduction (F := Ideal) .add [1] S1x32x256 src 0x00000000#32 reduces_S1x48x32x256_S1x32x256 (.inl rfl) rfl
        (ix3 (0 : Fin 1) r c)
      = ∑ ch : Fin 48, src (ix4 (0 : Fin 1) ch r c) := by
  refine (Ideal.multiReduction_add_single src _ reduces_S1x48x32x256_S1x32x256 _ _ _).trans ?_
  show ∑ k : Fin 48, _ = _
  refine Finset.sum_congr rfl fun k _ => congrArg src (funext fun a => Fin.ext ?_)
  match a with
  | ⟨0, _⟩ => rfl
  | ⟨1, _⟩ => rfl
  | ⟨2, _⟩ => rfl
  | ⟨3, _⟩ => rfl

/-! ## A tile's entries are the image's entries -/

theorem xTile_at (x : FVec Ideal S4x134x256x256 .f32) (b : Fin 4) (h : Fin 8) (ch : Fin 134) (r : Fin 32) (c : Fin 256) :
    xTile x b h (ix4 (0 : Fin 1) ch r c) = x (ix4 b ch (bandRow h r) c) := rfl

theorem yTile_at (y : FVec Ideal S4x101x256x256 .f32) (b : Fin 4) (h : Fin 8) (ch : Fin 101) (r : Fin 32) (c : Fin 256) :
    yTile y b h (ix4 (0 : Fin 1) ch r c) = y (ix4 b ch (bandRow h r) c) := rfl

/-! ## The slices of a tile at a pixel -/

/-- Channels 0‥3 of the first tile. -/
theorem pay7_at (x0 : Vec Ideal S1x134x32x256 .f32) (ch : Fin 3) (r : Fin 32) (c : Fin 256) :
    k0_pay7 x0 (ix4 (0 : Fin 1) ch r c) = x0 (ix4 (0 : Fin 1) (⟨ch.val, by omega⟩ : Fin 134) r c) := by
  unfold k0_pay7
  refine extractStridedSlice_apply _ x0 _ _ _ fun a => ?_
  match a with
  | ⟨0, _⟩ => rfl
  | ⟨1, _⟩ => exact (Nat.zero_add _).symm
  | ⟨2, _⟩ => exact (Nat.zero_add _).symm
  | ⟨3, _⟩ => exact (Nat.zero_add _).symm

/-- Channels 0‥3 of the second tile. -/
theorem pay13_at (y0 : Vec Ideal S1x101x32x256 .f32) (ch : Fin 3) (r : Fin 32) (c : Fin 256) :
    k0_pay13 y0 (ix4 (0 : Fin 1) ch r c) = y0 (ix4 (0 : Fin 1) (⟨ch.val, by omega⟩ : Fin 101) r c) := by
  unfold k0_pay13
  refine extractStridedSlice_apply _ y0 _ _ _ fun a => ?_
  match a with
  | ⟨0, _⟩ => rfl
  | ⟨1, _⟩ => exact (Nat.zero_add _).symm
  | ⟨2, _⟩ => exact (Nat.zero_add _).symm
  | ⟨3, _⟩ => exact (Nat.zero_add _).symm

/-- The logistic function of channels 4‥52 of the first tile. -/
theorem pay9_at (x0 : Vec Ideal S1x134x32x256 .f32) (ch : Fin 48) (r : Fin 32) (c : Fin 256) :
    k0_pay9 x0 (ix4 (0 : Fin 1) ch r c) = Ideal.logistic (x0 (ix4 (0 : Fin 1) (⟨4 + ch.val, by omega⟩ : Fin 134) r c)) := by
  unfold k0_pay9
  show Ideal.logistic (extractStridedSlice S1x48x32x256 ![0, 4, 0, 0] x0 _ _) = _
  refine congrArg Ideal.logistic (extractStridedSlice_apply _ x0 _ _ _ fun a => ?_)
  match a with
  | ⟨0, _⟩ => rfl
  | ⟨1, _⟩ => rfl
  | ⟨2, _⟩ => exact (Nat.zero_add _).symm
  | ⟨3, _⟩ => exact (Nat.zero_add _).symm

/-- The logistic function of channels 52‥100 of the first tile. -/
theorem pay10_at (x0 : Vec Ideal S1x134x32x256 .f32) (ch : Fin 48) (r : Fin 32) (c : Fin 256) :
    k0_pay10 x0 (ix4 (0 : Fin 1) ch r c) = Ideal.logistic (x0 (ix4 (0 : Fin 1) (⟨52 + ch.val, by omega⟩ : Fin 134) r c)) := by
  unfold k0_pay10
  show Ideal.logistic (extractStridedSlice S1x48x32x256 ![0, 52, 0, 0] x0 _ _) = _
  refine congrArg Ideal.logistic (extractStridedSlice_apply _ x0 _ _ _ fun a => ?_)
  match a with
  | ⟨0, _⟩ => rfl
  | ⟨1, _⟩ => rfl
  | ⟨2, _⟩ => exact (Nat.zero_add _).symm
  | ⟨3, _⟩ => exact (Nat.zero_add _).symm

/-- The logistic function of channels 4‥52 of the second tile. -/
theorem pay15_at (y0 : Vec Ideal S1x101x32x256 .f32) (ch : Fin 48) (r : Fin 32) (c : Fin 256) :
    k0_pay15 y0 (ix4 (0 : Fin 1) ch r c) = Ideal.logistic (y0 (ix4 (0 : Fin 1) (⟨4 + ch.val, by omega⟩ : Fin 101) r c)) := by
  unfold k0_pay15
  show Ideal.logistic (extractStridedSlice S1x48x32x256 ![0, 4, 0, 0] y0 _ _) = _
  refine congrArg Ideal.logistic (extractStridedSlice_apply _ y0 _ _ _ fun a => ?_)
  match a with
  | ⟨0, _⟩ => rfl
  | ⟨1, _⟩ => rfl
  | ⟨2, _⟩ => exact (Nat.zero_add _).symm
  | ⟨3, _⟩ => exact (Nat.zero_add _).symm

/-- The logistic function of channels 52‥100 of the second tile. -/
theorem pay16_at (y0 : Vec Ideal S1x101x32x256 .f32) (ch : Fin 48) (r : Fin 32) (c : Fin 256) :
    k0_pay16 y0 (ix4 (0 : Fin 1) ch r c) = Ideal.logistic (y0 (ix4 (0 : Fin 1) (⟨52 + ch.val, by omega⟩ : Fin 101) r c)) := by
  unfold k0_pay16
  show Ideal.logistic (extractStridedSlice S1x48x32x256 ![0, 52, 0, 0] y0 _ _) = _
  refine congrArg Ideal.logistic (extractStridedSlice_apply _ y0 _ _ _ fun a => ?_)
  match a with
  | ⟨0, _⟩ => rfl
  | ⟨1, _⟩ => rfl
  | ⟨2, _⟩ => exact (Nat.zero_add _).symm
  | ⟨3, _⟩ => exact (Nat.zero_add _).symm

/-- Channel 3 of the second tile, the mask. -/
theorem pay14_at (y0 : Vec Ideal S1x101x32x256 .f32) (r : Fin 32) (c : Fin 256) :
    k0_pay14 y0 (ix3 (0 : Fin 1) r c) = y0 (ix4 (0 : Fin 1) (3 : Fin 101) r c) := by
  unfold k0_pay14
  refine (shapeCast_apply _ _ (ix3 (0 : Fin 1) r c) (ix4 (0 : Fin 1) (0 : Fin 1) r c) ?_).trans ?_
  · rw [Shape.rowMajor_val_four, Shape.rowMajor_val_three]; rfl
  · refine extractStridedSlice_apply _ y0 _ _ _ fun a => ?_
    match a with
    | ⟨0, _⟩ => rfl
    | ⟨1, _⟩ => rfl
    | ⟨2, _⟩ => exact (Nat.zero_add _).symm
    | ⟨3, _⟩ => exact (Nat.zero_add _).symm

/-! ## The per-pixel quantities of a band's tile -/

section Band
variable (x : FVec Ideal S4x134x256x256 .f32) (y : FVec Ideal S4x101x256x256 .f32) (b : Fin 4) (h : Fin 8)
  (r : Fin 32) (c : Fin 256)

/-- The mask bit of a pixel of the band. -/
theorem gt_band : gt (yTile y b h) (ix3 (0 : Fin 1) r c)
    = Ideal.cmp .ogt (msk y b (bandRow h r) c) (Ideal.ofBits .f32 0x3F333333#32) := by
  show k0_pay18 (yTile y b h) (ix3 (0 : Fin 1) r c) = _
  unfold k0_pay18
  show Ideal.cmp .ogt (k0_pay14 (yTile y b h) (ix3 (0 : Fin 1) r c)) _ = _
  rw [pay14_at]
  rfl

/-- The first channel norm at a pixel of the band. -/
theorem nrm3_band : k0_pay21 (k0_pay7 (xTile x b h)) (k0_pay13 (yTile y b h)) (ix3 (0 : Fin 1) r c)
    = nrm3 x y b (bandRow h r) c := by
  unfold k0_pay21
  show Ideal.sqrt (multiReduction (F := Ideal) .add [1] S1x32x256 _ _ _ _ _ (ix3 (0 : Fin 1) r c)) = _
  rw [chanSum3]
  refine congrArg Ideal.sqrt (Finset.sum_congr rfl fun ch _ => ?_)
  show (k0_pay7 (xTile x b h) (ix4 (0 : Fin 1) ch r c) - k0_pay13 (yTile y b h) (ix4 (0 : Fin 1) ch r c))
    * (k0_pay7 (xTile x b h) (ix4 (0 : Fin 1) ch r c) - k0_pay13 (yTile y b h) (ix4 (0 : Fin 1) ch r c)) = _
  rw [pay7_at, pay13_at]
  rfl

/-- The second channel norm at a pixel of the band. -/
theorem nrmA_band : k0_pay27 (sqA (xTile x b h) (yTile y b h)) (ix3 (0 : Fin 1) r c)
    = nrm48 4 (by omega) x y b (bandRow h r) c := by
  unfold k0_pay27
  show Ideal.sqrt (multiReduction (F := Ideal) .add [1] S1x32x256 _ _ _ _ _ (ix3 (0 : Fin 1) r c)) = _
  rw [chanSum48]
  refine congrArg Ideal.sqrt (Finset.sum_congr rfl fun ch _ => ?_)
  show (k0_pay9 (xTile x b h) (ix4 (0 : Fin 1) ch r c) - k0_pay15 (yTile y b h) (ix4 (0 : Fin 1) ch r c))
    * (k0_pay9 (xTile x b h) (ix4 (0 : Fin 1) ch r c) - k0_pay15 (yTile y b h) (ix4 (0 : Fin 1) ch r c)) = _
  rw [pay9_at, pay15_at]
  rfl

/-- The third channel norm at a pixel of the band. -/
theorem nrmB_band : k0_pay32 (k0_pay10 (xTile x b h)) (k0_pay16 (yTile y b h)) (ix3 (0 : Fin 1) r c)
    = nrm48 52 (by omega) x y b (bandRow h r) c := by
  unfold k0_pay32
  show Ideal.sqrt (multiReduction (F := Ideal) .add [1] S1x32x256 _ _ _ _ _ (ix3 (0 : Fin 1) r c)) = _
  rw [chanSum48]
  refine congrArg Ideal.sqrt (Finset.sum_congr rfl fun ch _ => ?_)
  show (k0_pay10 (xTile x b h) (ix4 (0 : Fin 1) ch r c) - k0_pay16 (yTile y b h) (ix4 (0 : Fin 1) ch r c))
    * (k0_pay10 (xTile x b h) (ix4 (0 : Fin 1) ch r c) - k0_pay16 (yTile y b h) (ix4 (0 : Fin 1) ch r c)) = _
  rw [pay10_at, pay16_at]
  rfl

end Band

/-! ## The nine partial sums of a band's tile -/

section Parts
variable (x : FVec Ideal S4x134x256x256 .f32) (y : FVec Ideal S4x101x256x256 .f32) (b : Fin 4) (h : Fin 8)

theorem part1 : part2 (xTile x b h) (yTile y b h) 1 (ix1 (0 : Fin 1))
    = ∑ r : Fin 32, ∑ c : Fin 256, keptPx (msk y b (bandRow h r) c) (nrm3 x y b (bandRow h r) c) := by
  show k0_pay23 (k0_pay7 (xTile x b h)) (k0_pay13 (yTile y b h)) (gt (yTile y b h)) (ix1 (0 : Fin 1)) = _
  unfold k0_pay23 k0_pay22
  refine (tileSum _).trans (Finset.sum_congr rfl fun r _ => Finset.sum_congr rfl fun c _ => ?_)
  show Scalar.select (gt (yTile y b h) (ix3 (0 : Fin 1) r c))
    (k0_pay21 (k0_pay7 (xTile x b h)) (k0_pay13 (yTile y b h)) (ix3 (0 : Fin 1) r c)) (Ideal.ofBits .f32 0x00000000#32) = _
  rw [gt_band, nrm3_band]
  rfl

theorem part2' : part2 (xTile x b h) (yTile y b h) 2 (ix1 (0 : Fin 1))
    = ∑ r : Fin 32, ∑ c : Fin 256, indPx (keptPx (msk y b (bandRow h r) c) (nrm3 x y b (bandRow h r) c)) := by
  show k0_pay24 (k0_pay7 (xTile x b h)) (k0_pay13 (yTile y b h)) (gt (yTile y b h)) (ix1 (0 : Fin 1)) = _
  unfold k0_pay24 k0_pay22
  refine (tileSum _).trans (Finset.sum_congr rfl fun r _ => Finset.sum_congr rfl fun c _ => ?_)
  show indPx (Scalar.select (gt (yTile y b h) (ix3 (0 : Fin 1) r c))
    (k0_pay21 (k0_pay7 (xTile x b h)) (k0_pay13 (yTile y b h)) (ix3 (0 : Fin 1) r c)) (Ideal.ofBits .f32 0x00000000#32)) = _
  rw [gt_band, nrm3_band]
  rfl

theorem part3 : part2 (xTile x b h) (yTile y b h) 3 (ix1 (0 : Fin 1))
    = ∑ r : Fin 32, ∑ c : Fin 256, nrm3 x y b (bandRow h r) c := by
  show k0_pay25 (k0_pay7 (xTile x b h)) (k0_pay13 (yTile y b h)) (ix1 (0 : Fin 1)) = _
  unfold k0_pay25
  exact (tileSum _).trans (Finset.sum_congr rfl fun r _ => Finset.sum_congr rfl fun c _ => nrm3_band x y b h r c)

theorem part4 : part2 (xTile x b h) (yTile y b h) 4 (ix1 (0 : Fin 1))
    = ∑ r : Fin 32, ∑ c : Fin 256, keptPx (msk y b (bandRow h r) c) (nrm48 4 (by omega) x y b (bandRow h r) c) := by
  show k0_pay29 (gt (yTile y b h)) (sqA (xTile x b h) (yTile y b h)) (ix1 (0 : Fin 1)) = _
  unfold k0_pay29 k0_pay28
  refine (tileSum _).trans (Finset.sum_congr rfl fun r _ => Finset.sum_congr rfl fun c _ => ?_)
  show Scalar.select (gt (yTile y b h) (ix3 (0 : Fin 1) r c))
    (k0_pay27 (sqA (xTile x b h) (yTile y b h)) (ix3 (0 : Fin 1) r c)) (Ideal.ofBits .f32 0x00000000#32) = _
  rw [gt_band, nrmA_band]
  rfl

theorem part5 : part2 (xTile x b h) (yTile y b h) 5 (ix1 (0 : Fin 1))
    = ∑ r : Fin 32, ∑ c : Fin 256, indPx (keptPx (msk y b (bandRow h r) c) (nrm48 4 (by omega) x y b (bandRow h r) c)) := by
  show k0_pay30 (gt (yTile y b h)) (sqA (xTile x b h) (yTile y b h)) (ix1 (0 : Fin 1)) = _
  unfold k0_pay30 k0_pay28
  refine (tileSum _).trans (Finset.sum_congr rfl fun r _ => Finset.sum_congr rfl fun c _ => ?_)
  show indPx (Scalar.select (gt (yTile y b h) (ix3 (0 : Fin 1) r c))
    (k0_pay27 (sqA (xTile x b h) (yTile y b h)) (ix3 (0 : Fin 1) r c)) (Ideal.ofBits .f32 0x00000000#32)) = _
  rw [gt_band, nrmA_band]
  rfl

theorem part6 : part2 (xTile x b h) (yTile y b h) 6 (ix1 (0 : Fin 1))
    = ∑ r : Fin 32, ∑ c : Fin 256, nrm48 4 (by omega) x y b (bandRow h r) c := by
  show k0_pay31 (sqA (xTile x b h) (yTile y b h)) (ix1 (0 : Fin 1)) = _
  unfold k0_pay31
  exact (tileSum _).trans (Finset.sum_congr rfl fun r _ => Finset.sum_congr rfl fun c _ => nrmA_band x y b h r c)

theorem part7 : part2 (xTile x b h) (yTile y b h) 7 (ix1 (0 : Fin 1))
    = ∑ r : Fin 32, ∑ c : Fin 256, keptPx (msk y b (bandRow h r) c) (nrm48 52 (by omega) x y b (bandRow h r) c) := by
  show k0_pay34 (k0_pay10 (xTile x b h)) (k0_pay16 (yTile y b h)) (gt (yTile y b h)) (ix1 (0 : Fin 1)) = _
  unfold k0_pay34 k0_pay33
  refine (tileSum _).trans (Finset.sum_congr rfl fun r _ => Finset.sum_congr rfl fun c _ => ?_)
  show Scalar.select (gt (yTile y b h) (ix3 (0 : Fin 1) r c))
    (k0_pay32 (k0_pay10 (xTile x b h)) (k0_pay16 (yTile y b h)) (ix3 (0 : Fin 1) r c)) (Ideal.ofBits .f32 0x00000000#32) = _
  rw [gt_band, nrmB_band]
  rfl

theorem part8 : part2 (xTile x b h) (yTile y b h) 8 (ix1 (0 : Fin 1))
    = ∑ r : Fin 32, ∑ c : Fin 256, indPx (keptPx (msk y b (bandRow h r) c) (nrm48 52 (by omega) x y b (bandRow h r) c)) := by
  show k0_pay35 (k0_pay10 (xTile x b h)) (k0_pay16 (yTile y b h)) (gt (yTile y b h)) (ix1 (0 : Fin 1)) = _
  unfold k0_pay35 k0_pay33
  refine (tileSum _).trans (Finset.sum_congr rfl fun r _ => Finset.sum_congr rfl fun c _ => ?_)
  show indPx (Scalar.select (gt (yTile y b h) (ix3 (0 : Fin 1) r c))
    (k0_pay32 (k0_pay10 (xTile x b h)) (k0_pay16 (yTile y b h)) (ix3 (0 : Fin 1) r c)) (Ideal.ofBits .f32 0x00000000#32)) = _
  rw [gt_band, nrmB_band]
  rfl

theorem part9 : part2 (xTile x b h) (yTile y b h) 9 (ix1 (0 : Fin 1))
    = ∑ r : Fin 32, ∑ c : Fin 256, nrm48 52 (by omega) x y b (bandRow h r) c := by
  show k0_pay36 (k0_pay10 (xTile x b h)) (k0_pay16 (yTile y b h)) (ix1 (0 : Fin 1)) = _
  unfold k0_pay36
  exact (tileSum _).trans (Finset.sum_congr rfl fun r _ => Finset.sum_congr rfl fun c _ => nrmB_band x y b h r c)

end Parts

end Cert.KernelIdeal.TileColumns

end
-- ==== Proof.ReferenceNorms.lean ====
/-
  The reference's channel norms and mask, read at a pixel.

  The reference cuts channels out of the two argument arrays, takes the sigmoid `1 / (1 + exp (-u))` of the 48-channel
  blocks, and forms the Euclidean norm over the channels of a difference: at image `b`, row `R`, column `c` these are
  the per-pixel quantities of the two arrays' entries there. The sigmoid so spelled is the logistic function, and the
  channel sum starts from the scalar zero.
-/
import proofs.«112959_j30356828848315_1_alg».proof.Proof.ReferenceRun.Terms
import proofs.«112959_j30356828848315_1_alg».proof.Proof.Gen.ReferenceIdeal
import proofs.«112959_j30356828848315_1_alg».proof.Proof.PixelTerms
import Idealize.ShloMosaic.Lib.Pipeline.Value
import Idealize.ShloMosaic.PureOps.Ideal.Laws

noncomputable section

open scoped BigOperators

namespace Cert.ReferenceIdeal.RefNorms

open Cert.ReferenceIdeal Cert.ReferenceIdeal.RefRun Idealize.ShloMosaic Idealize.ShloMosaic.ValueIdx Cert.PixelTerms
open Cert.ReferenceIdeal.Facts₀ Cert.ReferenceIdeal.Facts

/-- The scalar one is the extended real one. -/
theorem ofBits_one : Ideal.ofBits .f32 0x3F800000#32 = (1 : EReal) := by
  have h : Ideal.ofBits .f32 0x3F800000#32 = ((1 : ℝ) : EReal) := by
    simp [Ideal.ofBits, Ideal.ieee, -EReal.coe_mul]; norm_num
  rw [h, EReal.coe_one]

/-- The sigmoid as the reference spells it, at one element: the logistic function. -/
theorem sigm_elt (u : EReal) :
    Ideal.div (Ideal.ofBits .f32 0x3F800000#32) (Ideal.ofBits .f32 0x3F800000#32 + Ideal.exp (-u)) = Ideal.logistic u := by
  rw [ofBits_one]; rfl

/-! ## The channel sums at a pixel -/

/-- The host's sum over the three channels of a `4×3×256×256` block from the scalar zero, at a pixel. -/
theorem chanSum3 (v : FVec Ideal S4x3x256x256 .f32) (b : Fin 4) (R c : Fin 256) :
    Host.reduceAdd (F := Ideal) v RefRun.zero reducesTo_S4x3x256x256_S4x256x256_d1 h_S_ (ix3 b R c)
      = ∑ ch : Fin 3, v (ix4 b ch R c) := by
  show Ideal.hostReduceAdd reducesTo_S4x3x256x256_S4x256x256_d1 v (Ideal.ofBits .f32 0x00000000#32) (ix3 b R c) = _
  rw [Ideal.hostReduceAdd_single reducesTo_S4x3x256x256_S4x256x256_d1 (by decide : S4x3x256x256.Reduces [1] S4x256x256),
    Ideal.ofBits_zero_f32, zero_add]
  show ∑ k : Fin 3, _ = _
  refine Finset.sum_congr rfl fun k _ => congrArg v (funext fun a => Fin.ext ?_)
  match a with
  | ⟨0, _⟩ => rfl
  | ⟨1, _⟩ => rfl
  | ⟨2, _⟩ => rfl
  | ⟨3, _⟩ => rfl

/-- The host's sum over the forty-eight channels of a `4×48×256×256` block from the scalar zero, at a pixel. -/
theorem chanSum48 (v : FVec Ideal S4x48x256x256 .f32) (b : Fin 4) (R c : Fin 256) :
    Host.reduceAdd (F := Ideal) v RefRun.zero reducesTo_S4x48x256x256_S4x256x256_d1 h_S_ (ix3 b R c)
      = ∑ ch : Fin 48, v (ix4 b ch R c) := by
  show Ideal.hostReduceAdd reducesTo_S4x48x256x256_S4x256x256_d1 v (Ideal.ofBits .f32 0x00000000#32) (ix3 b R c) = _
  rw [Ideal.hostReduceAdd_single reducesTo_S4x48x256x256_S4x256x256_d1 (by decide : S4x48x256x256.Reduces [1] S4x256x256),
    Ideal.ofBits_zero_f32, zero_add]
  show ∑ k : Fin 48, _ = _
  refine Finset.sum_congr rfl fun k _ => congrArg v (funext fun a => Fin.ext ?_)
  match a with
  | ⟨0, _⟩ => rfl
  | ⟨1, _⟩ => rfl
  | ⟨2, _⟩ => rfl
  | ⟨3, _⟩ => rfl

/-! ## The arguments' parts at a pixel -/

section Parts
variable (x : FVec Ideal S4x134x256x256 .f32) (y : FVec Ideal S4x101x256x256 .f32) (b : Fin 4) (R c : Fin 256)

theorem xColour_at (ch : Fin 3) : xColour x (ix4 b ch R c) = x (ix4 b (⟨ch.val, by omega⟩ : Fin 134) R c) := by
  unfold xColour
  refine extractStridedSlice_apply _ x _ _ _ fun a => ?_
  match a with
  | ⟨0, _⟩ => exact (Nat.zero_add _).symm
  | ⟨1, _⟩ => exact (Nat.zero_add _).symm
  | ⟨2, _⟩ => exact (Nat.zero_add _).symm
  | ⟨3, _⟩ => exact (Nat.zero_add _).symm

theorem yColour_at (ch : Fin 3) : yColour y (ix4 b ch R c) = y (ix4 b (⟨ch.val, by omega⟩ : Fin 101) R c) := by
  unfold yColour
  refine extractStridedSlice_apply _ y _ _ _ fun a => ?_
  match a with
  | ⟨0, _⟩ => exact (Nat.zero_add _).symm
  | ⟨1, _⟩ => exact (Nat.zero_add _).symm
  | ⟨2, _⟩ => exact (Nat.zero_add _).symm
  | ⟨3, _⟩ => exact (Nat.zero_add _).symm

theorem xSigA_at (ch : Fin 48) : xSigA x (ix4 b ch R c) = Ideal.logistic (x (ix4 b (⟨4 + ch.val, by omega⟩ : Fin 134) R c)) := by
  unfold xSigA sigm48
  show Ideal.div (Ideal.ofBits .f32 0x3F800000#32) (Ideal.ofBits .f32 0x3F800000#32
    + Ideal.exp (-(extractStridedSlice S4x48x256x256 ![0, 4, 0, 0] x _ (ix4 b ch R c)))) = _
  rw [sigm_elt]
  refine congrArg Ideal.logistic (extractStridedSlice_apply _ x _ _ _ fun a => ?_)
  match a with
  | ⟨0, _⟩ => exact (Nat.zero_add _).symm
  | ⟨1, _⟩ => rfl
  | ⟨2, _⟩ => exact (Nat.zero_add _).symm
  | ⟨3, _⟩ => exact (Nat.zero_add _).symm

theorem xSigB_at (ch : Fin 48) : xSigB x (ix4 b ch R c) = Ideal.logistic (x (ix4 b (⟨52 + ch.val, by omega⟩ : Fin 134) R c)) := by
  unfold xSigB sigm48
  show Ideal.div (Ideal.ofBits .f32 0x3F800000#32) (Ideal.ofBits .f32 0x3F800000#32
    + Ideal.exp (-(extractStridedSlice S4x48x256x256 ![0, 52, 0, 0] x _ (ix4 b ch R c)))) = _
  rw [sigm_elt]
  refine congrArg Ideal.logistic (extractStridedSlice_apply _ x _ _ _ fun a => ?_)
  match a with
  | ⟨0, _⟩ => exact (Nat.zero_add _).symm
  | ⟨1, _⟩ => rfl
  | ⟨2, _⟩ => exact (Nat.zero_add _).symm
  | ⟨3, _⟩ => exact (Nat.zero_add _).symm

theorem ySigA_at (ch : Fin 48) : ySigA y (ix4 b ch R c) = Ideal.logistic (y (ix4 b (⟨4 + ch.val, by omega⟩ : Fin 101) R c)) := by
  unfold ySigA sigm48
  show Ideal.div (Ideal.ofBits .f32 0x3F800000#32) (Ideal.ofBits .f32 0x3F800000#32
    + Ideal.exp (-(extractStridedSlice S4x48x256x256 ![0, 4, 0, 0] y _ (ix4 b ch R c)))) = _
  rw [sigm_elt]
  refine congrArg Ideal.logistic (extractStridedSlice_apply _ y _ _ _ fun a => ?_)
  match a with
  | ⟨0, _⟩ => exact (Nat.zero_add _).symm
  | ⟨1, _⟩ => rfl
  | ⟨2, _⟩ => exact (Nat.zero_add _).symm
  | ⟨3, _⟩ => exact (Nat.zero_add _).symm

theorem ySigB_at (ch : Fin 48) : ySigB y (ix4 b ch R c) = Ideal.logistic (y (ix4 b (⟨52 + ch.val, by omega⟩ : Fin 101) R c)) := by
  unfold ySigB sigm48
  show Ideal.div (Ideal.ofBits .f32 0x3F800000#32) (Ideal.ofBits .f32 0x3F800000#32
    + Ideal.exp (-(extractStridedSlice S4x48x256x256 ![0, 52, 0, 0] y _ (ix4 b ch R c)))) = _
  rw [sigm_elt]
  refine congrArg Ideal.logistic (extractStridedSlice_apply _ y _ _ _ fun a => ?_)
  match a with
  | ⟨0, _⟩ => exact (Nat.zero_add _).symm
  | ⟨1, _⟩ => rfl
  | ⟨2, _⟩ => exact (Nat.zero_add _).symm
  | ⟨3, _⟩ => exact (Nat.zero_add _).symm

/-- The mask map at a pixel: channel 3 of `y`. -/
theorem yMask_at : yMask y (ix3 b R c) = msk y b R c := by
  unfold yMask
  refine (shapeCast_apply _ _ (ix3 b R c) (ix4 b (0 : Fin 1) R c) ?_).trans ?_
  · rw [Shape.rowMajor_val_four, Shape.rowMajor_val_three]
    show ((b.val * 1 + 0) * 256 + R.val) * 256 + c.val = (b.val * 256 + R.val) * 256 + c.val
    omega
  · refine extractStridedSlice_apply _ y _ _ _ fun a => ?_
    match a with
    | ⟨0, _⟩ => exact (Nat.zero_add _).symm
    | ⟨1, _⟩ => rfl
    | ⟨2, _⟩ => exact (Nat.zero_add _).symm
    | ⟨3, _⟩ => exact (Nat.zero_add _).symm

/-- The first channel norm at a pixel. -/
theorem diffNorm3_at : diffNorm3 (xColour x) (yColour y) (ix3 b R c) = nrm3 x y b R c := by
  unfold diffNorm3
  show Ideal.sqrt (Host.reduceAdd (F := Ideal) _ RefRun.zero reducesTo_S4x3x256x256_S4x256x256_d1 h_S_ (ix3 b R c)) = _
  rw [chanSum3]
  refine congrArg Ideal.sqrt (Finset.sum_congr rfl fun ch _ => ?_)
  show (xColour x (ix4 b ch R c) - yColour y (ix4 b ch R c)) * (xColour x (ix4 b ch R c) - yColour y (ix4 b ch R c)) = _
  rw [xColour_at, yColour_at]
  rfl

/-- The second channel norm at a pixel. -/
theorem diffNormA_at : diffNorm48 (xSigA x) (ySigA y) (ix3 b R c) = nrm48 4 (by omega) x y b R c := by
  unfold diffNorm48
  show Ideal.sqrt (Host.reduceAdd (F := Ideal) _ RefRun.zero reducesTo_S4x48x256x256_S4x256x256_d1 h_S_ (ix3 b R c)) = _
  rw [chanSum48]
  refine congrArg Ideal.sqrt (Finset.sum_congr rfl fun ch _ => ?_)
  show (xSigA x (ix4 b ch R c) - ySigA y (ix4 b ch R c)) * (xSigA x (ix4 b ch R c) - ySigA y (ix4 b ch R c)) = _
  rw [xSigA_at, ySigA_at]
  rfl

/-- The third channel norm at a pixel. -/
theorem diffNormB_at : diffNorm48 (xSigB x) (ySigB y) (ix3 b R c) = nrm48 52 (by omega) x y b R c := by
  unfold diffNorm48
  show Ideal.sqrt (Host.reduceAdd (F := Ideal) _ RefRun.zero reducesTo_S4x48x256x256_S4x256x256_d1 h_S_ (ix3 b R c)) = _
  rw [chanSum48]
  refine congrArg Ideal.sqrt (Finset.sum_congr rfl fun ch _ => ?_)
  show (xSigB x (ix4 b ch R c) - ySigB y (ix4 b ch R c)) * (xSigB x (ix4 b ch R c) - ySigB y (ix4 b ch R c)) = _
  rw [xSigB_at, ySigB_at]
  rfl

end Parts

end Cert.ReferenceIdeal.RefNorms

end
-- ==== Proof.LibIndicatorCount.lean ====
/-
  Counting with 0/1 indicators, once on 32-bit integers and once on the extended reals.

  For one-bit words `p k` over a finite set `S` with fewer than 2³¹ members, the integer sum of the words widened to 32
  bits is the number `c` of ones; read as a signed integer and then as a real it is `c`, and so is the real sum of the
  widened words each read as a signed integer first. Hence "count > 0" and "max (count, 1)" mean the same whether the
  count is taken on integers and converted, or each indicator is converted and the count taken on the extended reals.
-/
import Idealize.ShloMosaic.PureOps.Ideal
import Idealize.ShloMosaic.Lib.IndicatorCount

noncomputable section

namespace Cert.LibIndicatorCount

open Idealize.ShloMosaic

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A natural number below 2³¹, as a 32-bit word read signed, is itself. -/
theorem toInt_ofNat32 (n : ℕ) (h : n < 2 ^ 31) : (BitVec.ofNat 32 n).toInt = (n : ℤ) := by
  rw [BitVec.toInt_eq_toNat_cond, BitVec.toNat_ofNat]
  have h1 : n % 2 ^ 32 = n := Nat.mod_eq_of_lt (by omega)
  rw [h1, if_pos (by omega)]

/-- A one-bit word widened to 32 bits and read signed is 1 if it is one and 0 otherwise. -/
theorem toInt_setWidth_bit (b : BitVec 1) : ((b.setWidth 32).toInt : ℤ) = if b = 1#1 then 1 else 0 := by
  have h : b = 0#1 ∨ b = 1#1 := by
    have := b.isLt
    rcases Nat.lt_or_ge b.toNat 1 with h | h
    · left; exact BitVec.eq_of_toNat_eq (by simp; omega)
    · right; exact BitVec.eq_of_toNat_eq (by simp; omega)
  rcases h with rfl | rfl <;> decide

/-- The number of ones among the `p k`, `k ∈ S`. -/
def ones {ι : Type} (S : Finset ι) (p : ι → BitVec 1) : ℕ := by
  classical exact (S.filter fun k => p k = 1#1).card

theorem ones_le_card {ι : Type} (S : Finset ι) (p : ι → BitVec 1) : ones S p ≤ S.card := by
  classical
  unfold ones
  exact Finset.card_filter_le _ _

/-- The integer count, read signed, is the number of ones. -/
theorem fold_toInt {ι : Type} (S : Finset ι) (p : ι → BitVec 1) (hS : S.card < 2 ^ 31) :
    (S.fold IntOp.addi (0#32) (fun k => (p k).setWidth 32)).toInt = (ones S p : ℤ) := by
  classical
  rw [IndicatorCount.fold_addi_setWidth_eq_card]
  exact toInt_ofNat32 _ (lt_of_le_of_lt (ones_le_card S p) hS)

/-- The sum over `S` of the indicators, each read as a signed integer and then as an extended real, is the number of ones. -/
theorem sum_indicators {ι : Type} (S : Finset ι) (p : ι → BitVec 1) :
    ∑ k ∈ S, ((((p k).setWidth 32).toInt : ℝ) : EReal) = (((ones S p : ℕ) : ℝ) : EReal) := by
  classical
  rw [← coe_sum]
  congr 1
  unfold ones
  rw [Finset.card_filter]
  push_cast
  refine Finset.sum_congr rfl fun k _ => ?_
  rw [toInt_setWidth_bit]
  split <;> simp

/-- The integer count converted equals the count of converted indicators. -/
theorem count_convert {ι : Type} (S : Finset ι) (p : ι → BitVec 1) (hS : S.card < 2 ^ 31) :
    ((((S.fold IntOp.addi (0#32) (fun k => (p k).setWidth 32)).toInt : ℤ) : ℝ) : EReal)
      = ∑ k ∈ S, ((((p k).setWidth 32).toInt : ℝ) : EReal) := by
  rw [fold_toInt S p hS, sum_indicators]
  norm_cast

/-- "The signed word is greater than zero" is "its integer value is positive". -/
theorem cmpi_sgt_zero (x : BitVec 32) : IntOp.cmpi .sgt x 0#32 = BitVec.ofBool (decide (0 < x.toInt)) := by
  unfold IntOp.cmpi
  congr 1

/-- The signed maximum with one has the integer value max (value, 1). -/
theorem maxsi_one_toInt (x : BitVec 32) : (IntOp.maxsi x 1#32).toInt = max x.toInt 1 := by
  unfold IntOp.maxsi
  rw [BitVec.slt_eq_decide]
  have h1 : (1#32 : BitVec 32).toInt = 1 := by decide
  by_cases h : (1#32 : BitVec 32).toInt < x.toInt
  · rw [if_pos (by simpa using h)]
    rw [h1] at h
    exact (max_eq_left h.le).symm
  · rw [if_neg (by simpa using h), h1]
    rw [h1] at h
    exact (max_eq_right (not_lt.mp h)).symm

/-- On the extended reals, "a real number exceeds 0" is decided on the real. -/
theorem cmp_ogt_zero (z : ℝ) : Ideal.cmp .ogt ((z : ℝ) : EReal) (0 : EReal) = BitVec.ofBool (decide (0 < z)) := by
  unfold Ideal.cmp
  congr 1
  simp

/-- The larger of a real and 1, on the extended reals, is the real maximum. -/
theorem max_coe_one (z : ℝ) : max ((z : ℝ) : EReal) (((1 : ℝ)) : EReal) = ((max z 1 : ℝ) : EReal) := by
  rcases le_total z 1 with h | h
  · rw [max_eq_right h, max_eq_right (by exact_mod_cast h)]
  · rw [max_eq_left h, max_eq_left (by exact_mod_cast h)]

end Cert.LibIndicatorCount

end
-- ==== Proof.MaskedMeanLaw.lean ====
/-
  The masked mean of a `4×256×256` map, from per-image sums taken band by band.

  For a map `nrm` and a mask `msk` the reference flattens each image to 65536 points, keeps `nrm` where the mask
  exceeds 0.7, counts the kept values that are not zero on 32-bit integers, and takes per image the kept sum over the
  count (at least one) where the count is positive and the plain mean elsewhere; then the mean over the four images.
  The other program holds, per image, three sums taken over bands, rows of a band and columns: the kept values, the
  indicators "kept value not zero" as real numbers, and the values of `nrm`; it compares and divides on the reals.
  A point of the flattened image is a row and a column, and the rows are the bands' rows, so the sums agree; the integer
  count of fewer than 2³¹ indicators, converted, is the real sum of the converted indicators, so "positive" and
  "at least one" mean the same on both sides.
-/
import proofs.«112959_j30356828848315_1_alg».proof.Proof.KernelTail
import proofs.«112959_j30356828848315_1_alg».proof.Proof.ReferenceRun.Terms
import proofs.«112959_j30356828848315_1_alg».proof.Proof.Gen.ReferenceIdeal
import proofs.«112959_j30356828848315_1_alg».proof.Proof.LibIndicatorCount
import proofs.«112959_j30356828848315_1_alg».proof.Proof.LibFinite
import proofs.«112959_j30356828848315_1_alg».proof.Proof.IndexSums
import proofs.«112959_j30356828848315_1_alg».proof.Proof.PixelTerms
import Idealize.ShloMosaic.Lib.Pipeline.Value
import Idealize.ShloMosaic.PureOps.Ideal.Laws

noncomputable section

open scoped BigOperators

namespace Cert.MaskedMeanLaw

open Cert.ReferenceIdeal Cert.ReferenceIdeal.RefRun Idealize.ShloMosaic Idealize.ShloMosaic.ValueIdx
open Cert.ReferenceIdeal.Facts₀ Cert.ReferenceIdeal.Facts Cert.IndexSums Cert.PixelTerms

/-- A `4×65536` array reduces along its second axis to four values. -/
theorem red65536 : S4x65536.Reduces [1] S4 := by decide

/-- The index of point `p` of image `b`. -/
theorem lift_flat (b : Fin 4) (p : Fin 65536) : red65536.lift (ix1 b) p = ix2 b p := by
  funext a
  refine Fin.ext ?_
  match a with
  | ⟨0, _⟩ => rfl
  | ⟨1, _⟩ => rfl

/-- The host's sum of image `b` of a `4×65536` array from the scalar zero: zero plus the sum over the points. -/
theorem hostSum_flat (v : FVec Ideal S4x65536 .f32) (b : Fin 4) :
    Host.reduceAdd (F := Ideal) v RefRun.zero reducesTo_S4x65536_S4_d1 h_S_ (ix1 b) = 0 + ∑ p : Fin 65536, v (ix2 b p) := by
  show Ideal.hostReduceAdd reducesTo_S4x65536_S4_d1 v (Ideal.ofBits .f32 0x00000000#32) (ix1 b) = _
  rw [Ideal.hostReduceAdd_single reducesTo_S4x65536_S4_d1 red65536, Ideal.ofBits_zero_f32]
  refine congrArg (0 + ·) ?_
  show ∑ k : Fin 65536, v (red65536.lift (ix1 b) k) = _
  exact Finset.sum_congr rfl fun k _ => congrArg v (lift_flat b k)

/-- A flattened image at the point of row `R`, column `c` is the image at `(R, c)`. -/
theorem flat_at (w : FVec Ideal S4x256x256 .f32) (b : Fin 4) (R c : Fin 256) :
    shapeCast S4x65536 w shapeCasts_S4x256x256_S4x65536 (ix2 b (flatPoint R c)) = w (ix3 b R c) := by
  refine shapeCast_apply _ _ _ _ ?_
  rw [Shape.rowMajor_val_three, Shape.rowMajor_val_two]
  show (b.val * 256 + R.val) * 256 + c.val = b.val * 65536 + (256 * R.val + c.val)
  omega

/-- The host's sum of image `b` of a flattened map: zero plus the sum over bands, rows of a band and columns. -/
theorem hostSum_image (w : FVec Ideal S4x256x256 .f32) (b : Fin 4) :
    Host.reduceAdd (F := Ideal) (shapeCast S4x65536 w shapeCasts_S4x256x256_S4x65536) RefRun.zero reducesTo_S4x65536_S4_d1 h_S_ (ix1 b)
      = 0 + ∑ h : Fin 8, ∑ r : Fin 32, ∑ c : Fin 256, w (ix3 b (bandRow h r) c) := by
  rw [hostSum_flat, sum_flat_bands]
  refine congrArg (0 + ·) ?_
  exact Finset.sum_congr rfl fun h _ => Finset.sum_congr rfl fun r _ => Finset.sum_congr rfl fun c _ => flat_at w b _ c

section Law
variable (nrm msk : FVec Ideal S4x256x256 .f32)

/-- The kept map at a point of the flattened image. -/
theorem kept_at (b : Fin 4) (R c : Fin 256) :
    RefRun.kept nrm msk (ix2 b (flatPoint R c)) = keptPx (msk (ix3 b R c)) (nrm (ix3 b R c)) := by
  unfold RefRun.kept
  exact flat_at _ b R c

/-- The sum of the kept values of image `b`. -/
theorem keptSum (b : Fin 4) :
    Host.reduceAdd (F := Ideal) (RefRun.kept nrm msk) RefRun.zero reducesTo_S4x65536_S4_d1 h_S_ (ix1 b)
      = 0 + ∑ h : Fin 8, ∑ r : Fin 32, ∑ c : Fin 256, keptPx (msk (ix3 b (bandRow h r) c)) (nrm (ix3 b (bandRow h r) c)) := by
  unfold RefRun.kept
  exact hostSum_image _ b

/-- The one-bit word "the kept value at point `p` of image `b` is not zero". -/
def bit (b : Fin 4) (p : Fin 65536) : BitVec 1 :=
  Ideal.cmp .one (RefRun.kept nrm msk (ix2 b p)) (Ideal.ofBits .f32 0x00000000#32)

/-- The integer count of image `b`: the fold by addition of the widened bits over the points. -/
theorem count_at (b : Fin 4) :
    RefRun.keptCount nrm msk (ix1 b)
      = (Finset.univ : Finset (Fin 65536)).fold IntOp.addi 0#32 (fun p => (bit nrm msk b p).setWidth 32) := by
  unfold RefRun.keptCount
  refine (Host.reduce_eq_fold_single IntOp.addi _ _ reducesTo_S4x65536_S4_d1 red65536 h_S_ (ix1 b)).trans ?_
  show (Finset.univ : Finset (Fin 65536)).fold IntOp.addi 0#32 _ = _
  refine Finset.fold_congr fun p _ => ?_
  show (Ideal.cmp .one (RefRun.kept nrm msk (red65536.lift (ix1 b) p)) (Ideal.ofBits .f32 0x00000000#32)).setWidth 32 = _
  rw [lift_flat]
  rfl

/-- The number of kept values of image `b` that are not zero. -/
def cnt (b : Fin 4) : ℕ := Cert.LibIndicatorCount.ones (Finset.univ : Finset (Fin 65536)) (bit nrm msk b)

/-- The integer count, read signed, is that number. -/
theorem count_toInt (b : Fin 4) : (RefRun.keptCount nrm msk (ix1 b)).toInt = (cnt nrm msk b : ℤ) := by
  rw [count_at]
  exact Cert.LibIndicatorCount.fold_toInt _ _ (by rw [Finset.card_univ, Fintype.card_fin]; norm_num)

/-- The sum over bands, rows and columns of the converted indicators is that number, as a real. -/
theorem indSum (b : Fin 4) :
    (0 : EReal) + ∑ h : Fin 8, ∑ r : Fin 32, ∑ c : Fin 256,
        indPx (keptPx (msk (ix3 b (bandRow h r) c)) (nrm (ix3 b (bandRow h r) c)))
      = (((cnt nrm msk b : ℕ) : ℝ) : EReal) := by
  rw [zero_add]
  have h := Cert.LibIndicatorCount.sum_indicators (Finset.univ : Finset (Fin 65536)) (bit nrm msk b)
  rw [sum_flat_bands] at h
  refine Eq.trans ?_ h
  refine Finset.sum_congr rfl fun h _ => Finset.sum_congr rfl fun r _ => Finset.sum_congr rfl fun c _ => ?_
  show indPx _ = indPx (RefRun.kept nrm msk (ix2 b (flatPoint (bandRow h r) c)))
  rw [kept_at]

variable (c1 c2 c3 : FVec Ideal S4 .f32)
  (h1 : ∀ b : Fin 4, c1 (ix1 b)
    = 0 + ∑ h : Fin 8, ∑ r : Fin 32, ∑ c : Fin 256, keptPx (msk (ix3 b (bandRow h r) c)) (nrm (ix3 b (bandRow h r) c)))
  (h2 : ∀ b : Fin 4, c2 (ix1 b)
    = 0 + ∑ h : Fin 8, ∑ r : Fin 32, ∑ c : Fin 256, indPx (keptPx (msk (ix3 b (bandRow h r) c)) (nrm (ix3 b (bandRow h r) c))))
  (h3 : ∀ b : Fin 4, c3 (ix1 b) = 0 + ∑ h : Fin 8, ∑ r : Fin 32, ∑ c : Fin 256, nrm (ix3 b (bandRow h r) c))

include h1 h2 h3 in
/-- Per image the two programs' quotients agree. -/
theorem perSample_eq_perImage : Cert.KernelIdeal.Tail.perSample c1 c2 c3 = RefRun.perImage nrm msk := by
  funext j
  obtain ⟨b, rfl⟩ : ∃ b : Fin 4, j = ix1 b := ⟨j 0, eq_ix1 j⟩
  have eK := (keptSum nrm msk b).trans (h1 b).symm
  have eN := (hostSum_image nrm b).trans (h3 b).symm
  have e2 : c2 (ix1 b) = (((cnt nrm msk b : ℕ) : ℝ) : EReal) := (h2 b).trans (indSum nrm msk b)
  have eI := count_toInt nrm msk b
  show Scalar.select (Ideal.cmp .ogt (c2 (ix1 b)) (Ideal.ofBits .f32 0x00000000#32))
      (Ideal.div (c1 (ix1 b)) (max (c2 (ix1 b)) (Ideal.ofBits .f32 0x3F800000#32)))
      (Ideal.div (c3 (ix1 b)) (Ideal.ofBits .f32 0x47800000#32))
    = Scalar.select (IntOp.cmpi .sgt (RefRun.keptCount nrm msk (ix1 b)) 0#32)
      (Ideal.div (Host.reduceAdd (F := Ideal) (RefRun.kept nrm msk) RefRun.zero reducesTo_S4x65536_S4_d1 h_S_ (ix1 b))
        ((((IntOp.maxsi (RefRun.keptCount nrm msk (ix1 b)) 1#32).toInt : ℝ)) : EReal))
      (Ideal.div (Host.reduceAdd (F := Ideal) (shapeCast S4x65536 nrm shapeCasts_S4x256x256_S4x65536) RefRun.zero
        reducesTo_S4x65536_S4_d1 h_S_ (ix1 b)) (Ideal.ofBits .f32 0x47800000#32))
  rw [eK, eN, e2, Ideal.ofBits_zero_f32, Cert.LibIndicatorCount.cmp_ogt_zero, Cert.LibIndicatorCount.cmpi_sgt_zero,
    Cert.LibIndicatorCount.maxsi_one_toInt, eI, Cert.LibFinite.ofBits_one, Cert.LibIndicatorCount.max_coe_one]
  have hd : decide ((0 : ℝ) < ((cnt nrm msk b : ℕ) : ℝ)) = decide ((0 : ℤ) < ((cnt nrm msk b : ℕ) : ℤ)) := by
    rw [decide_eq_decide, Nat.cast_pos, Nat.cast_pos]
  have hm : (((max ((cnt nrm msk b : ℕ) : ℤ) 1 : ℤ) : ℝ)) = max (((cnt nrm msk b : ℕ) : ℝ)) 1 := by
    push_cast; rfl
  rw [hd, hm]

include h1 h2 h3 in
/-- The mean over the four images of the per-image quotients is the reference's masked mean. -/
theorem meanOver_eq_maskedMean :
    Cert.KernelIdeal.Tail.meanOver (Cert.KernelIdeal.Tail.perSample c1 c2 c3) 0x40800000#32 = RefRun.maskedMean nrm msk := by
  rw [perSample_eq_perImage nrm msk c1 c2 c3 h1 h2 h3]
  rfl

end Law

end Cert.MaskedMeanLaw

end
-- ==== Proof.MaskedMeans.lean ====
/-
  The three masked channel-norm means: the host's reading of columns 1–9 of the per-image statistics is the
  reference's masked mean of the corresponding channel norm.

  Column `3 k + 1`, `3 k + 2`, `3 k + 3` of image `b` hold zero plus the sums over bands, rows of a band and columns
  of the kept norm, of its not-zero indicator and of the norm, for the norm of channels 0‥3 (`k = 0`), of the logistic
  functions of channels 4‥52 (`k = 1`) and of channels 52‥100 (`k = 2`); the per-pixel quantities are the reference's
  norm map and mask map at that pixel; so the law of the masked mean applies three times.
-/
import proofs.«112959_j30356828848315_1_alg».proof.Proof.TileColumns
import proofs.«112959_j30356828848315_1_alg».proof.Proof.ReferenceNorms
import proofs.«112959_j30356828848315_1_alg».proof.Proof.MaskedMeanLaw

noncomputable section

open scoped BigOperators

namespace Cert.MaskedMeans

open KernelIdeal KernelIdeal.Gen KernelIdeal.Tile KernelIdeal.TileColumns Idealize.ShloMosaic Idealize.ShloMosaic.ValueIdx
open ReferenceIdeal.RefNorms IndexSums PixelTerms

/-- Column `i` of the statistics at image `b`, through the host's cast, slice and cast. -/
theorem col_read (a0 : FVec Ideal S4x1x11 .f32) (i : Fin 11) (hs : S4x11.Slices ![0, i.val] S4x1) (b : Fin 4) :
    shapeCast S4 (extractStridedSlice S4x1 ![0, i.val] (shapeCast S4x11 a0 shapeCasts_S4x1x11_S4x11) hs) shapeCasts_S4x1_S4 (ix1 b)
      = a0 (ix3 b (0 : Fin 1) i) := by
  refine (shapeCast_apply _ _ (ix1 b) (ix2 b (0 : Fin 1)) ?_).trans ?_
  · rw [Shape.rowMajor_val_two, Shape.rowMajor_val_one]
    show b.val * 1 + 0 = b.val
    omega
  refine (extractStridedSlice_apply _ _ hs (ix2 b (0 : Fin 1)) (ix2 b i) fun a => ?_).trans ?_
  · match a with
    | ⟨0, _⟩ => exact (Nat.zero_add _).symm
    | ⟨1, _⟩ => rfl
  refine shapeCast_apply _ _ (ix2 b i) (ix3 b (0 : Fin 1) i) ?_
  rw [Shape.rowMajor_val_three, Shape.rowMajor_val_two]
  show (b.val * 1 + 0) * 11 + i.val = b.val * 11 + i.val
  omega

section
variable (x : FVec Ideal S4x134x256x256 .f32) (y : FVec Ideal S4x101x256x256 .f32)

/-- The statistics as the host reads them: a `4×11` table. -/
abbrev st : FVec Ideal S4x11 .f32 := shapeCast S4x11 (Tile.stats x y) shapeCasts_S4x1x11_S4x11

/-- A column of image `b` as a sum over bands, rows and columns, from the band's partial sum as such a sum. -/
theorem col_sum (i : Fin 11) (b : Fin 4) (f : Fin 256 → Fin 256 → EReal)
    (hp : ∀ h : Fin 8, part2 (xTile x b h) (yTile y b h) i (ix1 (0 : Fin 1)) = ∑ r : Fin 32, ∑ c : Fin 256, f (bandRow h r) c) :
    Tile.stats x y (ix3 b (0 : Fin 1) i) = 0 + ∑ h : Fin 8, ∑ r : Fin 32, ∑ c : Fin 256, f (bandRow h r) c :=
  (stats_apply x y b i).trans (congrArg (0 + ·) (Finset.sum_congr rfl fun h _ => hp h))

/-- The masked mean of the norm of channels 0‥3 of `x - y`. -/
theorem maskedMean3_eq :
    Tail.meanOver (Tail.perSample (Tail.col1 (st x y)) (Tail.col2 (st x y)) (Tail.col3 (st x y))) 0x40800000#32
      = ReferenceIdeal.RefRun.maskedMean
          (ReferenceIdeal.RefRun.diffNorm3 (ReferenceIdeal.RefRun.xColour x) (ReferenceIdeal.RefRun.yColour y))
          (ReferenceIdeal.RefRun.yMask y) := by
  refine MaskedMeanLaw.meanOver_eq_maskedMean _ _ _ _ _ (fun b => ?_) (fun b => ?_) (fun b => ?_)
  · refine (col_read (Tile.stats x y) 1 slices_S4x11_S4x1_0_1 b).trans
      (col_sum x y 1 b (fun R c => keptPx ((ReferenceIdeal.RefRun.yMask y) (ix3 b R c)) ((ReferenceIdeal.RefRun.diffNorm3 (ReferenceIdeal.RefRun.xColour x) (ReferenceIdeal.RefRun.yColour y)) (ix3 b R c))) fun h => ?_)
    exact (part1 x y b h).trans (Finset.sum_congr rfl fun r _ => Finset.sum_congr rfl fun c _ =>
      congrArg₂ keptPx (yMask_at y b _ c).symm (diffNorm3_at x y b _ c).symm)
  · refine (col_read (Tile.stats x y) 2 slices_S4x11_S4x1_0_2 b).trans
      (col_sum x y 2 b (fun R c => indPx (keptPx ((ReferenceIdeal.RefRun.yMask y) (ix3 b R c)) ((ReferenceIdeal.RefRun.diffNorm3 (ReferenceIdeal.RefRun.xColour x) (ReferenceIdeal.RefRun.yColour y)) (ix3 b R c)))) fun h => ?_)
    exact (part2' x y b h).trans (Finset.sum_congr rfl fun r _ => Finset.sum_congr rfl fun c _ =>
      congrArg indPx (congrArg₂ keptPx (yMask_at y b _ c).symm (diffNorm3_at x y b _ c).symm))
  · refine (col_read (Tile.stats x y) 3 slices_S4x11_S4x1_0_3 b).trans
      (col_sum x y 3 b (fun R c => (ReferenceIdeal.RefRun.diffNorm3 (ReferenceIdeal.RefRun.xColour x) (ReferenceIdeal.RefRun.yColour y)) (ix3 b R c)) fun h => ?_)
    exact (part3 x y b h).trans (Finset.sum_congr rfl fun r _ => Finset.sum_congr rfl fun c _ =>
      (diffNorm3_at x y b _ c).symm)

/-- The masked mean of the norm of the logistic functions of channels 4‥52. -/
theorem maskedMeanA_eq :
    Tail.meanOver (Tail.perSample (Tail.col4 (st x y)) (Tail.col5 (st x y)) (Tail.col6 (st x y))) 0x40800000#32
      = ReferenceIdeal.RefRun.maskedMean
          (ReferenceIdeal.RefRun.diffNorm48 (ReferenceIdeal.RefRun.xSigA x) (ReferenceIdeal.RefRun.ySigA y))
          (ReferenceIdeal.RefRun.yMask y) := by
  refine MaskedMeanLaw.meanOver_eq_maskedMean _ _ _ _ _ (fun b => ?_) (fun b => ?_) (fun b => ?_)
  · refine (col_read (Tile.stats x y) 4 slices_S4x11_S4x1_0_4 b).trans
      (col_sum x y 4 b (fun R c => keptPx ((ReferenceIdeal.RefRun.yMask y) (ix3 b R c)) ((ReferenceIdeal.RefRun.diffNorm48 (ReferenceIdeal.RefRun.xSigA x) (ReferenceIdeal.RefRun.ySigA y)) (ix3 b R c))) fun h => ?_)
    exact (part4 x y b h).trans (Finset.sum_congr rfl fun r _ => Finset.sum_congr rfl fun c _ =>
      congrArg₂ keptPx (yMask_at y b _ c).symm (diffNormA_at x y b _ c).symm)
  · refine (col_read (Tile.stats x y) 5 slices_S4x11_S4x1_0_5 b).trans
      (col_sum x y 5 b (fun R c => indPx (keptPx ((ReferenceIdeal.RefRun.yMask y) (ix3 b R c)) ((ReferenceIdeal.RefRun.diffNorm48 (ReferenceIdeal.RefRun.xSigA x) (ReferenceIdeal.RefRun.ySigA y)) (ix3 b R c)))) fun h => ?_)
    exact (part5 x y b h).trans (Finset.sum_congr rfl fun r _ => Finset.sum_congr rfl fun c _ =>
      congrArg indPx (congrArg₂ keptPx (yMask_at y b _ c).symm (diffNormA_at x y b _ c).symm))
  · refine (col_read (Tile.stats x y) 6 slices_S4x11_S4x1_0_6 b).trans
      (col_sum x y 6 b (fun R c => (ReferenceIdeal.RefRun.diffNorm48 (ReferenceIdeal.RefRun.xSigA x) (ReferenceIdeal.RefRun.ySigA y)) (ix3 b R c)) fun h => ?_)
    exact (part6 x y b h).trans (Finset.sum_congr rfl fun r _ => Finset.sum_congr rfl fun c _ =>
      (diffNormA_at x y b _ c).symm)

/-- The masked mean of the norm of the logistic functions of channels 52‥100. -/
theorem maskedMeanB_eq :
    Tail.meanOver (Tail.perSample (Tail.col7 (st x y)) (Tail.col8 (st x y)) (Tail.col9 (st x y))) 0x40800000#32
      = ReferenceIdeal.RefRun.maskedMean
          (ReferenceIdeal.RefRun.diffNorm48 (ReferenceIdeal.RefRun.xSigB x) (ReferenceIdeal.RefRun.ySigB y))
          (ReferenceIdeal.RefRun.yMask y) := by
  refine MaskedMeanLaw.meanOver_eq_maskedMean _ _ _ _ _ (fun b => ?_) (fun b => ?_) (fun b => ?_)
  · refine (col_read (Tile.stats x y) 7 slices_S4x11_S4x1_0_7 b).trans
      (col_sum x y 7 b (fun R c => keptPx ((ReferenceIdeal.RefRun.yMask y) (ix3 b R c)) ((ReferenceIdeal.RefRun.diffNorm48 (ReferenceIdeal.RefRun.xSigB x) (ReferenceIdeal.RefRun.ySigB y)) (ix3 b R c))) fun h => ?_)
    exact (part7 x y b h).trans (Finset.sum_congr rfl fun r _ => Finset.sum_congr rfl fun c _ =>
      congrArg₂ keptPx (yMask_at y b _ c).symm (diffNormB_at x y b _ c).symm)
  · refine (col_read (Tile.stats x y) 8 slices_S4x11_S4x1_0_8 b).trans
      (col_sum x y 8 b (fun R c => indPx (keptPx ((ReferenceIdeal.RefRun.yMask y) (ix3 b R c)) ((ReferenceIdeal.RefRun.diffNorm48 (ReferenceIdeal.RefRun.xSigB x) (ReferenceIdeal.RefRun.ySigB y)) (ix3 b R c)))) fun h => ?_)
    exact (part8 x y b h).trans (Finset.sum_congr rfl fun r _ => Finset.sum_congr rfl fun c _ =>
      congrArg indPx (congrArg₂ keptPx (yMask_at y b _ c).symm (diffNormB_at x y b _ c).symm))
  · refine (col_read (Tile.stats x y) 9 slices_S4x11_S4x1_0_9 b).trans
      (col_sum x y 9 b (fun R c => (ReferenceIdeal.RefRun.diffNorm48 (ReferenceIdeal.RefRun.xSigB x) (ReferenceIdeal.RefRun.ySigB y)) (ix3 b R c)) fun h => ?_)
    exact (part9 x y b h).trans (Finset.sum_congr rfl fun r _ => Finset.sum_congr rfl fun c _ =>
      (diffNormB_at x y b _ c).symm)

end

end Cert.MaskedMeans

end
-- ==== Proof.LibIdxSum.lean ====
/-
  Sums over the index sets of rank-1, rank-3, rank-4 and rank-5 shapes as iterated sums over the coordinates, and two
  ways of cutting the row range 0 … 255: into 8 bands of 32 rows, and (with the columns) the 65536 points of a 256 × 256
  image in row-major order. All over an arbitrary additive commutative monoid.
-/
import Idealize.ShloMosaic.Lib.ValueIdx
import proofs.«112959_j30356828848315_1_alg».proof.Proof.LibReindex

namespace Cert.LibIdxSum

open Idealize.ShloMosaic Idealize.ShloMosaic.ValueIdx

variable {M : Type*} [AddCommMonoid M]

/-- A rank-1 index set is its coordinate range. -/
def idxEquiv1 {n0 : Nat} : (⟨1, ![n0]⟩ : Shape).Idx ≃ Fin n0 where
  toFun i := i 0
  invFun p := ix1 p
  left_inv i := (eq_ix1 i).symm
  right_inv _ := rfl

theorem sum_idx1 {n0 : Nat} (f : (⟨1, ![n0]⟩ : Shape).Idx → M) : ∑ i, f i = ∑ a : Fin n0, f (ix1 a) := by
  rw [← Equiv.sum_comp (idxEquiv1 (n0 := n0)).symm f]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

theorem sum_idx4 {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A rank-5 index set is the product of its five coordinate ranges. -/
def idxEquiv5 {n0 n1 n2 n3 n4 : Nat} :
    (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

theorem sum_idx5 {n0 n1 n2 n3 n4 : Nat} (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f, Fintype.sum_prod_type]
  refine Finset.sum_congr rfl fun a _ => ?_
  rw [Fintype.sum_prod_type]
  refine Finset.sum_congr rfl fun b _ => ?_
  rw [Fintype.sum_prod_type]
  refine Finset.sum_congr rfl fun c _ => ?_
  rw [Fintype.sum_prod_type]
  rfl

/-- Row `32·h + r` of band `h`. -/
abbrev bandRow (h : Fin 8) (r : Fin 32) : Fin 256 := ⟨32 * h.val + r.val, by omega⟩

/-- The 256 rows are 8 bands of 32. -/
theorem sum_rows_bands (g : Fin 256 → M) : ∑ r : Fin 256, g r = ∑ h : Fin 8, ∑ r : Fin 32, g (bandRow h r) :=
  LibReindex.sum_mul_add' 8 32 rfl g

/-- Point `256·r + c` of a 256 × 256 image in row-major order. -/
abbrev flatPoint (r c : Fin 256) : Fin 65536 := ⟨256 * r.val + c.val, by omega⟩

/-- The 65536 points of an image in row-major order are its 256 rows of 256 columns. -/
theorem sum_points (g : Fin 65536 → M) : ∑ p : Fin 65536, g p = ∑ r : Fin 256, ∑ c : Fin 256, g (flatPoint r c) :=
  LibReindex.sum_mul_add' 256 256 rfl g

end Cert.LibIdxSum
-- ==== Proof.MaskLoss.lean ====
/-
  The mask's cross entropy: the kernel's banded sum of −(t·ℓ(m) + (1 − t)·ℓ(−m)) over 262144, and the reference's
  −(mean of t·ℓ(m) + (1 − t)·ℓ(−m)), are one number. Here ℓ(u) = −softplus(−u), softplus(a) = max a 0 + log(1 + e^{−|a|}),
  m is channel 3 of the first array, t channel 3 of the second. The kernel writes "0 − a" where the reference negates,
  and tests "a − 0 ≠ a − 0" (never true on the extended reals) before the softplus; pixel by pixel the kernel's summand is
  the negative of the reference's, every summand is a real number, so the sign moves through the finite sums, the 4·256·256
  pixels are summed as 4 images × 8 bands × 32 rows × 256 columns on one side and all at once on the other, and
  (−S)/N = −(S/N).
-/
import proofs.«112959_j30356828848315_1_alg».proof.Proof.TileSumsApply
import proofs.«112959_j30356828848315_1_alg».proof.Proof.KernelTail
import proofs.«112959_j30356828848315_1_alg».proof.Proof.ReferenceRun.Terms
import proofs.«112959_j30356828848315_1_alg».proof.Proof.Gen.ReferenceIdeal
import proofs.«112959_j30356828848315_1_alg».proof.Proof.LibFinite
import proofs.«112959_j30356828848315_1_alg».proof.Proof.LibIdxSum
import Idealize.ShloMosaic.Lib.ValueLayout

noncomputable section

namespace Cert.MaskLoss

open Idealize.ShloMosaic Idealize.ShloMosaic.ValueIdx Cert.LibFinite Cert.LibIdxSum

/-- softplus on the extended reals: max a 0 + log (1 + exp (−|a|)). -/
def sp (a : EReal) : EReal := max a 0 + Ideal.log1p (Ideal.exp (-(max a (-a))))

/-- The cross-entropy summand t·ℓ(m) + (1 − t)·ℓ(−m) with ℓ(u) = −softplus(−u). -/
def term (t m : EReal) : EReal := t * (-(sp (-m))) + (1 - t) * (-(sp m))

/-- The coercion of the reals preserves maxima. -/
theorem coe_max (a b : ℝ) : ((max a b : ℝ) : EReal) = max (a : EReal) (b : EReal) :=
  Monotone.map_max EReal.coe_strictMono.monotone

/-- softplus of a real is a real. -/
theorem sp_coe (a : ℝ) : sp (a : EReal) = ((max a 0 + Real.log (1 + Real.exp (-|a|)) : ℝ) : EReal) := by
  unfold sp Ideal.log1p
  have h1 : max (a : EReal) (-(a : EReal)) = ((|a| : ℝ) : EReal) := by
    rw [← EReal.coe_neg, ← coe_max]; rfl
  have h2 : max (a : EReal) 0 = ((max a 0 : ℝ) : EReal) := by
    rw [← EReal.coe_zero, ← coe_max]
  rw [h1, h2, ← EReal.coe_neg, Ideal.exp_coe, ← EReal.coe_one, ← EReal.coe_add, Ideal.log_coe,
    if_neg (not_le.mpr (by positivity)), ← EReal.coe_add]

/-- The summand at real arguments is a real. -/
theorem term_isFin (t m : ℝ) : IsFin (term (t : EReal) (m : EReal)) := by
  unfold term
  rw [← EReal.coe_neg, sp_coe, sp_coe, ← EReal.coe_one, ← EReal.coe_sub, ← EReal.coe_neg, ← EReal.coe_neg, ← EReal.coe_mul,
    ← EReal.coe_mul, ← EReal.coe_add]
  exact isFin_coe _

/-! ## The two programs' spellings of softplus, element by element -/

/-- Both spellings test "v ≠ v" first, which never holds on the extended reals, and then take
    max a z + log1p (exp (n)) with z = 0 and n the negated absolute value of a − z. -/
theorem select_ne_self (p : CmpFPredicate) (hp : p = .une ∨ p = .one) (v w1 w2 : EReal) :
    Scalar.select (Ideal.cmp p v v) w1 w2 = w2 := by
  have : Ideal.cmp p v v = 0#1 := by
    rcases hp with rfl | rfl <;> (unfold Ideal.cmp; simp)
  rw [this]
  exact ValueIdx.select_zero _ _

/-- The reference's softplus at an element. -/
theorem sp_host (a : EReal) :
    Scalar.select (Ideal.cmp .une (a - 0) (a - 0)) (a + 0) (max a 0 + Ideal.log1p (Ideal.exp (-(max (a - 0) (-(a - 0)))))) = sp a := by
  rw [select_ne_self _ (Or.inl rfl), sub_zero]
  rfl

/-- The kernel's softplus at an element ("0 − |·|" for the negation). -/
theorem sp_kernel (a : EReal) :
    Scalar.select (Ideal.cmp .one (a - 0) (a - 0)) (a + 0) (max a 0 + Ideal.log1p (Ideal.exp (0 - (max (a - 0) (-(a - 0)))))) = sp a := by
  rw [select_ne_self _ (Or.inr rfl), sub_zero, zero_sub]
  rfl

/-- The kernel's summand is the negative of the reference's. -/
theorem kernel_term (t m : EReal) :
    0 - (t * (0 - sp (0 - m)) + (1 - t) * (0 - sp (0 - (0 - m)))) = -(term t m) := by
  unfold term
  rw [zero_sub, zero_sub, zero_sub, zero_sub, zero_sub, neg_neg]

/-! ## Channel 3 of each argument at a pixel -/

section Reference
open Cert.ReferenceIdeal Cert.ReferenceIdeal.Gen Cert.ReferenceIdeal.RefRun

/-- The second argument's mask map at (b, r, c) is its channel 3 there. -/
theorem yMask_apply (y : FVec Ideal S4x101x256x256 .f32) (b : Fin 4) (r c : Fin 256) :
    yMask y (ix3 b r c) = y (ix4 b (3 : Fin 101) r c) := by
  unfold yMask
  refine (shapeCast_apply _ _ _ (ix4 b (0 : Fin 1) r c) ?_).trans ?_
  · rw [Shape.rowMajor_val_four, Shape.rowMajor_val_three]
    show ((b.val * 1 + 0) * 256 + r.val) * 256 + c.val = (b.val * 256 + r.val) * 256 + c.val
    omega
  · exact extractStridedSlice_apply _ _ _ _ _ fun a => match a with
      | ⟨0, _⟩ => (Nat.zero_add _).symm | ⟨1, _⟩ => rfl | ⟨2, _⟩ => (Nat.zero_add _).symm | ⟨3, _⟩ => (Nat.zero_add _).symm

/-- The first argument's mask-logit map at (b, r, c) is its channel 3 there. -/
theorem xMask_apply (x : FVec Ideal S4x134x256x256 .f32) (b : Fin 4) (r c : Fin 256) :
    xMask x (ix3 b r c) = x (ix4 b (3 : Fin 134) r c) := by
  unfold xMask
  refine (shapeCast_apply _ _ _ (ix4 b (0 : Fin 1) r c) ?_).trans ?_
  · rw [Shape.rowMajor_val_four, Shape.rowMajor_val_three]
    show ((b.val * 1 + 0) * 256 + r.val) * 256 + c.val = (b.val * 256 + r.val) * 256 + c.val
    omega
  · exact extractStridedSlice_apply _ _ _ _ _ fun a => match a with
      | ⟨0, _⟩ => (Nat.zero_add _).symm | ⟨1, _⟩ => rfl | ⟨2, _⟩ => (Nat.zero_add _).symm | ⟨3, _⟩ => (Nat.zero_add _).symm

/-- The reference's summand at a pixel. -/
theorem ref_pixel (x : FVec Ideal S4x134x256x256 .f32) (y : FVec Ideal S4x101x256x256 .f32) (b : Fin 4) (r c : Fin 256) :
    addf (mulf (yMask y) (logSigmoid (xMask x))) (mulf (subf ones3 (yMask y)) (logSigmoid (Host.negf (xMask x)))) (ix3 b r c)
      = term (y (ix4 b (3 : Fin 101) r c)) (x (ix4 b (3 : Fin 134) r c)) := by
  have hz : Ideal.ofBits .f32 0x00000000#32 = (0 : EReal) := Ideal.ofBits_zero_f32
  have ho : Ideal.ofBits .f32 0x3F800000#32 = (1 : EReal) := by rw [ofBits_one]; rfl
  show yMask y (ix3 b r c)
        * -(Scalar.select (Ideal.cmp .une (-(xMask x (ix3 b r c)) - Ideal.ofBits .f32 0x00000000#32) (-(xMask x (ix3 b r c)) - Ideal.ofBits .f32 0x00000000#32))
            (-(xMask x (ix3 b r c)) + Ideal.ofBits .f32 0x00000000#32)
            (max (-(xMask x (ix3 b r c))) (Ideal.ofBits .f32 0x00000000#32)
              + Ideal.log1p (Ideal.exp (-(max (-(xMask x (ix3 b r c)) - Ideal.ofBits .f32 0x00000000#32) (-(-(xMask x (ix3 b r c)) - Ideal.ofBits .f32 0x00000000#32)))))))
      + (Ideal.ofBits .f32 0x3F800000#32 - yMask y (ix3 b r c))
        * -(Scalar.select (Ideal.cmp .une (-(-(xMask x (ix3 b r c))) - Ideal.ofBits .f32 0x00000000#32) (-(-(xMask x (ix3 b r c))) - Ideal.ofBits .f32 0x00000000#32))
            (-(-(xMask x (ix3 b r c))) + Ideal.ofBits .f32 0x00000000#32)
            (max (-(-(xMask x (ix3 b r c)))) (Ideal.ofBits .f32 0x00000000#32)
              + Ideal.log1p (Ideal.exp (-(max (-(-(xMask x (ix3 b r c))) - Ideal.ofBits .f32 0x00000000#32) (-(-(-(xMask x (ix3 b r c))) - Ideal.ofBits .f32 0x00000000#32))))))) = _
  rw [hz, ho, sp_host, sp_host, neg_neg, yMask_apply, xMask_apply]
  rfl

end Reference

/-! ## The kernel's tile sum -/

section Kernel
open Cert.KernelIdeal Cert.KernelIdeal.Gen Cert.KernelIdeal.Tile

/-- Channel 3 of the first tile at (r, c). -/
theorem pay8_apply (x0 : Vec Ideal S1x134x32x256 .f32) (r : Fin 32) (c : Fin 256) :
    k0_pay8 x0 (ix3 (0 : Fin 1) r c) = x0 (ix4 (0 : Fin 1) (3 : Fin 134) r c) := by
  unfold k0_pay8
  refine (shapeCast_apply _ _ _ (ix4 (0 : Fin 1) (0 : Fin 1) r c) ?_).trans ?_
  · rw [Shape.rowMajor_val_four, Shape.rowMajor_val_three]
    show ((0 * 1 + 0) * 32 + r.val) * 256 + c.val = (0 * 32 + r.val) * 256 + c.val
    omega
  · exact extractStridedSlice_apply _ _ _ _ _ fun a => match a with
      | ⟨0, _⟩ => rfl | ⟨1, _⟩ => rfl | ⟨2, _⟩ => (Nat.zero_add _).symm | ⟨3, _⟩ => (Nat.zero_add _).symm

/-- Channel 3 of the second tile at (r, c). -/
theorem pay14_apply (y0 : Vec Ideal S1x101x32x256 .f32) (r : Fin 32) (c : Fin 256) :
    k0_pay14 y0 (ix3 (0 : Fin 1) r c) = y0 (ix4 (0 : Fin 1) (3 : Fin 101) r c) := by
  unfold k0_pay14
  refine (shapeCast_apply _ _ _ (ix4 (0 : Fin 1) (0 : Fin 1) r c) ?_).trans ?_
  · rw [Shape.rowMajor_val_four, Shape.rowMajor_val_three]
    show ((0 * 1 + 0) * 32 + r.val) * 256 + c.val = (0 * 32 + r.val) * 256 + c.val
    omega
  · exact extractStridedSlice_apply _ _ _ _ _ fun a => match a with
      | ⟨0, _⟩ => rfl | ⟨1, _⟩ => rfl | ⟨2, _⟩ => (Nat.zero_add _).symm | ⟨3, _⟩ => (Nat.zero_add _).symm

/-- The kernel's softplus of the negated logit, at an element. -/
theorem pay19_apply (x0 : Vec Ideal S1x134x32x256 .f32) (p : S1x32x256.Idx) :
    k0_pay19 x0 p = sp (0 - k0_pay8 x0 p) := by
  have hz : Ideal.ofBits .f32 0x00000000#32 = (0 : EReal) := Ideal.ofBits_zero_f32
  unfold k0_pay19
  show Scalar.select (Ideal.cmp .one ((Ideal.ofBits .f32 0x00000000#32 - k0_pay8 x0 p) - Ideal.ofBits .f32 0x00000000#32)
        ((Ideal.ofBits .f32 0x00000000#32 - k0_pay8 x0 p) - Ideal.ofBits .f32 0x00000000#32))
      ((Ideal.ofBits .f32 0x00000000#32 - k0_pay8 x0 p) + Ideal.ofBits .f32 0x00000000#32)
      (max (Ideal.ofBits .f32 0x00000000#32 - k0_pay8 x0 p) (Ideal.ofBits .f32 0x00000000#32)
        + Ideal.log1p (Ideal.exp (Ideal.ofBits .f32 0x00000000#32
            - max ((Ideal.ofBits .f32 0x00000000#32 - k0_pay8 x0 p) - Ideal.ofBits .f32 0x00000000#32)
                (-((Ideal.ofBits .f32 0x00000000#32 - k0_pay8 x0 p) - Ideal.ofBits .f32 0x00000000#32))))) = _
  rw [hz, sp_kernel]

/-- The cross-entropy partial sum of a tile: the sum over its 32 × 256 pixels of the negated summand. -/
theorem part0_apply (x0 : Vec Ideal S1x134x32x256 .f32) (y0 : Vec Ideal S1x101x32x256 .f32) :
    part2 x0 y0 0 (ix1 (0 : Fin 1))
      = ∑ r : Fin 32, ∑ c : Fin 256, -(term (y0 (ix4 (0 : Fin 1) (3 : Fin 101) r c)) (x0 (ix4 (0 : Fin 1) (3 : Fin 134) r c))) := by
  have hz : Ideal.ofBits .f32 0x00000000#32 = (0 : EReal) := Ideal.ofBits_zero_f32
  have ho : Ideal.ofBits .f32 0x3F800000#32 = (1 : EReal) := by rw [ofBits_one]; rfl
  show k0_pay20 (k0_pay8 x0) (k0_pay14 y0) (k0_pay19 x0) (Scalar.ofBits .f32 0x00000000#32) (ix1 (0 : Fin 1)) = _
  unfold k0_pay20
  refine (Ideal.multiReduction_add_total _ _ _ (by decide) _ _ _).trans ?_
  rw [sum_idx3, Fin.sum_univ_one]
  refine Finset.sum_congr rfl fun r _ => Finset.sum_congr rfl fun c _ => ?_
  show Ideal.ofBits .f32 0x00000000#32
      - (k0_pay14 y0 (ix3 (0 : Fin 1) r c) * (Ideal.ofBits .f32 0x00000000#32 - k0_pay19 x0 (ix3 (0 : Fin 1) r c))
        + (Ideal.ofBits .f32 0x3F800000#32 - k0_pay14 y0 (ix3 (0 : Fin 1) r c))
          * (Ideal.ofBits .f32 0x00000000#32
            - Scalar.select (Ideal.cmp .one
                  ((Ideal.ofBits .f32 0x00000000#32 - (Ideal.ofBits .f32 0x00000000#32 - k0_pay8 x0 (ix3 (0 : Fin 1) r c))) - Ideal.ofBits .f32 0x00000000#32)
                  ((Ideal.ofBits .f32 0x00000000#32 - (Ideal.ofBits .f32 0x00000000#32 - k0_pay8 x0 (ix3 (0 : Fin 1) r c))) - Ideal.ofBits .f32 0x00000000#32))
                ((Ideal.ofBits .f32 0x00000000#32 - (Ideal.ofBits .f32 0x00000000#32 - k0_pay8 x0 (ix3 (0 : Fin 1) r c))) + Ideal.ofBits .f32 0x00000000#32)
                (max (Ideal.ofBits .f32 0x00000000#32 - (Ideal.ofBits .f32 0x00000000#32 - k0_pay8 x0 (ix3 (0 : Fin 1) r c))) (Ideal.ofBits .f32 0x00000000#32)
                  + Ideal.log1p (Ideal.exp (Ideal.ofBits .f32 0x00000000#32
                      - max ((Ideal.ofBits .f32 0x00000000#32 - (Ideal.ofBits .f32 0x00000000#32 - k0_pay8 x0 (ix3 (0 : Fin 1) r c))) - Ideal.ofBits .f32 0x00000000#32)
                          (-((Ideal.ofBits .f32 0x00000000#32 - (Ideal.ofBits .f32 0x00000000#32 - k0_pay8 x0 (ix3 (0 : Fin 1) r c))) - Ideal.ofBits .f32 0x00000000#32))))))) = _
  rw [pay19_apply, hz, ho, sp_kernel, pay8_apply, pay14_apply]
  exact kernel_term _ _

end Kernel

/-! ## Moving the sign through finite sums of reals -/

/-- A finite sum of negated reals is the negated sum. -/
theorem sum_neg_of_isFin {ι : Type} (s : Finset ι) (f : ι → EReal) (h : ∀ i ∈ s, IsFin (f i)) :
    ∑ i ∈ s, -(f i) = -(∑ i ∈ s, f i) := by
  classical
  induction s using Finset.induction_on with
  | empty => simp
  | insert a s ha ih =>
    rw [Finset.sum_insert ha, Finset.sum_insert ha, ih fun i hi => h i (Finset.mem_insert_of_mem hi)]
    obtain ⟨p, hp⟩ := h a (Finset.mem_insert_self a s)
    obtain ⟨q, hq⟩ := IsFin.sum s f fun i hi => h i (Finset.mem_insert_of_mem hi)
    rw [hp, hq, ← EReal.coe_neg, ← EReal.coe_neg, ← EReal.coe_add, ← EReal.coe_add, ← EReal.coe_neg]
    congr 1; ring

/-- The pattern `0x48800000` denotes 2^18 = 262144. -/
theorem ofBits_262144 : Ideal.ofBits .f32 0x48800000#32 = ((262144 : ℝ) : EReal) := by
  simp [Ideal.ofBits, Ideal.ieee, -EReal.coe_mul]; norm_num

/-- Dividing by 262144 commutes with the sign. -/
theorem div_neg_262144 (s : EReal) :
    Ideal.div (-s) (Ideal.ofBits .f32 0x48800000#32) = -(Ideal.div s (Ideal.ofBits .f32 0x48800000#32)) := by
  rw [ofBits_262144, Ideal.div_coe (by norm_num), Ideal.div_coe (by norm_num), neg_mul]

/-! ## Both sides as sums over pixels, and the result -/

section Result
open Cert.KernelIdeal.Tile

/-- Column `k` of the statistics, for image `b`, is entry (b, 0, k) of the statistics array. -/
theorem stat_entry (a0 : FVec Ideal Cert.KernelIdeal.S4x1x11 .f32) (b : Fin 4) (k : Fin 11)
    (hs : Cert.KernelIdeal.S4x11.Slices ![0, k.val] Cert.KernelIdeal.S4x1)
    (h1 : Cert.KernelIdeal.S4x1.ShapeCasts Cert.KernelIdeal.S4) (h2 : Cert.KernelIdeal.S4x1x11.ShapeCasts Cert.KernelIdeal.S4x11) :
    shapeCast Cert.KernelIdeal.S4 (extractStridedSlice Cert.KernelIdeal.S4x1 ![0, k.val] (shapeCast Cert.KernelIdeal.S4x11 a0 h2) hs) h1 (ix1 b)
      = a0 (ix3 b (0 : Fin 1) k) := by
  refine (shapeCast_apply _ _ _ (ix2 b (0 : Fin 1)) ?_).trans ?_
  · rw [Shape.rowMajor_val_two, Shape.rowMajor_val_one]
    show b.val * 1 + 0 = b.val
    omega
  refine (extractStridedSlice_apply _ _ _ _ (ix2 b k) fun a => match a with
      | ⟨0, _⟩ => (Nat.zero_add _).symm | ⟨1, _⟩ => rfl).trans ?_
  refine shapeCast_apply _ _ _ (ix3 b (0 : Fin 1) k) ?_
  rw [Shape.rowMajor_val_three, Shape.rowMajor_val_two]
  show (b.val * 1 + 0) * 11 + k.val = b.val * 11 + k.val
  omega

end Result

section Final
open Cert.KernelIdeal.Tile Cert.KernelIdeal.Tail

/-- THE MASK'S CROSS ENTROPY: the kernel's host code over the statistics' column 0 and the reference's term agree when
    the two arrays hold real numbers. -/
theorem maskLoss_eq (x : FVec Ideal Cert.KernelIdeal.S4x134x256x256 .f32) (y : FVec Ideal Cert.KernelIdeal.S4x101x256x256 .f32)
    (hx : ∀ i, IsFin (x i)) (hy : ∀ i, IsFin (y i)) :
    meanOver (F := Ideal) (col0 (shapeCast Cert.KernelIdeal.S4x11 (stats x y) Cert.KernelIdeal.Gen.shapeCasts_S4x1x11_S4x11)) 0x48800000#32
      = Cert.ReferenceIdeal.RefRun.maskLoss x y := by
  have hz : Ideal.ofBits .f32 0x00000000#32 = (0 : EReal) := Ideal.ofBits_zero_f32
  funext j
  -- the summand at a pixel is a real
  have hT : ∀ (b : Fin 4) (r c : Fin 256), IsFin (term (y (ix4 b (3 : Fin 101) r c)) (x (ix4 b (3 : Fin 134) r c))) := fun b r c => by
    obtain ⟨p, hp⟩ := hy (ix4 b (3 : Fin 101) r c)
    obtain ⟨q, hq⟩ := hx (ix4 b (3 : Fin 134) r c)
    rw [hp, hq]; exact term_isFin p q
  -- the kernel's side
  have hK : meanOver (F := Ideal) (col0 (shapeCast Cert.KernelIdeal.S4x11 (stats x y) Cert.KernelIdeal.Gen.shapeCasts_S4x1x11_S4x11)) 0x48800000#32 j
      = Ideal.div (-(∑ b : Fin 4, ∑ r : Fin 256, ∑ c : Fin 256, term (y (ix4 b (3 : Fin 101) r c)) (x (ix4 b (3 : Fin 134) r c))))
          (Ideal.ofBits .f32 0x48800000#32) := by
    show Ideal.div (Ideal.hostReduceAdd _ (col0 (shapeCast Cert.KernelIdeal.S4x11 (stats x y) _)) (Ideal.ofBits .f32 0x00000000#32) j)
        (Ideal.ofBits .f32 0x48800000#32) = _
    rw [Ideal.hostReduceAdd_total _ (fun b => b.elim0), hz, zero_add, sum_idx1]
    congr 1
    rw [← sum_neg_of_isFin _ _ (fun b _ => IsFin.sum _ _ fun r _ => IsFin.sum _ _ fun c _ => hT b r c)]
    refine Finset.sum_congr rfl fun b _ => ?_
    rw [show col0 (shapeCast Cert.KernelIdeal.S4x11 (stats x y) Cert.KernelIdeal.Gen.shapeCasts_S4x1x11_S4x11) (ix1 b)
        = stats x y (ix3 b (0 : Fin 1) (0 : Fin 11)) from stat_entry (stats x y) b 0 _ _ _,
      stats_apply, zero_add, ← sum_neg_of_isFin _ _ (fun r _ => IsFin.sum _ _ fun c _ => hT b r c), sum_rows_bands]
    refine Finset.sum_congr rfl fun h _ => ?_
    rw [part0_apply]
    refine Finset.sum_congr rfl fun r _ => ?_
    rw [← sum_neg_of_isFin _ _ (fun c _ => hT b (bandRow h r) c)]
    rfl
  -- the reference's side
  have hR : Cert.ReferenceIdeal.RefRun.maskLoss x y j
      = -(Ideal.div (∑ b : Fin 4, ∑ r : Fin 256, ∑ c : Fin 256, term (y (ix4 b (3 : Fin 101) r c)) (x (ix4 b (3 : Fin 134) r c)))
          (Ideal.ofBits .f32 0x48800000#32)) := by
    unfold Cert.ReferenceIdeal.RefRun.maskLoss
    show -(Ideal.div (Ideal.hostReduceAdd _ _ (Ideal.ofBits .f32 0x00000000#32) j) (Ideal.ofBits .f32 0x48800000#32)) = _
    rw [Ideal.hostReduceAdd_total _ (fun b => b.elim0), hz, zero_add, sum_idx3]
    congr 2
    refine Finset.sum_congr rfl fun b _ => Finset.sum_congr rfl fun r _ => Finset.sum_congr rfl fun c _ => ?_
    exact ref_pixel x y b r c
  rw [hK, hR, div_neg_262144]

end Final

end Cert.MaskLoss

end
-- ==== Proof.LibFibreSum.lean ====
/-
  Sums over the fibres of a projection, and the reductions over several trailing axes read as iterated sums.

  If every index `i` of a finite type is recovered from its image `drop i` and its remaining coordinates
  `coords i` (by `lift`), then the sum of a family over the indices that `drop` sends to `j` is the sum over all
  coordinate values `g` of the family at `lift j g`. A sum-reduction of an array over its last two axes, or over
  all axes but a leading unit one, read at an index, is such a fibre sum: the iterated sum over the reduced
  coordinates.
-/
import Idealize.ShloMosaic.PureOps.Ideal.Laws
import Idealize.ShloMosaic.Lib.ValueIdx

noncomputable section

namespace Cert.LibFibreSum

open Idealize.ShloMosaic Idealize.ShloMosaic.ValueIdx
open scoped BigOperators

/-- The sum over a fibre of `drop`, re-indexed by the remaining coordinates. -/
theorem sum_fibre {α β γ M : Type*} [Fintype α] [Fintype γ] [AddCommMonoid M]
    (drop : α → β) (coords : α → γ) (lift : β → γ → α)
    (h1 : ∀ j g, drop (lift j g) = j) (h2 : ∀ j g, coords (lift j g) = g) (h3 : ∀ i, lift (drop i) (coords i) = i)
    (x : α → M) (j : β) [DecidablePred fun i => drop i = j] :
    ∑ i ∈ Finset.univ.filter (fun i => drop i = j), x i = ∑ g : γ, x (lift j g) := by
  refine Finset.sum_bij' (fun i _ => coords i) (fun g _ => lift j g) (fun _ _ => Finset.mem_univ _)
    (fun g _ => Finset.mem_filter.mpr ⟨Finset.mem_univ _, h1 j g⟩) (fun i hi => ?_) (fun g _ => h2 j g) (fun i hi => ?_)
  · have hj : drop i = j := (Finset.mem_filter.mp hi).2
    rw [← hj]; exact h3 i
  · have hj : drop i = j := (Finset.mem_filter.mp hi).2
    rw [← hj, h3 i]

/-- A sum over the last two axes of a rank-5 array, read at an index, is the double sum over those two coordinates. -/
theorem reduceAdd_last2_of5 {n0 n1 n2 n3 n4 : ℕ}
    (h : (⟨5, ![n0, n1, n2, n3, n4]⟩ : Shape).Reduces [3, 4] ⟨3, ![n0, n1, n2]⟩)
    (x : (⟨5, ![n0, n1, n2, n3, n4]⟩ : Shape).Idx → EReal) (a : Fin n0) (b : Fin n1) (c : Fin n2) :
    Ideal.reduceAdd h x (ix3 a b c) = ∑ r : Fin n3, ∑ q : Fin n4, x (ix5 a b c r q) := by
  unfold Ideal.reduceAdd
  rw [← Fintype.sum_prod_type']
  exact sum_fibre h.drop
    (fun i => ((⟨(i 3).val, (i 3).isLt⟩ : Fin n3), (⟨(i 4).val, (i 4).isLt⟩ : Fin n4)))
    (fun j g => ix5 (⟨(j 0).val, (j 0).isLt⟩ : Fin n0) (⟨(j 1).val, (j 1).isLt⟩ : Fin n1) (⟨(j 2).val, (j 2).isLt⟩ : Fin n2) g.1 g.2)
    (fun j g => funext fun d => match d with | ⟨0, _⟩ => rfl | ⟨1, _⟩ => rfl | ⟨2, _⟩ => rfl)
    (fun j g => rfl)
    (fun i => funext fun e => match e with | ⟨0, _⟩ => rfl | ⟨1, _⟩ => rfl | ⟨2, _⟩ => rfl | ⟨3, _⟩ => rfl | ⟨4, _⟩ => rfl)
    x (ix3 a b c)

/-- A sum over the last two axes of a rank-4 array, read at an index, is the double sum over those two coordinates. -/
theorem reduceAdd_last2_of4 {n0 n1 n2 n3 : ℕ}
    (h : (⟨4, ![n0, n1, n2, n3]⟩ : Shape).Reduces [2, 3] ⟨2, ![n0, n1]⟩)
    (x : (⟨4, ![n0, n1, n2, n3]⟩ : Shape).Idx → EReal) (a : Fin n0) (b : Fin n1) :
    Ideal.reduceAdd h x (ix2 a b) = ∑ r : Fin n2, ∑ q : Fin n3, x (ix4 a b r q) := by
  unfold Ideal.reduceAdd
  rw [← Fintype.sum_prod_type']
  exact sum_fibre h.drop
    (fun i => ((⟨(i 2).val, (i 2).isLt⟩ : Fin n2), (⟨(i 3).val, (i 3).isLt⟩ : Fin n3)))
    (fun j g => ix4 (⟨(j 0).val, (j 0).isLt⟩ : Fin n0) (⟨(j 1).val, (j 1).isLt⟩ : Fin n1) g.1 g.2)
    (fun j g => funext fun d => match d with | ⟨0, _⟩ => rfl | ⟨1, _⟩ => rfl)
    (fun j g => rfl)
    (fun i => funext fun e => match e with | ⟨0, _⟩ => rfl | ⟨1, _⟩ => rfl | ⟨2, _⟩ => rfl | ⟨3, _⟩ => rfl)
    x (ix2 a b)

/-- A sum over the last two axes of a rank-3 array, read at an index, is the double sum over those two coordinates. -/
theorem reduceAdd_last2_of3 {n0 n1 n2 : ℕ}
    (h : (⟨3, ![n0, n1, n2]⟩ : Shape).Reduces [1, 2] ⟨1, ![n0]⟩)
    (x : (⟨3, ![n0, n1, n2]⟩ : Shape).Idx → EReal) (a : Fin n0) :
    Ideal.reduceAdd h x (ix1 a) = ∑ r : Fin n1, ∑ q : Fin n2, x (ix3 a r q) := by
  unfold Ideal.reduceAdd
  rw [← Fintype.sum_prod_type']
  exact sum_fibre h.drop
    (fun i => ((⟨(i 1).val, (i 1).isLt⟩ : Fin n1), (⟨(i 2).val, (i 2).isLt⟩ : Fin n2)))
    (fun j g => ix3 (⟨(j 0).val, (j 0).isLt⟩ : Fin n0) g.1 g.2)
    (fun j g => funext fun d => match d with | ⟨0, _⟩ => rfl)
    (fun j g => rfl)
    (fun i => funext fun e => match e with | ⟨0, _⟩ => rfl | ⟨1, _⟩ => rfl | ⟨2, _⟩ => rfl)
    x (ix1 a)

end Cert.LibFibreSum

end
-- ==== Proof.PoseKernel.lean ====
/-
  The kernel's weighted-centre sums on one band, read entry by entry.

  On a band of 32 rows the kernel forms, for joint `j` and axis `k`, the sum over the band's 32 × 256 points of
  `(s · t) · (w · t)`, where `s` is the sigmoid of channel `3 j + k` of a block of 48 channels, `w` the sigmoid of the
  `j`-th of the last 16 channels and `t` the target mask; and for joint `j` the sum of `w · t`. Each layout operation
  of the payloads (the slices, the split of 48 channels into 16 × 3, the broadcasts along new axes) is read at an index.
-/
import proofs.«112959_j30356828848315_1_alg».proof.Proof.TileTerms
import proofs.«112959_j30356828848315_1_alg».proof.Proof.LibFibreSum
import Idealize.ShloMosaic.Lib.Pipeline.Value

noncomputable section

namespace Cert.PoseKernel

open Cert.KernelIdeal Cert.KernelIdeal.Gen Cert.KernelIdeal.Tile Idealize.ShloMosaic Idealize.ShloMosaic.ValueIdx
open scoped BigOperators

/-- Channel `3 j + k` of 48. -/
def ch3 (j : Fin 16) (k : Fin 3) : Fin 48 := ⟨3 * j.val + k.val, by omega⟩

/-- A sum-reduction over the last two axes of a rank-5 vector, at an index. -/
theorem multiReduction_last2_of5 (src : FVec Ideal S1x16x3x32x256 .f32) (h : S1x16x3x32x256.Reduces [3, 4] S1x16x3)
    (hφ : FKind.Formats .f32) (hacc : (0x00000000#32 : BitVec 32) = 0x00000000#32) (j : Fin 16) (k : Fin 3) :
    multiReduction .add [3, 4] S1x16x3 src 0x00000000#32 h hφ hacc (ix3 (0 : Fin 1) j k)
      = ∑ r : Fin 32, ∑ c : Fin 256, src (ix5 (0 : Fin 1) j k r c) :=
  Cert.LibFibreSum.reduceAdd_last2_of5 h src (0 : Fin 1) j k

/-- A sum-reduction over the last two axes of a rank-4 vector, at an index. -/
theorem multiReduction_last2_of4 (src : FVec Ideal S1x16x32x256 .f32) (h : S1x16x32x256.Reduces [2, 3] S1x16)
    (hφ : FKind.Formats .f32) (hacc : (0x00000000#32 : BitVec 32) = 0x00000000#32) (j : Fin 16) :
    multiReduction .add [2, 3] S1x16 src 0x00000000#32 h hφ hacc (ix2 (0 : Fin 1) j)
      = ∑ r : Fin 32, ∑ c : Fin 256, src (ix4 (0 : Fin 1) j r c) :=
  Cert.LibFibreSum.reduceAdd_last2_of4 h src (0 : Fin 1) j

/-- The score times the mask, at a point. -/
theorem pay40_apply (v129 : FVec Ideal S1x16x32x256 .f32) (v130 : FVec Ideal S1x1x32x256 .f32) (j : Fin 16) (r : Fin 32)
    (c : Fin 256) :
    k0_pay40 v129 v130 (ix4 (0 : Fin 1) j r c) = v129 (ix4 (0 : Fin 1) j r c) * v130 (ix4 (0 : Fin 1) (0 : Fin 1) r c) := by
  unfold k0_pay40
  show v129 _ * broadcastTo S1x16x32x256 v130 _ _ = _
  rw [broadcastTo_apply v130 _ (ix4 (0 : Fin 1) j r c) (ix4 (0 : Fin 1) (0 : Fin 1) r c)
    (fun a => match a with | ⟨0, _⟩ => rfl | ⟨1, _⟩ => rfl | ⟨2, _⟩ => rfl | ⟨3, _⟩ => rfl)]

/-- The 48 channels split 16 × 3, at a point. -/
theorem split_apply (v9 : FVec Ideal S1x48x32x256 .f32) (h : S1x48x32x256.ShapeCasts S1x16x3x32x256) (j : Fin 16) (k : Fin 3)
    (r : Fin 32) (c : Fin 256) :
    shapeCast S1x16x3x32x256 v9 h (ix5 (0 : Fin 1) j k r c) = v9 (ix4 (0 : Fin 1) (ch3 j k) r c) := by
  refine shapeCast_apply v9 h _ _ ?_
  rw [Shape.rowMajor_val_four, Shape.rowMajor_val_five]
  show (((0 * 48 + (3 * j.val + k.val)) * 32 + r.val) * 256 + c.val)
    = ((((0 * 16 + j.val) * 3 + k.val) * 32 + r.val) * 256 + c.val)
  omega

/-- The mask with two unit axes in front of its rows, spread over joints and axes, at a point. -/
theorem maskSpread_apply (v16 : FVec Ideal S1x32x256 .f32) (h : S1x32x256.ShapeCasts S1x1x1x32x256)
    (h' : S1x1x1x32x256.Broadcasts S1x16x3x32x256) (j : Fin 16) (k : Fin 3) (r : Fin 32) (c : Fin 256) :
    broadcastTo S1x16x3x32x256 (shapeCast S1x1x1x32x256 v16 h) h' (ix5 (0 : Fin 1) j k r c) = v16 (ix3 (0 : Fin 1) r c) := by
  rw [broadcastTo_apply _ h' (ix5 (0 : Fin 1) j k r c) (ix5 (0 : Fin 1) (0 : Fin 1) (0 : Fin 1) r c)
    (fun a => match a with | ⟨0, _⟩ => rfl | ⟨1, _⟩ => rfl | ⟨2, _⟩ => rfl | ⟨3, _⟩ => rfl | ⟨4, _⟩ => rfl)]
  refine shapeCast_apply v16 h _ _ ?_
  rw [Shape.rowMajor_val_three, Shape.rowMajor_val_five]
  show ((0 * 32 + r.val) * 256 + c.val) = ((((0 * 1 + 0) * 1 + 0) * 32 + r.val) * 256 + c.val)
  omega

/-- A joint's map with a unit axis after the joints, spread over the three axes, at a point. -/
theorem jointSpread_apply (v : FVec Ideal S1x16x32x256 .f32) (h : S1x16x32x256.ShapeCasts S1x16x1x32x256)
    (h' : S1x16x1x32x256.Broadcasts S1x16x3x32x256) (j : Fin 16) (k : Fin 3) (r : Fin 32) (c : Fin 256) :
    broadcastTo S1x16x3x32x256 (shapeCast S1x16x1x32x256 v h) h' (ix5 (0 : Fin 1) j k r c) = v (ix4 (0 : Fin 1) j r c) := by
  rw [broadcastTo_apply _ h' (ix5 (0 : Fin 1) j k r c) (ix5 (0 : Fin 1) j (0 : Fin 1) r c)
    (fun a => match a with | ⟨0, _⟩ => rfl | ⟨1, _⟩ => rfl | ⟨2, _⟩ => rfl | ⟨3, _⟩ => rfl | ⟨4, _⟩ => rfl)]
  refine shapeCast_apply v h _ _ ?_
  rw [Shape.rowMajor_val_four, Shape.rowMajor_val_five]
  show (((0 * 16 + j.val) * 32 + r.val) * 256 + c.val) = ((((0 * 16 + j.val) * 1 + 0) * 32 + r.val) * 256 + c.val)
  omega

/-- The band's weighted sums for joint `j` and axis `k`. -/
theorem pay41_apply (v9 : FVec Ideal S1x48x32x256 .f32) (v16 : FVec Ideal S1x32x256 .f32) (v129 : FVec Ideal S1x16x32x256 .f32)
    (v130 : FVec Ideal S1x1x32x256 .f32) (j : Fin 16) (k : Fin 3) :
    k0_pay41 v9 v16 v129 v130 (ix3 (0 : Fin 1) j k)
      = ∑ r : Fin 32, ∑ c : Fin 256, (v9 (ix4 (0 : Fin 1) (ch3 j k) r c) * v16 (ix3 (0 : Fin 1) r c))
          * (v129 (ix4 (0 : Fin 1) j r c) * v130 (ix4 (0 : Fin 1) (0 : Fin 1) r c)) := by
  unfold k0_pay41
  refine (multiReduction_last2_of5 _ _ _ _ j k).trans ?_
  refine Finset.sum_congr rfl fun r _ => Finset.sum_congr rfl fun c _ => ?_
  show (shapeCast S1x16x3x32x256 v9 _ _ * broadcastTo S1x16x3x32x256 (shapeCast S1x1x1x32x256 v16 _) _ _)
      * broadcastTo S1x16x3x32x256 (shapeCast S1x16x1x32x256 (k0_pay40 v129 v130) _) _ _ = _
  rw [split_apply, maskSpread_apply, jointSpread_apply, pay40_apply]

/-- The second block of 48 channels goes through the same payload. -/
theorem pay42_eq : @k0_pay42 Ideal _ = @k0_pay41 Ideal _ := rfl

/-- The band's score sum for joint `j`. -/
theorem scoreSum_apply (v129 : FVec Ideal S1x16x32x256 .f32) (v130 : FVec Ideal S1x1x32x256 .f32)
    (h : S1x16x32x256.Reduces [2, 3] S1x16) (hφ : FKind.Formats .f32) (hacc : (0x00000000#32 : BitVec 32) = 0x00000000#32)
    (j : Fin 16) :
    multiReduction .add [2, 3] S1x16 (k0_pay40 v129 v130) 0x00000000#32 h hφ hacc (ix2 (0 : Fin 1) j)
      = ∑ r : Fin 32, ∑ c : Fin 256, v129 (ix4 (0 : Fin 1) j r c) * v130 (ix4 (0 : Fin 1) (0 : Fin 1) r c) := by
  refine (multiReduction_last2_of4 _ h hφ hacc j).trans ?_
  exact Finset.sum_congr rfl fun r _ => Finset.sum_congr rfl fun c _ => pay40_apply v129 v130 j r c

/-! ## The slices of a tile -/

/-- The sigmoid of the first block of 48 channels of a tile (channels 4‥52), at a point. -/
theorem pay9_apply (x0 : Vec Ideal S1x134x32x256 .f32) (ch : Fin 48) (r : Fin 32) (c : Fin 256) :
    k0_pay9 x0 (ix4 (0 : Fin 1) ch r c) = Ideal.logistic (x0 (ix4 (0 : Fin 1) (⟨4 + ch.val, by omega⟩ : Fin 134) r c)) := by
  unfold k0_pay9
  show Ideal.logistic (extractStridedSlice S1x48x32x256 ![0, 4, 0, 0] x0 _ _) = _
  rw [extractStridedSlice_apply _ x0 _ (ix4 (0 : Fin 1) ch r c) (ix4 (0 : Fin 1) (⟨4 + ch.val, by omega⟩ : Fin 134) r c)
    (fun a => match a with
      | ⟨0, _⟩ => by show (0 : ℕ) = 0 + 0; rfl
      | ⟨1, _⟩ => rfl
      | ⟨2, _⟩ => by show r.val = 0 + r.val; omega
      | ⟨3, _⟩ => by show c.val = 0 + c.val; omega)]

/-- The sigmoid of the second block of 48 channels of a tile (channels 52‥100), at a point. -/
theorem pay10_apply (x0 : Vec Ideal S1x134x32x256 .f32) (ch : Fin 48) (r : Fin 32) (c : Fin 256) :
    k0_pay10 x0 (ix4 (0 : Fin 1) ch r c) = Ideal.logistic (x0 (ix4 (0 : Fin 1) (⟨52 + ch.val, by omega⟩ : Fin 134) r c)) := by
  unfold k0_pay10
  show Ideal.logistic (extractStridedSlice S1x48x32x256 ![0, 52, 0, 0] x0 _ _) = _
  rw [extractStridedSlice_apply _ x0 _ (ix4 (0 : Fin 1) ch r c) (ix4 (0 : Fin 1) (⟨52 + ch.val, by omega⟩ : Fin 134) r c)
    (fun a => match a with
      | ⟨0, _⟩ => by show (0 : ℕ) = 0 + 0; rfl
      | ⟨1, _⟩ => rfl
      | ⟨2, _⟩ => by show r.val = 0 + r.val; omega
      | ⟨3, _⟩ => by show c.val = 0 + c.val; omega)]

/-- The sigmoid of the last 16 channels of a tile (channels 118‥134), at a point. -/
theorem sg_apply (x0 : Vec Ideal S1x134x32x256 .f32) (j : Fin 16) (r : Fin 32) (c : Fin 256) :
    Tile.sg x0 (ix4 (0 : Fin 1) j r c) = Ideal.logistic (x0 (ix4 (0 : Fin 1) (⟨118 + j.val, by omega⟩ : Fin 134) r c)) := by
  unfold Tile.sg k0_pay38 k0_pay12
  show Ideal.logistic (extractStridedSlice S1x16x32x256 ![0, 118, 0, 0] x0 _ _) = _
  rw [extractStridedSlice_apply _ x0 _ (ix4 (0 : Fin 1) j r c) (ix4 (0 : Fin 1) (⟨118 + j.val, by omega⟩ : Fin 134) r c)
    (fun a => match a with
      | ⟨0, _⟩ => by show (0 : ℕ) = 0 + 0; rfl
      | ⟨1, _⟩ => rfl
      | ⟨2, _⟩ => by show r.val = 0 + r.val; omega
      | ⟨3, _⟩ => by show c.val = 0 + c.val; omega)]

/-- The target mask of a tile (channel 3), at a point. -/
theorem pay14_apply (y0 : Vec Ideal S1x101x32x256 .f32) (r : Fin 32) (c : Fin 256) :
    k0_pay14 y0 (ix3 (0 : Fin 1) r c) = y0 (ix4 (0 : Fin 1) (3 : Fin 101) r c) := by
  unfold k0_pay14
  show shapeCast S1x32x256 (extractStridedSlice S1x1x32x256 ![0, 3, 0, 0] y0 _) _ _ = _
  rw [shapeCast_apply _ _ (ix3 (0 : Fin 1) r c) (ix4 (0 : Fin 1) (0 : Fin 1) r c) (by
    rw [Shape.rowMajor_val_four, Shape.rowMajor_val_three]
    show (((0 * 1 + 0) * 32 + r.val) * 256 + c.val) = ((0 * 32 + r.val) * 256 + c.val)
    omega)]
  rw [extractStridedSlice_apply _ y0 _ (ix4 (0 : Fin 1) (0 : Fin 1) r c) (ix4 (0 : Fin 1) (3 : Fin 101) r c)
    (fun a => match a with
      | ⟨0, _⟩ => by show (0 : ℕ) = 0 + 0; rfl
      | ⟨1, _⟩ => rfl
      | ⟨2, _⟩ => by show r.val = 0 + r.val; omega
      | ⟨3, _⟩ => by show c.val = 0 + c.val; omega)]

/-- The target mask of a tile with a unit channel axis, at a point. -/
theorem mk_apply (y0 : Vec Ideal S1x101x32x256 .f32) (r : Fin 32) (c : Fin 256) :
    Tile.mk y0 (ix4 (0 : Fin 1) (0 : Fin 1) r c) = y0 (ix4 (0 : Fin 1) (3 : Fin 101) r c) := by
  unfold Tile.mk k0_pay39
  show shapeCast S1x1x32x256 (k0_pay14 y0) _ _ = _
  rw [shapeCast_apply _ _ (ix4 (0 : Fin 1) (0 : Fin 1) r c) (ix3 (0 : Fin 1) r c) (by
    rw [Shape.rowMajor_val_four, Shape.rowMajor_val_three]
    show ((0 * 32 + r.val) * 256 + c.val) = (((0 * 1 + 0) * 32 + r.val) * 256 + c.val)
    omega)]
  exact pay14_apply y0 r c

end Cert.PoseKernel

end
-- ==== Proof.PoseKernelSums.lean ====
/-
  The kernel's weighted-centre arrays, entry by entry, as sums over the whole image.

  The block of image `b` after its eighth band holds the sum of the eight bands' partial sums; a band's partial sum runs
  over its 32 rows and the 256 columns, and row `r` of band `h` is row `32 h + r` of the image: the eight bands' sums
  together are the sum over the image's 256 rows and 256 columns. So the score sums hold `Σ w · t` and the weighted sums
  `Σ (s · t) · (w · t)`, with `t` the target mask (channel 3 of the second argument), `w` the sigmoid of channel `118 + j` and
  `s` the sigmoid of channel `off + 3 j + k` of the first argument (`off = 4` for locations, `52` for rotations).
-/
import proofs.«112959_j30356828848315_1_alg».proof.Proof.PoseKernel
import proofs.«112959_j30356828848315_1_alg».proof.Proof.TileSumsApply
import proofs.«112959_j30356828848315_1_alg».proof.Proof.LibIdxSum

noncomputable section

namespace Cert.PoseKernelSums

open Cert.KernelIdeal Cert.KernelIdeal.Gen Cert.KernelIdeal.Tile Idealize.ShloMosaic Idealize.ShloMosaic.ValueIdx
open Cert.PoseKernel Cert.LibIdxSum
open scoped BigOperators

/-- A band's tile of the first argument at a point: row `r` of band `h` is row `32 h + r` of the image. -/
theorem xTile_apply (x : FVec Ideal S4x134x256x256 .f32) (b : Fin 4) (h : Fin 8) (ch : Fin 134) (r : Fin 32) (c : Fin 256) :
    Tile.xTile x b h (ix4 (0 : Fin 1) ch r c) = x (ix4 b ch (bandRow h r) c) := rfl

/-- The same for the second argument. -/
theorem yTile_apply (y : FVec Ideal S4x101x256x256 .f32) (b : Fin 4) (h : Fin 8) (ch : Fin 101) (r : Fin 32) (c : Fin 256) :
    Tile.yTile y b h (ix4 (0 : Fin 1) ch r c) = y (ix4 b ch (bandRow h r) c) := rfl

/-- The score sum of joint `j` of image `b`. -/
theorem sd_entry (x : FVec Ideal S4x134x256x256 .f32) (y : FVec Ideal S4x101x256x256 .f32) (b : Fin 4) (j : Fin 16) :
    Tile.sd x y (ix3 b (0 : Fin 1) j)
      = ∑ R : Fin 256, ∑ C : Fin 256,
          Ideal.logistic (x (ix4 b (⟨118 + j.val, by omega⟩ : Fin 134) R C)) * y (ix4 b (3 : Fin 101) R C) := by
  rw [sd_apply, zero_add]
  conv_rhs => rw [sum_rows_bands]
  refine Finset.sum_congr rfl fun h _ => ?_
  rw [scoreSum_apply]
  refine Finset.sum_congr rfl fun r _ => Finset.sum_congr rfl fun c _ => ?_
  rw [sg_apply, mk_apply, xTile_apply, yTile_apply]

/-- The eight bands' weighted sums of joint `j`, axis `k`, for a block of 48 maps that is the sigmoid of the channels from
    `off` on. -/
theorem weighted_entry (x : FVec Ideal S4x134x256x256 .f32) (y : FVec Ideal S4x101x256x256 .f32) (b : Fin 4) (j : Fin 16)
    (k : Fin 3) (off : ℕ) (hoff : off + 48 ≤ 134) (v : Vec Ideal S1x134x32x256 .f32 → FVec Ideal S1x48x32x256 .f32)
    (hv : ∀ (x0 : Vec Ideal S1x134x32x256 .f32) (ch : Fin 48) (r : Fin 32) (c : Fin 256),
      v x0 (ix4 (0 : Fin 1) ch r c) = Ideal.logistic (x0 (ix4 (0 : Fin 1) (⟨off + ch.val, by omega⟩ : Fin 134) r c))) :
    ∑ h : Fin 8, k0_pay41 (v (xTile x b h)) (k0_pay14 (yTile y b h)) (sg (xTile x b h)) (mk (yTile y b h)) (ix3 (0 : Fin 1) j k)
      = ∑ R : Fin 256, ∑ C : Fin 256,
          (Ideal.logistic (x (ix4 b (⟨off + (3 * j.val + k.val), by omega⟩ : Fin 134) R C)) * y (ix4 b (3 : Fin 101) R C))
            * (Ideal.logistic (x (ix4 b (⟨118 + j.val, by omega⟩ : Fin 134) R C)) * y (ix4 b (3 : Fin 101) R C)) := by
  conv_rhs => rw [sum_rows_bands]
  refine Finset.sum_congr rfl fun h _ => ?_
  rw [pay41_apply]
  refine Finset.sum_congr rfl fun r _ => Finset.sum_congr rfl fun c _ => ?_
  rw [hv, pay14_apply, sg_apply, mk_apply, xTile_apply, xTile_apply, yTile_apply]
  rfl

/-- The weighted location sum of joint `j`, axis `k` of image `b`. -/
theorem loc_entry (x : FVec Ideal S4x134x256x256 .f32) (y : FVec Ideal S4x101x256x256 .f32) (b : Fin 4) (j : Fin 16) (k : Fin 3) :
    Tile.loc x y (ix4 b (0 : Fin 1) j k)
      = ∑ R : Fin 256, ∑ C : Fin 256,
          (Ideal.logistic (x (ix4 b (⟨4 + (3 * j.val + k.val), by omega⟩ : Fin 134) R C)) * y (ix4 b (3 : Fin 101) R C))
            * (Ideal.logistic (x (ix4 b (⟨118 + j.val, by omega⟩ : Fin 134) R C)) * y (ix4 b (3 : Fin 101) R C)) := by
  rw [loc_apply, zero_add]
  exact weighted_entry x y b j k 4 (by omega) k0_pay9 pay9_apply

/-- The weighted rotation sum of joint `j`, axis `k` of image `b`. -/
theorem rot_entry (x : FVec Ideal S4x134x256x256 .f32) (y : FVec Ideal S4x101x256x256 .f32) (b : Fin 4) (j : Fin 16) (k : Fin 3) :
    Tile.rot x y (ix4 b (0 : Fin 1) j k)
      = ∑ R : Fin 256, ∑ C : Fin 256,
          (Ideal.logistic (x (ix4 b (⟨52 + (3 * j.val + k.val), by omega⟩ : Fin 134) R C)) * y (ix4 b (3 : Fin 101) R C))
            * (Ideal.logistic (x (ix4 b (⟨118 + j.val, by omega⟩ : Fin 134) R C)) * y (ix4 b (3 : Fin 101) R C)) := by
  rw [rot_apply, zero_add, pay42_eq]
  exact weighted_entry x y b j k 52 (by omega) k0_pay10 pay10_apply

end Cert.PoseKernelSums

end
-- ==== Proof.PoseReference.lean ====
/-
  The reference's weighted-centre chain, read entry by entry.

  The sigmoid blocks, the target mask and the sixteen weight maps at a point; a sum over an image's 65536 flattened
  points as the double sum over its 256 rows and 256 columns; the normalized weights and the weighted centres at an
  entry. With `t` the mask, `w` the sigmoid of a weight channel and `s` one of 48 maps: the weight map is `w · t`, the
  normalized one `(w · t) / (Σ w · t + ε)`, and the centre of joint `j`, axis `k` is `Σ (s · t) · normalized`, `s` the map of
  channel `3 j + k`, all sums over the image's rows and columns.
-/
import proofs.«112959_j30356828848315_1_alg».proof.Proof.ReferenceRun.Terms
import proofs.«112959_j30356828848315_1_alg».proof.Proof.Gen.ReferenceIdeal
import proofs.«112959_j30356828848315_1_alg».proof.Proof.LibReindex
import Idealize.ShloMosaic.Lib.Pipeline.Value
import Idealize.ShloMosaic.Lib.IdealHost

noncomputable section

namespace Cert.PoseReference

open Cert.ReferenceIdeal Cert.ReferenceIdeal.RefRun Idealize.ShloMosaic Idealize.ShloMosaic.ValueIdx
open Cert.ReferenceIdeal.Facts₀ Cert.ReferenceIdeal.Facts
open scoped BigOperators

/-- The scalar `1.0` spread over any shape reads `1`. -/
theorem one_spread {T : Shape} (h : S_.BroadcastsInDim T ![]) (i : T.Idx) :
    broadcastInDim T ![] h (RefRun.one (F := Ideal)) i = 1 := by
  rw [broadcastInDim_scalar_apply]
  exact Ideal.ofBits_one_f32

/-- The scalar `0.0` read at its one index is `0`. -/
theorem zero_first : (RefRun.zero (F := Ideal)) (Shape.Idx.first h_S_) = 0 := Ideal.ofBits_zero_f32

/-- The sigmoid of a block of 48 maps, at a point. -/
theorem sigm48_apply (u : FVec Ideal S4x48x256x256 .f32) (i : S4x48x256x256.Idx) : RefRun.sigm48 u i = Ideal.logistic (u i) := by
  unfold RefRun.sigm48
  rw [hostDivf_apply, addf_apply, one_spread]
  rfl

/-- The sigmoid of a block of 16 maps, at a point. -/
theorem sigm16_apply (u : FVec Ideal S4x16x256x256 .f32) (i : S4x16x256x256.Idx) : RefRun.sigm16 u i = Ideal.logistic (u i) := by
  unfold RefRun.sigm16
  rw [hostDivf_apply, addf_apply, one_spread]
  rfl

/-- The sigmoid of channels 4‥52 of the first argument, at a point. -/
theorem xSigA_apply (x : FVec Ideal S4x134x256x256 .f32) (b : Fin 4) (ch : Fin 48) (R C : Fin 256) :
    RefRun.xSigA x (ix4 b ch R C) = Ideal.logistic (x (ix4 b (⟨4 + ch.val, by omega⟩ : Fin 134) R C)) := by
  unfold RefRun.xSigA
  rw [sigm48_apply, extractStridedSlice_apply _ x _ (ix4 b ch R C) (ix4 b (⟨4 + ch.val, by omega⟩ : Fin 134) R C)
    (fun a => match a with
      | ⟨0, _⟩ => by show b.val = 0 + b.val; omega
      | ⟨1, _⟩ => rfl
      | ⟨2, _⟩ => by show R.val = 0 + R.val; omega
      | ⟨3, _⟩ => by show C.val = 0 + C.val; omega)]

/-- The sigmoid of channels 52‥100 of the first argument, at a point. -/
theorem xSigB_apply (x : FVec Ideal S4x134x256x256 .f32) (b : Fin 4) (ch : Fin 48) (R C : Fin 256) :
    RefRun.xSigB x (ix4 b ch R C) = Ideal.logistic (x (ix4 b (⟨52 + ch.val, by omega⟩ : Fin 134) R C)) := by
  unfold RefRun.xSigB
  rw [sigm48_apply, extractStridedSlice_apply _ x _ (ix4 b ch R C) (ix4 b (⟨52 + ch.val, by omega⟩ : Fin 134) R C)
    (fun a => match a with
      | ⟨0, _⟩ => by show b.val = 0 + b.val; omega
      | ⟨1, _⟩ => rfl
      | ⟨2, _⟩ => by show R.val = 0 + R.val; omega
      | ⟨3, _⟩ => by show C.val = 0 + C.val; omega)]

/-- The target mask (channel 3 of the second argument), at a point. -/
theorem yMask_apply (y : FVec Ideal S4x101x256x256 .f32) (b : Fin 4) (R C : Fin 256) :
    RefRun.yMask y (ix3 b R C) = y (ix4 b (3 : Fin 101) R C) := by
  unfold RefRun.yMask
  rw [shapeCast_apply _ _ (ix3 b R C) (ix4 b (0 : Fin 1) R C) (by
    rw [Shape.rowMajor_val_four, Shape.rowMajor_val_three]
    show (((b.val * 1 + 0) * 256 + R.val) * 256 + C.val) = ((b.val * 256 + R.val) * 256 + C.val)
    omega)]
  rw [extractStridedSlice_apply _ y _ (ix4 b (0 : Fin 1) R C) (ix4 b (3 : Fin 101) R C)
    (fun a => match a with
      | ⟨0, _⟩ => by show b.val = 0 + b.val; omega
      | ⟨1, _⟩ => rfl
      | ⟨2, _⟩ => by show R.val = 0 + R.val; omega
      | ⟨3, _⟩ => by show C.val = 0 + C.val; omega)]

/-- A weight map at a point: the sigmoid of one of the last sixteen channels times the mask. -/
theorem score_apply (x : FVec Ideal S4x134x256x256 .f32) (y : FVec Ideal S4x101x256x256 .f32) (b : Fin 4) (j : Fin 16)
    (R C : Fin 256) :
    RefRun.score x y (ix4 b j R C)
      = Ideal.logistic (x (ix4 b (⟨118 + j.val, by omega⟩ : Fin 134) R C)) * y (ix4 b (3 : Fin 101) R C) := by
  unfold RefRun.score
  rw [mulf_apply, sigm16_apply]
  unfold RefRun.xWeights
  rw [extractStridedSlice_apply _ x _ (ix4 b j R C) (ix4 b (⟨118 + j.val, by omega⟩ : Fin 134) R C)
    (fun a => match a with
      | ⟨0, _⟩ => by show b.val = 0 + b.val; omega
      | ⟨1, _⟩ => rfl
      | ⟨2, _⟩ => by show R.val = 0 + R.val; omega
      | ⟨3, _⟩ => by show C.val = 0 + C.val; omega)]
  rw [broadcastInDim_apply _ _ _ (ix4 b j R C) (ix4 b (0 : Fin 1) R C)
    (fun a => match a with | ⟨0, _⟩ => rfl | ⟨1, _⟩ => rfl | ⟨2, _⟩ => rfl | ⟨3, _⟩ => rfl)]
  rw [broadcastInDim_apply _ _ _ (ix4 b (0 : Fin 1) R C) (ix3 b R C)
    (fun a => match a with | ⟨0, _⟩ => rfl | ⟨1, _⟩ => rfl | ⟨2, _⟩ => rfl)]
  rw [yMask_apply]

/-- The sum over an image's 65536 flattened points of a map per joint is the double sum over rows and columns. -/
theorem flatSum_joint (v : FVec Ideal S4x16x256x256 .f32) (hc : S4x16x256x256.ShapeCasts S4x16x65536)
    (hr : S4x16x65536.ReducesTo [2] S4x16) (b : Fin 4) (j : Fin 16) :
    Host.reduceAdd (shapeCast S4x16x65536 v hc) (RefRun.zero (F := Ideal)) hr h_S_ (ix2 b j)
      = ∑ R : Fin 256, ∑ C : Fin 256, v (ix4 b j R C) := by
  have hR : S4x16x65536.Reduces [2] S4x16 := by decide
  rw [hostReduceAdd_apply, zero_first]
  refine (Ideal.hostReduceAdd_single hr hR _ _ (ix2 b j)).trans ?_
  rw [zero_add]
  refine (Cert.LibReindex.sum_mul_add (n := 65536) 256 256 rfl _).trans ?_
  refine Finset.sum_congr rfl fun R _ => Finset.sum_congr rfl fun C _ => ?_
  refine shapeCast_apply v hc _ (ix4 b j R C) ?_
  rw [Shape.rowMajor_val_four, Shape.rowMajor_val_three]
  show (((b.val * 16 + j.val) * 256 + R.val) * 256 + C.val) = ((b.val * 16 + j.val) * 65536 + (R.val * 256 + C.val))
  omega

/-- The same for a map per joint and axis. -/
theorem flatSum_jointAxis (v : FVec Ideal S4x16x3x256x256 .f32) (hc : S4x16x3x256x256.ShapeCasts S4x16x3x65536)
    (hr : S4x16x3x65536.ReducesTo [3] S4x16x3) (b : Fin 4) (j : Fin 16) (k : Fin 3) :
    Host.reduceAdd (shapeCast S4x16x3x65536 v hc) (RefRun.zero (F := Ideal)) hr h_S_ (ix3 b j k)
      = ∑ R : Fin 256, ∑ C : Fin 256, v (ix5 b j k R C) := by
  have hR : S4x16x3x65536.Reduces [3] S4x16x3 := by decide
  rw [hostReduceAdd_apply, zero_first]
  refine (Ideal.hostReduceAdd_single hr hR _ _ (ix3 b j k)).trans ?_
  rw [zero_add]
  refine (Cert.LibReindex.sum_mul_add (n := 65536) 256 256 rfl _).trans ?_
  refine Finset.sum_congr rfl fun R _ => Finset.sum_congr rfl fun C _ => ?_
  refine shapeCast_apply v hc _ (ix5 b j k R C) ?_
  rw [Shape.rowMajor_val_five, Shape.rowMajor_val_four]
  show ((((b.val * 16 + j.val) * 3 + k.val) * 256 + R.val) * 256 + C.val)
    = (((b.val * 16 + j.val) * 3 + k.val) * 65536 + (R.val * 256 + C.val))
  omega

/-- The divisor of joint `j` of image `b`: the sum of its weight map plus `ε`. -/
def divisor (x : FVec Ideal S4x134x256x256 .f32) (y : FVec Ideal S4x101x256x256 .f32) (b : Fin 4) (j : Fin 16) : EReal :=
  (∑ R : Fin 256, ∑ C : Fin 256, RefRun.score x y (ix4 b j R C)) + Ideal.ofBits .f32 0x3727C5AC#32

/-- A normalized weight map at a point. -/
theorem scoreNormalized_apply (x : FVec Ideal S4x134x256x256 .f32) (y : FVec Ideal S4x101x256x256 .f32) (b : Fin 4) (j : Fin 16)
    (R C : Fin 256) :
    RefRun.scoreNormalized x y (ix4 b j R C) = Ideal.div (RefRun.score x y (ix4 b j R C)) (divisor x y b j) := by
  unfold RefRun.scoreNormalized divisor
  rw [hostDivf_apply]
  rw [broadcastInDim_apply _ _ _ (ix4 b j R C) (ix4 b j (0 : Fin 1) (0 : Fin 1))
    (fun a => match a with | ⟨0, _⟩ => rfl | ⟨1, _⟩ => rfl | ⟨2, _⟩ => rfl | ⟨3, _⟩ => rfl)]
  rw [addf_apply]
  rw [broadcastInDim_apply _ _ _ (ix4 b j (0 : Fin 1) (0 : Fin 1)) (ix2 b j)
    (fun a => match a with | ⟨0, _⟩ => rfl | ⟨1, _⟩ => rfl), flatSum_joint, broadcastInDim_scalar_apply]
  rfl

/-- Channel `3 j + k` of a block of 48 maps split 16 × 3, at a point. -/
theorem split_apply (s : FVec Ideal S4x48x256x256 .f32) (h : S4x48x256x256.ShapeCasts S4x16x3x256x256) (b : Fin 4) (j : Fin 16)
    (k : Fin 3) (R C : Fin 256) :
    shapeCast S4x16x3x256x256 s h (ix5 b j k R C) = s (ix4 b (⟨3 * j.val + k.val, by omega⟩ : Fin 48) R C) := by
  refine shapeCast_apply s h _ _ ?_
  rw [Shape.rowMajor_val_four, Shape.rowMajor_val_five]
  show (((b.val * 48 + (3 * j.val + k.val)) * 256 + R.val) * 256 + C.val)
    = ((((b.val * 16 + j.val) * 3 + k.val) * 256 + R.val) * 256 + C.val)
  omega

/-- The weighted centre of joint `j`, axis `k` of image `b`. -/
theorem centres_apply (s : FVec Ideal S4x48x256x256 .f32) (x : FVec Ideal S4x134x256x256 .f32) (y : FVec Ideal S4x101x256x256 .f32)
    (b : Fin 4) (j : Fin 16) (k : Fin 3) :
    RefRun.centres s x y (ix3 b j k)
      = ∑ R : Fin 256, ∑ C : Fin 256,
          (s (ix4 b (⟨3 * j.val + k.val, by omega⟩ : Fin 48) R C) * y (ix4 b (3 : Fin 101) R C))
            * Ideal.div (RefRun.score x y (ix4 b j R C)) (divisor x y b j) := by
  unfold RefRun.centres
  rw [flatSum_jointAxis]
  refine Finset.sum_congr rfl fun R _ => Finset.sum_congr rfl fun C _ => ?_
  rw [mulf_apply, mulf_apply, split_apply]
  rw [broadcastInDim_apply _ _ _ (ix5 b j k R C) (ix5 b (0 : Fin 1) (0 : Fin 1) R C)
    (fun a => match a with | ⟨0, _⟩ => rfl | ⟨1, _⟩ => rfl | ⟨2, _⟩ => rfl | ⟨3, _⟩ => rfl | ⟨4, _⟩ => rfl)]
  rw [broadcastInDim_apply _ _ _ (ix5 b (0 : Fin 1) (0 : Fin 1) R C) (ix3 b R C)
    (fun a => match a with | ⟨0, _⟩ => rfl | ⟨1, _⟩ => rfl | ⟨2, _⟩ => rfl)]
  rw [broadcastInDim_apply _ _ _ (ix5 b j k R C) (ix5 b j (0 : Fin 1) R C)
    (fun a => match a with | ⟨0, _⟩ => rfl | ⟨1, _⟩ => rfl | ⟨2, _⟩ => rfl | ⟨3, _⟩ => rfl | ⟨4, _⟩ => rfl)]
  rw [broadcastInDim_apply _ _ _ (ix5 b j (0 : Fin 1) R C) (ix4 b j R C)
    (fun a => match a with | ⟨0, _⟩ => rfl | ⟨1, _⟩ => rfl | ⟨2, _⟩ => rfl | ⟨3, _⟩ => rfl)]
  rw [yMask_apply, scoreNormalized_apply]

end Cert.PoseReference

end
-- ==== Proof.LibQuotientSum.lean ====
/-
  Moving a common divisor out of a finite sum on the extended reals, the divisor possibly zero.

  For reals `a i`, `s i` and a real `d`, the quotient `s i / d` is the extended-real one: the product with the
  inverse when `d ≠ 0`, and `+∞` or `-∞` by the sign of `s i` when `d = 0` (`-∞` for `0 / 0`). When every product
  `a i * s i` is positive unless both factors vanish, and `d = 0` only if some product is positive, then
  `∑ a i * (s i / d) = (∑ a i * s i) / d`: off zero by distributivity in the reals, at zero because both sides are `+∞`.
-/
import Idealize.ShloMosaic.PureOps.Ideal

noncomputable section

namespace Cert.LibQuotientSum

open Idealize.ShloMosaic

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of extended reals that are all nonnegative, one of them `+∞`, is `+∞`. -/
theorem sum_eq_top {ι : Type} (s : Finset ι) (f : ι → EReal) (h0 : ∀ i ∈ s, 0 ≤ f i) {i₀ : ι} (hi : i₀ ∈ s)
    (htop : f i₀ = ⊤) : ∑ i ∈ s, f i = ⊤ :=
  top_le_iff.mp (htop ▸ Finset.single_le_sum h0 hi)

/-- Off zero the extended quotient by a real is the product with the real inverse. -/
theorem div_coe_coe (x d : ℝ) (hd : d ≠ 0) : Ideal.div (x : EReal) (d : EReal) = ((x * d⁻¹ : ℝ) : EReal) := by
  have h : (d : EReal) ≠ 0 := by exact_mod_cast hd
  rw [Ideal.div, if_neg h, ← EReal.coe_inv, ← EReal.coe_mul]

/-- At zero the quotient of a positive real is `+∞`. -/
theorem div_zero_of_pos (x : ℝ) (hx : 0 < x) : Ideal.div (x : EReal) ((0 : ℝ) : EReal) = ⊤ := by
  rw [Ideal.div, if_pos (by simp), if_pos (by exact_mod_cast hx)]

/-- At zero the quotient of a real that is not positive is `-∞`. -/
theorem div_zero_of_nonpos (x : ℝ) (hx : x ≤ 0) : Ideal.div (x : EReal) ((0 : ℝ) : EReal) = ⊥ := by
  rw [Ideal.div, if_pos (by simp), if_neg (by exact_mod_cast not_lt.mpr hx)]

/-- One term at a zero divisor: `a * (s / 0)` is `+∞` when `a` and `s` have the same strict sign, and `0` when `a = 0`. -/
theorem term_at_zero (a s : ℝ) (h : (0 < a ∧ 0 < s) ∨ (a < 0 ∧ s < 0) ∨ (a = 0 ∧ s = 0)) :
    ((a : EReal) * Ideal.div (s : EReal) ((0 : ℝ) : EReal) = ⊤ ∧ 0 < a * s)
      ∨ ((a : EReal) * Ideal.div (s : EReal) ((0 : ℝ) : EReal) = 0 ∧ a * s = 0) := by
  rcases h with ⟨ha, hs⟩ | ⟨ha, hs⟩ | ⟨ha, hs⟩
  · left
    rw [div_zero_of_pos s hs]
    exact ⟨EReal.coe_mul_top_of_pos ha, mul_pos ha hs⟩
  · left
    rw [div_zero_of_nonpos s hs.le]
    exact ⟨EReal.coe_mul_bot_of_neg ha, mul_pos_of_neg_of_neg ha hs⟩
  · right
    subst ha; subst hs
    exact ⟨by rw [EReal.coe_zero, zero_mul], by ring⟩

/-- The divisor moved out of the sum. `hsign`: each pair `a i`, `s i` has one strict sign or vanishes together;
    `hd`: a zero divisor comes with an index whose pair does not vanish. -/
theorem sum_mul_div {ι : Type} (t : Finset ι) (a s : ι → ℝ) (d : ℝ)
    (hsign : ∀ i ∈ t, (0 < a i ∧ 0 < s i) ∨ (a i < 0 ∧ s i < 0) ∨ (a i = 0 ∧ s i = 0))
    (hd : d = 0 → ∃ i ∈ t, a i ≠ 0) :
    ∑ i ∈ t, (a i : EReal) * Ideal.div (s i : EReal) (d : EReal)
      = Ideal.div (∑ i ∈ t, (a i : EReal) * (s i : EReal)) (d : EReal) := by
  have hR : ∑ i ∈ t, (a i : EReal) * (s i : EReal) = ((∑ i ∈ t, a i * s i : ℝ) : EReal) := by
    rw [coe_sum]; exact Finset.sum_congr rfl fun i _ => (EReal.coe_mul _ _).symm
  rw [hR]
  by_cases h0 : d = 0
  · subst h0
    obtain ⟨i₀, hi₀, ha₀⟩ := hd rfl
    have hterm := fun i (hi : i ∈ t) => term_at_zero (a i) (s i) (hsign i hi)
    have hnonneg : ∀ i ∈ t, 0 ≤ a i * s i := fun i hi => by
      rcases hterm i hi with ⟨-, h⟩ | ⟨-, h⟩
      · exact h.le
      · exact h.ge
    have hpos₀ : 0 < a i₀ * s i₀ := by
      rcases hsign i₀ hi₀ with ⟨ha, hs⟩ | ⟨ha, hs⟩ | ⟨ha, -⟩
      · exact mul_pos ha hs
      · exact mul_pos_of_neg_of_neg ha hs
      · exact absurd ha ha₀
    have hsum : 0 < ∑ i ∈ t, a i * s i :=
      lt_of_lt_of_le hpos₀ (Finset.single_le_sum (f := fun i => a i * s i) hnonneg hi₀)
    rw [div_zero_of_pos _ hsum]
    refine sum_eq_top t _ (fun i hi => ?_) hi₀ ?_
    · rcases hterm i hi with ⟨h, -⟩ | ⟨h, -⟩
      · rw [h]; exact le_top
      · rw [h]
    · rcases hterm i₀ hi₀ with ⟨h, -⟩ | ⟨-, h⟩
      · exact h
      · exact absurd h hpos₀.ne'
  · rw [div_coe_coe _ d h0, Finset.sum_mul, coe_sum]
    refine Finset.sum_congr rfl fun i _ => ?_
    rw [div_coe_coe _ d h0, ← EReal.coe_mul]
    congr 1; ring

end Cert.LibQuotientSum

end
-- ==== Proof.PoseLaw.lean ====
/-
  The weighted centre with its divisor inside or outside the sum.

  For maps `s, w` with positive real values and a real mask `t` over a finite set of points, and a nonzero real `ε`:
  `Σ (s · t) · ((w · t) / (Σ w · t + ε)) = (Σ (s · t) · (w · t)) / (Σ w · t + ε)` on the extended reals, whatever the sign of the
  mask and even when the divisor vanishes. Each pair `s · t`, `w · t` has the strict sign of `t` or vanishes with it, and the
  divisor can vanish only if some `t` does not (otherwise it is `ε`); so the general quotient law applies.
-/
import proofs.«112959_j30356828848315_1_alg».proof.Proof.LibQuotientSum

noncomputable section

namespace Cert.PoseLaw

open Idealize.ShloMosaic
open scoped BigOperators

/-- The sigmoid of a real is a positive real. -/
theorem logistic_pos (u : EReal) (hu : ∃ r : ℝ, u = (r : EReal)) : ∃ r : ℝ, 0 < r ∧ Ideal.logistic u = (r : EReal) := by
  obtain ⟨r, rfl⟩ := hu
  exact ⟨(1 + Real.exp (-r))⁻¹, inv_pos.mpr (by positivity), Ideal.logistic_coe r⟩

/-- The pattern `0x3727C5AC` (exponent field `110`, fraction `0x27C5AC`) denotes a nonzero real. -/
theorem eps_real : ∃ e : ℝ, e ≠ 0 ∧ Ideal.ofBits .f32 0x3727C5AC#32 = (e : EReal) := by
  refine ⟨_, ?_, by simp [Ideal.ofBits, Ideal.ieee, -EReal.coe_mul]; rfl⟩
  norm_num

/-- The divisor moved out of the weighted sum. -/
theorem centre_law {ι : Type} [Fintype ι] (sv wv tv : ι → EReal) (ε : EReal)
    (hs : ∀ p, ∃ r : ℝ, 0 < r ∧ sv p = (r : EReal)) (hw : ∀ p, ∃ r : ℝ, 0 < r ∧ wv p = (r : EReal))
    (ht : ∀ p, ∃ r : ℝ, tv p = (r : EReal)) (hε : ∃ e : ℝ, e ≠ 0 ∧ ε = (e : EReal)) :
    ∑ p, (sv p * tv p) * Ideal.div (wv p * tv p) ((∑ q, wv q * tv q) + ε)
      = Ideal.div (∑ p, (sv p * tv p) * (wv p * tv p)) ((∑ q, wv q * tv q) + ε) := by
  choose sr hsr using hs
  choose wr hwr using hw
  choose tr htr using ht
  obtain ⟨e, he0, rfl⟩ := hε
  have hsv : ∀ p, sv p * tv p = ((sr p * tr p : ℝ) : EReal) := fun p => by rw [(hsr p).2, htr p, EReal.coe_mul]
  have hwv : ∀ p, wv p * tv p = ((wr p * tr p : ℝ) : EReal) := fun p => by rw [(hwr p).2, htr p, EReal.coe_mul]
  have hd : (∑ q, wv q * tv q) + (e : EReal) = (((∑ q, wr q * tr q) + e : ℝ) : EReal) := by
    rw [EReal.coe_add, Cert.LibQuotientSum.coe_sum]
    exact congrArg (· + (e : EReal)) (Finset.sum_congr rfl fun q _ => hwv q)
  rw [hd]
  simp only [hsv, hwv]
  refine Cert.LibQuotientSum.sum_mul_div Finset.univ (fun p => sr p * tr p) (fun p => wr p * tr p) _ (fun p _ => ?_) (fun h0 => ?_)
  · rcases lt_trichotomy (tr p) 0 with h | h | h
    · exact Or.inr (Or.inl ⟨mul_neg_of_pos_of_neg (hsr p).1 h, mul_neg_of_pos_of_neg (hwr p).1 h⟩)
    · exact Or.inr (Or.inr ⟨by rw [h, mul_zero], by rw [h, mul_zero]⟩)
    · exact Or.inl ⟨mul_pos (hsr p).1 h, mul_pos (hwr p).1 h⟩
  · by_contra hall
    have ht0 : ∀ p, tr p = 0 := fun p => by
      by_contra hp
      exact hall ⟨p, Finset.mem_univ p, mul_ne_zero (hsr p).1.ne' hp⟩
    have : (∑ q, wr q * tr q) = 0 := Finset.sum_eq_zero fun q _ => by rw [ht0 q, mul_zero]
    rw [this, zero_add] at h0
    exact he0 h0

/-- The same over a rectangle of points, the sums taken row by row. -/
theorem centre_law2 {α β : Type} [Fintype α] [Fintype β] (sv wv tv : α → β → EReal) (ε : EReal)
    (hs : ∀ a b, ∃ r : ℝ, 0 < r ∧ sv a b = (r : EReal)) (hw : ∀ a b, ∃ r : ℝ, 0 < r ∧ wv a b = (r : EReal))
    (ht : ∀ a b, ∃ r : ℝ, tv a b = (r : EReal)) (hε : ∃ e : ℝ, e ≠ 0 ∧ ε = (e : EReal)) :
    ∑ a, ∑ b, (sv a b * tv a b) * Ideal.div (wv a b * tv a b) ((∑ a', ∑ b', wv a' b' * tv a' b') + ε)
      = Ideal.div (∑ a, ∑ b, (sv a b * tv a b) * (wv a b * tv a b)) ((∑ a', ∑ b', wv a' b' * tv a' b') + ε) := by
  have h := centre_law (ι := α × β) (fun p => sv p.1 p.2) (fun p => wv p.1 p.2) (fun p => tv p.1 p.2) ε
    (fun p => hs p.1 p.2) (fun p => hw p.1 p.2) (fun p => ht p.1 p.2) hε
  simp only [Fintype.sum_prod_type] at h
  exact h

end Cert.PoseLaw

end
-- ==== Proof.PoseCentres.lean ====
/-
  The two weighted-centre terms: what the host computes from the kernel's sums is the reference's term.

  For image `b`, joint `j`, axis `k` the kernel's quotient is `(Σ (s · t) · (w · t)) / (Σ w · t + ε)` and the reference's centre
  is `Σ (s · t) · ((w · t) / (Σ w · t + ε))`, sums over the image's points, `t` the target mask, `w` and `s` sigmoids of real
  entries (positive reals): equal by the quotient law, for every real mask. The two programs then apply the same norm over the
  three axes, sum over images and joints and division by 64 to the difference with the same sigmoid of the pose targets.
-/
import proofs.«112959_j30356828848315_1_alg».proof.Proof.PoseKernelSums
import proofs.«112959_j30356828848315_1_alg».proof.Proof.PoseReference
import proofs.«112959_j30356828848315_1_alg».proof.Proof.PoseLaw
import proofs.«112959_j30356828848315_1_alg».proof.Proof.KernelTail

noncomputable section

namespace Cert.PoseCentres

open Cert.KernelIdeal Idealize.ShloMosaic Idealize.ShloMosaic.ValueIdx
open scoped BigOperators

/-- A [4,1,16,3] array viewed [4,16,3], at an entry. -/
theorem dropUnit3_apply (a : FVec Ideal S4x1x16x3 .f32) (h : S4x1x16x3.ShapeCasts S4x16x3) (b : Fin 4) (j : Fin 16) (k : Fin 3) :
    shapeCast S4x16x3 a h (ix3 b j k) = a (ix4 b (0 : Fin 1) j k) := by
  refine shapeCast_apply a h _ _ ?_
  rw [Shape.rowMajor_val_four, Shape.rowMajor_val_three]
  show (((b.val * 1 + 0) * 16 + j.val) * 3 + k.val) = ((b.val * 16 + j.val) * 3 + k.val)
  omega

/-- A [4,1,16] array viewed [4,16], at an entry. -/
theorem dropUnit2_apply (a : FVec Ideal S4x1x16 .f32) (h : S4x1x16.ShapeCasts S4x16) (b : Fin 4) (j : Fin 16) :
    shapeCast S4x16 a h (ix2 b j) = a (ix3 b (0 : Fin 1) j) := by
  refine shapeCast_apply a h _ _ ?_
  rw [Shape.rowMajor_val_three, Shape.rowMajor_val_two]
  show ((b.val * 1 + 0) * 16 + j.val) = (b.val * 16 + j.val)
  omega

/-- The divisor array at an entry: the joint's score sum plus `ε`, whatever the axis. -/
theorem denom_apply (sdv : FVec Ideal S4x16 .f32) (b : Fin 4) (j : Fin 16) (k : Fin 3) :
    Tail.denom sdv (ix3 b j k) = sdv (ix2 b j) + Ideal.ofBits .f32 0x3727C5AC#32 := by
  unfold Tail.denom
  rw [broadcastInDim_apply _ _ _ (ix3 b j k) (ix3 b j (0 : Fin 1))
    (fun a => match a with | ⟨0, _⟩ => rfl | ⟨1, _⟩ => rfl | ⟨2, _⟩ => rfl)]
  rw [broadcastInDim_apply _ _ _ (ix3 b j (0 : Fin 1)) (ix2 b j) (fun a => match a with | ⟨0, _⟩ => rfl | ⟨1, _⟩ => rfl)]
  rw [addf_apply, broadcastInDim_scalar_apply]
  rfl

/-- The kernel's quotient array is the reference's array of centres, for a block `s` of 48 maps that is the sigmoid of the
    first argument's channels from `off` on, a numerator array holding the weighted sums and a score-sum array. -/
theorem centres_eq_of (x : FVec Ideal S4x134x256x256 .f32) (y : FVec Ideal S4x101x256x256 .f32)
    (hx : ∀ i, ∃ r : ℝ, x i = (r : EReal)) (hy : ∀ i, ∃ r : ℝ, y i = (r : EReal))
    (off : ℕ) (hoff : off + 48 ≤ 134) (s : FVec Ideal Cert.ReferenceIdeal.S4x48x256x256 .f32)
    (hs : ∀ (b : Fin 4) (ch : Fin 48) (R C : Fin 256),
      s (ix4 b ch R C) = Ideal.logistic (x (ix4 b (⟨off + ch.val, by omega⟩ : Fin 134) R C)))
    (num : FVec Ideal S4x16x3 .f32)
    (hnum : ∀ (b : Fin 4) (j : Fin 16) (k : Fin 3), num (ix3 b j k)
      = ∑ R : Fin 256, ∑ C : Fin 256,
          (Ideal.logistic (x (ix4 b (⟨off + (3 * j.val + k.val), by omega⟩ : Fin 134) R C)) * y (ix4 b (3 : Fin 101) R C))
            * (Ideal.logistic (x (ix4 b (⟨118 + j.val, by omega⟩ : Fin 134) R C)) * y (ix4 b (3 : Fin 101) R C)))
    (sdv : FVec Ideal S4x16 .f32)
    (hsd : ∀ (b : Fin 4) (j : Fin 16), sdv (ix2 b j)
      = ∑ R : Fin 256, ∑ C : Fin 256,
          Ideal.logistic (x (ix4 b (⟨118 + j.val, by omega⟩ : Fin 134) R C)) * y (ix4 b (3 : Fin 101) R C)) :
    Host.divf num (Tail.denom sdv) = Cert.ReferenceIdeal.RefRun.centres s x y := by
  funext i
  obtain ⟨b, j, k, rfl⟩ : ∃ (b : Fin 4) (j : Fin 16) (k : Fin 3), i = ix3 b j k := ⟨i 0, i 1, i 2, eq_ix3 i⟩
  rw [hostDivf_apply, hnum, denom_apply, hsd, Cert.PoseReference.centres_apply]
  unfold Cert.PoseReference.divisor
  simp only [Cert.PoseReference.score_apply, hs]
  exact (Cert.PoseLaw.centre_law2
    (fun R C : Fin 256 => Ideal.logistic (x (ix4 b (⟨off + (3 * j.val + k.val), by omega⟩ : Fin 134) R C)))
    (fun R C : Fin 256 => Ideal.logistic (x (ix4 b (⟨118 + j.val, by omega⟩ : Fin 134) R C)))
    (fun R C : Fin 256 => y (ix4 b (3 : Fin 101) R C)) _
    (fun R C => Cert.PoseLaw.logistic_pos _ (hx _)) (fun R C => Cert.PoseLaw.logistic_pos _ (hx _)) (fun R C => hy _)
    Cert.PoseLaw.eps_real).symm

/-- The location centres. -/
theorem centresA_eq (x : FVec Ideal S4x134x256x256 .f32) (y : FVec Ideal S4x101x256x256 .f32)
    (hx : ∀ i, ∃ r : ℝ, x i = (r : EReal)) (hy : ∀ i, ∃ r : ℝ, y i = (r : EReal))
    (h3 : S4x1x16x3.ShapeCasts S4x16x3) (h2 : S4x1x16.ShapeCasts S4x16) :
    Host.divf (shapeCast S4x16x3 (Tile.loc x y) h3) (Tail.denom (shapeCast S4x16 (Tile.sd x y) h2))
      = Cert.ReferenceIdeal.RefRun.centres (Cert.ReferenceIdeal.RefRun.xSigA x) x y :=
  centres_eq_of x y hx hy 4 (by omega) _ (fun b ch R C => Cert.PoseReference.xSigA_apply x b ch R C) _
    (fun b j k => (dropUnit3_apply _ h3 b j k).trans (Cert.PoseKernelSums.loc_entry x y b j k)) _
    (fun b j => (dropUnit2_apply _ h2 b j).trans (Cert.PoseKernelSums.sd_entry x y b j))

/-- The rotation centres. -/
theorem centresB_eq (x : FVec Ideal S4x134x256x256 .f32) (y : FVec Ideal S4x101x256x256 .f32)
    (hx : ∀ i, ∃ r : ℝ, x i = (r : EReal)) (hy : ∀ i, ∃ r : ℝ, y i = (r : EReal))
    (h3 : S4x1x16x3.ShapeCasts S4x16x3) (h2 : S4x1x16.ShapeCasts S4x16) :
    Host.divf (shapeCast S4x16x3 (Tile.rot x y) h3) (Tail.denom (shapeCast S4x16 (Tile.sd x y) h2))
      = Cert.ReferenceIdeal.RefRun.centres (Cert.ReferenceIdeal.RefRun.xSigB x) x y :=
  centres_eq_of x y hx hy 52 (by omega) _ (fun b ch R C => Cert.PoseReference.xSigB_apply x b ch R C) _
    (fun b j k => (dropUnit3_apply _ h3 b j k).trans (Cert.PoseKernelSums.rot_entry x y b j k)) _
    (fun b j => (dropUnit2_apply _ h2 b j).trans (Cert.PoseKernelSums.sd_entry x y b j))

/-- The host's sigmoid of a [4,16,3] table is the reference's. -/
theorem sigm_eq : @Tail.sigm Ideal _ = @Cert.ReferenceIdeal.RefRun.sigm3 Ideal _ _ := rfl

/-- The host's pose loss of a difference `c - tar` is the reference's centre term for centres `c`. -/
theorem poseLoss_of_centres (s : FVec Ideal Cert.ReferenceIdeal.S4x48x256x256 .f32) (x : FVec Ideal S4x134x256x256 .f32)
    (y : FVec Ideal S4x101x256x256 .f32) (tar c : FVec Ideal S4x16x3 .f32)
    (hc : c = Cert.ReferenceIdeal.RefRun.centres s x y) :
    Tail.poseLoss (subf c tar) = Cert.ReferenceIdeal.RefRun.poseLoss s x y tar := by
  subst hc
  rfl

/-- The location term. -/
theorem poseLossA_eq (x : FVec Ideal S4x134x256x256 .f32) (y : FVec Ideal S4x101x256x256 .f32) (z : FVec Ideal S4x16x6 .f32)
    (hx : ∀ i, ∃ r : ℝ, x i = (r : EReal)) (hy : ∀ i, ∃ r : ℝ, y i = (r : EReal))
    (h3 : S4x1x16x3.ShapeCasts S4x16x3) (h2 : S4x1x16.ShapeCasts S4x16) (hz : S4x16x6.Slices ![0, 0, 0] S4x16x3) :
    Tail.poseLoss (subf (Host.divf (shapeCast S4x16x3 (Tile.loc x y) h3) (Tail.denom (shapeCast S4x16 (Tile.sd x y) h2)))
        (Tail.sigm (extractStridedSlice S4x16x3 ![0, 0, 0] z hz)))
      = Cert.ReferenceIdeal.RefRun.poseLoss (Cert.ReferenceIdeal.RefRun.xSigA x) x y (Cert.ReferenceIdeal.RefRun.zSigA z) := by
  rw [sigm_eq]
  exact poseLoss_of_centres _ x y _ _ (centresA_eq x y hx hy h3 h2)

/-- The rotation term. -/
theorem poseLossB_eq (x : FVec Ideal S4x134x256x256 .f32) (y : FVec Ideal S4x101x256x256 .f32) (z : FVec Ideal S4x16x6 .f32)
    (hx : ∀ i, ∃ r : ℝ, x i = (r : EReal)) (hy : ∀ i, ∃ r : ℝ, y i = (r : EReal))
    (h3 : S4x1x16x3.ShapeCasts S4x16x3) (h2 : S4x1x16.ShapeCasts S4x16) (hz : S4x16x6.Slices ![0, 0, 3] S4x16x3) :
    Tail.poseLoss (subf (Host.divf (shapeCast S4x16x3 (Tile.rot x y) h3) (Tail.denom (shapeCast S4x16 (Tile.sd x y) h2)))
        (Tail.sigm (extractStridedSlice S4x16x3 ![0, 0, 3] z hz)))
      = Cert.ReferenceIdeal.RefRun.poseLoss (Cert.ReferenceIdeal.RefRun.xSigB x) x y (Cert.ReferenceIdeal.RefRun.zSigB z) := by
  rw [sigm_eq]
  exact poseLoss_of_centres _ x y _ _ (centresB_eq x y hx hy h3 h2)

end Cert.PoseCentres

end
-- ==== Proof.ClassTerm.Pixel.lean ====
/-
  The class term, pixel by pixel, on the extended reals.

  At a pixel the eighteen class scores a₀ … a₁₇ give the log-probabilities
  logp k = (a k − M) − log Σ_j exp (a j − M), M the largest score (taken from −∞); the pixel's contribution is logp at the
  pixel's label. One program picks it by a sum over the classes of "logp k if k is the label, else 0", the other reads it at
  the label directly: for a label in 0 … 17 these agree.
-/
import Idealize.ShloMosaic.PureOps.Ideal
import Idealize.ShloMosaic.Lib.ValueIdx
import Mathlib.Data.Finset.Fold

noncomputable section

namespace Cert.ClassTerm

open Idealize.ShloMosaic

/-- Minus infinity, as both programs spell it. -/
abbrev negInf : EReal := Ideal.ofBits .f32 0xFF800000#32

/-- The largest of the eighteen scores, from minus infinity. -/
def top (a : Fin 18 → EReal) : EReal := (Finset.univ : Finset (Fin 18)).fold max negInf a

/-- The log-probability of class `k`. -/
def logp (a : Fin 18 → EReal) (k : Fin 18) : EReal :=
  (a k - top a) - Ideal.log (∑ j : Fin 18, Ideal.exp (a j - top a))

/-- Taking the maximum with minus infinity once more changes nothing. -/
theorem max_negInf_top (a : Fin 18 → EReal) : max negInf (top a) = top a :=
  max_eq_right ((Finset.le_fold_max _).mpr (Or.inl le_rfl))

/-- A label word whose signed value lies in 0 … 17 is the word of that number. -/
theorem label_toNat (lab : BitVec 32) (h0 : 0 ≤ lab.toInt) (h1 : lab.toInt < 18) : lab.toNat = lab.toInt.toNat := by
  rw [BitVec.toInt_eq_toNat_cond] at h0 h1 ⊢
  split_ifs at h0 h1 ⊢ <;> omega

/-- The class index `k`, as a word, is the label exactly when `k` is the label's value. -/
theorem ofNat_eq_label (lab : BitVec 32) (h0 : 0 ≤ lab.toInt) (h1 : lab.toInt < 18) (k : Fin 18) :
    BitVec.ofNat 32 k.val = lab ↔ k = ⟨lab.toInt.toNat, by omega⟩ := by
  have hn := label_toNat lab h0 h1
  constructor
  · intro h
    apply Fin.ext
    have := congrArg BitVec.toNat h
    rw [BitVec.toNat_ofNat] at this
    have hk := k.isLt
    show k.val = lab.toInt.toNat
    omega
  · rintro rfl
    apply BitVec.eq_of_toNat_eq
    rw [BitVec.toNat_ofNat]
    show lab.toInt.toNat % 2 ^ 32 = lab.toNat
    omega

/-- THE ONE-HOT SUM: over the classes, "the log-probability if the class is the label, else zero" adds up to the
    log-probability at the label. -/
theorem onehot (a : Fin 18 → EReal) (lab : BitVec 32) (h0 : 0 ≤ lab.toInt) (h1 : lab.toInt < 18) :
    ∑ k : Fin 18, Scalar.select (IntOp.cmpi .eq (BitVec.ofNat 32 k.val) lab) (logp a k) (0 : EReal)
      = logp a ⟨lab.toInt.toNat, by omega⟩ := by
  have hsel : ∀ k : Fin 18, Scalar.select (IntOp.cmpi .eq (BitVec.ofNat 32 k.val) lab) (logp a k) (0 : EReal)
      = if k = ⟨lab.toInt.toNat, by omega⟩ then logp a k else 0 := by
    intro k
    by_cases h : BitVec.ofNat 32 k.val = lab
    · rw [if_pos ((ofNat_eq_label lab h0 h1 k).mp h)]
      simp [Scalar.select, IntOp.cmpi, h]
    · rw [if_neg (fun e => h ((ofNat_eq_label lab h0 h1 k).mpr e))]
      have hb : (BitVec.ofNat 32 k.val == lab) = false := beq_eq_false_iff_ne.mpr h
      simp [Scalar.select, IntOp.cmpi, hb]
  simp only [hsel]
  rw [Finset.sum_ite_eq' Finset.univ]
  simp

end Cert.ClassTerm

end
-- ==== Proof.ClassTerm.KernelSide.lean ====
/-
  The class term on the kernel's side: a tile's partial sum is the sum over the tile's 32 × 256 pixels of the one-hot
  sum, over the eighteen classes, of the log-probabilities of the pixel's scores (channels 100 … 117 of the first tile)
  at the pixel's label (channel 100 of the second tile, converted to an integer).
-/
import proofs.«112959_j30356828848315_1_alg».proof.Proof.ClassTerm.Pixel
import proofs.«112959_j30356828848315_1_alg».proof.Proof.TileSumsApply
import proofs.«112959_j30356828848315_1_alg».proof.Proof.LibIdxSum
import Idealize.ShloMosaic.Lib.ValueLayout
import Idealize.ShloMosaic.PureOps.Ideal.Laws

noncomputable section

namespace Cert.ClassTerm

open Idealize.ShloMosaic Idealize.ShloMosaic.ValueIdx Cert.LibIdxSum
open Cert.KernelIdeal Cert.KernelIdeal.Gen Cert.KernelIdeal.Tile

/-- The eighteen class scores of a tile at pixel (r, c). -/
def tileScores (x0 : Vec Ideal S1x134x32x256 .f32) (r : Fin 32) (c : Fin 256) : Fin 18 → EReal :=
  fun k => x0 (ix4 (0 : Fin 1) (⟨100 + k.val, by omega⟩ : Fin 134) r c)

/-- The label of a tile at pixel (r, c). -/
def tileLabel (y0 : Vec Ideal S1x101x32x256 .f32) (r : Fin 32) (c : Fin 256) : BitVec 32 :=
  Ideal.fptosi 32 (y0 (ix4 (0 : Fin 1) (100 : Fin 101) r c))

/-- The class channels of the first tile. -/
theorem pay11_apply (x0 : Vec Ideal S1x134x32x256 .f32) (k : Fin 18) (r : Fin 32) (c : Fin 256) :
    k0_pay11 x0 (ix4 (0 : Fin 1) k r c) = tileScores x0 r c k := by
  unfold k0_pay11 tileScores
  exact extractStridedSlice_apply _ _ _ _ _ fun a => match a with
    | ⟨0, _⟩ => rfl | ⟨1, _⟩ => rfl | ⟨2, _⟩ => (Nat.zero_add _).symm | ⟨3, _⟩ => (Nat.zero_add _).symm

/-- The label channel of the second tile, as integers. -/
theorem pay17_apply (y0 : Vec Ideal S1x101x32x256 .f32) (r : Fin 32) (c : Fin 256) :
    k0_pay17 y0 (ix3 (0 : Fin 1) r c) = tileLabel y0 r c := by
  unfold k0_pay17 tileLabel
  show Ideal.fptosi 32 _ = Ideal.fptosi 32 _
  congr 1
  refine (shapeCast_apply _ _ _ (ix4 (0 : Fin 1) (0 : Fin 1) r c) ?_).trans ?_
  · rw [Shape.rowMajor_val_four, Shape.rowMajor_val_three]
    show ((0 * 1 + 0) * 32 + r.val) * 256 + c.val = (0 * 32 + r.val) * 256 + c.val
    omega
  · exact extractStridedSlice_apply _ _ _ _ _ fun a => match a with
      | ⟨0, _⟩ => rfl | ⟨1, _⟩ => rfl | ⟨2, _⟩ => (Nat.zero_add _).symm | ⟨3, _⟩ => (Nat.zero_add _).symm

/-! ## The body's class arithmetic, stage by stage -/

/-- The per-pixel maximum over the classes, spread back over them. -/
def chTop (v : FVec Ideal S1x18x32x256 .f32) : FVec Ideal S1x18x32x256 .f32 :=
  broadcastTo S1x18x32x256
    (shapeCast S1x1x32x256
      (multiReduction .maximumf [1] S1x32x256 v 0xFF800000#32 reduces_S1x18x32x256_S1x32x256 (.inl rfl) rfl)
      shapeCasts_S1x32x256_S1x1x32x256)
    broadcasts_S1x1x32x256_S1x18x32x256

/-- The logarithm of the per-pixel sum of the exponentials of the shifted scores, spread back over the classes. -/
def chLse (v : FVec Ideal S1x18x32x256 .f32) : FVec Ideal S1x18x32x256 .f32 :=
  broadcastTo S1x18x32x256
    (log (shapeCast S1x1x32x256
      (multiReduction .add [1] S1x32x256 (exp (subf v (chTop v))) 0x00000000#32 reduces_S1x18x32x256_S1x32x256 (.inl rfl) rfl)
      shapeCasts_S1x32x256_S1x1x32x256))
    broadcasts_S1x1x32x256_S1x18x32x256

/-- The labels spread over the classes. -/
def chLab (l : IVec S1x32x256 32) : IVec S1x18x32x256 32 :=
  broadcastTo S1x18x32x256 (shapeCast S1x1x32x256 l shapeCasts_S1x32x256_S1x1x32x256) broadcasts_S1x1x32x256_S1x18x32x256

/-- Per class and pixel: the log-probability where the class is the pixel's label, zero elsewhere. -/
def picked (v : FVec Ideal S1x18x32x256 .f32) (l : IVec S1x32x256 32) : FVec Ideal S1x18x32x256 .f32 :=
  select (cmpi .eq (iota .tc S1x18x32x256 32 [1] iota_S1x18x32x256_d1_w32) (chLab l))
    (subf (subf v (chTop v)) (chLse v)) (broadcast S1x18x32x256 (Scalar.ofBits .f32 0x00000000#32))

/-- The body's class payload is the sum over classes, then over the tile, of `picked`. -/
theorem pay37_eq (v : FVec Ideal S1x18x32x256 .f32) (l : IVec S1x32x256 32) :
    k0_pay37 v l = multiReduction .add [1, 2] S1
      (multiReduction .add [1] S1x32x256 (picked v l) 0x00000000#32 reduces_S1x18x32x256_S1x32x256 (.inl rfl) rfl)
      0x00000000#32 reduces_S1x32x256_S1 (.inl rfl) rfl := rfl

/-- Inserting class `k` into pixel (0, r, c) gives (0, k, r, c). -/
theorem lift_pixel (k : Fin 18) (r : Fin 32) (c : Fin 256) :
    reduces_S1x18x32x256_S1x32x256.lift (ix3 (0 : Fin 1) r c) k = ix4 (0 : Fin 1) k r c :=
  funext fun a => match a with
    | ⟨0, _⟩ => Fin.ext rfl | ⟨1, _⟩ => Fin.ext rfl | ⟨2, _⟩ => Fin.ext rfl | ⟨3, _⟩ => Fin.ext rfl

/-- A [1,1,32,256] map spread over the classes reads its pixel. -/
theorem spread_apply {α : Type} (u : S1x1x32x256.Idx → α) (k : Fin 18) (r : Fin 32) (c : Fin 256) :
    broadcastTo S1x18x32x256 u broadcasts_S1x1x32x256_S1x18x32x256 (ix4 (0 : Fin 1) k r c) = u (ix4 (0 : Fin 1) (0 : Fin 1) r c) :=
  broadcastTo_apply _ _ _ (ix4 (0 : Fin 1) (0 : Fin 1) r c) fun a => match a with
    | ⟨0, _⟩ => rfl | ⟨1, _⟩ => rfl | ⟨2, _⟩ => rfl | ⟨3, _⟩ => rfl

/-- A [1,32,256] map given a unit class axis reads its pixel. -/
theorem unitAxis_apply {α : Type} (u : S1x32x256.Idx → α) (r : Fin 32) (c : Fin 256) :
    shapeCast S1x1x32x256 u shapeCasts_S1x32x256_S1x1x32x256 (ix4 (0 : Fin 1) (0 : Fin 1) r c) = u (ix3 (0 : Fin 1) r c) := by
  refine shapeCast_apply _ _ _ (ix3 (0 : Fin 1) r c) ?_
  rw [Shape.rowMajor_val_three, Shape.rowMajor_val_four]
  show (0 * 32 + r.val) * 256 + c.val = ((0 * 1 + 0) * 32 + r.val) * 256 + c.val
  omega

theorem chTop_apply (v : FVec Ideal S1x18x32x256 .f32) (k : Fin 18) (r : Fin 32) (c : Fin 256) :
    chTop v (ix4 (0 : Fin 1) k r c) = top fun k' => v (ix4 (0 : Fin 1) k' r c) := by
  unfold chTop top
  rw [spread_apply, unitAxis_apply]
  refine (Ideal.multiReduction_maximumf_single _ _ _ _ _ _).trans ?_
  exact congrArg (fun f => (Finset.univ : Finset (Fin 18)).fold max negInf f)
    (funext fun k' => congrArg v (lift_pixel k' r c))

theorem chLse_apply (v : FVec Ideal S1x18x32x256 .f32) (k : Fin 18) (r : Fin 32) (c : Fin 256) :
    chLse v (ix4 (0 : Fin 1) k r c)
      = Ideal.log (∑ j : Fin 18, Ideal.exp (v (ix4 (0 : Fin 1) j r c) - top fun k' => v (ix4 (0 : Fin 1) k' r c))) := by
  unfold chLse
  rw [spread_apply]
  show Ideal.log (shapeCast S1x1x32x256 _ shapeCasts_S1x32x256_S1x1x32x256 (ix4 (0 : Fin 1) (0 : Fin 1) r c)) = _
  rw [unitAxis_apply]
  refine congrArg Ideal.log ((Ideal.multiReduction_add_single _ _ _ _ _ _).trans ?_)
  refine Finset.sum_congr rfl fun (j : Fin 18) _ => ?_
  rw [lift_pixel j r c]
  show Ideal.exp (v (ix4 (0 : Fin 1) j r c) - chTop v (ix4 (0 : Fin 1) j r c)) = _
  rw [chTop_apply]

theorem chLab_apply (l : IVec S1x32x256 32) (k : Fin 18) (r : Fin 32) (c : Fin 256) :
    chLab l (ix4 (0 : Fin 1) k r c) = l (ix3 (0 : Fin 1) r c) := by
  unfold chLab
  rw [spread_apply, unitAxis_apply]

/-- `picked` at class `k`, pixel (r, c). -/
theorem picked_apply (v : FVec Ideal S1x18x32x256 .f32) (l : IVec S1x32x256 32) (k : Fin 18) (r : Fin 32) (c : Fin 256) :
    picked v l (ix4 (0 : Fin 1) k r c)
      = Scalar.select (IntOp.cmpi .eq (BitVec.ofNat 32 k.val) (l (ix3 (0 : Fin 1) r c)))
          (logp (fun k' => v (ix4 (0 : Fin 1) k' r c)) k) (0 : EReal) := by
  unfold picked logp
  show Scalar.select (IntOp.cmpi .eq (iota .tc S1x18x32x256 32 [1] iota_S1x18x32x256_d1_w32 (ix4 (0 : Fin 1) k r c)) (chLab l (ix4 (0 : Fin 1) k r c)))
      ((v (ix4 (0 : Fin 1) k r c) - chTop v (ix4 (0 : Fin 1) k r c)) - chLse v (ix4 (0 : Fin 1) k r c)) (Ideal.ofBits .f32 0x00000000#32) = _
  rw [iota_single_apply, chLab_apply, chTop_apply, chLse_apply, Ideal.ofBits_zero_f32]

/-- THE TILE'S CLASS PARTIAL SUM: over the tile's pixels, the one-hot sum over the classes. -/
theorem part10_apply (x0 : Vec Ideal S1x134x32x256 .f32) (y0 : Vec Ideal S1x101x32x256 .f32) :
    part2 x0 y0 10 (ix1 (0 : Fin 1))
      = ∑ r : Fin 32, ∑ c : Fin 256, ∑ k : Fin 18,
          Scalar.select (IntOp.cmpi .eq (BitVec.ofNat 32 k.val) (tileLabel y0 r c)) (logp (tileScores x0 r c) k) (0 : EReal) := by
  show k0_pay37 (k0_pay11 x0) (k0_pay17 y0) (ix1 (0 : Fin 1)) = _
  rw [pay37_eq]
  refine (Ideal.multiReduction_add_total _ _ _ (by decide) _ _ _).trans ?_
  rw [sum_idx3, Fin.sum_univ_one]
  refine Finset.sum_congr rfl fun r _ => Finset.sum_congr rfl fun c _ => ?_
  refine (Ideal.multiReduction_add_single _ _ _ _ _ _).trans ?_
  refine Finset.sum_congr rfl fun (k : Fin 18) _ => ?_
  rw [lift_pixel k r c, picked_apply, pay17_apply]
  congr 2
  funext k'
  exact pay11_apply x0 k' r c

end Cert.ClassTerm

end
-- ==== Proof.ClassTerm.KernelTotal.lean ====
/-
  The class term on the kernel's side, summed: the statistics' column 10 holds, per image, the sum over the image's
  256 × 256 pixels (eight bands of 32 rows) of the pixel's one-hot sum of log-probabilities; the seventh result is minus
  the total over the four images, over 262144 — and dividing by 262144 commutes with the sign.
-/
import proofs.«112959_j30356828848315_1_alg».proof.Proof.ClassTerm.KernelSide
import proofs.«112959_j30356828848315_1_alg».proof.Proof.MaskLoss

noncomputable section

namespace Cert.ClassTerm

open Idealize.ShloMosaic Idealize.ShloMosaic.ValueIdx Cert.LibIdxSum
open Cert.KernelIdeal Cert.KernelIdeal.Gen Cert.KernelIdeal.Tile

/-- The eighteen class scores of image `b` at pixel (r, c): channels 100 … 117 of the first argument. -/
def rowScores (x : FVec Ideal S4x134x256x256 .f32) (b : Fin 4) (r c : Fin 256) : Fin 18 → EReal :=
  fun k => x (ix4 b (⟨100 + k.val, by omega⟩ : Fin 134) r c)

/-- The label of image `b` at pixel (r, c): channel 100 of the second argument, converted to an integer. -/
def pixLabel (y : FVec Ideal S4x101x256x256 .f32) (b : Fin 4) (r c : Fin 256) : BitVec 32 :=
  Ideal.fptosi 32 (y (ix4 b (100 : Fin 101) r c))

/-- The pixel's contribution as the kernel forms it: over the classes, the log-probability where the class is the
    label, zero elsewhere. -/
def pix (x : FVec Ideal S4x134x256x256 .f32) (y : FVec Ideal S4x101x256x256 .f32) (b : Fin 4) (r c : Fin 256) : EReal :=
  ∑ k : Fin 18, Scalar.select (IntOp.cmpi .eq (BitVec.ofNat 32 k.val) (pixLabel y b r c)) (logp (rowScores x b r c) k) (0 : EReal)

/-- For a label in 0 … 17 the contribution is the log-probability at the label. -/
theorem pix_eq (x : FVec Ideal S4x134x256x256 .f32) (y : FVec Ideal S4x101x256x256 .f32) (b : Fin 4) (r c : Fin 256)
    (h0 : 0 ≤ (pixLabel y b r c).toInt) (h1 : (pixLabel y b r c).toInt < 18) :
    pix x y b r c = logp (rowScores x b r c) ⟨(pixLabel y b r c).toInt.toNat, by omega⟩ :=
  onehot _ _ h0 h1

/-- Band `h` of image `b`: the tile's scores and label at (r, c) are the image's at row 32·h + r. -/
theorem tileScores_band (x : FVec Ideal S4x134x256x256 .f32) (b : Fin 4) (h : Fin 8) (r : Fin 32) (c : Fin 256) :
    tileScores (xTile x b h) r c = rowScores x b (bandRow h r) c := rfl
theorem tileLabel_band (y : FVec Ideal S4x101x256x256 .f32) (b : Fin 4) (h : Fin 8) (r : Fin 32) (c : Fin 256) :
    tileLabel (yTile y b h) r c = pixLabel y b (bandRow h r) c := rfl

/-- THE KERNEL'S CLASS TERM: minus the total of the pixels' contributions over 262144. -/
theorem kernel_total (x : FVec Ideal S4x134x256x256 .f32) (y : FVec Ideal S4x101x256x256 .f32) :
    Host.divf (F := Ideal)
        (Host.negf (Host.reduceAdd (Tail.col10 (shapeCast S4x11 (Tile.stats x y) shapeCasts_S4x1x11_S4x11))
          (constant S_ .f32 0x00000000#32) reducesTo_S4_S_d0 h_S_))
        (constant S_ .f32 0x48800000#32)
      = fun _ => -(Ideal.div (∑ b : Fin 4, ∑ r : Fin 256, ∑ c : Fin 256, pix x y b r c) (Ideal.ofBits .f32 0x48800000#32)) := by
  funext j
  show Ideal.div (-(Ideal.hostReduceAdd reducesTo_S4_S_d0 (Tail.col10 (shapeCast S4x11 (Tile.stats x y) shapeCasts_S4x1x11_S4x11))
      (Ideal.ofBits .f32 0x00000000#32) j)) (Ideal.ofBits .f32 0x48800000#32) = _
  rw [Ideal.hostReduceAdd_total _ (fun b => b.elim0), sum_idx1, Ideal.ofBits_zero_f32, zero_add, MaskLoss.div_neg_262144]
  congr 2
  refine Finset.sum_congr rfl fun b _ => ?_
  refine (MaskLoss.stat_entry (Tile.stats x y) b 10 slices_S4x11_S4x1_0_10 shapeCasts_S4x1_S4 shapeCasts_S4x1x11_S4x11).trans ?_
  rw [Tile.stats_apply, zero_add, sum_rows_bands]
  refine Finset.sum_congr rfl fun h _ => ?_
  rw [part10_apply]
  rfl

end Cert.ClassTerm

end
-- ==== Proof.ClassReference.lean ====
/-
  The reference's class term, read row by row.

  The class channels of the first argument are moved last and flattened: row `(b · 256 + r) · 256 + c` of the `262144 × 18`
  table holds the eighteen class channels (`100 + k`) at point `(r, c)` of image `b`, and the same row of the label column holds
  the label there. Along a row `a`, the log-softmax is `(a k − m) − log Σ exp (a k' − m)` with `m` the row's maximum (the fold of
  `max` from `−∞`); the gather takes the entry at the label, a label in `0 ‥ 17` being neither raised nor out of range; the
  term is minus the sum over all rows of the taken entries over `262144`.
-/
import proofs.«112959_j30356828848315_1_alg».proof.Proof.ReferenceRun.Terms
import proofs.«112959_j30356828848315_1_alg».proof.Proof.Gen.ReferenceIdeal
import proofs.«112959_j30356828848315_1_alg».proof.Proof.LibReindex
import Idealize.ShloMosaic.Lib.Pipeline.Value
import Idealize.ShloMosaic.Lib.IdealHost

noncomputable section

namespace Cert.ClassReference

open Cert.ReferenceIdeal Cert.ReferenceIdeal.RefRun Idealize.ShloMosaic Idealize.ShloMosaic.ValueIdx
open Cert.ReferenceIdeal.Facts₀ Cert.ReferenceIdeal.Facts
open scoped BigOperators

/-! ## Rows -/

/-- The row of point `(r, c)` of image `b`. -/
abbrev row (b : Fin 4) (r c : Fin 256) : Fin 262144 := ⟨(b.val * 256 + r.val) * 256 + c.val, by omega⟩

/-- A sum over the 262144 rows is the sum over images, rows and columns. -/
theorem sum_rows {M : Type*} [AddCommMonoid M] (g : Fin 262144 → M) :
    ∑ n : Fin 262144, g n = ∑ b : Fin 4, ∑ r : Fin 256, ∑ c : Fin 256, g (row b r c) := by
  refine (Cert.LibReindex.sum_mul_add (n := 262144) 1024 256 rfl g).trans ?_
  refine (Cert.LibReindex.sum_mul_add (n := 1024) 4 256 rfl _).trans ?_
  rfl

/-! ## The host's one-operand operations at an index -/

theorem hostLog_apply {s : Shape} (v : FVec Ideal s .f32) (i : s.Idx) : Host.log v i = Ideal.log (v i) := rfl
theorem hostExp_apply {s : Shape} (v : FVec Ideal s .f32) (i : s.Idx) : Host.exp v i = Ideal.exp (v i) := rfl
theorem hostNegf_apply {s : Shape} (v : FVec Ideal s .f32) (i : s.Idx) : Host.negf v i = -(v i) := rfl

/-- The pattern of `-inf` denotes `⊥`. -/
theorem ofBits_neg_inf : Ideal.ofBits .f32 0xFF800000#32 = ⊥ := by simp [Ideal.ofBits, Ideal.ieee]

/-- The scalar `0.0` read at its one index is `0`. -/
theorem zero_first : (RefRun.zero (F := Ideal)) (Shape.Idx.first h_S_) = 0 := Ideal.ofBits_zero_f32

/-! ## The two tables -/

/-- The class channels moved last and flattened, at an entry. -/
theorem xLogitRows_apply (x : FVec Ideal S4x134x256x256 .f32) (b : Fin 4) (r c : Fin 256) (k : Fin 18) :
    RefRun.xLogitRows x (ix2 (row b r c) k) = x (ix4 b (⟨100 + k.val, by omega⟩ : Fin 134) r c) := by
  unfold RefRun.xLogitRows
  refine (shapeCast_apply _ _ (ix2 (row b r c) k) (ix4 b r c k) ?_).trans ?_
  · rw [Shape.rowMajor_val_four, Shape.rowMajor_val_two]
    rfl
  refine (transpose_apply _ _ _ (ix4 b r c k) (ix4 b k r c) ?_).trans ?_
  · intro a
    match a with
    | ⟨0, _⟩ => rfl
    | ⟨1, _⟩ => rfl
    | ⟨2, _⟩ => rfl
    | ⟨3, _⟩ => rfl
  unfold RefRun.xLogits
  exact extractStridedSlice_apply _ x _ (ix4 b k r c) (ix4 b (⟨100 + k.val, by omega⟩ : Fin 134) r c)
    (fun a => match a with
      | ⟨0, _⟩ => by show b.val = 0 + b.val; omega
      | ⟨1, _⟩ => rfl
      | ⟨2, _⟩ => by show r.val = 0 + r.val; omega
      | ⟨3, _⟩ => by show c.val = 0 + c.val; omega)

/-- The label column, at a row. -/
theorem yLabelColumn_apply (y : FVec Ideal S4x101x256x256 .f32) (b : Fin 4) (r c : Fin 256) :
    RefRun.yLabelColumn y (ix2 (row b r c) (0 : Fin 1)) = RefRun.yLabel y (ix3 b r c) := by
  unfold RefRun.yLabelColumn
  refine (broadcastInDim_apply _ _ _ (ix2 (row b r c) (0 : Fin 1)) (ix1 (row b r c)) ?_).trans ?_
  · intro a
    match a with
    | ⟨0, _⟩ => rfl
  refine shapeCast_apply _ _ _ (ix3 b r c) ?_
  rw [Shape.rowMajor_val_three, Shape.rowMajor_val_one]
  rfl

/-! ## The log-softmax along a row -/

/-- The maximum of row `n`: the fold of `max` from `−∞` over its eighteen entries. -/
def rowMaxAt (a : FVec Ideal S262144x18 .f32) (n : Fin 262144) : EReal :=
  (Finset.univ : Finset (Fin 18)).fold max ⊥ (fun k => a (ix2 n k))

/-- The log-softmax of row `n` at class `k`. -/
def logpAt (a : FVec Ideal S262144x18 .f32) (n : Fin 262144) (k : Fin 18) : EReal :=
  (a (ix2 n k) - rowMaxAt a n) - Ideal.log (∑ k' : Fin 18, Ideal.exp (a (ix2 n k') - rowMaxAt a n))

/-- The index of row `n` with class `k` inserted. -/
theorem lift_row (hR : S262144x18.Reduces [1] S262144) (n : Fin 262144) (k : Fin 18) : hR.lift (ix1 n) k = ix2 n k :=
  funext fun c => match c with | ⟨0, _⟩ => rfl | ⟨1, _⟩ => rfl

/-- The spread row maximum, at an entry. -/
theorem rowMax_apply (a : FVec Ideal S262144x18 .f32) (n : Fin 262144) (k : Fin 18) :
    RefRun.rowMax a (ix2 n k) = rowMaxAt a n := by
  have hR : S262144x18.Reduces [1] S262144 := by decide
  unfold RefRun.rowMax rowMaxAt
  refine (broadcastInDim_apply _ _ _ (ix2 n k) (ix2 n (0 : Fin 1)) ?_).trans ?_
  · intro a
    match a with
    | ⟨0, _⟩ => rfl
    | ⟨1, _⟩ => rfl
  refine (broadcastInDim_apply _ _ _ (ix2 n (0 : Fin 1)) (ix1 n) ?_).trans ?_
  · intro a
    match a with
    | ⟨0, _⟩ => rfl
  rw [maximumf_apply, broadcastInDim_scalar_apply, constant_apply, ofBits_neg_inf, max_bot_left,
    Host.reduce_eq_fold_single FloatOps.maximumf a _ _ hR h_S_ (ix1 n)]
  show Finset.fold max (Ideal.ofBits .f32 0xFF800000#32) (fun k : Fin 18 => a (hR.lift (ix1 n) k)) Finset.univ = _
  rw [ofBits_neg_inf]
  exact Finset.fold_congr fun k _ => congrArg a (lift_row hR n k)

/-- The log-softmax, at an entry. -/
theorem logSoftmax_apply (a : FVec Ideal S262144x18 .f32) (n : Fin 262144) (k : Fin 18) :
    RefRun.logSoftmax a (ix2 n k) = logpAt a n k := by
  have hR : S262144x18.Reduces [1] S262144 := by decide
  unfold RefRun.logSoftmax logpAt
  rw [subf_apply, subf_apply, rowMax_apply]
  refine congrArg (fun t => (a (ix2 n k) - rowMaxAt a n) - t) ?_
  refine (broadcastInDim_apply _ _ _ (ix2 n k) (ix2 n (0 : Fin 1)) ?_).trans ?_
  · intro a
    match a with
    | ⟨0, _⟩ => rfl
    | ⟨1, _⟩ => rfl
  rw [hostLog_apply]
  refine congrArg Ideal.log ?_
  refine (broadcastInDim_apply _ _ _ (ix2 n (0 : Fin 1)) (ix1 n) ?_).trans ?_
  · intro a
    match a with
    | ⟨0, _⟩ => rfl
  rw [hostReduceAdd_apply, zero_first]
  refine (Ideal.hostReduceAdd_single _ hR _ _ (ix1 n)).trans ?_
  rw [zero_add]
  show ∑ k' : Fin 18, Host.exp (subf a (RefRun.rowMax a)) (hR.lift (ix1 n) k') = _
  refine Finset.sum_congr rfl fun k' _ => ?_
  rw [lift_row hR n k', hostExp_apply, subf_apply, rowMax_apply]

/-! ## The gather at the label -/

theorem cmpi_apply {s : Shape} (p : CmpIPredicate) (u v : IVec s 32) (i : s.Idx) : cmpi p u v i = IntOp.cmpi p (u i) (v i) := rfl

/-- A word whose signed value is not negative is not below zero. -/
theorem cmpi_slt_zero (v : BitVec 32) (h : 0 ≤ v.toInt) : IntOp.cmpi .slt v 0#32 = 0#1 := by
  unfold IntOp.cmpi
  show BitVec.ofBool (v.slt 0#32) = 0#1
  rw [BitVec.slt_eq_decide]
  have h0 : (0#32 : BitVec 32).toInt = 0 := by decide
  rw [h0, decide_eq_false (by omega)]
  rfl

/-- A word whose signed value is not negative is at least zero. -/
theorem cmpi_sge_zero (v : BitVec 32) (h : 0 ≤ v.toInt) : IntOp.cmpi .sge v 0#32 = 1#1 := by
  unfold IntOp.cmpi
  show BitVec.ofBool ((0#32 : BitVec 32).sle v) = 1#1
  rw [BitVec.sle_eq_decide]
  have h0 : (0#32 : BitVec 32).toInt = 0 := by decide
  rw [h0, decide_eq_true h]
  rfl

/-- A word whose signed value is below 18 is at most 17. -/
theorem cmpi_sle_17 (v : BitVec 32) (h : v.toInt < 18) : IntOp.cmpi .sle v 17#32 = 1#1 := by
  unfold IntOp.cmpi
  show BitVec.ofBool (v.sle 17#32) = 1#1
  rw [BitVec.sle_eq_decide]
  have h0 : (17#32 : BitVec 32).toInt = 17 := by decide
  rw [h0, decide_eq_true (by omega)]
  rfl

/-- A fold over a one-element index set. -/
theorem fold_fin_one {β : Type} (op : β → β → β) [Std.Commutative op] [Std.Associative op] (b : β) (f : Fin 1 → β) :
    (Finset.univ : Finset (Fin 1)).fold op b f = op (f 0) b := by
  rw [show (Finset.univ : Finset (Fin 1)) = {0} from rfl]
  exact Finset.fold_singleton

/-- The index table at a row: a label that is not negative is not raised. -/
theorem wrapIndex_apply (i : IVec S262144x1 32) (n : Fin 262144) (h : 0 ≤ (i (ix2 n (0 : Fin 1))).toInt) :
    RefRun.wrapIndex i (ix3 n (0 : Fin 1) (0 : Fin 1)) = i (ix2 n (0 : Fin 1)) := by
  unfold RefRun.wrapIndex
  refine (shapeCast_apply _ _ (ix3 n (0 : Fin 1) (0 : Fin 1)) (ix2 n (0 : Fin 1)) ?_).trans ?_
  · rw [Shape.rowMajor_val_two, Shape.rowMajor_val_three]
    show n.val * 1 + 0 = (n.val * 1 + 0) * 1 + 0
    omega
  rw [select_apply, cmpi_apply, broadcastInDim_scalar_apply]
  show Scalar.select (IntOp.cmpi .slt (i (ix2 n (0 : Fin 1))) 0#32) _ _ = _
  rw [cmpi_slt_zero _ h, select_zero]

/-- The in-range test at a row: `1` for an index in `0 ‥ 17`. -/
theorem inRange_apply (W : IVec S262144x1x1 32) (n : Fin 262144) (h0 : 0 ≤ (W (ix3 n (0 : Fin 1) (0 : Fin 1))).toInt)
    (h1 : (W (ix3 n (0 : Fin 1) (0 : Fin 1))).toInt < 18) (hb0 : S_.BroadcastsInDim S262144x1x1 ![])
    (hb1 : S1.BroadcastsInDim S1x1x1 ![2]) (hb2 : S1x1x1.BroadcastsInDim S262144x1x1 ![0, 1, 2])
    (hr : S262144x1x1.ReducesTo [2] S262144x1) :
    Host.reduce IntOp.andi
      (andi (cmpi .sge W (broadcastInDim (s := S_) S262144x1x1 ![] hb0 (constantI S_ 32 0#32)))
        (cmpi .sle W (broadcastInDim (s := S1x1x1) S262144x1x1 ![0, 1, 2] hb2
          (broadcastInDim (s := S1) S1x1x1 ![2] hb1 (constantI S1 32 17#32)))))
      (constantI S_ 1 1#1) hr h_S_ (ix2 n (0 : Fin 1)) = 1#1 := by
  have hR : S262144x1x1.Reduces [2] S262144x1 := by decide
  rw [Host.reduce_eq_fold_single IntOp.andi _ _ hr hR h_S_ (ix2 n (0 : Fin 1))]
  refine (fold_fin_one _ _ _).trans ?_
  have hl : hR.lift (ix2 n (0 : Fin 1)) (0 : Fin 1) = ix3 n (0 : Fin 1) (0 : Fin 1) :=
    funext fun c => match c with | ⟨0, _⟩ => rfl | ⟨1, _⟩ => rfl | ⟨2, _⟩ => rfl
  show IntOp.andi (IntOp.andi (IntOp.cmpi .sge (W (hR.lift (ix2 n (0 : Fin 1)) (0 : Fin 1))) 0#32)
    (IntOp.cmpi .sle (W (hR.lift (ix2 n (0 : Fin 1)) (0 : Fin 1))) 17#32)) 1#1 = 1#1
  rw [hl, cmpi_sge_zero _ h0, cmpi_sle_17 _ h1]
  decide

/-- The gather's dimension numbers: rows are batched, the class axis is collapsed and indexed. -/
abbrev G : GatherDims S262144x18 S262144x1x1 S262144x1 := gather_S262144x18_S262144x1x1_S262144x1_n_1_0_0_1_2_11

/-- The gather at a row: the operand's entry of that row at the index read signed and clamped into `0 ‥ 17`. -/
theorem gather_row_apply {α : Type} (a : S262144x18.Idx → α) (idx : IVec S262144x1x1 32) (n : Fin 262144) :
    Host.gather G a idx (ix2 n (0 : Fin 1))
      = a (ix2 n (⟨min (idx (ix3 n (0 : Fin 1) (0 : Fin 1))).toInt.toNat 17, by omega⟩ : Fin 18)) := by
  unfold Host.gather
  refine congrArg a (funext fun c => Fin.ext ?_)
  match c with
  | ⟨0, _⟩ =>
    show G.start (ix2 n (0 : Fin 1)) idx 0 + G.batchCoord (ix2 n (0 : Fin 1)) 0 + G.offCoord (ix2 n (0 : Fin 1)) 0 = n.val
    rw [G.start_batching _ _ 0 (List.mem_singleton.mpr rfl),
      G.offCoord_eq_zero _ 0 (fun h => ((G.mem_sKept 0).1 h).2 (List.mem_singleton.mpr rfl))]
    simp only [Nat.zero_add, Nat.add_zero]
    unfold GatherDims.batchCoord
    rw [dif_pos (show (0 : Fin 2) ∈ G.operandBatchingDims from List.mem_singleton.mpr rfl)]
    rfl
  | ⟨1, _⟩ =>
    show G.start (ix2 n (0 : Fin 1)) idx 1 + G.batchCoord (ix2 n (0 : Fin 1)) 1 + G.offCoord (ix2 n (0 : Fin 1)) 1
      = min (idx (ix3 n (0 : Fin 1) (0 : Fin 1))).toInt.toNat 17
    rw [G.batchCoord_eq_zero _ 1 (by decide),
      G.offCoord_eq_zero _ 1 (fun h => ((G.mem_sKept 1).1 h).1 (List.mem_singleton.mpr rfl))]
    simp only [Nat.add_zero]
    unfold GatherDims.start
    rw [dif_pos (show (1 : Fin 2) ∈ G.startIndexMap from List.mem_singleton.mpr rfl)]
    have hsi : G.siIdx (ix2 n (0 : Fin 1)) ⟨List.idxOf (1 : Fin 2) G.startIndexMap,
        List.idxOf_lt_length_iff.2 (List.mem_singleton.mpr rfl)⟩ = ix3 n (0 : Fin 1) (0 : Fin 1) := by
      funext b
      refine Fin.ext ?_
      match b with
      | ⟨0, _⟩ => rfl
      | ⟨1, _⟩ => rfl
      | ⟨2, _⟩ => rfl
    rw [hsi]
    rfl

/-- The taken entry at a row whose label lies in `0 ‥ 17`: the table's entry at the label. -/
theorem takeAlong_apply (a : FVec Ideal S262144x18 .f32) (i : IVec S262144x1 32) (n : Fin 262144)
    (hl : 0 ≤ (i (ix2 n (0 : Fin 1))).toInt ∧ (i (ix2 n (0 : Fin 1))).toInt < 18) :
    RefRun.takeAlong a i (ix2 n (0 : Fin 1))
      = a (ix2 n (⟨min (i (ix2 n (0 : Fin 1))).toInt.toNat 17, by omega⟩ : Fin 18)) := by
  unfold RefRun.takeAlong
  rw [select_apply, inRange_apply _ n (by rw [wrapIndex_apply i n hl.1]; exact hl.1) (by rw [wrapIndex_apply i n hl.1]; exact hl.2),
    select_one]
  refine (gather_row_apply a _ n).trans ?_
  have e := wrapIndex_apply i n hl.1
  refine congrArg (fun t : Fin 18 => a (ix2 n t)) (Fin.ext ?_)
  show min (RefRun.wrapIndex i (ix3 n (0 : Fin 1) (0 : Fin 1))).toInt.toNat 17 = min (i (ix2 n (0 : Fin 1))).toInt.toNat 17
  rw [e]

end Cert.ClassReference

end
-- ==== Proof.ClassTerm.Join.lean ====
/-
  The class term: the kernel's and the reference's are one number.

  Both are minus (the total over the 4 · 256 · 256 pixels of the log-probability of the pixel's scores at the pixel's
  label) over 262144: the kernel forms each pixel's contribution as a one-hot sum over the classes and adds image by image,
  band by band; the reference flattens the pixels to 262144 rows, takes the log-softmax of each row and gathers it at the
  label, which for a label in 0 … 17 is neither wrapped nor clamped nor replaced.
-/
import proofs.«112959_j30356828848315_1_alg».proof.Proof.ClassTerm.KernelTotal
import proofs.«112959_j30356828848315_1_alg».proof.Proof.ClassReference

noncomputable section

namespace Cert.ClassTerm

open Idealize.ShloMosaic Idealize.ShloMosaic.ValueIdx Cert.LibIdxSum
open Cert.KernelIdeal Cert.KernelIdeal.Gen Cert.KernelIdeal.Tile
open Cert.ClassReference (row)

/-- The reference's label map at (b, r, c) is the converted channel 100 of the second argument there. -/
theorem yLabel_apply (y : FVec Ideal S4x101x256x256 .f32) (b : Fin 4) (r c : Fin 256) :
    Cert.ReferenceIdeal.RefRun.yLabel y (ix3 b r c) = pixLabel y b r c := by
  unfold Cert.ReferenceIdeal.RefRun.yLabel pixLabel
  show Ideal.fptosi 32 _ = Ideal.fptosi 32 _
  congr 1
  refine (shapeCast_apply _ _ _ (ix4 b (0 : Fin 1) r c) ?_).trans ?_
  · rw [Shape.rowMajor_val_four, Shape.rowMajor_val_three]
    show ((b.val * 1 + 0) * 256 + r.val) * 256 + c.val = (b.val * 256 + r.val) * 256 + c.val
    omega
  · exact extractStridedSlice_apply _ _ _ _ _ fun a => match a with
      | ⟨0, _⟩ => (Nat.zero_add _).symm | ⟨1, _⟩ => rfl | ⟨2, _⟩ => (Nat.zero_add _).symm | ⟨3, _⟩ => (Nat.zero_add _).symm

/-- The reference's log-softmax of a row is the log-probabilities of the pixel's scores. -/
theorem logpAt_eq (x : FVec Ideal S4x134x256x256 .f32) (b : Fin 4) (r c : Fin 256) (k : Fin 18) :
    Cert.ClassReference.logpAt (Cert.ReferenceIdeal.RefRun.xLogitRows x) (row b r c) k = logp (rowScores x b r c) k := by
  unfold Cert.ClassReference.logpAt Cert.ClassReference.rowMaxAt logp top rowScores
  simp only [Cert.ClassReference.xLogitRows_apply, Cert.ClassReference.ofBits_neg_inf]

/-- The reference's gathered entry at the row of pixel (b, r, c), for a label in 0 … 17: the pixel's contribution. -/
theorem taken_eq (x : FVec Ideal S4x134x256x256 .f32) (y : FVec Ideal S4x101x256x256 .f32)
    (hlab : ∀ i, 0 ≤ (Cert.ReferenceIdeal.RefRun.yLabel y i).toInt ∧ (Cert.ReferenceIdeal.RefRun.yLabel y i).toInt < 18)
    (b : Fin 4) (r c : Fin 256) :
    Cert.ReferenceIdeal.RefRun.takeAlong (Cert.ReferenceIdeal.RefRun.logSoftmax (Cert.ReferenceIdeal.RefRun.xLogitRows x))
        (Cert.ReferenceIdeal.RefRun.yLabelColumn y) (ix2 (row b r c) (0 : Fin 1))
      = pix x y b r c := by
  have hl := hlab (ix3 b r c)
  rw [yLabel_apply] at hl
  have hcol : Cert.ReferenceIdeal.RefRun.yLabelColumn y (ix2 (row b r c) (0 : Fin 1)) = pixLabel y b r c :=
    (Cert.ClassReference.yLabelColumn_apply y b r c).trans (yLabel_apply y b r c)
  rw [Cert.ClassReference.takeAlong_apply _ _ _ (by rw [hcol]; exact hl), Cert.ClassReference.logSoftmax_apply, logpAt_eq,
    pix_eq x y b r c hl.1 hl.2]
  congr 1
  apply Fin.ext
  show min (Cert.ReferenceIdeal.RefRun.yLabelColumn y (ix2 (row b r c) (0 : Fin 1))).toInt.toNat 17 = (pixLabel y b r c).toInt.toNat
  rw [hcol]
  have := hl.2
  omega

/-- THE CLASS TERM. -/
theorem skinLoss_eq (x : FVec Ideal S4x134x256x256 .f32) (y : FVec Ideal S4x101x256x256 .f32)
    (hlab : ∀ i, 0 ≤ (Cert.ReferenceIdeal.RefRun.yLabel y i).toInt ∧ (Cert.ReferenceIdeal.RefRun.yLabel y i).toInt < 18) :
    Host.divf (F := Ideal)
        (Host.negf (Host.reduceAdd (Tail.col10 (shapeCast S4x11 (Tile.stats x y) shapeCasts_S4x1x11_S4x11))
          (constant S_ .f32 0x00000000#32) reducesTo_S4_S_d0 h_S_))
        (constant S_ .f32 0x48800000#32)
      = Cert.ReferenceIdeal.RefRun.skinLoss x y := by
  rw [kernel_total]
  funext j
  unfold Cert.ReferenceIdeal.RefRun.skinLoss
  show _ = -(Ideal.div (Ideal.hostReduceAdd Cert.ReferenceIdeal.Facts₀.reducesTo_S262144x1_S_d0_1
      (Cert.ReferenceIdeal.RefRun.takeAlong (Cert.ReferenceIdeal.RefRun.logSoftmax (Cert.ReferenceIdeal.RefRun.xLogitRows x))
        (Cert.ReferenceIdeal.RefRun.yLabelColumn y))
      (Ideal.ofBits .f32 0x00000000#32) j) (Ideal.ofBits .f32 0x48800000#32))
  rw [Ideal.hostReduceAdd_total _ (fun b => b.elim0), Ideal.ofBits_zero_f32, zero_add, sum_idx2, Cert.ClassReference.sum_rows]
  refine congrArg (fun s => -(Ideal.div s (Ideal.ofBits .f32 0x48800000#32))) ?_
  refine Finset.sum_congr rfl fun b _ => Finset.sum_congr rfl fun r _ => Finset.sum_congr rfl fun c _ => ?_
  rw [Fin.sum_univ_one]
  exact (taken_eq x y hlab b r c).symm

end Cert.ClassTerm

end
-- ==== Proof.ResultEq.lean ====
/-
  The seven results agree: the kernel's host code applied to the four arrays of per-image sums is the reference's term
  of the arguments, entry by entry — the three masked channel-norm means, the mask's cross entropy, the class term and
  the two weighted-centre terms — when the arguments hold real numbers and the labels lie in 0 … 17.
-/
import proofs.«112959_j30356828848315_1_alg».proof.Proof.MaskedMeans
import proofs.«112959_j30356828848315_1_alg».proof.Proof.MaskLoss
import proofs.«112959_j30356828848315_1_alg».proof.Proof.PoseCentres
import proofs.«112959_j30356828848315_1_alg».proof.Proof.ClassTerm.Join
import proofs.«112959_j30356828848315_1_alg».proof.Proof.PreconditionRead

noncomputable section

namespace Cert.ResultEq

open Idealize.ShloMosaic Cert.LibFinite Cert.KernelIdeal.Tile

open Cert.KernelIdeal Cert.KernelIdeal.Gen Cert.KernelIdeal.Tail in
/-- The kernel's seven numbers are the reference's. -/
theorem result_eq (x : FVec Ideal Cert.KernelIdeal.S4x134x256x256 .f32) (y : FVec Ideal Cert.KernelIdeal.S4x101x256x256 .f32)
    (z : FVec Ideal Cert.KernelIdeal.S4x16x6 .f32) (hx : ∀ i, IsFin (x i)) (hy : ∀ i, IsFin (y i)) (hz : ∀ i, IsFin (z i))
    (hlab : ∀ i, 0 ≤ (Cert.Pre_finite_inputs.Decode.labels y i).toInt ∧ (Cert.Pre_finite_inputs.Decode.labels y i).toInt < 18) :
    Cert.KernelIdeal.Tail.out (F := Ideal) (stats x y) (sd x y) (loc x y) (rot x y) z = Cert.ReferenceIdeal.RefRun.out x y z := by
  have h0 : meanOver (F := Ideal) (perSample (col1 (shapeCast S4x11 (stats x y) shapeCasts_S4x1x11_S4x11))
        (col2 (shapeCast S4x11 (stats x y) shapeCasts_S4x1x11_S4x11)) (col3 (shapeCast S4x11 (stats x y) shapeCasts_S4x1x11_S4x11))) 0x40800000#32
      = Cert.ReferenceIdeal.RefRun.maskedMean (Cert.ReferenceIdeal.RefRun.diffNorm3 (Cert.ReferenceIdeal.RefRun.xColour x) (Cert.ReferenceIdeal.RefRun.yColour y))
          (Cert.ReferenceIdeal.RefRun.yMask y) := Cert.MaskedMeans.maskedMean3_eq x y
  have h1 : meanOver (F := Ideal) (col0 (shapeCast S4x11 (stats x y) shapeCasts_S4x1x11_S4x11)) 0x48800000#32
      = Cert.ReferenceIdeal.RefRun.maskLoss x y := Cert.MaskLoss.maskLoss_eq x y hx hy
  have h2 : poseLoss (F := Ideal) (subf (Host.divf (shapeCast S4x16x3 (loc x y) shapeCasts_S4x1x16x3_S4x16x3)
          (denom (shapeCast S4x16 (sd x y) shapeCasts_S4x1x16_S4x16)))
        (sigm (extractStridedSlice S4x16x3 ![0, 0, 0] z slices_S4x16x6_S4x16x3_0_0_0)))
      = Cert.ReferenceIdeal.RefRun.poseLoss (Cert.ReferenceIdeal.RefRun.xSigA x) x y (Cert.ReferenceIdeal.RefRun.zSigA z) := Cert.PoseCentres.poseLossA_eq x y z hx hy _ _ _
  have h3 : meanOver (F := Ideal) (perSample (col4 (shapeCast S4x11 (stats x y) shapeCasts_S4x1x11_S4x11))
        (col5 (shapeCast S4x11 (stats x y) shapeCasts_S4x1x11_S4x11)) (col6 (shapeCast S4x11 (stats x y) shapeCasts_S4x1x11_S4x11))) 0x40800000#32
      = Cert.ReferenceIdeal.RefRun.maskedMean (Cert.ReferenceIdeal.RefRun.diffNorm48 (Cert.ReferenceIdeal.RefRun.xSigA x) (Cert.ReferenceIdeal.RefRun.ySigA y))
          (Cert.ReferenceIdeal.RefRun.yMask y) := Cert.MaskedMeans.maskedMeanA_eq x y
  have h4 : poseLoss (F := Ideal) (subf (Host.divf (shapeCast S4x16x3 (rot x y) shapeCasts_S4x1x16x3_S4x16x3)
          (denom (shapeCast S4x16 (sd x y) shapeCasts_S4x1x16_S4x16)))
        (sigm (extractStridedSlice S4x16x3 ![0, 0, 3] z slices_S4x16x6_S4x16x3_0_0_3)))
      = Cert.ReferenceIdeal.RefRun.poseLoss (Cert.ReferenceIdeal.RefRun.xSigB x) x y (Cert.ReferenceIdeal.RefRun.zSigB z) := Cert.PoseCentres.poseLossB_eq x y z hx hy _ _ _
  have h5 : meanOver (F := Ideal) (perSample (col7 (shapeCast S4x11 (stats x y) shapeCasts_S4x1x11_S4x11))
        (col8 (shapeCast S4x11 (stats x y) shapeCasts_S4x1x11_S4x11)) (col9 (shapeCast S4x11 (stats x y) shapeCasts_S4x1x11_S4x11))) 0x40800000#32
      = Cert.ReferenceIdeal.RefRun.maskedMean (Cert.ReferenceIdeal.RefRun.diffNorm48 (Cert.ReferenceIdeal.RefRun.xSigB x) (Cert.ReferenceIdeal.RefRun.ySigB y))
          (Cert.ReferenceIdeal.RefRun.yMask y) := Cert.MaskedMeans.maskedMeanB_eq x y
  have h6 : Host.divf (F := Ideal) (Host.negf (Host.reduceAdd (col10 (shapeCast S4x11 (stats x y) shapeCasts_S4x1x11_S4x11))
        (constant S_ .f32 0x00000000#32) reducesTo_S4_S_d0 h_S_)) (constant S_ .f32 0x48800000#32)
      = Cert.ReferenceIdeal.RefRun.skinLoss x y := Cert.ClassTerm.skinLoss_eq x y hlab
  show concatenate S7 0
      [⟨S1, broadcastInDim S1 ![] bcast_S_S1 (meanOver (F := Ideal) (perSample (col1 (shapeCast S4x11 (stats x y) shapeCasts_S4x1x11_S4x11))
        (col2 (shapeCast S4x11 (stats x y) shapeCasts_S4x1x11_S4x11)) (col3 (shapeCast S4x11 (stats x y) shapeCasts_S4x1x11_S4x11))) 0x40800000#32)⟩,
       ⟨S1, broadcastInDim S1 ![] bcast_S_S1 (meanOver (F := Ideal) (col0 (shapeCast S4x11 (stats x y) shapeCasts_S4x1x11_S4x11)) 0x48800000#32)⟩,
       ⟨S1, broadcastInDim S1 ![] bcast_S_S1 (poseLoss (F := Ideal) (subf (Host.divf (shapeCast S4x16x3 (loc x y) shapeCasts_S4x1x16x3_S4x16x3)
          (denom (shapeCast S4x16 (sd x y) shapeCasts_S4x1x16_S4x16)))
        (sigm (extractStridedSlice S4x16x3 ![0, 0, 0] z slices_S4x16x6_S4x16x3_0_0_0))))⟩,
       ⟨S1, broadcastInDim S1 ![] bcast_S_S1 (meanOver (F := Ideal) (perSample (col4 (shapeCast S4x11 (stats x y) shapeCasts_S4x1x11_S4x11))
        (col5 (shapeCast S4x11 (stats x y) shapeCasts_S4x1x11_S4x11)) (col6 (shapeCast S4x11 (stats x y) shapeCasts_S4x1x11_S4x11))) 0x40800000#32)⟩,
       ⟨S1, broadcastInDim S1 ![] bcast_S_S1 (poseLoss (F := Ideal) (subf (Host.divf (shapeCast S4x16x3 (rot x y) shapeCasts_S4x1x16x3_S4x16x3)
          (denom (shapeCast S4x16 (sd x y) shapeCasts_S4x1x16_S4x16)))
        (sigm (extractStridedSlice S4x16x3 ![0, 0, 3] z slices_S4x16x6_S4x16x3_0_0_3))))⟩,
       ⟨S1, broadcastInDim S1 ![] bcast_S_S1 (meanOver (F := Ideal) (perSample (col7 (shapeCast S4x11 (stats x y) shapeCasts_S4x1x11_S4x11))
        (col8 (shapeCast S4x11 (stats x y) shapeCasts_S4x1x11_S4x11)) (col9 (shapeCast S4x11 (stats x y) shapeCasts_S4x1x11_S4x11))) 0x40800000#32)⟩,
       ⟨S1, broadcastInDim S1 ![] bcast_S_S1 (Host.divf (F := Ideal) (Host.negf (Host.reduceAdd (col10 (shapeCast S4x11 (stats x y) shapeCasts_S4x1x11_S4x11))
        (constant S_ .f32 0x00000000#32) reducesTo_S4_S_d0 h_S_)) (constant S_ .f32 0x48800000#32))⟩]
      concatenates_S1_S1_S1_S1_S1_S1_S1_S7_d0 = _
  rw [h0, h1, h2, h3, h4, h5, h6]
  rfl

end Cert.ResultEq

end
-- ==== Proof.lean ====
/-
  The certificate's five claims for the masked multi-view pose/map loss kernel.

  The three frame claims: the two kernel programs (the printed one and its idealization) run the one pipelined region —
  eight bands per image, the four blocks of sums reset at the first band and accumulated over the others — and then the
  host lines, leaving the arguments untouched; the reference is a straight-line host program. The idealization rewrote
  nothing, so it preserves the printed kernel trivially. The algebraic claim: at the ideal instance the kernel's seven
  numbers are its host code applied to the four arrays of per-image sums, the reference's seven numbers are its own term of
  the arguments, and under the precondition (real entries, labels in 0 … 17) the two are equal term by term: the three
  masked channel-norm means, the mask's cross entropy, the class term, and the two weighted-centre terms.
-/
import proofs.«112959_j30356828848315_1_alg».proof.Defs
import proofs.«112959_j30356828848315_1_alg».proof.Proof.Gen.Kernel
import proofs.«112959_j30356828848315_1_alg».proof.Proof.Gen.KernelIdeal
import proofs.«112959_j30356828848315_1_alg».proof.Proof.Gen.ReferenceIdeal
import proofs.«112959_j30356828848315_1_alg».proof.Proof.Gen.Pre_finite_inputs
import proofs.«112959_j30356828848315_1_alg».proof.Proof.TileSumsBits.FrameRun
import proofs.«112959_j30356828848315_1_alg».proof.Proof.TileSums.Arrays
import proofs.«112959_j30356828848315_1_alg».proof.Proof.ReferenceRun.Run
import proofs.«112959_j30356828848315_1_alg».proof.Proof.PreconditionRead
import proofs.«112959_j30356828848315_1_alg».proof.Proof.ResultEq

noncomputable section

namespace Cert.Proof

open Idealize.ShloMosaic Idealize.SL.Sem

/-- The printed kernel runs and leaves its arguments unchanged. -/
theorem frame_k : Cert.frame_Kernel := fun m ρ _ => Cert.Kernel.TileSums.frame m ρ

/-- So does its idealization. -/
theorem frame_ki : Cert.frame_KernelIdeal := fun m ρ _ => Cert.KernelIdeal.TileSums.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The two idealized programs end with equal results from memories that agree on the arguments. -/
theorem algebraic : Cert.algebraic_KernelIdeal_ReferenceIdeal := by
  intro m ρ m' ρ' hpre hagree
  refine ⟨_, Cert.KernelIdeal.TileSums.value_run (F := Ideal) m ρ, ?_⟩
  refine (θ_run Cert.ReferenceIdeal.defs _ _).mono (fun _ h c => ⟨(h c).1.trans ?_, (h c).2⟩)
    (Cert.ReferenceIdeal.RefRun.run (F := Ideal) m' ρ')
  obtain ⟨hx, hy, hz, hlab⟩ := Cert.Pre_finite_inputs.Decode.decode _ _ _ (hpre c)
  rw [(hagree c).1, (hagree c).2.1, (hagree c).2.2]
  exact (Cert.ResultEq.result_eq _ _ _ hx hy hz hlab).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
